-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v110)) (v1 : (c : Dev Cert.KernelIdeal.nD) → Buf (Elt Ideal) ((c.tc : Thread Cert.KernelIdeal.nD Cert.KernelIdeal.τ).loc Cert.KernelIdeal.main_v111)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v110) = v0 c
          ∧ r.2.mem ((c.tc : Thread Cert.KernelIdeal.nD Cert.KernelIdeal.τ).loc Cert.KernelIdeal.main_v111) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_v130) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S60000x64 : Shape := ⟨2, ![60000, 64]⟩
abbrev S40000x64 : Shape := ⟨2, ![40000, 64]⟩
abbrev S1000000 : Shape := ⟨1, ![1000000]⟩
abbrev S64x64 : Shape := ⟨2, ![64, 64]⟩
abbrev S64 : Shape := ⟨1, ![64]⟩
abbrev S_ : Shape := ⟨0, ![]⟩

class Facts : Prop where
  bcast_S_S60000x64 : S_.BroadcastsInDim S60000x64 (![] : Fin 0 → Fin S60000x64.rank)
  reducesTo_S60000x64_S_d0_1 : S60000x64.ReducesTo [0, 1] S_
  h_S_ : 0 < S_.numel
  bcast_S_S40000x64 : S_.BroadcastsInDim S40000x64 (![] : Fin 0 → Fin S40000x64.rank)
  reducesTo_S40000x64_S_d0_1 : S40000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part5 {F : FTy → Type} [FloatOps F] (main_arg20 : FVec F S64 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64 .f32 := Host.absf main_arg20
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  main_v93

def fn_part4 {F : FTy → Type} [FloatOps F] (main_arg16 : FVec F S64x64 .f32) (main_arg17 : FVec F S64 .f32) (main_arg18 : FVec F S64 .f32) (main_arg19 : FVec F S64 .f32) (main_arg20 : FVec F S64 .f32) (main_v63 : IVec S_ 1) (main_v67 : IVec S_ 1) : IVec S_ 1 :=
  let main_v68 : IVec S_ 1 := andi main_v63 main_v67
  let main_v69 : FVec F S64x64 .f32 := Host.absf main_arg16
  let main_cst_26 : FVec F S_ .f32 := constant S_ .f32 0x7F800000#32
  let main_v70 : FVec F S64x64 .f32 := broadcastInDim S64x64 ![] bcast_S_S64x64 main_cst_26
  let main_v71 : IVec S64x64 1 := cmpf .olt main_v69 main_v70
  let main_c_27 : IVec S_ 1 := constantI S_ 1 1#1
  let main_v72 : IVec S_ 1 := (fun x v => Host.reduce IntOp.andi x v reducesTo_S64x64_S_d0_1 h_S_) main_v71 main_c_27
  let main_v73 : IVec S_ 1 := andi main_v68 main_v72
  let main_v74 : FVec F S64 .f32 := Host.absf main_arg17
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64 .f32 := Host.absf main_arg18
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64 .f32 := Host.absf main_arg19
  let main_cst_32 : FVec F S_ .f32 := constant S_ .f32 0x7F800000#32
  fn_part5 (F := F) main_arg20 main_v83 main_v84 main_cst_32

def fn_part3 {F : FTy → Type} [FloatOps F] (main_arg13 : FVec F S64x64 .f32) (main_arg14 : FVec F S64 .f32) (main_arg15 : FVec F S64 .f32) (main_arg16 : FVec F S64x64 .f32) (main_arg17 : FVec F S64 .f32) (main_arg18 : FVec F S64 .f32) (main_arg19 : FVec F S64 .f32) (main_arg20 : FVec F S64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64x64 .f32 := Host.absf main_arg13
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg16 main_arg17 main_arg18 main_arg19 main_arg20 main_v63 main_v67

def fn_part2 {F : FTy → Type} [FloatOps F] (main_arg9 : FVec F S64 .f32) (main_arg10 : FVec F S64x64 .f32) (main_arg11 : FVec F S64x64 .f32) (main_arg12 : FVec F S64x64 .f32) (main_arg13 : FVec F S64x64 .f32) (main_arg14 : FVec F S64 .f32) (main_arg15 : FVec F S64 .f32) (main_arg16 : FVec F S64x64 .f32) (main_arg17 : FVec F S64 .f32) (main_arg18 : FVec F S64 .f32) (main_arg19 : FVec F S64 .f32) (main_arg20 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64x64 .f32 := Host.absf main_arg12
  let main_cst_18 : FVec F S_ .f32 := constant S_ .f32 0x7F800000#32
  let main_v50 : FVec F S64x64 .f32 := broadcastInDim S64x64 ![] bcast_S_S64x64 main_cst_18
  fn_part3 (F := F) main_arg13 main_arg14 main_arg15 main_arg16 main_arg17 main_arg18 main_arg19 main_arg20 main_v48 main_v49 main_v50

def fn_part1 {F : FTy → Type} [FloatOps F] (main_arg6 : FVec F S64x64 .f32) (main_arg7 : FVec F S64x64 .f32) (main_arg8 : FVec F S64 .f32) (main_arg9 : FVec F S64 .f32) (main_arg10 : FVec F S64x64 .f32) (main_arg11 : FVec F S64x64 .f32) (main_arg12 : FVec F S64x64 .f32) (main_arg13 : FVec F S64x64 .f32) (main_arg14 : FVec F S64 .f32) (main_arg15 : FVec F S64 .f32) (main_arg16 : FVec F S64x64 .f32) (main_arg17 : FVec F S64 .f32) (main_arg18 : FVec F S64 .f32) (main_arg19 : FVec F S64 .f32) (main_arg20 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_v33

def fn {F : FTy → Type} [FloatOps F] (main_arg0 : FVec F S60000x64 .f32) (main_arg1 : FVec F S40000x64 .f32) (main_arg2 : IVec S1000000 32) (main_arg3 : IVec S1000000 32) (main_arg4 : FVec F S64x64 .f32) (main_arg5 : FVec F S64x64 .f32) (main_arg6 : FVec F S64x64 .f32) (main_arg7 : FVec F S64x64 .f32) (main_arg8 : FVec F S64 .f32) (main_arg9 : FVec F S64 .f32) (main_arg10 : FVec F S64x64 .f32) (main_arg11 : FVec F S64x64 .f32) (main_arg12 : FVec F S64x64 .f32) (main_arg13 : FVec F S64x64 .f32) (main_arg14 : FVec F S64 .f32) (main_arg15 : FVec F S64 .f32) (main_arg16 : FVec F S64x64 .f32) (main_arg17 : FVec F S64 .f32) (main_arg18 : FVec F S64 .f32) (main_arg19 : FVec F S64 .f32) (main_arg20 : FVec F S64 .f32) : IVec S_ 1 :=
  let main_v0 : FVec F S60000x64 .f32 := Host.absf main_arg0
  let main_cst : FVec F S_ .f32 := constant S_ .f32 0x7F800000#32
  let main_v1 : FVec F S60000x64 .f32 := broadcastInDim S60000x64 ![] bcast_S_S60000x64 main_cst
  let main_v2 : IVec S60000x64 1 := cmpf .olt main_v0 main_v1
  let main_c : IVec S_ 1 := constantI S_ 1 1#1
  let main_v3 : IVec S_ 1 := (fun x v => Host.reduce IntOp.andi x v reducesTo_S60000x64_S_d0_1 h_S_) main_v2 main_c
  let main_v4 : FVec F S40000x64 .f32 := Host.absf main_arg1
  let main_cst_0 : FVec F S_ .f32 := constant S_ .f32 0x7F800000#32
  let main_v5 : FVec F S40000x64 .f32 := broadcastInDim S40000x64 ![] bcast_S_S40000x64 main_cst_0
  let main_v6 : IVec S40000x64 1 := cmpf .olt main_v4 main_v5
  let main_c_1 : IVec S_ 1 := constantI S_ 1 1#1
  let main_v7 : IVec S_ 1 := (fun x v => Host.reduce IntOp.andi x v reducesTo_S40000x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_v13 main_v16
-- ==== Kernel.lean ====
abbrev S60000x64 : Shape := ⟨2, ![60000, 64]⟩
abbrev S40000x64 : Shape := ⟨2, ![40000, 64]⟩
abbrev S1000000 : Shape := ⟨1, ![1000000]⟩
abbrev S64x64 : Shape := ⟨2, ![64, 64]⟩
abbrev S64 : Shape := ⟨1, ![64]⟩
abbrev S100000x64 : Shape := ⟨2, ![100000, 64]⟩
abbrev S64x256 : Shape := ⟨2, ![64, 256]⟩
abbrev S100000x256 : Shape := ⟨2, ![100000, 256]⟩
abbrev S5000x64 : Shape := ⟨2, ![5000, 64]⟩
abbrev S5000x256 : Shape := ⟨2, ![5000, 256]⟩
abbrev S_ : Shape := ⟨0, ![]⟩
abbrev S1000000x1 : Shape := ⟨2, ![1000000, 1]⟩
abbrev S1000000x64 : Shape := ⟨2, ![1000000, 64]⟩
abbrev S1x64 : Shape := ⟨2, ![1, 64]⟩

abbrev nBuf : Space → Nat
  | .hbm => 199
  | .vmem => 33
  | .smem => 0
  | _ => 0

abbrev hbmTy0_0 (i : Nat) : BufTy := match i % 128 with
  | 0 => ⟨S60000x64, .f32⟩
  | 1 => ⟨S40000x64, .f32⟩
  | 2 => ⟨S1000000, .i32⟩
  | 3 => ⟨S1000000, .i32⟩
  | 4 => ⟨S64x64, .f32⟩
  | 5 => ⟨S64x64, .f32⟩
  | 6 => ⟨S64x64, .f32⟩
  | 7 => ⟨S64x64, .f32⟩
  | 8 => ⟨S64, .f32⟩
  | 9 => ⟨S64, .f32⟩
  | 10 => ⟨S64x64, .f32⟩
  | 11 => ⟨S64x64, .f32⟩
  | 12 => ⟨S64x64, .f32⟩
  | 13 => ⟨S64x64, .f32⟩
  | 14 => ⟨S64, .f32⟩
  | 15 => ⟨S64, .f32⟩
  | 16 => ⟨S64x64, .f32⟩
  | 17 => ⟨S64, .f32⟩
  | 18 => ⟨S64, .f32⟩
  | 19 => ⟨S64, .f32⟩
  | 20 => ⟨S64, .f32⟩
  | 21 => ⟨S100000x64, .f32⟩
  | 22 => ⟨S64x256, .f32⟩
  | 23 => ⟨S100000x256, .f32⟩
  | 24 => ⟨S100000x64, .f32⟩
  | 25 => ⟨S100000x64, .f32⟩
  | 26 => ⟨S100000x64, .f32⟩
  | 27 => ⟨S100000x64, .f32⟩
  | 28 => ⟨S_, .i32⟩
  | 29 => ⟨S1000000, .i32⟩
  | 30 => ⟨S1000000, .i1⟩
  | 31 => ⟨S_, .i32⟩
  | 32 => ⟨S1000000, .i32⟩
  | 33 => ⟨S1000000, .i32⟩
  | 34 => ⟨S1000000, .i32⟩
  | 35 => ⟨S1000000x1, .i32⟩
  | 36 => ⟨S1000000x64, .f32⟩
  | 37 => ⟨S_, .i32⟩
  | 38 => ⟨S1000000, .i32⟩
  | 39 => ⟨S1000000, .i1⟩
  | 40 => ⟨S_, .i32⟩
  | 41 => ⟨S1000000, .i32⟩
  | 42 => ⟨S1000000, .i32⟩
  | 43 => ⟨S1000000, .i32⟩
  | 44 => ⟨S1000000x1, .i32⟩
  | 45 => ⟨S1000000x64, .f32⟩
  | 46 => ⟨S1000000x64, .f32⟩
  | 47 => ⟨S1x64, .f32⟩
  | 48 => ⟨S1000000x64, .f32⟩
  | 49 => ⟨S1000000x64, .f32⟩
  | 50 => ⟨S1000000x64, .f32⟩
  | 51 => ⟨S1000000x64, .f32⟩
  | 52 => ⟨S_, .f32⟩
  | 53 => ⟨S1000000x64, .f32⟩
  | 54 => ⟨S1000000x64, .f32⟩
  | 55 => ⟨S_, .f32⟩
  | 56 => ⟨S1000000x64, .f32⟩
  | 57 => ⟨S1000000x64, .f32⟩
  | 58 => ⟨S_, .i32⟩
  | 59 => ⟨S1000000, .i32⟩
  | 60 => ⟨S1000000, .i1⟩
  | 61 => ⟨S_, .i32⟩
  | 62 => ⟨S1000000, .i32⟩
  | 63 => ⟨S1000000, .i32⟩
  | 64 => ⟨S1000000, .i32⟩
  | 65 => ⟨S1000000x1, .i32⟩
  | 66 => ⟨S1000000x64, .f32⟩
  | 67 => ⟨S1000000x64, .f32⟩
  | 68 => ⟨S_, .f32⟩
  | 69 => ⟨S100000x64, .f32⟩
  | 70 => ⟨S1000000x1, .i32⟩
  | 71 => ⟨S100000x64, .f32⟩
  | 72 => ⟨S100000x64, .f32⟩
  | 73 => ⟨S1x64, .f32⟩
  | 74 => ⟨S100000x64, .f32⟩
  | 75 => ⟨S100000x64, .f32⟩
  | 76 => ⟨S_, .f32⟩
  | 77 => ⟨S64, .f32⟩
  | 78 => ⟨S_, .f32⟩
  | 79 => ⟨S64, .f32⟩
  | 80 => ⟨S64, .f32⟩
  | 81 => ⟨S_, .i32⟩
  | 82 => ⟨S_, .f32⟩
  | 83 => ⟨S64, .f32⟩
  | 84 => ⟨S1x64, .f32⟩
  | 85 => ⟨S_, .f32⟩
  | 86 => ⟨S1x64, .f32⟩
  | 87 => ⟨S1x64, .f32⟩
  | 88 => ⟨S100000x64, .f32⟩
  | 89 => ⟨S100000x64, .f32⟩
  | 90 => ⟨S100000x64, .f32⟩
  | 91 => ⟨S_, .f32⟩
  | 92 => ⟨S_, .f32⟩
  | 93 => ⟨S_, .f32⟩
  | 94 => ⟨S_, .f32⟩
  | 95 => ⟨S64, .f32⟩
  | 96 => ⟨S64, .f32⟩
  | 97 => ⟨S64, .f32⟩
  | 98 => ⟨S_, .f32⟩
  | 99 => ⟨S_, .i1⟩
  | 100 => ⟨S_, .f32⟩
  | 101 => ⟨S_, .f32⟩
  | 102 => ⟨S64, .f32⟩
  | 103 => ⟨S64, .f32⟩
  | 104 => ⟨S1x64, .f32⟩
  | 105 => ⟨S1x64, .f32⟩
  | 106 => ⟨S1x64, .f32⟩
  | 107 => ⟨S1x64, .f32⟩
  | 108 => ⟨S100000x64, .f32⟩
  | 109 => ⟨S64x256, .f32⟩
  | 110 => ⟨S100000x256, .f32⟩
  | 111 => ⟨S100000x64, .f32⟩
  | 112 => ⟨S100000x64, .f32⟩
  | 113 => ⟨S100000x64, .f32⟩
  | 114 => ⟨S100000x64, .f32⟩
  | 115 => ⟨S_, .i32⟩
  | 116 => ⟨S1000000, .i32⟩
  | 117 => ⟨S1000000, .i1⟩
  | 118 => ⟨S_, .i32⟩
  | 119 => ⟨S1000000, .i32⟩
  | 120 => ⟨S1000000, .i32⟩
  | 121 => ⟨S1000000, .i32⟩
  | 122 => ⟨S1000000x1, .i32⟩
  | 123 => ⟨S1000000x64, .f32⟩
  | 124 => ⟨S_, .i32⟩
  | 125 => ⟨S1000000, .i32⟩
  | 126 => ⟨S1000000, .i1⟩
  | 127 => ⟨S_, .i32⟩
  | _ => ⟨S60000x64, .f32⟩

abbrev hbmTy0_1 (i : Nat) : BufTy := match i % 128 with
  | 0 => ⟨S1000000, .i32⟩
  | 1 => ⟨S1000000, .i32⟩
  | 2 => ⟨S1000000, .i32⟩
  | 3 => ⟨S1000000x1, .i32⟩
  | 4 => ⟨S1000000x64, .f32⟩
  | 5 => ⟨S1000000x64, .f32⟩
  | 6 => ⟨S1x64, .f32⟩
  | 7 => ⟨S1000000x64, .f32⟩
  | 8 => ⟨S1000000x64, .f32⟩
  | 9 => ⟨S1000000x64, .f32⟩
  | 10 => ⟨S1000000x64, .f32⟩
  | 11 => ⟨S_, .f32⟩
  | 12 => ⟨S1000000x64, .f32⟩
  | 13 => ⟨S1000000x64, .f32⟩
  | 14 => ⟨S_, .f32⟩
  | 15 => ⟨S1000000x64, .f32⟩
  | 16 => ⟨S1000000x64, .f32⟩
  | 17 => ⟨S_, .i32⟩
  | 18 => ⟨S1000000, .i32⟩
  | 19 => ⟨S1000000, .i1⟩
  | 20 => ⟨S_, .i32⟩
  | 21 => ⟨S1000000, .i32⟩
  | 22 => ⟨S1000000, .i32⟩
  | 23 => ⟨S1000000, .i32⟩
  | 24 => ⟨S1000000x1, .i32⟩
  | 25 => ⟨S1000000x64, .f32⟩
  | 26 => ⟨S1000000x64, .f32⟩
  | 27 => ⟨S_, .f32⟩
  | 28 => ⟨S100000x64, .f32⟩
  | 29 => ⟨S1000000x1, .i32⟩
  | 30 => ⟨S100000x64, .f32⟩
  | 31 => ⟨S100000x64, .f32⟩
  | 32 => ⟨S1x64, .f32⟩
  | 33 => ⟨S100000x64, .f32⟩
  | 34 => ⟨S100000x64, .f32⟩
  | 35 => ⟨S_, .f32⟩
  | 36 => ⟨S64, .f32⟩
  | 37 => ⟨S_, .f32⟩
  | 38 => ⟨S64, .f32⟩
  | 39 => ⟨S64, .f32⟩
  | 40 => ⟨S_, .i32⟩
  | 41 => ⟨S_, .f32⟩
  | 42 => ⟨S64, .f32⟩
  | 43 => ⟨S1x64, .f32⟩
  | 44 => ⟨S_, .f32⟩
  | 45 => ⟨S1x64, .f32⟩
  | 46 => ⟨S1x64, .f32⟩
  | 47 => ⟨S100000x64, .f32⟩
  | 48 => ⟨S100000x64, .f32⟩
  | 49 => ⟨S100000x64, .f32⟩
  | 50 => ⟨S_, .f32⟩
  | 51 => ⟨S_, .f32⟩
  | 52 => ⟨S_, .f32⟩
  | 53 => ⟨S_, .f32⟩
  | 54 => ⟨S64, .f32⟩
  | 55 => ⟨S64, .f32⟩
  | 56 => ⟨S64, .f32⟩
  | 57 => ⟨S_, .f32⟩
  | 58 => ⟨S_, .i1⟩
  | 59 => ⟨S_, .f32⟩
  | 60 => ⟨S_, .f32⟩
  | 61 => ⟨S64, .f32⟩
  | 62 => ⟨S64, .f32⟩
  | 63 => ⟨S100000x64, .f32⟩
  | 64 => ⟨S1x64, .f32⟩
  | 65 => ⟨S1x64, .f32⟩
  | 66 => ⟨S1x64, .f32⟩
  | 67 => ⟨S1x64, .f32⟩
  | 68 => ⟨S100000x64, .f32⟩
  | 69 => ⟨S60000x64, .f32⟩
  | 70 => ⟨S40000x64, .f32⟩
  | _ => ⟨S60000x64, .f32⟩

abbrev hbmTy (i : Nat) : BufTy := match i / 128 with
  | 0 => hbmTy0_0 i
  | 1 => hbmTy0_1 i
  | _ => ⟨S60000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x256, .f32⟩
  | .local _ .vmem, ⟨3, _⟩ => ⟨S5000x256, .f32⟩
  | .local _ .vmem, ⟨4, _⟩ => ⟨S5000x256, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S64x256, .f32⟩
  | .local _ .vmem, ⟨16, _⟩ => ⟨S5000x256, .f32⟩
  | .local _ .vmem, ⟨17, _⟩ => ⟨S5000x256, .f32⟩
  | .local _ .vmem, ⟨18, _⟩ => ⟨S5000x64, .f32⟩
  | .local _ .vmem, ⟨19, _⟩ => ⟨S5000x64, .f32⟩
  | .local _ .vmem, ⟨20, _⟩ => ⟨S64x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S1x64, .f32⟩
  | .local _ .vmem, ⟨26, _⟩ => ⟨S1x64, .f32⟩
  | .local _ .vmem, ⟨27, _⟩ => ⟨S1x64, .f32⟩
  | .local _ .vmem, ⟨28, _⟩ => ⟨S1x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | _, _ => ⟨S60000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_c : Ref sig .tc := ⟨.hbm, 28, rfl⟩
abbrev main_v7 : Ref sig .tc := ⟨.hbm, 29, rfl⟩
abbrev main_v8 : Ref sig .tc := ⟨.hbm, 30, rfl⟩
abbrev main_c_0 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_c_1 : Ref sig .tc := ⟨.hbm, 37, rfl⟩
abbrev main_v14 : Ref sig .tc := ⟨.hbm, 38, rfl⟩
abbrev main_v15 : Ref sig .tc := ⟨.hbm, 39, rfl⟩
abbrev main_c_2 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_cst : Ref sig .tc := ⟨.hbm, 52, rfl⟩
abbrev main_v27 : Ref sig .tc := ⟨.hbm, 53, rfl⟩
abbrev main_v28 : Ref sig .tc := ⟨.hbm, 54, rfl⟩
abbrev main_cst_3 : Ref sig .tc := ⟨.hbm, 55, rfl⟩
abbrev main_v29 : Ref sig .tc := ⟨.hbm, 56, rfl⟩
abbrev main_v30 : Ref sig .tc := ⟨.hbm, 57, rfl⟩
abbrev main_c_4 : Ref sig .tc := ⟨.hbm, 58, rfl⟩
abbrev main_v31 : Ref sig .tc := ⟨.hbm, 59, rfl⟩
abbrev main_v32 : Ref sig .tc := ⟨.hbm, 60, rfl⟩
abbrev main_c_5 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_cst_6 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_7 : Ref sig .tc := ⟨.hbm, 76, rfl⟩
abbrev main_v46 : Ref sig .tc := ⟨.hbm, 77, rfl⟩
abbrev main_cst_8 : Ref sig .tc := ⟨.hbm, 78, rfl⟩
abbrev main_v47 : Ref sig .tc := ⟨.hbm, 79, rfl⟩
abbrev main_v48 : Ref sig .tc := ⟨.hbm, 80, rfl⟩
abbrev main_c_9 : Ref sig .tc := ⟨.hbm, 81, rfl⟩
abbrev main_call0_cst : Ref sig .tc := ⟨.hbm, 82, rfl⟩
abbrev main_call0_v0 : Ref sig .tc := ⟨.hbm, 83, rfl⟩
abbrev main_call0_v1 : Ref sig .tc := ⟨.hbm, 84, rfl⟩
abbrev main_call0_cst_0 : Ref sig .tc := ⟨.hbm, 85, rfl⟩
abbrev main_call0_v2 : Ref sig .tc := ⟨.hbm, 86, rfl⟩
abbrev main_call0_v3 : Ref sig .tc := ⟨.hbm, 87, rfl⟩
abbrev main_call0_v4 : Ref sig .tc := ⟨.hbm, 88, rfl⟩
abbrev main_call0_v5 : Ref sig .tc := ⟨.hbm, 89, rfl⟩
abbrev main_call0_v6 : Ref sig .tc := ⟨.hbm, 90, rfl⟩
abbrev main_call0_v7 : Ref sig .tc := ⟨.hbm, 91, rfl⟩
abbrev main_call0_cst_1 : Ref sig .tc := ⟨.hbm, 92, rfl⟩
abbrev main_call0_v8 : Ref sig .tc := ⟨.hbm, 93, rfl⟩
abbrev main_call0_cst_2 : Ref sig .tc := ⟨.hbm, 94, rfl⟩
abbrev main_call0_v9 : Ref sig .tc := ⟨.hbm, 95, rfl⟩
abbrev main_call0_v10 : Ref sig .tc := ⟨.hbm, 96, rfl⟩
abbrev main_call0_v11 : Ref sig .tc := ⟨.hbm, 97, rfl⟩
abbrev main_call0_cst_3 : Ref sig .tc := ⟨.hbm, 98, rfl⟩
abbrev main_call0_v12 : Ref sig .tc := ⟨.hbm, 99, rfl⟩
abbrev main_call0_cst_4 : Ref sig .tc := ⟨.hbm, 100, rfl⟩
abbrev main_call0_call0_v0 : Ref sig .tc := ⟨.hbm, 101, rfl⟩
abbrev main_call0_call0_v1 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_c_10 : Ref sig .tc := ⟨.hbm, 115, rfl⟩
abbrev main_v61 : Ref sig .tc := ⟨.hbm, 116, rfl⟩
abbrev main_v62 : Ref sig .tc := ⟨.hbm, 117, rfl⟩
abbrev main_c_11 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_c_12 : Ref sig .tc := ⟨.hbm, 124, rfl⟩
abbrev main_v68 : Ref sig .tc := ⟨.hbm, 125, rfl⟩
abbrev main_v69 : Ref sig .tc := ⟨.hbm, 126, rfl⟩
abbrev main_c_13 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_cst_14 : Ref sig .tc := ⟨.hbm, 139, rfl⟩
abbrev main_v81 : Ref sig .tc := ⟨.hbm, 140, rfl⟩
abbrev main_v82 : Ref sig .tc := ⟨.hbm, 141, rfl⟩
abbrev main_cst_15 : Ref sig .tc := ⟨.hbm, 142, rfl⟩
abbrev main_v83 : Ref sig .tc := ⟨.hbm, 143, rfl⟩
abbrev main_v84 : Ref sig .tc := ⟨.hbm, 144, rfl⟩
abbrev main_c_16 : Ref sig .tc := ⟨.hbm, 145, rfl⟩
abbrev main_v85 : Ref sig .tc := ⟨.hbm, 146, rfl⟩
abbrev main_v86 : Ref sig .tc := ⟨.hbm, 147, rfl⟩
abbrev main_c_17 : Ref sig .tc := ⟨.hbm, 148, rfl⟩
abbrev main_v87 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_cst_18 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_v99 : Ref sig .tc := ⟨.hbm, 162, rfl⟩
abbrev main_cst_19 : Ref sig .tc := ⟨.hbm, 163, rfl⟩
abbrev main_v100 : Ref sig .tc := ⟨.hbm, 164, rfl⟩
abbrev main_cst_20 : Ref sig .tc := ⟨.hbm, 165, rfl⟩
abbrev main_v101 : Ref sig .tc := ⟨.hbm, 166, rfl⟩
abbrev main_v102 : Ref sig .tc := ⟨.hbm, 167, rfl⟩
abbrev main_c_21 : Ref sig .tc := ⟨.hbm, 168, rfl⟩
abbrev main_call1_cst : Ref sig .tc := ⟨.hbm, 169, rfl⟩
abbrev main_call1_v0 : Ref sig .tc := ⟨.hbm, 170, rfl⟩
abbrev main_call1_v1 : Ref sig .tc := ⟨.hbm, 171, rfl⟩
abbrev main_call1_cst_0 : Ref sig .tc := ⟨.hbm, 172, rfl⟩
abbrev main_call1_v2 : Ref sig .tc := ⟨.hbm, 173, rfl⟩
abbrev main_call1_v3 : Ref sig .tc := ⟨.hbm, 174, rfl⟩
abbrev main_call1_v4 : Ref sig .tc := ⟨.hbm, 175, rfl⟩
abbrev main_call1_v5 : Ref sig .tc := ⟨.hbm, 176, rfl⟩
abbrev main_call1_v6 : Ref sig .tc := ⟨.hbm, 177, rfl⟩
abbrev main_call1_v7 : Ref sig .tc := ⟨.hbm, 178, rfl⟩
abbrev main_call1_cst_1 : Ref sig .tc := ⟨.hbm, 179, rfl⟩
abbrev main_call1_v8 : Ref sig .tc := ⟨.hbm, 180, rfl⟩
abbrev main_call1_cst_2 : Ref sig .tc := ⟨.hbm, 181, rfl⟩
abbrev main_call1_v9 : Ref sig .tc := ⟨.hbm, 182, rfl⟩
abbrev main_call1_v10 : Ref sig .tc := ⟨.hbm, 183, rfl⟩
abbrev main_call1_v11 : Ref sig .tc := ⟨.hbm, 184, rfl⟩
abbrev main_call1_cst_3 : Ref sig .tc := ⟨.hbm, 185, rfl⟩
abbrev main_call1_v12 : Ref sig .tc := ⟨.hbm, 186, rfl⟩
abbrev main_call1_cst_4 : Ref sig .tc := ⟨.hbm, 187, rfl⟩
abbrev main_call1_call0_v0 : Ref sig .tc := ⟨.hbm, 188, rfl⟩
abbrev main_call1_call0_v1 : Ref sig .tc := ⟨.hbm, 189, rfl⟩
abbrev main_v103 : Ref sig .tc := ⟨.hbm, 190, rfl⟩
abbrev main_v104 : Ref sig .tc := ⟨.hbm, 191, rfl⟩
abbrev main_v105 : Ref sig .tc := ⟨.hbm, 192, rfl⟩
abbrev main_v106 : Ref sig .tc := ⟨.hbm, 193, rfl⟩
abbrev main_v107 : Ref sig .tc := ⟨.hbm, 194, rfl⟩
abbrev main_v108 : Ref sig .tc := ⟨.hbm, 195, rfl⟩
abbrev main_v109 : Ref sig .tc := ⟨.hbm, 196, rfl⟩
abbrev main_v110 : Ref sig .tc := ⟨.hbm, 197, rfl⟩
abbrev main_v111 : Ref sig .tc := ⟨.hbm, 198, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg3_0 : Ref sig .tc := ⟨.vmem, 27, rfl⟩
abbrev cc4_stg4_0 : Ref sig .tc := ⟨.vmem, 28, rfl⟩
abbrev cc4_stg5_0 : Ref sig .tc := ⟨.vmem, 29, rfl⟩
abbrev cc4_stg5_1 : Ref sig .tc := ⟨.vmem, 30, rfl⟩
abbrev cc4_stg6_0 : Ref sig .tc := ⟨.vmem, 31, rfl⟩
abbrev cc4_stg6_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem3_0 : DmaSem sig := 27
abbrev cc4_sem4_0 : DmaSem sig := 28
abbrev cc4_sem5_0 : DmaSem sig := 29
abbrev cc4_sem5_1 : DmaSem sig := 30
abbrev cc4_sem6_0 : DmaSem sig := 31
abbrev cc4_sem6_1 : DmaSem sig := 32

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S5000x64 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

class Facts₀ : Prop where
  concatenates_S60000x64_S40000x64_S100000x64_d0 : Shape.Concatenates [S60000x64, S40000x64] S100000x64 0
  concatenates_S64x64_S64x64_S64x64_S64x64_S64x256_d1 : Shape.Concatenates [S64x64, S64x64, S64x64, S64x64] S64x256 1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S5000x256_S5000x256_0_0 : ∀ a, (![0, 0] : Fin 2 → Nat) a + S5000x256.size a ≤ S5000x256.size a
  h_S5000x256 : 0 < S5000x256.numel
  slices_S100000x256_S100000x64_0_0 : S100000x256.Slices ![0, 0] S100000x64
  slices_S100000x256_S100000x64_0_64 : S100000x256.Slices ![0, 64] S100000x64
  slices_S100000x256_S100000x64_0_128 : S100000x256.Slices ![0, 128] S100000x64
  slices_S100000x256_S100000x64_0_192 : S100000x256.Slices ![0, 192] S100000x64
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  bcast_S_S100000x64 : S_.BroadcastsInDim S100000x64 (![] : Fin 0 → Fin S100000x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  slices_S100000x64_S60000x64_0_0 : S100000x64.Slices ![0, 0] S60000x64
  slices_S100000x64_S40000x64_60000_0 : S100000x64.Slices ![60000, 0] S40000x64
  dot_S5000x64_S64x256_S5000x256_1_0_0_1_n_n_wf : DotDims.WF S5000x64 S64x256 S5000x256 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x256.size a
  hwx0_1 : ∀ i : grid0.Coords, EltTy.bits .f32 = 32 ∨ (Rect.block (s := S64x256) S64x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S100000x256.size a
  hwx0_2 : ∀ i : grid0.Coords, EltTy.bits .f32 = 32 ∨ (Rect.block (s := S100000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x256.size a ≤ S64x256.size a
  hwx2_1 : ∀ i : grid2.Coords, EltTy.bits .f32 = 32 ∨ (Rect.block (s := S64x256) S64x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x256.size a ≤ S100000x256.size a
  hwx2_2 : ∀ i : grid2.Coords, EltTy.bits .f32 = 32 ∨ (Rect.block (s := S100000x256) S5000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x64.size a ≤ S100000x64.size a
  hwx4_5 : ∀ i : grid4.Coords, EltTy.bits .f32 = 32 ∨ (Rect.block (s := S100000x64) S5000x64.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x64.size a ≤ S100000x64.size a
  hwx4_6 : ∀ i : grid4.Coords, EltTy.bits .f32 = 32 ∨ (Rect.block (s := S100000x64) S5000x64.size (cc4_transform_6 i) (hinb4_6 i)).WholeWords (EltTy.packing .f32)

variable [Facts₀]

def dot_S5000x64_S64x256_S5000x256_1_0_0_1_n_n : DotDims S5000x64 S64x256 S5000x256 where
  lhsContracting := [1]
  rhsContracting := [0]
  lhsNonContracting := [0]
  rhsNonContracting := [1]
  lhsBatch := []
  rhsBatch := []
  wf := dot_S5000x64_S64x256_S5000x256_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v51) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v52) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v53) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v54) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v54) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v55) S64x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v56) S5000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v0) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg16) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v104) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v99) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v105) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v106) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v107) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v108) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v104) S5000x64.size cc4_transform_5 reads4_5 false false 2 stage4_5 sem4_5
    hrank4 hreads4_5 hinb4_5 nbuf4_5 (Memref.isWhole_whole _) hwx4_5 hstage4_5

abbrev win4_6 : Pipeline.Window sig grid4 :=
  Pipeline.Window.ofSpec (Memref.whole main_v109) S5000x64.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== ReferenceIdeal.lean ====
abbrev S60000x64 : Shape := ⟨2, ![60000, 64]⟩
abbrev S40000x64 : Shape := ⟨2, ![40000, 64]⟩
abbrev S1000000 : Shape := ⟨1, ![1000000]⟩
abbrev S64x64 : Shape := ⟨2, ![64, 64]⟩
abbrev S64 : Shape := ⟨1, ![64]⟩
abbrev S100000x64 : Shape := ⟨2, ![100000, 64]⟩
abbrev S_ : Shape := ⟨0, ![]⟩
abbrev S1000000x1 : Shape := ⟨2, ![1000000, 1]⟩
abbrev S1000000x64 : Shape := ⟨2, ![1000000, 64]⟩
abbrev S1x64 : Shape := ⟨2, ![1, 64]⟩

abbrev nBuf : Space → Nat
  | .hbm => 224
  | .vmem => 0
  | .smem => 0
  | _ => 0

abbrev hbmTy0_0 (i : Nat) : BufTy := match i % 128 with
  | 0 => ⟨S60000x64, .f32⟩
  | 1 => ⟨S40000x64, .f32⟩
  | 2 => ⟨S1000000, .i32⟩
  | 3 => ⟨S1000000, .i32⟩
  | 4 => ⟨S64x64, .f32⟩
  | 5 => ⟨S64x64, .f32⟩
  | 6 => ⟨S64x64, .f32⟩
  | 7 => ⟨S64x64, .f32⟩
  | 8 => ⟨S64, .f32⟩
  | 9 => ⟨S64, .f32⟩
  | 10 => ⟨S64x64, .f32⟩
  | 11 => ⟨S64x64, .f32⟩
  | 12 => ⟨S64x64, .f32⟩
  | 13 => ⟨S64x64, .f32⟩
  | 14 => ⟨S64, .f32⟩
  | 15 => ⟨S64, .f32⟩
  | 16 => ⟨S64x64, .f32⟩
  | 17 => ⟨S64, .f32⟩
  | 18 => ⟨S64, .f32⟩
  | 19 => ⟨S64, .f32⟩
  | 20 => ⟨S64, .f32⟩
  | 21 => ⟨S100000x64, .f32⟩
  | 22 => ⟨S100000x64, .f32⟩
  | 23 => ⟨S_, .i32⟩
  | 24 => ⟨S1000000, .i32⟩
  | 25 => ⟨S1000000, .i1⟩
  | 26 => ⟨S_, .i32⟩
  | 27 => ⟨S1000000, .i32⟩
  | 28 => ⟨S1000000, .i32⟩
  | 29 => ⟨S1000000, .i32⟩
  | 30 => ⟨S1000000x1, .i32⟩
  | 31 => ⟨S1000000x64, .f32⟩
  | 32 => ⟨S100000x64, .f32⟩
  | 33 => ⟨S_, .i32⟩
  | 34 => ⟨S1000000, .i32⟩
  | 35 => ⟨S1000000, .i1⟩
  | 36 => ⟨S_, .i32⟩
  | 37 => ⟨S1000000, .i32⟩
  | 38 => ⟨S1000000, .i32⟩
  | 39 => ⟨S1000000, .i32⟩
  | 40 => ⟨S1000000x1, .i32⟩
  | 41 => ⟨S1000000x64, .f32⟩
  | 42 => ⟨S1000000x64, .f32⟩
  | 43 => ⟨S1x64, .f32⟩
  | 44 => ⟨S1000000x64, .f32⟩
  | 45 => ⟨S1000000x64, .f32⟩
  | 46 => ⟨S1000000x64, .f32⟩
  | 47 => ⟨S1000000x64, .f32⟩
  | 48 => ⟨S_, .f32⟩
  | 49 => ⟨S1000000x64, .f32⟩
  | 50 => ⟨S1000000x64, .f32⟩
  | 51 => ⟨S_, .f32⟩
  | 52 => ⟨S1000000x64, .f32⟩
  | 53 => ⟨S1000000x64, .f32⟩
  | 54 => ⟨S100000x64, .f32⟩
  | 55 => ⟨S_, .i32⟩
  | 56 => ⟨S1000000, .i32⟩
  | 57 => ⟨S1000000, .i1⟩
  | 58 => ⟨S_, .i32⟩
  | 59 => ⟨S1000000, .i32⟩
  | 60 => ⟨S1000000, .i32⟩
  | 61 => ⟨S1000000, .i32⟩
  | 62 => ⟨S1000000x1, .i32⟩
  | 63 => ⟨S1000000x64, .f32⟩
  | 64 => ⟨S1000000x64, .f32⟩
  | 65 => ⟨S_, .f32⟩
  | 66 => ⟨S100000x64, .f32⟩
  | 67 => ⟨S1000000x1, .i32⟩
  | 68 => ⟨S100000x64, .f32⟩
  | 69 => ⟨S100000x64, .f32⟩
  | 70 => ⟨S100000x64, .f32⟩
  | 71 => ⟨S1x64, .f32⟩
  | 72 => ⟨S100000x64, .f32⟩
  | 73 => ⟨S100000x64, .f32⟩
  | 74 => ⟨S_, .f32⟩
  | 75 => ⟨S64, .f32⟩
  | 76 => ⟨S_, .f32⟩
  | 77 => ⟨S64, .f32⟩
  | 78 => ⟨S64, .f32⟩
  | 79 => ⟨S_, .i32⟩
  | 80 => ⟨S_, .f32⟩
  | 81 => ⟨S64, .f32⟩
  | 82 => ⟨S1x64, .f32⟩
  | 83 => ⟨S_, .f32⟩
  | 84 => ⟨S1x64, .f32⟩
  | 85 => ⟨S1x64, .f32⟩
  | 86 => ⟨S100000x64, .f32⟩
  | 87 => ⟨S100000x64, .f32⟩
  | 88 => ⟨S100000x64, .f32⟩
  | 89 => ⟨S_, .f32⟩
  | 90 => ⟨S_, .f32⟩
  | 91 => ⟨S_, .f32⟩
  | 92 => ⟨S_, .f32⟩
  | 93 => ⟨S64, .f32⟩
  | 94 => ⟨S64, .f32⟩
  | 95 => ⟨S64, .f32⟩
  | 96 => ⟨S_, .f32⟩
  | 97 => ⟨S_, .i1⟩
  | 98 => ⟨S_, .f32⟩
  | 99 => ⟨S_, .f32⟩
  | 100 => ⟨S64, .f32⟩
  | 101 => ⟨S64, .f32⟩
  | 102 => ⟨S1x64, .f32⟩
  | 103 => ⟨S100000x64, .f32⟩
  | 104 => ⟨S100000x64, .f32⟩
  | 105 => ⟨S1x64, .f32⟩
  | 106 => ⟨S100000x64, .f32⟩
  | 107 => ⟨S100000x64, .f32⟩
  | 108 => ⟨S_, .f32⟩
  | 109 => ⟨S64, .f32⟩
  | 110 => ⟨S64, .f32⟩
  | 111 => ⟨S64, .f32⟩
  | 112 => ⟨S1x64, .f32⟩
  | 113 => ⟨S100000x64, .f32⟩
  | 114 => ⟨S100000x64, .f32⟩
  | 115 => ⟨S1x64, .f32⟩
  | 116 => ⟨S100000x64, .f32⟩
  | 117 => ⟨S100000x64, .f32⟩
  | 118 => ⟨S_, .f32⟩
  | 119 => ⟨S100000x64, .f32⟩
  | 120 => ⟨S100000x64, .f32⟩
  | 121 => ⟨S100000x64, .f32⟩
  | 122 => ⟨S_, .i32⟩
  | 123 => ⟨S1000000, .i32⟩
  | 124 => ⟨S1000000, .i1⟩
  | 125 => ⟨S_, .i32⟩
  | 126 => ⟨S1000000, .i32⟩
  | 127 => ⟨S1000000, .i32⟩
  | _ => ⟨S60000x64, .f32⟩

abbrev hbmTy0_1 (i : Nat) : BufTy := match i % 128 with
  | 0 => ⟨S1000000, .i32⟩
  | 1 => ⟨S1000000x1, .i32⟩
  | 2 => ⟨S1000000x64, .f32⟩
  | 3 => ⟨S100000x64, .f32⟩
  | 4 => ⟨S_, .i32⟩
  | 5 => ⟨S1000000, .i32⟩
  | 6 => ⟨S1000000, .i1⟩
  | 7 => ⟨S_, .i32⟩
  | 8 => ⟨S1000000, .i32⟩
  | 9 => ⟨S1000000, .i32⟩
  | 10 => ⟨S1000000, .i32⟩
  | 11 => ⟨S1000000x1, .i32⟩
  | 12 => ⟨S1000000x64, .f32⟩
  | 13 => ⟨S1000000x64, .f32⟩
  | 14 => ⟨S1x64, .f32⟩
  | 15 => ⟨S1000000x64, .f32⟩
  | 16 => ⟨S1000000x64, .f32⟩
  | 17 => ⟨S1000000x64, .f32⟩
  | 18 => ⟨S1000000x64, .f32⟩
  | 19 => ⟨S_, .f32⟩
  | 20 => ⟨S1000000x64, .f32⟩
  | 21 => ⟨S1000000x64, .f32⟩
  | 22 => ⟨S_, .f32⟩
  | 23 => ⟨S1000000x64, .f32⟩
  | 24 => ⟨S1000000x64, .f32⟩
  | 25 => ⟨S100000x64, .f32⟩
  | 26 => ⟨S_, .i32⟩
  | 27 => ⟨S1000000, .i32⟩
  | 28 => ⟨S1000000, .i1⟩
  | 29 => ⟨S_, .i32⟩
  | 30 => ⟨S1000000, .i32⟩
  | 31 => ⟨S1000000, .i32⟩
  | 32 => ⟨S1000000, .i32⟩
  | 33 => ⟨S1000000x1, .i32⟩
  | 34 => ⟨S1000000x64, .f32⟩
  | 35 => ⟨S1000000x64, .f32⟩
  | 36 => ⟨S_, .f32⟩
  | 37 => ⟨S100000x64, .f32⟩
  | 38 => ⟨S1000000x1, .i32⟩
  | 39 => ⟨S100000x64, .f32⟩
  | 40 => ⟨S100000x64, .f32⟩
  | 41 => ⟨S100000x64, .f32⟩
  | 42 => ⟨S1x64, .f32⟩
  | 43 => ⟨S100000x64, .f32⟩
  | 44 => ⟨S100000x64, .f32⟩
  | 45 => ⟨S_, .f32⟩
  | 46 => ⟨S64, .f32⟩
  | 47 => ⟨S_, .f32⟩
  | 48 => ⟨S64, .f32⟩
  | 49 => ⟨S64, .f32⟩
  | 50 => ⟨S_, .i32⟩
  | 51 => ⟨S_, .f32⟩
  | 52 => ⟨S64, .f32⟩
  | 53 => ⟨S1x64, .f32⟩
  | 54 => ⟨S_, .f32⟩
  | 55 => ⟨S1x64, .f32⟩
  | 56 => ⟨S1x64, .f32⟩
  | 57 => ⟨S100000x64, .f32⟩
  | 58 => ⟨S100000x64, .f32⟩
  | 59 => ⟨S100000x64, .f32⟩
  | 60 => ⟨S_, .f32⟩
  | 61 => ⟨S_, .f32⟩
  | 62 => ⟨S_, .f32⟩
  | 63 => ⟨S_, .f32⟩
  | 64 => ⟨S64, .f32⟩
  | 65 => ⟨S64, .f32⟩
  | 66 => ⟨S64, .f32⟩
  | 67 => ⟨S_, .f32⟩
  | 68 => ⟨S_, .i1⟩
  | 69 => ⟨S_, .f32⟩
  | 70 => ⟨S_, .f32⟩
  | 71 => ⟨S64, .f32⟩
  | 72 => ⟨S64, .f32⟩
  | 73 => ⟨S1x64, .f32⟩
  | 74 => ⟨S100000x64, .f32⟩
  | 75 => ⟨S100000x64, .f32⟩
  | 76 => ⟨S1x64, .f32⟩
  | 77 => ⟨S100000x64, .f32⟩
  | 78 => ⟨S100000x64, .f32⟩
  | 79 => ⟨S_, .f32⟩
  | 80 => ⟨S64, .f32⟩
  | 81 => ⟨S64, .f32⟩
  | 82 => ⟨S64, .f32⟩
  | 83 => ⟨S1x64, .f32⟩
  | 84 => ⟨S100000x64, .f32⟩
  | 85 => ⟨S100000x64, .f32⟩
  | 86 => ⟨S1x64, .f32⟩
  | 87 => ⟨S100000x64, .f32⟩
  | 88 => ⟨S100000x64, .f32⟩
  | 89 => ⟨S100000x64, .f32⟩
  | 90 => ⟨S100000x64, .f32⟩
  | 91 => ⟨S_, .f32⟩
  | 92 => ⟨S100000x64, .f32⟩
  | 93 => ⟨S100000x64, .f32⟩
  | 94 => ⟨S60000x64, .f32⟩
  | 95 => ⟨S40000x64, .f32⟩
  | _ => ⟨S60000x64, .f32⟩

abbrev hbmTy (i : Nat) : BufTy := match i / 128 with
  | 0 => hbmTy0_0 i
  | 1 => hbmTy0_1 i
  | _ => ⟨S60000x64, .f32⟩

abbrev bufTy : (tb : Table) → Fin (tcTables nBuf tb) → BufTy
  | .hbm, ⟨i, _⟩ => hbmTy i
  | _, _ => ⟨S60000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_c : Ref sig .tc := ⟨.hbm, 23, rfl⟩
abbrev main_v2 : Ref sig .tc := ⟨.hbm, 24, rfl⟩
abbrev main_v3 : Ref sig .tc := ⟨.hbm, 25, rfl⟩
abbrev main_c_0 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_c_1 : Ref sig .tc := ⟨.hbm, 33, rfl⟩
abbrev main_v10 : Ref sig .tc := ⟨.hbm, 34, rfl⟩
abbrev main_v11 : Ref sig .tc := ⟨.hbm, 35, rfl⟩
abbrev main_c_2 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_cst : Ref sig .tc := ⟨.hbm, 48, rfl⟩
abbrev main_v23 : Ref sig .tc := ⟨.hbm, 49, rfl⟩
abbrev main_v24 : Ref sig .tc := ⟨.hbm, 50, rfl⟩
abbrev main_cst_3 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_c_4 : Ref sig .tc := ⟨.hbm, 55, rfl⟩
abbrev main_v28 : Ref sig .tc := ⟨.hbm, 56, rfl⟩
abbrev main_v29 : Ref sig .tc := ⟨.hbm, 57, rfl⟩
abbrev main_c_5 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_cst_6 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_7 : Ref sig .tc := ⟨.hbm, 74, rfl⟩
abbrev main_v44 : Ref sig .tc := ⟨.hbm, 75, rfl⟩
abbrev main_cst_8 : Ref sig .tc := ⟨.hbm, 76, rfl⟩
abbrev main_v45 : Ref sig .tc := ⟨.hbm, 77, rfl⟩
abbrev main_v46 : Ref sig .tc := ⟨.hbm, 78, rfl⟩
abbrev main_c_9 : Ref sig .tc := ⟨.hbm, 79, rfl⟩
abbrev main_call0_cst : Ref sig .tc := ⟨.hbm, 80, rfl⟩
abbrev main_call0_v0 : Ref sig .tc := ⟨.hbm, 81, rfl⟩
abbrev main_call0_v1 : Ref sig .tc := ⟨.hbm, 82, rfl⟩
abbrev main_call0_cst_0 : Ref sig .tc := ⟨.hbm, 83, rfl⟩
abbrev main_call0_v2 : Ref sig .tc := ⟨.hbm, 84, rfl⟩
abbrev main_call0_v3 : Ref sig .tc := ⟨.hbm, 85, rfl⟩
abbrev main_call0_v4 : Ref sig .tc := ⟨.hbm, 86, rfl⟩
abbrev main_call0_v5 : Ref sig .tc := ⟨.hbm, 87, rfl⟩
abbrev main_call0_v6 : Ref sig .tc := ⟨.hbm, 88, rfl⟩
abbrev main_call0_v7 : Ref sig .tc := ⟨.hbm, 89, rfl⟩
abbrev main_call0_cst_1 : Ref sig .tc := ⟨.hbm, 90, rfl⟩
abbrev main_call0_v8 : Ref sig .tc := ⟨.hbm, 91, rfl⟩
abbrev main_call0_cst_2 : Ref sig .tc := ⟨.hbm, 92, rfl⟩
abbrev main_call0_v9 : Ref sig .tc := ⟨.hbm, 93, rfl⟩
abbrev main_call0_v10 : Ref sig .tc := ⟨.hbm, 94, rfl⟩
abbrev main_call0_v11 : Ref sig .tc := ⟨.hbm, 95, rfl⟩
abbrev main_call0_cst_3 : Ref sig .tc := ⟨.hbm, 96, rfl⟩
abbrev main_call0_v12 : Ref sig .tc := ⟨.hbm, 97, rfl⟩
abbrev main_call0_cst_4 : Ref sig .tc := ⟨.hbm, 98, rfl⟩
abbrev main_call0_call0_v0 : Ref sig .tc := ⟨.hbm, 99, rfl⟩
abbrev main_call0_call0_v1 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_cst_10 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_call1_cst : Ref sig .tc := ⟨.hbm, 118, rfl⟩
abbrev main_call1_v0 : Ref sig .tc := ⟨.hbm, 119, rfl⟩
abbrev main_v63 : Ref sig .tc := ⟨.hbm, 120, rfl⟩
abbrev main_v64 : Ref sig .tc := ⟨.hbm, 121, rfl⟩
abbrev main_c_11 : Ref sig .tc := ⟨.hbm, 122, rfl⟩
abbrev main_v65 : Ref sig .tc := ⟨.hbm, 123, rfl⟩
abbrev main_v66 : Ref sig .tc := ⟨.hbm, 124, rfl⟩
abbrev main_c_12 : Ref sig .tc := ⟨.hbm, 125, rfl⟩
abbrev main_v67 : Ref sig .tc := ⟨.hbm, 126, rfl⟩
abbrev main_v68 : Ref sig .tc := ⟨.hbm, 127, rfl⟩
abbrev main_v69 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩
abbrev main_c_13 : Ref sig .tc := ⟨.hbm, 132, rfl⟩
abbrev main_v73 : Ref sig .tc := ⟨.hbm, 133, rfl⟩
abbrev main_v74 : Ref sig .tc := ⟨.hbm, 134, rfl⟩
abbrev main_c_14 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩
abbrev main_v84 : Ref sig .tc := ⟨.hbm, 145, rfl⟩
abbrev main_v85 : Ref sig .tc := ⟨.hbm, 146, rfl⟩
abbrev main_cst_15 : Ref sig .tc := ⟨.hbm, 147, rfl⟩
abbrev main_v86 : Ref sig .tc := ⟨.hbm, 148, rfl⟩
abbrev main_v87 : Ref sig .tc := ⟨.hbm, 149, rfl⟩
abbrev main_cst_16 : Ref sig .tc := ⟨.hbm, 150, rfl⟩
abbrev main_v88 : Ref sig .tc := ⟨.hbm, 151, rfl⟩
abbrev main_v89 : Ref sig .tc := ⟨.hbm, 152, rfl⟩
abbrev main_v90 : Ref sig .tc := ⟨.hbm, 153, rfl⟩
abbrev main_c_17 : Ref sig .tc := ⟨.hbm, 154, rfl⟩
abbrev main_v91 : Ref sig .tc := ⟨.hbm, 155, rfl⟩
abbrev main_v92 : Ref sig .tc := ⟨.hbm, 156, rfl⟩
abbrev main_c_18 : Ref sig .tc := ⟨.hbm, 157, rfl⟩
abbrev main_v93 : Ref sig .tc := ⟨.hbm, 158, rfl⟩
abbrev main_v94 : Ref sig .tc := ⟨.hbm, 159, rfl⟩
abbrev main_v95 : Ref sig .tc := ⟨.hbm, 160, rfl⟩
abbrev main_v96 : Ref sig .tc := ⟨.hbm, 161, rfl⟩
abbrev main_v97 : Ref sig .tc := ⟨.hbm, 162, rfl⟩
abbrev main_v98 : Ref sig .tc := ⟨.hbm, 163, rfl⟩
abbrev main_cst_19 : Ref sig .tc := ⟨.hbm, 164, rfl⟩
abbrev main_v99 : Ref sig .tc := ⟨.hbm, 165, rfl⟩
abbrev main_v100 : Ref sig .tc := ⟨.hbm, 166, rfl⟩
abbrev main_v101 : Ref sig .tc := ⟨.hbm, 167, rfl⟩
abbrev main_v102 : Ref sig .tc := ⟨.hbm, 168, rfl⟩
abbrev main_v103 : Ref sig .tc := ⟨.hbm, 169, rfl⟩
abbrev main_v104 : Ref sig .tc := ⟨.hbm, 170, rfl⟩
abbrev main_v105 : Ref sig .tc := ⟨.hbm, 171, rfl⟩
abbrev main_v106 : Ref sig .tc := ⟨.hbm, 172, rfl⟩
abbrev main_cst_20 : Ref sig .tc := ⟨.hbm, 173, rfl⟩
abbrev main_v107 : Ref sig .tc := ⟨.hbm, 174, rfl⟩
abbrev main_cst_21 : Ref sig .tc := ⟨.hbm, 175, rfl⟩
abbrev main_v108 : Ref sig .tc := ⟨.hbm, 176, rfl⟩
abbrev main_v109 : Ref sig .tc := ⟨.hbm, 177, rfl⟩
abbrev main_c_22 : Ref sig .tc := ⟨.hbm, 178, rfl⟩
abbrev main_call2_cst : Ref sig .tc := ⟨.hbm, 179, rfl⟩
abbrev main_call2_v0 : Ref sig .tc := ⟨.hbm, 180, rfl⟩
abbrev main_call2_v1 : Ref sig .tc := ⟨.hbm, 181, rfl⟩
abbrev main_call2_cst_0 : Ref sig .tc := ⟨.hbm, 182, rfl⟩
abbrev main_call2_v2 : Ref sig .tc := ⟨.hbm, 183, rfl⟩
abbrev main_call2_v3 : Ref sig .tc := ⟨.hbm, 184, rfl⟩
abbrev main_call2_v4 : Ref sig .tc := ⟨.hbm, 185, rfl⟩
abbrev main_call2_v5 : Ref sig .tc := ⟨.hbm, 186, rfl⟩
abbrev main_call2_v6 : Ref sig .tc := ⟨.hbm, 187, rfl⟩
abbrev main_call2_v7 : Ref sig .tc := ⟨.hbm, 188, rfl⟩
abbrev main_call2_cst_1 : Ref sig .tc := ⟨.hbm, 189, rfl⟩
abbrev main_call2_v8 : Ref sig .tc := ⟨.hbm, 190, rfl⟩
abbrev main_call2_cst_2 : Ref sig .tc := ⟨.hbm, 191, rfl⟩
abbrev main_call2_v9 : Ref sig .tc := ⟨.hbm, 192, rfl⟩
abbrev main_call2_v10 : Ref sig .tc := ⟨.hbm, 193, rfl⟩
abbrev main_call2_v11 : Ref sig .tc := ⟨.hbm, 194, rfl⟩
abbrev main_call2_cst_3 : Ref sig .tc := ⟨.hbm, 195, rfl⟩
abbrev main_call2_v12 : Ref sig .tc := ⟨.hbm, 196, rfl⟩
abbrev main_call2_cst_4 : Ref sig .tc := ⟨.hbm, 197, rfl⟩
abbrev main_call2_call0_v0 : Ref sig .tc := ⟨.hbm, 198, rfl⟩
abbrev main_call2_call0_v1 : Ref sig .tc := ⟨.hbm, 199, rfl⟩
abbrev main_v110 : Ref sig .tc := ⟨.hbm, 200, rfl⟩
abbrev main_v111 : Ref sig .tc := ⟨.hbm, 201, rfl⟩
abbrev main_v112 : Ref sig .tc := ⟨.hbm, 202, rfl⟩
abbrev main_v113 : Ref sig .tc := ⟨.hbm, 203, rfl⟩
abbrev main_v114 : Ref sig .tc := ⟨.hbm, 204, rfl⟩
abbrev main_v115 : Ref sig .tc := ⟨.hbm, 205, rfl⟩
abbrev main_v116 : Ref sig .tc := ⟨.hbm, 206, rfl⟩
abbrev main_cst_23 : Ref sig .tc := ⟨.hbm, 207, rfl⟩
abbrev main_v117 : Ref sig .tc := ⟨.hbm, 208, rfl⟩
abbrev main_v118 : Ref sig .tc := ⟨.hbm, 209, rfl⟩
abbrev main_v119 : Ref sig .tc := ⟨.hbm, 210, rfl⟩
abbrev main_v120 : Ref sig .tc := ⟨.hbm, 211, rfl⟩
abbrev main_v121 : Ref sig .tc := ⟨.hbm, 212, rfl⟩
abbrev main_v122 : Ref sig .tc := ⟨.hbm, 213, rfl⟩
abbrev main_v123 : Ref sig .tc := ⟨.hbm, 214, rfl⟩
abbrev main_v124 : Ref sig .tc := ⟨.hbm, 215, rfl⟩
abbrev main_v125 : Ref sig .tc := ⟨.hbm, 216, rfl⟩
abbrev main_v126 : Ref sig .tc := ⟨.hbm, 217, rfl⟩
abbrev main_v127 : Ref sig .tc := ⟨.hbm, 218, rfl⟩
abbrev main_call3_cst : Ref sig .tc := ⟨.hbm, 219, rfl⟩
abbrev main_call3_v0 : Ref sig .tc := ⟨.hbm, 220, rfl⟩
abbrev main_v128 : Ref sig .tc := ⟨.hbm, 221, rfl⟩
abbrev main_v129 : Ref sig .tc := ⟨.hbm, 222, rfl⟩
abbrev main_v130 : Ref sig .tc := ⟨.hbm, 223, rfl⟩

abbrev nD : Nat := 1
abbrev τ : Topo := Topo.v7x

variable {F : FTy → Type} [FloatOps F]

class Facts₀ : Prop where
  concatenates_S60000x64_S40000x64_S100000x64_d0 : Shape.Concatenates [S60000x64, S40000x64] S100000x64 0
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  bcast_S_S100000x64 : S_.BroadcastsInDim S100000x64 (![] : Fin 0 → Fin S100000x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  slices_S100000x64_S60000x64_0_0 : S100000x64.Slices ![0, 0] S60000x64
  slices_S100000x64_S40000x64_60000_0 : S100000x64.Slices ![60000, 0] S40000x64
  dot_S100000x64_S64x64_S100000x64_1_0_0_1_n_n_wf : DotDims.WF S100000x64 S64x64 S100000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf

class Facts : Prop extends Facts₀ where

variable [Facts]
-- ==== Proof.KBRegion0.lean ====
/-
  Region 0 of the kernel program, at any float instance: one 5000-row block of the node features times the 64×256 matrix of the four first-stage weight matrices side by side: block row r, column j of the result is the sum over k of x[r,k]·W[k,j].
  Stated at a parameter `V`, the contents of the core's buffers when the region is entered: each window's block at a grid
  point is the window's rectangle of its array read through `V`; the body reads every input block whole, stores the one
  output block whole, so after the body the output's staging buffer holds the body's arithmetic of the input blocks and
  every input's staging buffer still holds its block — also at the points where a window whose index does not move
  (the matrix, the per-column rows) is not fetched again.
-/
import proofs.«178339_j40699110097748_1_alg».proof.Proof.Gen.Kernel.Launch
import proofs.«178339_j40699110097748_1_alg».proof.Proof.Gen.Kernel.Skeleton
import proofs.«178339_j40699110097748_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: its rectangle of the window's array, read through the entry contents. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds the window's block at every point, fetched there or not (where it is
    not fetched its index has not moved), for any proof data over the entry contents whose body leaves the block in place. -/
theorem held0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- Input window 1's current staging buffer holds the window's block at every point, fetched there or not (where it is
    not fetched its index has not moved), for any proof data over the entry contents whose body leaves the block in place. -/
theorem held0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-! ## What the body reads and writes: every block whole -/

abbrev whole0_S5000x64 : Rect S5000x64 := Rect.unit (s := S5000x64) ![0, 0] S5000x64.size inb_S5000x64_S5000x64_0_0
abbrev whole0_S64x256 : Rect S64x256 := Rect.unit (s := S64x256) ![0, 0] S64x256.size inb_S64x256_S64x256_0_0
abbrev whole0_S5000x256 : Rect S5000x256 := Rect.unit (s := S5000x256) ![0, 0] S5000x256.size inb_S5000x256_S5000x256_0_0

/-- The output block after the body, from the input blocks: the one whole-block store of the body's arithmetic. -/
def stored0 (x0 : Vec F S5000x64 .f32) (x1 : Vec F S64x256 .f32) : Vec F S5000x256 .f32 :=
  View.canon [⟨whole0_S5000x256, k0_pay1 (View.ld x0 whole0_S5000x64) (View.ld x1 whole0_S64x256)⟩]

/-- The one store covers the output block. -/
theorem covered0 (p0 : Vec F S5000x256 .f32) (y : S5000x256.Idx) :
    ∃ pc ∈ ([⟨whole0_S5000x256, p0⟩] : List (View.Piece (Elt F) S5000x256 .f32)), y ∈ pc.1.set :=
  View.cover_of_tiled [⟨whole0_S5000x256, p0⟩] S5000x256.size (by rfl) y

set_option maxHeartbeats 1000000 in
/-- The body on whole staging buffers, the inputs' holding `x_w` and the output's anything: it runs, without a fault, to a
    state where the inputs' hold what they held and the output's holds `stored0` of them. -/
theorem body_run0 (c : Dev nD) (E : Set ℕ) (i : grid0.Coords) (arg1 : Memref sig .tc .vmem S5000x64 .f32) (harg1 : arg1.IsWhole) (arg2 : Memref sig .tc .vmem S64x256 .f32) (harg2 : arg2.IsWhole) (arg3 : Memref sig .tc .vmem S5000x256 .f32) (harg3 : arg3.IsWhole)
    (x0 : Vec F S5000x64 .f32) (x1 : Vec F S64x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (stored0 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (covered0 _)

/-- The region's proof data on core `c`: the arrays as the region finds them; after the body at point `t` every input's
    staging buffer at its block, the output's at `stored0` of the input blocks; nothing owed, full shares. -/
def pd0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => stored0 (blk0 V c 0 t) (blk0 V c 1 t)
  Φ _ := Pipeline.ΦA spec0 c
  q _ := fullShare
  owed _ := 0

theorem pd0_A (c : Dev nD) (w : Fin cfg0.W) : (pd0 V c).A w = V c (Pipeline.arrRef spec0 w) := by
  dsimp only [pd0]

theorem pd0_after_0 (c : Dev nD) (t : Fin cfg0.N) : (pd0 V c).after 0 t = blk0 V c 0 t := by dsimp only [pd0]
theorem pd0_after_1 (c : Dev nD) (t : Fin cfg0.N) : (pd0 V c).after 1 t = blk0 V c 1 t := by dsimp only [pd0]
theorem pd0_after_2 (c : Dev nD) (t : Fin cfg0.N) : (pd0 V c).after 2 t = stored0 (blk0 V c 0 t) (blk0 V c 1 t) := by dsimp only [pd0]

theorem pd0_before_0 (c : Dev nD) (t : Fin cfg0.N) (d) : (pd0 V c).before 0 t d = blk0 V c 0 t :=
  held0_0_of V (pd0 V c) (pd0_A V c 0) (pd0_after_0 V c) t d
theorem pd0_before_1 (c : Dev nD) (t : Fin cfg0.N) (d) : (pd0 V c).before 1 t d = blk0 V c 1 t :=
  held0_1_of V (pd0 V c) (pd0_A V c 1) (pd0_after_1 V c) t d

/-- What the body is entered with at point `t`, window by window, -/
def entered0 (c : Dev nD) (t : Fin cfg0.N) : sProp 𝕄 :=
  iprop((pd0 V c).Φ t.castSucc ∗ (pd0 V c).owesAt () t.castSucc
    ∗ (∃ d, owns (c : Thread nD τ) (st0_0 t) fullShare ((pd0 V c).before 0 t d))
    ∗ (∃ d, owns (c : Thread nD τ) (st0_1 t) fullShare ((pd0 V c).before 1 t d))
    ∗ (∃ d, owns (c : Thread nD τ) (st0_2 t) fullShare ((pd0 V c).before 2 t d)))

/-- and what it returns. -/
def left0 (c : Dev nD) (t : Fin cfg0.N) : sProp 𝕄 :=
  iprop((pd0 V c).Φ t.succ ∗ (pd0 V c).owesAt () t.succ
    ∗ owns (c : Thread nD τ) (st0_0 t) fullShare ((pd0 V c).after 0 t)
    ∗ owns (c : Thread nD τ) (st0_1 t) fullShare ((pd0 V c).after 1 t)
    ∗ owns (c : Thread nD τ) (st0_2 t) fullShare ((pd0 V c).after 2 t))

/-- The body at any point: the inputs' staging buffers hold their blocks, so `body_run0` applies; the invariant and what
    the core owes pass through unread. -/
theorem body_at0 (c : Dev nD) (t : Fin cfg0.N) :
    entered0 V c t ⊢ wp frame (wpE (defs₀ (F := F)) Variants.none c none) Set.univ (bodyAt0 t) (fun _ => left0 V c t) := by
  unfold entered0 left0 bodyAt0
  simp only [pd0_before_0, pd0_before_1]
  rw [show (pd0 V c).Φ t.succ = (pd0 V c).Φ t.castSucc from rfl,
    show (pd0 V c).owesAt () t.succ = (pd0 V c).owesAt () t.castSucc from rfl,
    pd0_after_0, pd0_after_1, pd0_after_2]
  iintro ⟨HΦ, Ho, ⟨%d0, H0⟩, ⟨%d1, H1⟩, ⟨%d2, H2⟩⟩
  iapply (body_run0 c Set.univ (grid0.coords t) _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for region 0, at every point. -/
theorem obligation0 (c : Dev nD) : BodyObligation (pd0 (F := F) V c) (defs₀ (F := F)) Variants.none () Set.univ := fun t => by
  rw [bigSep_W0, bigSep_W0]
  exact body_at0 V c t

end Cert.Kernel.Frm

end
-- ==== Proof.KBRegion1.lean ====
/-
  Region 1 of the kernel program, at any float instance: one 5000-row block of the first stage's output normalised column by column, max(γ·(y − mean)·rsqrt(var + ε) + β, 0), the four 1×64 rows (mean, variance, γ, β) the same at every point.
  Stated at a parameter `V`, the contents of the core's buffers when the region is entered: each window's block at a grid
  point is the window's rectangle of its array read through `V`; the body reads every input block whole, stores the one
  output block whole, so after the body the output's staging buffer holds the body's arithmetic of the input blocks and
  every input's staging buffer still holds its block — also at the points where a window whose index does not move
  (the matrix, the per-column rows) is not fetched again.
-/
import proofs.«178339_j40699110097748_1_alg».proof.Proof.Gen.Kernel.Launch
import proofs.«178339_j40699110097748_1_alg».proof.Proof.Gen.Kernel.Skeleton
import proofs.«178339_j40699110097748_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: its rectangle of the window's array, read through the entry contents. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds the window's block at every point, fetched there or not (where it is
    not fetched its index has not moved), for any proof data over the entry contents whose body leaves the block in place. -/
theorem held1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- Input window 1's current staging buffer holds the window's block at every point, fetched there or not (where it is
    not fetched its index has not moved), for any proof data over the entry contents whose body leaves the block in place. -/
theorem held1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- Input window 2's current staging buffer holds the window's block at every point, fetched there or not (where it is
    not fetched its index has not moved), for any proof data over the entry contents whose body leaves the block in place. -/
theorem held1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-- Input window 3's current staging buffer holds the window's block at every point, fetched there or not (where it is
    not fetched its index has not moved), for any proof data over the entry contents whose body leaves the block in place. -/
theorem held1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)

/-- Input window 4's current staging buffer holds the window's block at every point, fetched there or not (where it is
    not fetched its index has not moved), for any proof data over the entry contents whose body leaves the block in place. -/
theorem held1_4_of {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)

/-! ## What the body reads and writes: every block whole -/

abbrev whole1_S5000x64 : Rect S5000x64 := Rect.unit (s := S5000x64) ![0, 0] S5000x64.size inb_S5000x64_S5000x64_0_0
abbrev whole1_S1x64 : Rect S1x64 := Rect.unit (s := S1x64) ![0, 0] S1x64.size inb_S1x64_S1x64_0_0

/-- The output block after the body, from the input blocks: the one whole-block store of the body's arithmetic. -/
def stored1 (x0 : Vec F S5000x64 .f32) (x1 : Vec F S1x64 .f32) (x2 : Vec F S1x64 .f32) (x3 : Vec F S1x64 .f32) (x4 : Vec F S1x64 .f32) : Vec F S5000x64 .f32 :=
  View.canon [⟨whole1_S5000x64, k1_pay1 (View.ld x0 whole1_S5000x64) (View.ld x3 whole1_S1x64) (View.ld x1 whole1_S1x64) (View.ld x2 whole1_S1x64) (View.ld x4 whole1_S1x64)⟩]

/-- The one store covers the output block. -/
theorem covered1 (p0 : Vec F S5000x64 .f32) (y : S5000x64.Idx) :
    ∃ pc ∈ ([⟨whole1_S5000x64, p0⟩] : List (View.Piece (Elt F) S5000x64 .f32)), y ∈ pc.1.set :=
  View.cover_of_tiled [⟨whole1_S5000x64, p0⟩] S5000x64.size (by rfl) y

set_option maxHeartbeats 1000000 in
/-- The body on whole staging buffers, the inputs' holding `x_w` and the output's anything: it runs, without a fault, to a
    state where the inputs' hold what they held and the output's holds `stored1` of them. -/
theorem body_run1 (c : Dev nD) (E : Set ℕ) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x64 .f32) (harg6 : arg6.IsWhole)
    (x0 : Vec F S5000x64 .f32) (x1 : Vec F S1x64 .f32) (x2 : Vec F S1x64 .f32) (x3 : Vec F S1x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (stored1 x0 x1 x2 x3 x4)) -∗ K ⟨⟩))
      ⊢ wp frame (wpE (defs₀ (F := F)) Variants.none c none) E (cc1__bn_relu_kernel i arg1 harg1 arg2 harg2 arg3 harg3 arg4 harg4 arg5 harg5 arg6 harg6) K := by
  simp only [cc1__bn_relu_kernel_eq_skeleton]; unfold cc1__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (covered1 _)

/-- The region's proof data on core `c`: the arrays as the region finds them; after the body at point `t` every input's
    staging buffer at its block, the output's at `stored1` of the input blocks; nothing owed, full shares. -/
def pd1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => stored1 (blk1 V c 0 t) (blk1 V c 1 t) (blk1 V c 2 t) (blk1 V c 3 t) (blk1 V c 4 t)
  Φ _ := Pipeline.ΦA spec1 c
  q _ := fullShare
  owed _ := 0

theorem pd1_A (c : Dev nD) (w : Fin cfg1.W) : (pd1 V c).A w = V c (Pipeline.arrRef spec1 w) := by
  dsimp only [pd1]

theorem pd1_after_0 (c : Dev nD) (t : Fin cfg1.N) : (pd1 V c).after 0 t = blk1 V c 0 t := by dsimp only [pd1]
theorem pd1_after_1 (c : Dev nD) (t : Fin cfg1.N) : (pd1 V c).after 1 t = blk1 V c 1 t := by dsimp only [pd1]
theorem pd1_after_2 (c : Dev nD) (t : Fin cfg1.N) : (pd1 V c).after 2 t = blk1 V c 2 t := by dsimp only [pd1]
theorem pd1_after_3 (c : Dev nD) (t : Fin cfg1.N) : (pd1 V c).after 3 t = blk1 V c 3 t := by dsimp only [pd1]
theorem pd1_after_4 (c : Dev nD) (t : Fin cfg1.N) : (pd1 V c).after 4 t = blk1 V c 4 t := by dsimp only [pd1]
theorem pd1_after_5 (c : Dev nD) (t : Fin cfg1.N) : (pd1 V c).after 5 t = stored1 (blk1 V c 0 t) (blk1 V c 1 t) (blk1 V c 2 t) (blk1 V c 3 t) (blk1 V c 4 t) := by dsimp only [pd1]

theorem pd1_before_0 (c : Dev nD) (t : Fin cfg1.N) (d) : (pd1 V c).before 0 t d = blk1 V c 0 t :=
  held1_0_of V (pd1 V c) (pd1_A V c 0) (pd1_after_0 V c) t d
theorem pd1_before_1 (c : Dev nD) (t : Fin cfg1.N) (d) : (pd1 V c).before 1 t d = blk1 V c 1 t :=
  held1_1_of V (pd1 V c) (pd1_A V c 1) (pd1_after_1 V c) t d
theorem pd1_before_2 (c : Dev nD) (t : Fin cfg1.N) (d) : (pd1 V c).before 2 t d = blk1 V c 2 t :=
  held1_2_of V (pd1 V c) (pd1_A V c 2) (pd1_after_2 V c) t d
theorem pd1_before_3 (c : Dev nD) (t : Fin cfg1.N) (d) : (pd1 V c).before 3 t d = blk1 V c 3 t :=
  held1_3_of V (pd1 V c) (pd1_A V c 3) (pd1_after_3 V c) t d
theorem pd1_before_4 (c : Dev nD) (t : Fin cfg1.N) (d) : (pd1 V c).before 4 t d = blk1 V c 4 t :=
  held1_4_of V (pd1 V c) (pd1_A V c 4) (pd1_after_4 V c) t d

/-- What the body is entered with at point `t`, window by window, -/
def entered1 (c : Dev nD) (t : Fin cfg1.N) : sProp 𝕄 :=
  iprop((pd1 V c).Φ t.castSucc ∗ (pd1 V c).owesAt () t.castSucc
    ∗ (∃ d, owns (c : Thread nD τ) (st1_0 t) fullShare ((pd1 V c).before 0 t d))
    ∗ (∃ d, owns (c : Thread nD τ) (st1_1 t) fullShare ((pd1 V c).before 1 t d))
    ∗ (∃ d, owns (c : Thread nD τ) (st1_2 t) fullShare ((pd1 V c).before 2 t d))
    ∗ (∃ d, owns (c : Thread nD τ) (st1_3 t) fullShare ((pd1 V c).before 3 t d))
    ∗ (∃ d, owns (c : Thread nD τ) (st1_4 t) fullShare ((pd1 V c).before 4 t d))
    ∗ (∃ d, owns (c : Thread nD τ) (st1_5 t) fullShare ((pd1 V c).before 5 t d)))

/-- and what it returns. -/
def left1 (c : Dev nD) (t : Fin cfg1.N) : sProp 𝕄 :=
  iprop((pd1 V c).Φ t.succ ∗ (pd1 V c).owesAt () t.succ
    ∗ owns (c : Thread nD τ) (st1_0 t) fullShare ((pd1 V c).after 0 t)
    ∗ owns (c : Thread nD τ) (st1_1 t) fullShare ((pd1 V c).after 1 t)
    ∗ owns (c : Thread nD τ) (st1_2 t) fullShare ((pd1 V c).after 2 t)
    ∗ owns (c : Thread nD τ) (st1_3 t) fullShare ((pd1 V c).after 3 t)
    ∗ owns (c : Thread nD τ) (st1_4 t) fullShare ((pd1 V c).after 4 t)
    ∗ owns (c : Thread nD τ) (st1_5 t) fullShare ((pd1 V c).after 5 t))

/-- The body at any point: the inputs' staging buffers hold their blocks, so `body_run1` applies; the invariant and what
    the core owes pass through unread. -/
theorem body_at1 (c : Dev nD) (t : Fin cfg1.N) :
    entered1 V c t ⊢ wp frame (wpE (defs₀ (F := F)) Variants.none c none) Set.univ (bodyAt1 t) (fun _ => left1 V c t) := by
  unfold entered1 left1 bodyAt1
  simp only [pd1_before_0, pd1_before_1, pd1_before_2, pd1_before_3, pd1_before_4]
  rw [show (pd1 V c).Φ t.succ = (pd1 V c).Φ t.castSucc from rfl,
    show (pd1 V c).owesAt () t.succ = (pd1 V c).owesAt () t.castSucc from rfl,
    pd1_after_0, pd1_after_1, pd1_after_2, pd1_after_3, pd1_after_4, pd1_after_5]
  iintro ⟨HΦ, Ho, ⟨%d0, H0⟩, ⟨%d1, H1⟩, ⟨%d2, H2⟩, ⟨%d3, H3⟩, ⟨%d4, H4⟩, ⟨%d5, H5⟩⟩
  iapply (body_run1 c Set.univ (grid1.coords t) _ _ _ _ _ _ _ _ _ _ _ _ (blk1 V c 0 t) (blk1 V c 1 t) (blk1 V c 2 t) (blk1 V c 3 t) (blk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for region 1, at every point. -/
theorem obligation1 (c : Dev nD) : BodyObligation (pd1 (F := F) V c) (defs₀ (F := F)) Variants.none () Set.univ := fun t => by
  rw [bigSep_W1, bigSep_W1]
  exact body_at1 V c t

end Cert.Kernel.Frm

end
-- ==== Proof.KBRegion2.lean ====
/-
  Region 2 of the kernel program, at any float instance: one 5000-row block of the normalised first-stage features times the 64×256 matrix of the four second-stage weight matrices side by side.
  Stated at a parameter `V`, the contents of the core's buffers when the region is entered: each window's block at a grid
  point is the window's rectangle of its array read through `V`; the body reads every input block whole, stores the one
  output block whole, so after the body the output's staging buffer holds the body's arithmetic of the input blocks and
  every input's staging buffer still holds its block — also at the points where a window whose index does not move
  (the matrix, the per-column rows) is not fetched again.
-/
import proofs.«178339_j40699110097748_1_alg».proof.Proof.Gen.Kernel.Launch
import proofs.«178339_j40699110097748_1_alg».proof.Proof.Gen.Kernel.Skeleton
import proofs.«178339_j40699110097748_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: its rectangle of the window's array, read through the entry contents. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds the window's block at every point, fetched there or not (where it is
    not fetched its index has not moved), for any proof data over the entry contents whose body leaves the block in place. -/
theorem held2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

/-- Input window 1's current staging buffer holds the window's block at every point, fetched there or not (where it is
    not fetched its index has not moved), for any proof data over the entry contents whose body leaves the block in place. -/
theorem held2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

/-! ## What the body reads and writes: every block whole -/

abbrev whole2_S5000x64 : Rect S5000x64 := Rect.unit (s := S5000x64) ![0, 0] S5000x64.size inb_S5000x64_S5000x64_0_0
abbrev whole2_S64x256 : Rect S64x256 := Rect.unit (s := S64x256) ![0, 0] S64x256.size inb_S64x256_S64x256_0_0
abbrev whole2_S5000x256 : Rect S5000x256 := Rect.unit (s := S5000x256) ![0, 0] S5000x256.size inb_S5000x256_S5000x256_0_0

/-- The output block after the body, from the input blocks: the one whole-block store of the body's arithmetic. -/
def stored2 (x0 : Vec F S5000x64 .f32) (x1 : Vec F S64x256 .f32) : Vec F S5000x256 .f32 :=
  View.canon [⟨whole2_S5000x256, k2_pay1 (View.ld x0 whole2_S5000x64) (View.ld x1 whole2_S64x256)⟩]

/-- The one store covers the output block. -/
theorem covered2 (p0 : Vec F S5000x256 .f32) (y : S5000x256.Idx) :
    ∃ pc ∈ ([⟨whole2_S5000x256, p0⟩] : List (View.Piece (Elt F) S5000x256 .f32)), y ∈ pc.1.set :=
  View.cover_of_tiled [⟨whole2_S5000x256, p0⟩] S5000x256.size (by rfl) y

set_option maxHeartbeats 1000000 in
/-- The body on whole staging buffers, the inputs' holding `x_w` and the output's anything: it runs, without a fault, to a
    state where the inputs' hold what they held and the output's holds `stored2` of them. -/
theorem body_run2 (c : Dev nD) (E : Set ℕ) (i : grid2.Coords) (arg1 : Memref sig .tc .vmem S5000x64 .f32) (harg1 : arg1.IsWhole) (arg2 : Memref sig .tc .vmem S64x256 .f32) (harg2 : arg2.IsWhole) (arg3 : Memref sig .tc .vmem S5000x256 .f32) (harg3 : arg3.IsWhole)
    (x0 : Vec F S5000x64 .f32) (x1 : Vec F S64x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (stored2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (covered2 _)

/-- The region's proof data on core `c`: the arrays as the region finds them; after the body at point `t` every input's
    staging buffer at its block, the output's at `stored2` of the input blocks; nothing owed, full shares. -/
def pd2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => stored2 (blk2 V c 0 t) (blk2 V c 1 t)
  Φ _ := Pipeline.ΦA spec2 c
  q _ := fullShare
  owed _ := 0

theorem pd2_A (c : Dev nD) (w : Fin cfg2.W) : (pd2 V c).A w = V c (Pipeline.arrRef spec2 w) := by
  dsimp only [pd2]

theorem pd2_after_0 (c : Dev nD) (t : Fin cfg2.N) : (pd2 V c).after 0 t = blk2 V c 0 t := by dsimp only [pd2]
theorem pd2_after_1 (c : Dev nD) (t : Fin cfg2.N) : (pd2 V c).after 1 t = blk2 V c 1 t := by dsimp only [pd2]
theorem pd2_after_2 (c : Dev nD) (t : Fin cfg2.N) : (pd2 V c).after 2 t = stored2 (blk2 V c 0 t) (blk2 V c 1 t) := by dsimp only [pd2]

theorem pd2_before_0 (c : Dev nD) (t : Fin cfg2.N) (d) : (pd2 V c).before 0 t d = blk2 V c 0 t :=
  held2_0_of V (pd2 V c) (pd2_A V c 0) (pd2_after_0 V c) t d
theorem pd2_before_1 (c : Dev nD) (t : Fin cfg2.N) (d) : (pd2 V c).before 1 t d = blk2 V c 1 t :=
  held2_1_of V (pd2 V c) (pd2_A V c 1) (pd2_after_1 V c) t d

/-- What the body is entered with at point `t`, window by window, -/
def entered2 (c : Dev nD) (t : Fin cfg2.N) : sProp 𝕄 :=
  iprop((pd2 V c).Φ t.castSucc ∗ (pd2 V c).owesAt () t.castSucc
    ∗ (∃ d, owns (c : Thread nD τ) (st2_0 t) fullShare ((pd2 V c).before 0 t d))
    ∗ (∃ d, owns (c : Thread nD τ) (st2_1 t) fullShare ((pd2 V c).before 1 t d))
    ∗ (∃ d, owns (c : Thread nD τ) (st2_2 t) fullShare ((pd2 V c).before 2 t d)))

/-- and what it returns. -/
def left2 (c : Dev nD) (t : Fin cfg2.N) : sProp 𝕄 :=
  iprop((pd2 V c).Φ t.succ ∗ (pd2 V c).owesAt () t.succ
    ∗ owns (c : Thread nD τ) (st2_0 t) fullShare ((pd2 V c).after 0 t)
    ∗ owns (c : Thread nD τ) (st2_1 t) fullShare ((pd2 V c).after 1 t)
    ∗ owns (c : Thread nD τ) (st2_2 t) fullShare ((pd2 V c).after 2 t))

/-- The body at any point: the inputs' staging buffers hold their blocks, so `body_run2` applies; the invariant and what
    the core owes pass through unread. -/
theorem body_at2 (c : Dev nD) (t : Fin cfg2.N) :
    entered2 V c t ⊢ wp frame (wpE (defs₀ (F := F)) Variants.none c none) Set.univ (bodyAt2 t) (fun _ => left2 V c t) := by
  unfold entered2 left2 bodyAt2
  simp only [pd2_before_0, pd2_before_1]
  rw [show (pd2 V c).Φ t.succ = (pd2 V c).Φ t.castSucc from rfl,
    show (pd2 V c).owesAt () t.succ = (pd2 V c).owesAt () t.castSucc from rfl,
    pd2_after_0, pd2_after_1, pd2_after_2]
  iintro ⟨HΦ, Ho, ⟨%d0, H0⟩, ⟨%d1, H1⟩, ⟨%d2, H2⟩⟩
  iapply (body_run2 c Set.univ (grid2.coords t) _ _ _ _ _ _ (blk2 V c 0 t) (blk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for region 2, at every point. -/
theorem obligation2 (c : Dev nD) : BodyObligation (pd2 (F := F) V c) (defs₀ (F := F)) Variants.none () Set.univ := fun t => by
  rw [bigSep_W2, bigSep_W2]
  exact body_at2 V c t

end Cert.Kernel.Frm

end
-- ==== Proof.KBRegion3.lean ====
/-
  Region 3 of the kernel program, at any float instance: one 5000-row block of the input node features times the 64×64 residual matrix R.
  Stated at a parameter `V`, the contents of the core's buffers when the region is entered: each window's block at a grid
  point is the window's rectangle of its array read through `V`; the body reads every input block whole, stores the one
  output block whole, so after the body the output's staging buffer holds the body's arithmetic of the input blocks and
  every input's staging buffer still holds its block — also at the points where a window whose index does not move
  (the matrix, the per-column rows) is not fetched again.
-/
import proofs.«178339_j40699110097748_1_alg».proof.Proof.Gen.Kernel.Launch
import proofs.«178339_j40699110097748_1_alg».proof.Proof.Gen.Kernel.Skeleton
import proofs.«178339_j40699110097748_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: its rectangle of the window's array, read through the entry contents. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds the window's block at every point, fetched there or not (where it is
    not fetched its index has not moved), for any proof data over the entry contents whose body leaves the block in place. -/
theorem held3_0_of {c : Dev nD} (dat : Dat τ (Elt F) Unit ℕ (UR sig nD τ) ℕ cfg3 c) (hA : dat.A 0 = V c (Pipeline.arrRef spec3 0))
    (hafter : ∀ t, dat.after 0 t = blk3 V c 0 t) (t : Fin cfg3.N) (d) : dat.before 0 t d = blk3 V c 0 t :=
  (dat.before_in_eq_fetched 0 rfl (fun _ => rfl) (fun _ _ _ => rfl) (fun t => by rw [hafter]; unfold Dat.blockOf blk3; rw [hA]; try rfl) t d).trans
    (by unfold Dat.fetched Dat.blockOf blk3; rw [hA]; try rfl)

/-- Input window 1's current staging buffer holds the window's block at every point, fetched there or not (where it is
    not fetched its index has not moved), for any proof data over the entry contents whose body leaves the block in place. -/
theorem held3_1_of {c : Dev nD} (dat : Dat τ (Elt F) Unit ℕ (UR sig nD τ) ℕ cfg3 c) (hA : dat.A 1 = V c (Pipeline.arrRef spec3 1))
    (hafter : ∀ t, dat.after 1 t = blk3 V c 1 t) (t : Fin cfg3.N) (d) : dat.before 1 t d = blk3 V c 1 t :=
  (dat.before_in_eq_fetched 1 rfl (fun _ => rfl) (fun _ _ _ => rfl) (fun t => by rw [hafter]; unfold Dat.blockOf blk3; rw [hA]; try rfl) t d).trans
    (by unfold Dat.fetched Dat.blockOf blk3; rw [hA]; try rfl)

/-! ## What the body reads and writes: every block whole -/

abbrev whole3_S5000x64 : Rect S5000x64 := Rect.unit (s := S5000x64) ![0, 0] S5000x64.size inb_S5000x64_S5000x64_0_0
abbrev whole3_S64x64 : Rect S64x64 := Rect.unit (s := S64x64) ![0, 0] S64x64.size inb_S64x64_S64x64_0_0

/-- The output block after the body, from the input blocks: the one whole-block store of the body's arithmetic. -/
def stored3 (x0 : Vec F S5000x64 .f32) (x1 : Vec F S64x64 .f32) : Vec F S5000x64 .f32 :=
  View.canon [⟨whole3_S5000x64, k3_pay1 (View.ld x0 whole3_S5000x64) (View.ld x1 whole3_S64x64)⟩]

/-- The one store covers the output block. -/
theorem covered3 (p0 : Vec F S5000x64 .f32) (y : S5000x64.Idx) :
    ∃ pc ∈ ([⟨whole3_S5000x64, p0⟩] : List (View.Piece (Elt F) S5000x64 .f32)), y ∈ pc.1.set :=
  View.cover_of_tiled [⟨whole3_S5000x64, p0⟩] S5000x64.size (by rfl) y

set_option maxHeartbeats 1000000 in
/-- The body on whole staging buffers, the inputs' holding `x_w` and the output's anything: it runs, without a fault, to a
    state where the inputs' hold what they held and the output's holds `stored3` of them. -/
theorem body_run3 (c : Dev nD) (E : Set ℕ) (i : grid3.Coords) (arg1 : Memref sig .tc .vmem S5000x64 .f32) (harg1 : arg1.IsWhole) (arg2 : Memref sig .tc .vmem S64x64 .f32) (harg2 : arg2.IsWhole) (arg3 : Memref sig .tc .vmem S5000x64 .f32) (harg3 : arg3.IsWhole)
    (x0 : Vec F S5000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (stored3 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (covered3 _)

/-- The region's proof data on core `c`: the arrays as the region finds them; after the body at point `t` every input's
    staging buffer at its block, the output's at `stored3` of the input blocks; nothing owed, full shares. -/
def pd3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => stored3 (blk3 V c 0 t) (blk3 V c 1 t)
  Φ _ := Pipeline.ΦA spec3 c
  q _ := fullShare
  owed _ := 0

theorem pd3_A (c : Dev nD) (w : Fin cfg3.W) : (pd3 V c).A w = V c (Pipeline.arrRef spec3 w) := by
  dsimp only [pd3]

theorem pd3_after_0 (c : Dev nD) (t : Fin cfg3.N) : (pd3 V c).after 0 t = blk3 V c 0 t := by dsimp only [pd3]
theorem pd3_after_1 (c : Dev nD) (t : Fin cfg3.N) : (pd3 V c).after 1 t = blk3 V c 1 t := by dsimp only [pd3]
theorem pd3_after_2 (c : Dev nD) (t : Fin cfg3.N) : (pd3 V c).after 2 t = stored3 (blk3 V c 0 t) (blk3 V c 1 t) := by dsimp only [pd3]

theorem pd3_before_0 (c : Dev nD) (t : Fin cfg3.N) (d) : (pd3 V c).before 0 t d = blk3 V c 0 t :=
  held3_0_of V (pd3 V c) (pd3_A V c 0) (pd3_after_0 V c) t d
theorem pd3_before_1 (c : Dev nD) (t : Fin cfg3.N) (d) : (pd3 V c).before 1 t d = blk3 V c 1 t :=
  held3_1_of V (pd3 V c) (pd3_A V c 1) (pd3_after_1 V c) t d

/-- What the body is entered with at point `t`, window by window, -/
def entered3 (c : Dev nD) (t : Fin cfg3.N) : sProp 𝕄 :=
  iprop((pd3 V c).Φ t.castSucc ∗ (pd3 V c).owesAt () t.castSucc
    ∗ (∃ d, owns (c : Thread nD τ) (st3_0 t) fullShare ((pd3 V c).before 0 t d))
    ∗ (∃ d, owns (c : Thread nD τ) (st3_1 t) fullShare ((pd3 V c).before 1 t d))
    ∗ (∃ d, owns (c : Thread nD τ) (st3_2 t) fullShare ((pd3 V c).before 2 t d)))

/-- and what it returns. -/
def left3 (c : Dev nD) (t : Fin cfg3.N) : sProp 𝕄 :=
  iprop((pd3 V c).Φ t.succ ∗ (pd3 V c).owesAt () t.succ
    ∗ owns (c : Thread nD τ) (st3_0 t) fullShare ((pd3 V c).after 0 t)
    ∗ owns (c : Thread nD τ) (st3_1 t) fullShare ((pd3 V c).after 1 t)
    ∗ owns (c : Thread nD τ) (st3_2 t) fullShare ((pd3 V c).after 2 t))

/-- The body at any point: the inputs' staging buffers hold their blocks, so `body_run3` applies; the invariant and what
    the core owes pass through unread. -/
theorem body_at3 (c : Dev nD) (t : Fin cfg3.N) :
    entered3 V c t ⊢ wp frame (wpE (defs₀ (F := F)) Variants.none c none) Set.univ (bodyAt3 t) (fun _ => left3 V c t) := by
  unfold entered3 left3 bodyAt3
  simp only [pd3_before_0, pd3_before_1]
  rw [show (pd3 V c).Φ t.succ = (pd3 V c).Φ t.castSucc from rfl,
    show (pd3 V c).owesAt () t.succ = (pd3 V c).owesAt () t.castSucc from rfl,
    pd3_after_0, pd3_after_1, pd3_after_2]
  iintro ⟨HΦ, Ho, ⟨%d0, H0⟩, ⟨%d1, H1⟩, ⟨%d2, H2⟩⟩
  iapply (body_run3 c Set.univ (grid3.coords t) _ _ _ _ _ _ (blk3 V c 0 t) (blk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for region 3, at every point. -/
theorem obligation3 (c : Dev nD) : BodyObligation (pd3 (F := F) V c) (defs₀ (F := F)) Variants.none () Set.univ := fun t => by
  rw [bigSep_W3, bigSep_W3]
  exact body_at3 V c t

end Cert.Kernel.Frm

end
-- ==== Proof.KBRegion4.lean ====
/-
  Region 4 of the kernel program, at any float instance: one 5000-row block of the second stage's output normalised column by column, the residual block added, then clamped at zero: max(γ·(y − mean)·rsqrt(var + ε) + β + x·R, 0).
  Stated at a parameter `V`, the contents of the core's buffers when the region is entered: each window's block at a grid
  point is the window's rectangle of its array read through `V`; the body reads every input block whole, stores the one
  output block whole, so after the body the output's staging buffer holds the body's arithmetic of the input blocks and
  every input's staging buffer still holds its block — also at the points where a window whose index does not move
  (the matrix, the per-column rows) is not fetched again.
-/
import proofs.«178339_j40699110097748_1_alg».proof.Proof.Gen.Kernel.Launch
import proofs.«178339_j40699110097748_1_alg».proof.Proof.Gen.Kernel.Skeleton
import proofs.«178339_j40699110097748_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: its rectangle of the window's array, read through the entry contents. -/
def blk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds the window's block at every point, fetched there or not (where it is
    not fetched its index has not moved), for any proof data over the entry contents whose body leaves the block in place. -/
theorem held4_0_of {c : Dev nD} (dat : Dat τ (Elt F) Unit ℕ (UR sig nD τ) ℕ cfg4 c) (hA : dat.A 0 = V c (Pipeline.arrRef spec4 0))
    (hafter : ∀ t, dat.after 0 t = blk4 V c 0 t) (t : Fin cfg4.N) (d) : dat.before 0 t d = blk4 V c 0 t :=
  (dat.before_in_eq_fetched 0 rfl (fun _ => rfl) (fun _ _ _ => rfl) (fun t => by rw [hafter]; unfold Dat.blockOf blk4; rw [hA]; try rfl) t d).trans
    (by unfold Dat.fetched Dat.blockOf blk4; rw [hA]; try rfl)

/-- Input window 1's current staging buffer holds the window's block at every point, fetched there or not (where it is
    not fetched its index has not moved), for any proof data over the entry contents whose body leaves the block in place. -/
theorem held4_1_of {c : Dev nD} (dat : Dat τ (Elt F) Unit ℕ (UR sig nD τ) ℕ cfg4 c) (hA : dat.A 1 = V c (Pipeline.arrRef spec4 1))
    (hafter : ∀ t, dat.after 1 t = blk4 V c 1 t) (t : Fin cfg4.N) (d) : dat.before 1 t d = blk4 V c 1 t :=
  (dat.before_in_eq_fetched 1 rfl (fun _ => rfl) (fun _ _ _ => rfl) (fun t => by rw [hafter]; unfold Dat.blockOf blk4; rw [hA]; try rfl) t d).trans
    (by unfold Dat.fetched Dat.blockOf blk4; rw [hA]; try rfl)

/-- Input window 2's current staging buffer holds the window's block at every point, fetched there or not (where it is
    not fetched its index has not moved), for any proof data over the entry contents whose body leaves the block in place. -/
theorem held4_2_of {c : Dev nD} (dat : Dat τ (Elt F) Unit ℕ (UR sig nD τ) ℕ cfg4 c) (hA : dat.A 2 = V c (Pipeline.arrRef spec4 2))
    (hafter : ∀ t, dat.after 2 t = blk4 V c 2 t) (t : Fin cfg4.N) (d) : dat.before 2 t d = blk4 V c 2 t :=
  (dat.before_in_eq_fetched 2 rfl (fun _ => rfl) (fun _ _ _ => rfl) (fun t => by rw [hafter]; unfold Dat.blockOf blk4; rw [hA]; try rfl) t d).trans
    (by unfold Dat.fetched Dat.blockOf blk4; rw [hA]; try rfl)

/-- Input window 3's current staging buffer holds the window's block at every point, fetched there or not (where it is
    not fetched its index has not moved), for any proof data over the entry contents whose body leaves the block in place. -/
theorem held4_3_of {c : Dev nD} (dat : Dat τ (Elt F) Unit ℕ (UR sig nD τ) ℕ cfg4 c) (hA : dat.A 3 = V c (Pipeline.arrRef spec4 3))
    (hafter : ∀ t, dat.after 3 t = blk4 V c 3 t) (t : Fin cfg4.N) (d) : dat.before 3 t d = blk4 V c 3 t :=
  (dat.before_in_eq_fetched 3 rfl (fun _ => rfl) (fun _ _ _ => rfl) (fun t => by rw [hafter]; unfold Dat.blockOf blk4; rw [hA]; try rfl) t d).trans
    (by unfold Dat.fetched Dat.blockOf blk4; rw [hA]; try rfl)

/-- Input window 4's current staging buffer holds the window's block at every point, fetched there or not (where it is
    not fetched its index has not moved), for any proof data over the entry contents whose body leaves the block in place. -/
theorem held4_4_of {c : Dev nD} (dat : Dat τ (Elt F) Unit ℕ (UR sig nD τ) ℕ cfg4 c) (hA : dat.A 4 = V c (Pipeline.arrRef spec4 4))
    (hafter : ∀ t, dat.after 4 t = blk4 V c 4 t) (t : Fin cfg4.N) (d) : dat.before 4 t d = blk4 V c 4 t :=
  (dat.before_in_eq_fetched 4 rfl (fun _ => rfl) (fun _ _ _ => rfl) (fun t => by rw [hafter]; unfold Dat.blockOf blk4; rw [hA]; try rfl) t d).trans
    (by unfold Dat.fetched Dat.blockOf blk4; rw [hA]; try rfl)

/-- Input window 5's current staging buffer holds the window's block at every point, fetched there or not (where it is
    not fetched its index has not moved), for any proof data over the entry contents whose body leaves the block in place. -/
theorem held4_5_of {c : Dev nD} (dat : Dat τ (Elt F) Unit ℕ (UR sig nD τ) ℕ cfg4 c) (hA : dat.A 5 = V c (Pipeline.arrRef spec4 5))
    (hafter : ∀ t, dat.after 5 t = blk4 V c 5 t) (t : Fin cfg4.N) (d) : dat.before 5 t d = blk4 V c 5 t :=
  (dat.before_in_eq_fetched 5 rfl (fun _ => rfl) (fun _ _ _ => rfl) (fun t => by rw [hafter]; unfold Dat.blockOf blk4; rw [hA]; try rfl) t d).trans
    (by unfold Dat.fetched Dat.blockOf blk4; rw [hA]; try rfl)

/-! ## What the body reads and writes: every block whole -/

abbrev whole4_S5000x64 : Rect S5000x64 := Rect.unit (s := S5000x64) ![0, 0] S5000x64.size inb_S5000x64_S5000x64_0_0
abbrev whole4_S1x64 : Rect S1x64 := Rect.unit (s := S1x64) ![0, 0] S1x64.size inb_S1x64_S1x64_0_0

/-- The output block after the body, from the input blocks: the one whole-block store of the body's arithmetic. -/
def stored4 (x0 : Vec F S5000x64 .f32) (x1 : Vec F S1x64 .f32) (x2 : Vec F S1x64 .f32) (x3 : Vec F S1x64 .f32) (x4 : Vec F S1x64 .f32) (x5 : Vec F S5000x64 .f32) : Vec F S5000x64 .f32 :=
  View.canon [⟨whole4_S5000x64, k4_pay1 (View.ld x0 whole4_S5000x64) (View.ld x3 whole4_S1x64) (View.ld x1 whole4_S1x64) (View.ld x2 whole4_S1x64) (View.ld x4 whole4_S1x64) (View.ld x5 whole4_S5000x64)⟩]

/-- The one store covers the output block. -/
theorem covered4 (p0 : Vec F S5000x64 .f32) (y : S5000x64.Idx) :
    ∃ pc ∈ ([⟨whole4_S5000x64, p0⟩] : List (View.Piece (Elt F) S5000x64 .f32)), y ∈ pc.1.set :=
  View.cover_of_tiled [⟨whole4_S5000x64, p0⟩] S5000x64.size (by rfl) y

set_option maxHeartbeats 1000000 in
/-- The body on whole staging buffers, the inputs' holding `x_w` and the output's anything: it runs, without a fault, to a
    state where the inputs' hold what they held and the output's holds `stored4` of them. -/
theorem body_run4 (c : Dev nD) (E : Set ℕ) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S5000x64 .f32) (harg7 : arg7.IsWhole)
    (x0 : Vec F S5000x64 .f32) (x1 : Vec F S1x64 .f32) (x2 : Vec F S1x64 .f32) (x3 : Vec F S1x64 .f32) (x4 : Vec F S1x64 .f32) (x5 : Vec F S5000x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (stored4 x0 x1 x2 x3 x4 x5)) -∗ K ⟨⟩))
      ⊢ wp frame (wpE (defs₀ (F := F)) Variants.none c none) E (cc4__bn_relu_resid_kernel i arg1 harg1 arg2 harg2 arg3 harg3 arg4 harg4 arg5 harg5 arg6 harg6 arg7 harg7) K := by
  simp only [cc4__bn_relu_resid_kernel_eq_skeleton]; unfold cc4__bn_relu_resid_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (covered4 _)

/-- The region's proof data on core `c`: the arrays as the region finds them; after the body at point `t` every input's
    staging buffer at its block, the output's at `stored4` of the input blocks; nothing owed, full shares. -/
def pd4 (c : Dev nD) : Dat τ (Elt F) Unit ℕ (UR sig nD τ) ℕ cfg4 c where
  A w := V c (Pipeline.arrRef spec4 w)
  after w t := match w with
    | ⟨0, _⟩ => blk4 V c 0 t
    | ⟨1, _⟩ => blk4 V c 1 t
    | ⟨2, _⟩ => blk4 V c 2 t
    | ⟨3, _⟩ => blk4 V c 3 t
    | ⟨4, _⟩ => blk4 V c 4 t
    | ⟨5, _⟩ => blk4 V c 5 t
    | ⟨6, _⟩ => stored4 (blk4 V c 0 t) (blk4 V c 1 t) (blk4 V c 2 t) (blk4 V c 3 t) (blk4 V c 4 t) (blk4 V c 5 t)
  Φ _ := Pipeline.ΦA spec4 c
  q _ := fullShare
  owed _ := 0

theorem pd4_A (c : Dev nD) (w : Fin cfg4.W) : (pd4 V c).A w = V c (Pipeline.arrRef spec4 w) := by
  dsimp only [pd4]

theorem pd4_after_0 (c : Dev nD) (t : Fin cfg4.N) : (pd4 V c).after 0 t = blk4 V c 0 t := by dsimp only [pd4]
theorem pd4_after_1 (c : Dev nD) (t : Fin cfg4.N) : (pd4 V c).after 1 t = blk4 V c 1 t := by dsimp only [pd4]
theorem pd4_after_2 (c : Dev nD) (t : Fin cfg4.N) : (pd4 V c).after 2 t = blk4 V c 2 t := by dsimp only [pd4]
theorem pd4_after_3 (c : Dev nD) (t : Fin cfg4.N) : (pd4 V c).after 3 t = blk4 V c 3 t := by dsimp only [pd4]
theorem pd4_after_4 (c : Dev nD) (t : Fin cfg4.N) : (pd4 V c).after 4 t = blk4 V c 4 t := by dsimp only [pd4]
theorem pd4_after_5 (c : Dev nD) (t : Fin cfg4.N) : (pd4 V c).after 5 t = blk4 V c 5 t := by dsimp only [pd4]
theorem pd4_after_6 (c : Dev nD) (t : Fin cfg4.N) : (pd4 V c).after 6 t = stored4 (blk4 V c 0 t) (blk4 V c 1 t) (blk4 V c 2 t) (blk4 V c 3 t) (blk4 V c 4 t) (blk4 V c 5 t) := by dsimp only [pd4]

theorem pd4_before_0 (c : Dev nD) (t : Fin cfg4.N) (d) : (pd4 V c).before 0 t d = blk4 V c 0 t :=
  held4_0_of V (pd4 V c) (pd4_A V c 0) (pd4_after_0 V c) t d
theorem pd4_before_1 (c : Dev nD) (t : Fin cfg4.N) (d) : (pd4 V c).before 1 t d = blk4 V c 1 t :=
  held4_1_of V (pd4 V c) (pd4_A V c 1) (pd4_after_1 V c) t d
theorem pd4_before_2 (c : Dev nD) (t : Fin cfg4.N) (d) : (pd4 V c).before 2 t d = blk4 V c 2 t :=
  held4_2_of V (pd4 V c) (pd4_A V c 2) (pd4_after_2 V c) t d
theorem pd4_before_3 (c : Dev nD) (t : Fin cfg4.N) (d) : (pd4 V c).before 3 t d = blk4 V c 3 t :=
  held4_3_of V (pd4 V c) (pd4_A V c 3) (pd4_after_3 V c) t d
theorem pd4_before_4 (c : Dev nD) (t : Fin cfg4.N) (d) : (pd4 V c).before 4 t d = blk4 V c 4 t :=
  held4_4_of V (pd4 V c) (pd4_A V c 4) (pd4_after_4 V c) t d
theorem pd4_before_5 (c : Dev nD) (t : Fin cfg4.N) (d) : (pd4 V c).before 5 t d = blk4 V c 5 t :=
  held4_5_of V (pd4 V c) (pd4_A V c 5) (pd4_after_5 V c) t d

/-- What the body is entered with at point `t`, window by window, -/
def entered4 (c : Dev nD) (t : Fin cfg4.N) : sProp 𝕄 :=
  iprop((pd4 V c).Φ t.castSucc ∗ (pd4 V c).owesAt () t.castSucc
    ∗ (∃ d, owns (c : Thread nD τ) (st4_0 t) fullShare ((pd4 V c).before 0 t d))
    ∗ (∃ d, owns (c : Thread nD τ) (st4_1 t) fullShare ((pd4 V c).before 1 t d))
    ∗ (∃ d, owns (c : Thread nD τ) (st4_2 t) fullShare ((pd4 V c).before 2 t d))
    ∗ (∃ d, owns (c : Thread nD τ) (st4_3 t) fullShare ((pd4 V c).before 3 t d))
    ∗ (∃ d, owns (c : Thread nD τ) (st4_4 t) fullShare ((pd4 V c).before 4 t d))
    ∗ (∃ d, owns (c : Thread nD τ) (st4_5 t) fullShare ((pd4 V c).before 5 t d))
    ∗ (∃ d, owns (c : Thread nD τ) (st4_6 t) fullShare ((pd4 V c).before 6 t d)))

/-- and what it returns. -/
def left4 (c : Dev nD) (t : Fin cfg4.N) : sProp 𝕄 :=
  iprop((pd4 V c).Φ t.succ ∗ (pd4 V c).owesAt () t.succ
    ∗ owns (c : Thread nD τ) (st4_0 t) fullShare ((pd4 V c).after 0 t)
    ∗ owns (c : Thread nD τ) (st4_1 t) fullShare ((pd4 V c).after 1 t)
    ∗ owns (c : Thread nD τ) (st4_2 t) fullShare ((pd4 V c).after 2 t)
    ∗ owns (c : Thread nD τ) (st4_3 t) fullShare ((pd4 V c).after 3 t)
    ∗ owns (c : Thread nD τ) (st4_4 t) fullShare ((pd4 V c).after 4 t)
    ∗ owns (c : Thread nD τ) (st4_5 t) fullShare ((pd4 V c).after 5 t)
    ∗ owns (c : Thread nD τ) (st4_6 t) fullShare ((pd4 V c).after 6 t))

/-- The body at any point: the inputs' staging buffers hold their blocks, so `body_run4` applies; the invariant and what
    the core owes pass through unread. -/
theorem body_at4 (c : Dev nD) (t : Fin cfg4.N) :
    entered4 V c t ⊢ wp frame (wpE (defs₀ (F := F)) Variants.none c none) Set.univ (bodyAt4 t) (fun _ => left4 V c t) := by
  unfold entered4 left4 bodyAt4
  simp only [pd4_before_0, pd4_before_1, pd4_before_2, pd4_before_3, pd4_before_4, pd4_before_5]
  rw [show (pd4 V c).Φ t.succ = (pd4 V c).Φ t.castSucc from rfl,
    show (pd4 V c).owesAt () t.succ = (pd4 V c).owesAt () t.castSucc from rfl,
    pd4_after_0, pd4_after_1, pd4_after_2, pd4_after_3, pd4_after_4, pd4_after_5, pd4_after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_run4 c Set.univ (grid4.coords t) _ _ _ _ _ _ _ _ _ _ _ _ _ _ (blk4 V c 0 t) (blk4 V c 1 t) (blk4 V c 2 t) (blk4 V c 3 t) (blk4 V c 4 t) (blk4 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation for region 4, at every point. -/
theorem obligation4 (c : Dev nD) : BodyObligation (pd4 (F := F) V c) (defs₀ (F := F)) Variants.none () Set.univ := fun t => by
  rw [bigSep_W4, bigSep_W4]
  exact body_at4 V c t

end Cert.Kernel.Frm

end
-- ==== Proof.KBRun.lean ====
/-
  The kernel program's run from the launch to the return, at any float instance. Its @main is nine stretches of host
  operations around five kernel regions. The contents of a core's buffers are followed from boundary to boundary:
  a host stretch leaves the fold of its operations' results over what it found; a region leaves each of its arrays at
  what its write-backs make of it (an input's array as entered, the output's at the blocks the body stored, point by
  point) and every other buffer as entered. Each region is entered from "every unscoped buffer at the boundary's
  contents, the generator register at some state, nothing owed" and left in the same form at the next boundary's
  contents. The run ends with every buffer at the last boundary's contents, from which both the frame (no stretch and
  no region writes an argument) and the values of the two results are read.
-/
import proofs.«178339_j40699110097748_1_alg».proof.Proof.Gen.Kernel.Regions
import proofs.«178339_j40699110097748_1_alg».proof.Proof.KBRegion0
import proofs.«178339_j40699110097748_1_alg».proof.Proof.KBRegion1
import proofs.«178339_j40699110097748_1_alg».proof.Proof.KBRegion2
import proofs.«178339_j40699110097748_1_alg».proof.Proof.KBRegion3
import proofs.«178339_j40699110097748_1_alg».proof.Proof.KBRegion4

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core `c`'s buffers at launch. -/
abbrev B0 : Dev nD → Valuation τ sig (Elt F) := fun c b => m (c, b)
/-- After the host stretch `hostOps0`. -/
abbrev B1 : Dev nD → Valuation τ sig (Elt F) := fun c => StableHlo.after hostOps0 (B0 m c)
/-- The same read at the TensorCore's references: what region 0 is entered with. -/
abbrev E1 : (c : Dev nD) → (b : Ref sig .tc) → Buf (Elt F) ((c : Thread nD τ).loc b) := fun c b => B1 m c b
/-- At region 0's exit: its arrays at what the write-backs leave, every other buffer as entered. -/
def B2 (c : Dev nD) : Valuation τ sig (Elt F) :=
  Pipeline.withArrays spec0 c (B1 m c) fun w => (pd0 (E1 m) c).arrAt w cfg0.N
theorem B2_arr (c : Dev nD) (w : Fin cfg0.W) :
    B2 m c (Proc.devRef .tc (Pipeline.arrRef spec0 w)) = (pd0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev E2 : (c : Dev nD) → (b : Ref sig .tc) → Buf (Elt F) ((c : Thread nD τ).loc b) := fun c b => B2 m c b
theorem exitArr0 (c : Dev nD) (w : Fin cfg0.W) : (pd0 (E1 m) c).arrAt w cfg0.N = E2 m c (Pipeline.arrRef spec0 w) :=
  (B2_arr m c w).symm
theorem exitRest0 (c : Dev nD) : ∀ b, b ∉ Finset.univ.image (Pipeline.arrRef spec0) → E2 m c b = E1 m c b :=
  fun b hb => B2_of_ne m c b fun w e => hb (Finset.mem_image.mpr ⟨w, Finset.mem_univ _, e⟩)
/-- After the host stretch `hostOps1`. -/
abbrev B3 : Dev nD → Valuation τ sig (Elt F) := fun c => StableHlo.after hostOps1 (B2 m c)
/-- After the host stretch `hostOps1_1`. -/
abbrev B4 : Dev nD → Valuation τ sig (Elt F) := fun c => StableHlo.after hostOps1_1 (B3 m c)
/-- After the host stretch `hostOps1_2`. -/
abbrev B5 : Dev nD → Valuation τ sig (Elt F) := fun c => StableHlo.after hostOps1_2 (B4 m c)
/-- The same read at the TensorCore's references: what region 1 is entered with. -/
abbrev E5 : (c : Dev nD) → (b : Ref sig .tc) → Buf (Elt F) ((c : Thread nD τ).loc b) := fun c b => B5 m c b
/-- At region 1's exit: its arrays at what the write-backs leave, every other buffer as entered. -/
def B6 (c : Dev nD) : Valuation τ sig (Elt F) :=
  Pipeline.withArrays spec1 c (B5 m c) fun w => (pd1 (E5 m) c).arrAt w cfg1.N
theorem B6_arr (c : Dev nD) (w : Fin cfg1.W) :
    B6 m c (Proc.devRef .tc (Pipeline.arrRef spec1 w)) = (pd1 (E5 m) c).arrAt w cfg1.N := by
  unfold B6; exact Pipeline.withArrays_arr spec1 launch1.win.arr_inj c _ _ w
theorem B6_of_ne (c : Dev nD) (b : Ref sig .tc) (hb : ∀ w, Pipeline.arrRef spec1 w ≠ b) :
    B6 m c (Proc.devRef .tc b) = B5 m c (Proc.devRef .tc b) := by
  unfold B6; exact Pipeline.withArrays_of_ne spec1 c _ _ b hb
abbrev E6 : (c : Dev nD) → (b : Ref sig .tc) → Buf (Elt F) ((c : Thread nD τ).loc b) := fun c b => B6 m c b
theorem exitArr1 (c : Dev nD) (w : Fin cfg1.W) : (pd1 (E5 m) c).arrAt w cfg1.N = E6 m c (Pipeline.arrRef spec1 w) :=
  (B6_arr m c w).symm
theorem exitRest1 (c : Dev nD) : ∀ b, b ∉ Finset.univ.image (Pipeline.arrRef spec1) → E6 m c b = E5 m c b :=
  fun b hb => B6_of_ne m c b fun w e => hb (Finset.mem_image.mpr ⟨w, Finset.mem_univ _, e⟩)
/-- After the host stretch `hostOps2`. -/
abbrev B7 : Dev nD → Valuation τ sig (Elt F) := fun c => StableHlo.after hostOps2 (B6 m c)
/-- The same read at the TensorCore's references: what region 2 is entered with. -/
abbrev E7 : (c : Dev nD) → (b : Ref sig .tc) → Buf (Elt F) ((c : Thread nD τ).loc b) := fun c b => B7 m c b
/-- At region 2's exit: its arrays at what the write-backs leave, every other buffer as entered. -/
def B8 (c : Dev nD) : Valuation τ sig (Elt F) :=
  Pipeline.withArrays spec2 c (B7 m c) fun w => (pd2 (E7 m) c).arrAt w cfg2.N
theorem B8_arr (c : Dev nD) (w : Fin cfg2.W) :
    B8 m c (Proc.devRef .tc (Pipeline.arrRef spec2 w)) = (pd2 (E7 m) c).arrAt w cfg2.N := by
  unfold B8; exact Pipeline.withArrays_arr spec2 launch2.win.arr_inj c _ _ w
theorem B8_of_ne (c : Dev nD) (b : Ref sig .tc) (hb : ∀ w, Pipeline.arrRef spec2 w ≠ b) :
    B8 m c (Proc.devRef .tc b) = B7 m c (Proc.devRef .tc b) := by
  unfold B8; exact Pipeline.withArrays_of_ne spec2 c _ _ b hb
abbrev E8 : (c : Dev nD) → (b : Ref sig .tc) → Buf (Elt F) ((c : Thread nD τ).loc b) := fun c b => B8 m c b
theorem exitArr2 (c : Dev nD) (w : Fin cfg2.W) : (pd2 (E7 m) c).arrAt w cfg2.N = E8 m c (Pipeline.arrRef spec2 w) :=
  (B8_arr m c w).symm
theorem exitRest2 (c : Dev nD) : ∀ b, b ∉ Finset.univ.image (Pipeline.arrRef spec2) → E8 m c b = E7 m c b :=
  fun b hb => B8_of_ne m c b fun w e => hb (Finset.mem_image.mpr ⟨w, Finset.mem_univ _, e⟩)
/-- After the host stretch `hostOps3`. -/
abbrev B9 : Dev nD → Valuation τ sig (Elt F) := fun c => StableHlo.after hostOps3 (B8 m c)
/-- After the host stretch `hostOps3_1`. -/
abbrev B10 : Dev nD → Valuation τ sig (Elt F) := fun c => StableHlo.after hostOps3_1 (B9 m c)
/-- The same read at the TensorCore's references: what region 3 is entered with. -/
abbrev E10 : (c : Dev nD) → (b : Ref sig .tc) → Buf (Elt F) ((c : Thread nD τ).loc b) := fun c b => B10 m c b
/-- At region 3's exit: its arrays at what the write-backs leave, every other buffer as entered. -/
def B11 (c : Dev nD) : Valuation τ sig (Elt F) :=
  Pipeline.withArrays spec3 c (B10 m c) fun w => (pd3 (E10 m) c).arrAt w cfg3.N
theorem B11_arr (c : Dev nD) (w : Fin cfg3.W) :
    B11 m c (Proc.devRef .tc (Pipeline.arrRef spec3 w)) = (pd3 (E10 m) c).arrAt w cfg3.N := by
  unfold B11; exact Pipeline.withArrays_arr spec3 launch3.win.arr_inj c _ _ w
theorem B11_of_ne (c : Dev nD) (b : Ref sig .tc) (hb : ∀ w, Pipeline.arrRef spec3 w ≠ b) :
    B11 m c (Proc.devRef .tc b) = B10 m c (Proc.devRef .tc b) := by
  unfold B11; exact Pipeline.withArrays_of_ne spec3 c _ _ b hb
abbrev E11 : (c : Dev nD) → (b : Ref sig .tc) → Buf (Elt F) ((c : Thread nD τ).loc b) := fun c b => B11 m c b
theorem exitArr3 (c : Dev nD) (w : Fin cfg3.W) : (pd3 (E10 m) c).arrAt w cfg3.N = E11 m c (Pipeline.arrRef spec3 w) :=
  (B11_arr m c w).symm
theorem exitRest3 (c : Dev nD) : ∀ b, b ∉ Finset.univ.image (Pipeline.arrRef spec3) → E11 m c b = E10 m c b :=
  fun b hb => B11_of_ne m c b fun w e => hb (Finset.mem_image.mpr ⟨w, Finset.mem_univ _, e⟩)
/-- After the host stretch `hostOps4`. -/
abbrev B12 : Dev nD → Valuation τ sig (Elt F) := fun c => StableHlo.after hostOps4 (B11 m c)
/-- The same read at the TensorCore's references: what region 4 is entered with. -/
abbrev E12 : (c : Dev nD) → (b : Ref sig .tc) → Buf (Elt F) ((c : Thread nD τ).loc b) := fun c b => B12 m c b
/-- At region 4's exit: its arrays at what the write-backs leave, every other buffer as entered. -/
def B13 (c : Dev nD) : Valuation τ sig (Elt F) :=
  Pipeline.withArrays spec4 c (B12 m c) fun w => (pd4 (E12 m) c).arrAt w cfg4.N
theorem B13_arr (c : Dev nD) (w : Fin cfg4.W) :
    B13 m c (Proc.devRef .tc (Pipeline.arrRef spec4 w)) = (pd4 (E12 m) c).arrAt w cfg4.N := by
  unfold B13; exact Pipeline.withArrays_arr spec4 launch4.win.arr_inj c _ _ w
theorem B13_of_ne (c : Dev nD) (b : Ref sig .tc) (hb : ∀ w, Pipeline.arrRef spec4 w ≠ b) :
    B13 m c (Proc.devRef .tc b) = B12 m c (Proc.devRef .tc b) := by
  unfold B13; exact Pipeline.withArrays_of_ne spec4 c _ _ b hb
abbrev E13 : (c : Dev nD) → (b : Ref sig .tc) → Buf (Elt F) ((c : Thread nD τ).loc b) := fun c b => B13 m c b
theorem exitArr4 (c : Dev nD) (w : Fin cfg4.W) : (pd4 (E12 m) c).arrAt w cfg4.N = E13 m c (Pipeline.arrRef spec4 w) :=
  (B13_arr m c w).symm
theorem exitRest4 (c : Dev nD) : ∀ b, b ∉ Finset.univ.image (Pipeline.arrRef spec4) → E13 m c b = E12 m c b :=
  fun b hb => B13_of_ne m c b fun w e => hb (Finset.mem_image.mpr ⟨w, Finset.mem_univ _, e⟩)
/-- After the host stretch `hostOps5`. -/
abbrev B14 : Dev nD → Valuation τ sig (Elt F) := fun c => StableHlo.after hostOps5 (B13 m c)

/-! ## The proof data family and the thread state -/

/-- Every region's proof data, each at its region's entry contents. -/
def pds : (p : Fin 5) → (c : Dev nD) → Dat τ (Elt F) Unit ℕ (UR sig nD τ) ℕ (Pipeline.pin (pcfgs (F := F)) adm p) c
  | ⟨0, _⟩ => fun c => pd0 (E1 m) c
  | ⟨1, _⟩ => fun c => pd1 (E5 m) c
  | ⟨2, _⟩ => fun c => pd2 (E7 m) c
  | ⟨3, _⟩ => fun c => pd3 (E10 m) c
  | ⟨4, _⟩ => fun c => pd4 (E12 m) c
abbrev noVar : Variants := Variants.none
/-- No core owes another anything: no level is assigned. -/
abbrev noL : GSem nD τ sig → Finset Unit := fun _ => ∅
abbrev noLv : GSem nD τ sig → Unit → ℕ := fun _ _ => 0
/-- What rides beside the buffers through every item: the generator register at some state, and nothing owed. -/
abbrev Ride (c : Dev nD) : sProp 𝕄 := iprop((∃ r, prngReg c r) ∗ ∃ W, owes (c : Thread nD τ) (0 : CellTallies nD τ sig Unit) W)
/-- A host stretch as an item of the run, from the contents `W`. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVar noL noLv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Ride
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed. -/
abbrev Tend (c : Dev nD) : sProp 𝕄 := iprop(StableHlo.held (c : Thread nD τ) (Pipeline.ucRefs τ sig) (B14 m c) ∗ ∃ r, prngReg c r)

/-! ## The regions as items of the run -/

set_option backward.isDefEq.respectTransparency.types false in
/-- Region 0: entered from every unscoped buffer at `B1`, left at `B2`; its arrays split out of the unscoped buffers
    and put back at the exit contents; the generator register into the class invariant and out; nothing owed. -/
def reg0 : Pipeline.RegionSeg (pcfgs (F := F)) adm (pds m) () defs₀ noVar noL noLv 0 where
  win := launch0.win.to₀
  block_pos := launch0.block_pos
  stage_whole := launch0.stage_whole
  K := PEmpty
  osem k := k.elim
  ho := Pipeline.OwnSemFacts.none _
  hbody c := (obligation0 (E1 m) c).loose
  hwaits := Pipeline.hwaits_of_owed_zero _ _ _ _ noL noLv 0 fun _ _ => rfl
  pre c := iprop(StableHlo.held (c : Thread nD τ) (Pipeline.ucRefs τ sig) (B1 m c) ∗ Ride c)
  post c := iprop(StableHlo.held (c : Thread nD τ) (Pipeline.ucRefs τ sig) (B2 m c) ∗ Ride c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pds m) launch0.win launch0.arr_whole c
      ((pds m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pds m 0 c).Φ 0 = Pipeline.ΦA spec0 c from rfl]; unfold Pipeline.ΦA
    iintro ⟨Hp, -, Hr⟩
    isplitl [Hr]; · iexact Hr
    iexact Hp
  hout c := by
    rw [Pipeline.ownSems0_none, show (pds m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pds m) ((pds m 0 c).share_full fun _ => rfl)
      (E1 m c) (E2 m c) ((pds m 0 c).arrAt · cfg0.N) (exitArr0 m c) (exitRest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `B5`, left at `B6`; its arrays split out of the unscoped buffers
    and put back at the exit contents; the generator register into the class invariant and out; nothing owed. -/
def reg1 : Pipeline.RegionSeg (pcfgs (F := F)) adm (pds m) () defs₀ noVar noL noLv 1 where
  win := launch1.win.to₀
  block_pos := launch1.block_pos
  stage_whole := launch1.stage_whole
  K := PEmpty
  osem k := k.elim
  ho := Pipeline.OwnSemFacts.none _
  hbody c := (obligation1 (E5 m) c).loose
  hwaits := Pipeline.hwaits_of_owed_zero _ _ _ _ noL noLv 1 fun _ _ => rfl
  pre c := iprop(StableHlo.held (c : Thread nD τ) (Pipeline.ucRefs τ sig) (B5 m c) ∗ Ride c)
  post c := iprop(StableHlo.held (c : Thread nD τ) (Pipeline.ucRefs τ sig) (B6 m c) ∗ Ride c)
  X c := iprop(∃ r, prngReg c r)
  Y c := iprop(∃ r, prngReg c r)
  Z c := Pipeline.unscopedRest (Ix := Unit) (Name := ℕ) (U := UR sig nD τ) (Lvl := ℕ) spec1 c (E5 m c)
  hentry c := by
    rw [Pipeline.ownSems0_none]
    have hsplit := Pipeline.arrays_of_unscopedBufs (p := 1) (pcfgs (F := F)) adm (pds m) launch1.win launch1.arr_whole c
      ((pds m 1 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pds m 1 c).Φ 0 = Pipeline.ΦA spec1 c from rfl]; unfold Pipeline.ΦA
    iintro ⟨Hp, -, Hr⟩
    isplitl [Hr]; · iexact Hr
    iexact Hp
  hout c := by
    rw [Pipeline.ownSems0_none, show (pds m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pds m) ((pds m 1 c).share_full fun _ => rfl)
      (E5 m c) (E6 m c) ((pds m 1 c).arrAt · cfg1.N) (exitArr1 m c) (exitRest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at `B7`, left at `B8`; its arrays split out of the unscoped buffers
    and put back at the exit contents; the generator register into the class invariant and out; nothing owed. -/
def reg2 : Pipeline.RegionSeg (pcfgs (F := F)) adm (pds m) () defs₀ noVar noL noLv 2 where
  win := launch2.win.to₀
  block_pos := launch2.block_pos
  stage_whole := launch2.stage_whole
  K := PEmpty
  osem k := k.elim
  ho := Pipeline.OwnSemFacts.none _
  hbody c := (obligation2 (E7 m) c).loose
  hwaits := Pipeline.hwaits_of_owed_zero _ _ _ _ noL noLv 2 fun _ _ => rfl
  pre c := iprop(StableHlo.held (c : Thread nD τ) (Pipeline.ucRefs τ sig) (B7 m c) ∗ Ride c)
  post c := iprop(StableHlo.held (c : Thread nD τ) (Pipeline.ucRefs τ sig) (B8 m c) ∗ Ride c)
  X c := iprop(∃ r, prngReg c r)
  Y c := iprop(∃ r, prngReg c r)
  Z c := Pipeline.unscopedRest (Ix := Unit) (Name := ℕ) (U := UR sig nD τ) (Lvl := ℕ) spec2 c (E7 m c)
  hentry c := by
    rw [Pipeline.ownSems0_none]
    have hsplit := Pipeline.arrays_of_unscopedBufs (p := 2) (pcfgs (F := F)) adm (pds m) launch2.win launch2.arr_whole c
      ((pds m 2 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pds m 2 c).Φ 0 = Pipeline.ΦA spec2 c from rfl]; unfold Pipeline.ΦA
    iintro ⟨Hp, -, Hr⟩
    isplitl [Hr]; · iexact Hr
    iexact Hp
  hout c := by
    rw [Pipeline.ownSems0_none, show (pds m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pds m) ((pds m 2 c).share_full fun _ => rfl)
      (E7 m c) (E8 m c) ((pds m 2 c).arrAt · cfg2.N) (exitArr2 m c) (exitRest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every unscoped buffer at `B10`, left at `B11`; its arrays split out of the unscoped buffers
    and put back at the exit contents; the generator register into the class invariant and out; nothing owed. -/
def reg3 : Pipeline.RegionSeg (pcfgs (F := F)) adm (pds m) () defs₀ noVar noL noLv 3 where
  win := launch3.win.to₀
  block_pos := launch3.block_pos
  stage_whole := launch3.stage_whole
  K := PEmpty
  osem k := k.elim
  ho := Pipeline.OwnSemFacts.none _
  hbody c := (obligation3 (E10 m) c).loose
  hwaits := Pipeline.hwaits_of_owed_zero _ _ _ _ noL noLv 3 fun _ _ => rfl
  pre c := iprop(StableHlo.held (c : Thread nD τ) (Pipeline.ucRefs τ sig) (B10 m c) ∗ Ride c)
  post c := iprop(StableHlo.held (c : Thread nD τ) (Pipeline.ucRefs τ sig) (B11 m c) ∗ Ride c)
  X c := iprop(∃ r, prngReg c r)
  Y c := iprop(∃ r, prngReg c r)
  Z c := Pipeline.unscopedRest (Ix := Unit) (Name := ℕ) (U := UR sig nD τ) (Lvl := ℕ) spec3 c (E10 m c)
  hentry c := by
    rw [Pipeline.ownSems0_none]
    have hsplit := Pipeline.arrays_of_unscopedBufs (p := 3) (pcfgs (F := F)) adm (pds m) launch3.win launch3.arr_whole c
      ((pds m 3 c).share_full fun _ => rfl) (E10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pds m 3 c).Φ 0 = Pipeline.ΦA spec3 c from rfl]; unfold Pipeline.ΦA
    iintro ⟨Hp, -, Hr⟩
    isplitl [Hr]; · iexact Hr
    iexact Hp
  hout c := by
    rw [Pipeline.ownSems0_none, show (pds m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pds m) ((pds m 3 c).share_full fun _ => rfl)
      (E10 m c) (E11 m c) ((pds m 3 c).arrAt · cfg3.N) (exitArr3 m c) (exitRest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered from every unscoped buffer at `B12`, left at `B13`; its arrays split out of the unscoped buffers
    and put back at the exit contents; the generator register into the class invariant and out; nothing owed. -/
def reg4 : Pipeline.RegionSeg (pcfgs (F := F)) adm (pds m) () defs₀ noVar noL noLv 4 where
  win := launch4.win.to₀
  block_pos := launch4.block_pos
  stage_whole := launch4.stage_whole
  K := PEmpty
  osem k := k.elim
  ho := Pipeline.OwnSemFacts.none _
  hbody c := (obligation4 (E12 m) c).loose
  hwaits := Pipeline.hwaits_of_owed_zero _ _ _ _ noL noLv 4 fun _ _ => rfl
  pre c := iprop(StableHlo.held (c : Thread nD τ) (Pipeline.ucRefs τ sig) (B12 m c) ∗ Ride c)
  post c := iprop(StableHlo.held (c : Thread nD τ) (Pipeline.ucRefs τ sig) (B13 m c) ∗ Ride c)
  X c := iprop(∃ r, prngReg c r)
  Y c := iprop(∃ r, prngReg c r)
  Z c := Pipeline.unscopedRest (Ix := Unit) (Name := ℕ) (U := UR sig nD τ) (Lvl := ℕ) spec4 c (E12 m c)
  hentry c := by
    rw [Pipeline.ownSems0_none]
    have hsplit := Pipeline.arrays_of_unscopedBufs (p := 4) (pcfgs (F := F)) adm (pds m) launch4.win launch4.arr_whole c
      ((pds m 4 c).share_full fun _ => rfl) (E12 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pds m 4 c).Φ 0 = Pipeline.ΦA spec4 c from rfl]; unfold Pipeline.ΦA
    iintro ⟨Hp, -, Hr⟩
    isplitl [Hr]; · iexact Hr
    iexact Hp
  hout c := by
    rw [Pipeline.ownSems0_none, show (pds m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pds m) ((pds m 4 c).share_full fun _ => rfl)
      (E12 m c) (E13 m c) ((pds m 4 c).arrAt · cfg4.N) (exitArr4 m c) (exitRest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as the items in order, and the launch -/

abbrev items : List (Pipeline.Seg (pcfgs (F := F)) adm (pds m) () defs₀ noVar noL noLv) :=
  [ .host (stretch hostOps0 hostOps0_sub hostOps0_fresh (B0 m)),
    .region (reg0 m),
    .host (stretch hostOps1 hostOps1_sub hostOps1_fresh (B2 m)),
    .host (stretch hostOps1_1 hostOps1_1_sub hostOps1_1_fresh (B3 m)),
    .host (stretch hostOps1_2 hostOps1_2_sub hostOps1_2_fresh (B4 m)),
    .region (reg1 m),
    .host (stretch hostOps2 hostOps2_sub hostOps2_fresh (B6 m)),
    .region (reg2 m),
    .host (stretch hostOps3 hostOps3_sub hostOps3_fresh (B8 m)),
    .host (stretch hostOps3_1 hostOps3_1_sub hostOps3_1_fresh (B9 m)),
    .region (reg3 m),
    .host (stretch hostOps4 hostOps4_sub hostOps4_fresh (B11 m)),
    .region (reg4 m),
    .host (stretch hostOps5 hostOps5_sub hostOps5_fresh (B13 m)) ]
/-- @main is the run of the items. -/
theorem main_items (c : Dev nD) : main (F := F) c = Pipeline.Seg.run (items m) := (main_chain c).trans (by chain_rfl)

set_option backward.isDefEq.respectTransparency.types false in
/-- THE RUN: from any memory with zero counters every weakly fair execution of @main on the TensorCores terminates,
    nothing faulting, and in every final state every unscoped buffer of every core holds the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = B14 m c b) :=
  Pipeline.θ_run_regions_kit (pcfgs (F := F)) adm (pds m) () cellOf_inj emb₁ defs₀ noVar noL noLv m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ Ride c)) (Tₙ := Tend m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (B14 m c) ∗ Ride c) ⊢ _
      iintro ⟨Hh, Hp, HO⟩
      isplitl [Hh Hp]
      · isplitl [Hh]; · iexact Hh
        iexact Hp
      iexact HO⟩)
    (hinit := by
      refine Pipeline.initEach noL noLv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B14 m c b)
    (hfin := fun c s' => by
      iintro ⟨⟨Hh, -⟩, HSI⟩
      unfold StableHlo.held
      imodintro
      iapply (pointsTo_read_all (Pipeline.ucRefs τ sig) (fun b => (((c : Thread nD τ)).1, b)) (B14 m c) s')
      isplitl [Hh] <;> iassumption)
    (hQ := fun s h c => h c)

end Cert.Kernel.Frm

end
-- ==== Proof.KBFrame.lean ====
/-
  The frame of the kernel program: every argument array ends as launched. No host operation writes an argument and no
  region's output array is one; a region whose INPUT window stages an argument (the residual matrix) leaves it as
  entered. So the last boundary's contents at an argument walk back, boundary by boundary, to the launch memory.
-/
import proofs.«178339_j40699110097748_1_alg».proof.Proof.KBRun

set_option maxRecDepth 16384

noncomputable section

namespace Cert.Kernel.Frm

open Cert.Kernel Cert.Kernel.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ)

/-- A buffer no host stretch writes and no region stages ends as launched. -/
theorem untouched (c : Dev nD) (r : Ref sig .tc)
    (h0 : r ∉ hostOps0_W) (h1 : r ∉ hostOps1_W) (h2 : r ∉ hostOps1_1_W) (h3 : r ∉ hostOps1_2_W) (h4 : r ∉ hostOps2_W) (h5 : r ∉ hostOps3_W) (h6 : r ∉ hostOps3_1_W) (h7 : r ∉ hostOps4_W) (h8 : r ∉ hostOps5_W)
    (a0 : ∀ w, Pipeline.arrRef spec0 w ≠ r) (a1 : ∀ w, Pipeline.arrRef spec1 w ≠ r) (a2 : ∀ w, Pipeline.arrRef spec2 w ≠ r) (a3 : ∀ w, Pipeline.arrRef spec3 w ≠ r) (a4 : ∀ w, Pipeline.arrRef spec4 w ≠ r) :
    B14 m c r = m ((c : Thread nD τ).loc r) :=
  (StableHlo.after_of_writes_sub hostOps5 _ hostOps5_writes h8).trans <| (B13_of_ne m c r a4).trans <|
  (StableHlo.after_of_writes_sub hostOps4 _ hostOps4_writes h7).trans <| (B11_of_ne m c r a3).trans <|
  (StableHlo.after_of_writes_sub hostOps3_1 _ hostOps3_1_writes h6).trans <| (StableHlo.after_of_writes_sub hostOps3 _ hostOps3_writes h5).trans <|
  (B8_of_ne m c r a2).trans <| (StableHlo.after_of_writes_sub hostOps2 _ hostOps2_writes h4).trans <| (B6_of_ne m c r a1).trans <|
  (StableHlo.after_of_writes_sub hostOps1_2 _ hostOps1_2_writes h3).trans <| (StableHlo.after_of_writes_sub hostOps1_1 _ hostOps1_1_writes h2).trans <|
  (StableHlo.after_of_writes_sub hostOps1 _ hostOps1_writes h1).trans <| (B2_of_ne m c r a0).trans <|
  (StableHlo.after_of_writes_sub hostOps0 _ hostOps0_writes h0)

/-- The residual matrix is the fourth region's second input window: the region leaves an input's array as entered. -/
theorem untouched_R (c : Dev nD) : B14 m c main_arg16 = m ((c : Thread nD τ).loc main_arg16) :=
  (StableHlo.after_of_writes_sub hostOps5 _ hostOps5_writes (by decide)).trans <| (B13_of_ne m c main_arg16 (by decide)).trans <|
  (StableHlo.after_of_writes_sub hostOps4 _ hostOps4_writes (by decide)).trans <|
  ((B11_arr m c 1).trans (((pd3 (E10 m) c).arrAt_in 1 rfl _).trans (pd3_A (E10 m) c 1))).trans <|
  (StableHlo.after_of_writes_sub hostOps3_1 _ hostOps3_1_writes (by decide)).trans <| (StableHlo.after_of_writes_sub hostOps3 _ hostOps3_writes (by decide)).trans <|
  (B8_of_ne m c main_arg16 (by decide)).trans <| (StableHlo.after_of_writes_sub hostOps2 _ hostOps2_writes (by decide)).trans <| (B6_of_ne m c main_arg16 (by decide)).trans <|
  (StableHlo.after_of_writes_sub hostOps1_2 _ hostOps1_2_writes (by decide)).trans <| (StableHlo.after_of_writes_sub hostOps1_1 _ hostOps1_1_writes (by decide)).trans <|
  (StableHlo.after_of_writes_sub hostOps1 _ hostOps1_writes (by decide)).trans <| (B2_of_ne m c main_arg16 (by decide)).trans <|
  (StableHlo.after_of_writes_sub hostOps0 _ hostOps0_writes (by decide))

theorem kept_arg0 (c : Dev nD) : B14 m c main_arg0 = m ((c : Thread nD τ).loc main_arg0) :=
  untouched m c main_arg0 (by decide) (by decide) (by decide) (by decide) (by decide) (by decide) (by decide) (by decide) (by decide) (by decide) (by decide) (by decide) (by decide) (by decide)
theorem kept_arg1 (c : Dev nD) : B14 m c main_arg1 = m ((c : Thread nD τ).loc main_arg1) :=
  untouched m c main_arg1 (by decide) (by decide) (by decide) (by decide) (by decide) (by decide) (by decide) (by decide) (by decide) (by decide) (by decide) (by decide) (by decide) (by decide)
theorem kept_arg2 (c : Dev nD) : B14 m c main_arg2 = m ((c : Thread nD τ).loc main_arg2) :=
  untouched m c main_arg2 (by decide) (by decide) (by decide) (by decide) (by decide) (by decide) (by decide) (by decide) (by decide) (by decide) (by decide) (by decide) (by decide) (by decide)
theorem kept_arg3 (c : Dev nD) : B14 m c main_arg3 = m ((c : Thread nD τ).loc main_arg3) :=
  untouched m c main_arg3 (by decide) (by decide) (by decide) (by decide) (by decide) (by decide) (by decide) (by decide) (by decide) (by decide) (by decide) (by decide) (by decide) (by decide)
theorem kept_arg4 (c : Dev nD) : B14 m c main_arg4 = m ((c : Thread nD τ).loc main_arg4) :=
  untouched m c main_arg4 (by decide) (by decide) (by decide) (by decide) (by decide) (by decide) (by decide) (by decide) (by decide) (by decide) (by decide) (by decide) (by decide) (by decide)
theorem kept_arg5 (c : Dev nD) : B14 m c main_arg5 = m ((c : Thread nD τ).loc main_arg5) :=
  untouched m c main_arg5 (by decide) (by decide) (by decide) (by decide) (by decide) (by decide) (by decide) (by decide) (by decide) (by decide) (by decide) (by decide) (by decide) (by decide)
theorem kept_arg6 (c : Dev nD) : B14 m c main_arg6 = m ((c : Thread nD τ).loc main_arg6) :=
  untouched m c main_arg6 (by decide) (by decide) (by decide) (by decide) (by decide) (by decide) (by decide) (by decide) (by decide) (by decide) (by decide) (by decide) (by decide) (by decide)
theorem kept_arg7 (c : Dev nD) : B14 m c main_arg7 = m ((c : Thread nD τ).loc main_arg7) :=
  untouched m c main_arg7 (by decide) (by decide) (by decide) (by decide) (by decide) (by decide) (by decide) (by decide) (by decide) (by decide) (by decide) (by decide) (by decide) (by decide)
theorem kept_arg8 (c : Dev nD) : B14 m c main_arg8 = m ((c : Thread nD τ).loc main_arg8) :=
  untouched m c main_arg8 (by decide) (by decide) (by decide) (by decide) (by decide) (by decide) (by decide) (by decide) (by decide) (by decide) (by decide) (by decide) (by decide) (by decide)
theorem kept_arg9 (c : Dev nD) : B14 m c main_arg9 = m ((c : Thread nD τ).loc main_arg9) :=
  untouched m c main_arg9 (by decide) (by decide) (by decide) (by decide) (by decide) (by decide) (by decide) (by decide) (by decide) (by decide) (by decide) (by decide) (by decide) (by decide)
theorem kept_arg10 (c : Dev nD) : B14 m c main_arg10 = m ((c : Thread nD τ).loc main_arg10) :=
  untouched m c main_arg10 (by decide) (by decide) (by decide) (by decide) (by decide) (by decide) (by decide) (by decide) (by decide) (by decide) (by decide) (by decide) (by decide) (by decide)
theorem kept_arg11 (c : Dev nD) : B14 m c main_arg11 = m ((c : Thread nD τ).loc main_arg11) :=
  untouched m c main_arg11 (by decide) (by decide) (by decide) (by decide) (by decide) (by decide) (by decide) (by decide) (by decide) (by decide) (by decide) (by decide) (by decide) (by decide)
theorem kept_arg12 (c : Dev nD) : B14 m c main_arg12 = m ((c : Thread nD τ).loc main_arg12) :=
  untouched m c main_arg12 (by decide) (by decide) (by decide) (by decide) (by decide) (by decide) (by decide) (by decide) (by decide) (by decide) (by decide) (by decide) (by decide) (by decide)
theorem kept_arg13 (c : Dev nD) : B14 m c main_arg13 = m ((c : Thread nD τ).loc main_arg13) :=
  untouched m c main_arg13 (by decide) (by decide) (by decide) (by decide) (by decide) (by decide) (by decide) (by decide) (by decide) (by decide) (by decide) (by decide) (by decide) (by decide)
theorem kept_arg14 (c : Dev nD) : B14 m c main_arg14 = m ((c : Thread nD τ).loc main_arg14) :=
  untouched m c main_arg14 (by decide) (by decide) (by decide) (by decide) (by decide) (by decide) (by decide) (by decide) (by decide) (by decide) (by decide) (by decide) (by decide) (by decide)
theorem kept_arg15 (c : Dev nD) : B14 m c main_arg15 = m ((c : Thread nD τ).loc main_arg15) :=
  untouched m c main_arg15 (by decide) (by decide) (by decide) (by decide) (by decide) (by decide) (by decide) (by decide) (by decide) (by decide) (by decide) (by decide) (by decide) (by decide)
theorem kept_arg17 (c : Dev nD) : B14 m c main_arg17 = m ((c : Thread nD τ).loc main_arg17) :=
  untouched m c main_arg17 (by decide) (by decide) (by decide) (by decide) (by decide) (by decide) (by decide) (by decide) (by decide) (by decide) (by decide) (by decide) (by decide) (by decide)
theorem kept_arg18 (c : Dev nD) : B14 m c main_arg18 = m ((c : Thread nD τ).loc main_arg18) :=
  untouched m c main_arg18 (by decide) (by decide) (by decide) (by decide) (by decide) (by decide) (by decide) (by decide) (by decide) (by decide) (by decide) (by decide) (by decide) (by decide)
theorem kept_arg19 (c : Dev nD) : B14 m c main_arg19 = m ((c : Thread nD τ).loc main_arg19) :=
  untouched m c main_arg19 (by decide) (by decide) (by decide) (by decide) (by decide) (by decide) (by decide) (by decide) (by decide) (by decide) (by decide) (by decide) (by decide) (by decide)
theorem kept_arg20 (c : Dev nD) : B14 m c main_arg20 = m ((c : Thread nD τ).loc main_arg20) :=
  untouched m c main_arg20 (by decide) (by decide) (by decide) (by decide) (by decide) (by decide) (by decide) (by decide) (by decide) (by decide) (by decide) (by decide) (by decide) (by decide)
theorem kept_arg16 (c : Dev nD) : B14 m c main_arg16 = m ((c : Thread nD τ).loc main_arg16) := untouched_R m c

/-- THE FRAME, at any float instance. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c => ⟨(h c _ (mem_uc main_arg0 (by decide))).trans (kept_arg0 m c),
    (h c _ (mem_uc main_arg1 (by decide))).trans (kept_arg1 m c),
    (h c _ (mem_uc main_arg2 (by decide))).trans (kept_arg2 m c),
    (h c _ (mem_uc main_arg3 (by decide))).trans (kept_arg3 m c),
    (h c _ (mem_uc main_arg4 (by decide))).trans (kept_arg4 m c),
    (h c _ (mem_uc main_arg5 (by decide))).trans (kept_arg5 m c),
    (h c _ (mem_uc main_arg6 (by decide))).trans (kept_arg6 m c),
    (h c _ (mem_uc main_arg7 (by decide))).trans (kept_arg7 m c),
    (h c _ (mem_uc main_arg8 (by decide))).trans (kept_arg8 m c),
    (h c _ (mem_uc main_arg9 (by decide))).trans (kept_arg9 m c),
    (h c _ (mem_uc main_arg10 (by decide))).trans (kept_arg10 m c),
    (h c _ (mem_uc main_arg11 (by decide))).trans (kept_arg11 m c),
    (h c _ (mem_uc main_arg12 (by decide))).trans (kept_arg12 m c),
    (h c _ (mem_uc main_arg13 (by decide))).trans (kept_arg13 m c),
    (h c _ (mem_uc main_arg14 (by decide))).trans (kept_arg14 m c),
    (h c _ (mem_uc main_arg15 (by decide))).trans (kept_arg15 m c),
    (h c _ (mem_uc main_arg16 (by decide))).trans (kept_arg16 m c),
    (h c _ (mem_uc main_arg17 (by decide))).trans (kept_arg17 m c),
    (h c _ (mem_uc main_arg18 (by decide))).trans (kept_arg18 m c),
    (h c _ (mem_uc main_arg19 (by decide))).trans (kept_arg19 m c),
    (h c _ (mem_uc main_arg20 (by decide))).trans (kept_arg20 m c)⟩)
    (run_all m ρ)

end Cert.Kernel.Frm

end
-- ==== Proof.KIRegion0.lean ====
/-
  Region 0 of the kernel program, at any float instance: one 5000-row block of the node features times the 64×256 matrix of the four first-stage weight matrices side by side: block row r, column j of the result is the sum over k of x[r,k]·W[k,j].
  Stated at a parameter `V`, the contents of the core's buffers when the region is entered: each window's block at a grid
  point is the window's rectangle of its array read through `V`; the body reads every input block whole, stores the one
  output block whole, so after the body the output's staging buffer holds the body's arithmetic of the input blocks and
  every input's staging buffer still holds its block — also at the points where a window whose index does not move
  (the matrix, the per-column rows) is not fetched again.
-/
import proofs.«178339_j40699110097748_1_alg».proof.Proof.Gen.KernelIdeal.Launch
import proofs.«178339_j40699110097748_1_alg».proof.Proof.Gen.KernelIdeal.Skeleton
import proofs.«178339_j40699110097748_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: its rectangle of the window's array, read through the entry contents. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds the window's block at every point, fetched there or not (where it is
    not fetched its index has not moved), for any proof data over the entry contents whose body leaves the block in place. -/
theorem held0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- Input window 1's current staging buffer holds the window's block at every point, fetched there or not (where it is
    not fetched its index has not moved), for any proof data over the entry contents whose body leaves the block in place. -/
theorem held0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-! ## What the body reads and writes: every block whole -/

abbrev whole0_S5000x64 : Rect S5000x64 := Rect.unit (s := S5000x64) ![0, 0] S5000x64.size inb_S5000x64_S5000x64_0_0
abbrev whole0_S64x256 : Rect S64x256 := Rect.unit (s := S64x256) ![0, 0] S64x256.size inb_S64x256_S64x256_0_0
abbrev whole0_S5000x256 : Rect S5000x256 := Rect.unit (s := S5000x256) ![0, 0] S5000x256.size inb_S5000x256_S5000x256_0_0

/-- The output block after the body, from the input blocks: the one whole-block store of the body's arithmetic. -/
def stored0 (x0 : Vec F S5000x64 .f32) (x1 : Vec F S64x256 .f32) : Vec F S5000x256 .f32 :=
  View.canon [⟨whole0_S5000x256, k0_pay1 (View.ld x0 whole0_S5000x64) (View.ld x1 whole0_S64x256)⟩]

/-- The one store covers the output block. -/
theorem covered0 (p0 : Vec F S5000x256 .f32) (y : S5000x256.Idx) :
    ∃ pc ∈ ([⟨whole0_S5000x256, p0⟩] : List (View.Piece (Elt F) S5000x256 .f32)), y ∈ pc.1.set :=
  View.cover_of_tiled [⟨whole0_S5000x256, p0⟩] S5000x256.size (by rfl) y

set_option maxHeartbeats 1000000 in
/-- The body on whole staging buffers, the inputs' holding `x_w` and the output's anything: it runs, without a fault, to a
    state where the inputs' hold what they held and the output's holds `stored0` of them. -/
theorem body_run0 (c : Dev nD) (E : Set ℕ) (i : grid0.Coords) (arg1 : Memref sig .tc .vmem S5000x64 .f32) (harg1 : arg1.IsWhole) (arg2 : Memref sig .tc .vmem S64x256 .f32) (harg2 : arg2.IsWhole) (arg3 : Memref sig .tc .vmem S5000x256 .f32) (harg3 : arg3.IsWhole)
    (x0 : Vec F S5000x64 .f32) (x1 : Vec F S64x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (stored0 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (covered0 _)

/-- The region's proof data on core `c`: the arrays as the region finds them; after the body at point `t` every input's
    staging buffer at its block, the output's at `stored0` of the input blocks; nothing owed, full shares. -/
def pd0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => stored0 (blk0 V c 0 t) (blk0 V c 1 t)
  Φ _ := Pipeline.ΦA spec0 c
  q _ := fullShare
  owed _ := 0

theorem pd0_A (c : Dev nD) (w : Fin cfg0.W) : (pd0 V c).A w = V c (Pipeline.arrRef spec0 w) := by
  dsimp only [pd0]

theorem pd0_after_0 (c : Dev nD) (t : Fin cfg0.N) : (pd0 V c).after 0 t = blk0 V c 0 t := by dsimp only [pd0]
theorem pd0_after_1 (c : Dev nD) (t : Fin cfg0.N) : (pd0 V c).after 1 t = blk0 V c 1 t := by dsimp only [pd0]
theorem pd0_after_2 (c : Dev nD) (t : Fin cfg0.N) : (pd0 V c).after 2 t = stored0 (blk0 V c 0 t) (blk0 V c 1 t) := by dsimp only [pd0]

theorem pd0_before_0 (c : Dev nD) (t : Fin cfg0.N) (d) : (pd0 V c).before 0 t d = blk0 V c 0 t :=
  held0_0_of V (pd0 V c) (pd0_A V c 0) (pd0_after_0 V c) t d
theorem pd0_before_1 (c : Dev nD) (t : Fin cfg0.N) (d) : (pd0 V c).before 1 t d = blk0 V c 1 t :=
  held0_1_of V (pd0 V c) (pd0_A V c 1) (pd0_after_1 V c) t d

/-- What the body is entered with at point `t`, window by window, -/
def entered0 (c : Dev nD) (t : Fin cfg0.N) : sProp 𝕄 :=
  iprop((pd0 V c).Φ t.castSucc ∗ (pd0 V c).owesAt () t.castSucc
    ∗ (∃ d, owns (c : Thread nD τ) (st0_0 t) fullShare ((pd0 V c).before 0 t d))
    ∗ (∃ d, owns (c : Thread nD τ) (st0_1 t) fullShare ((pd0 V c).before 1 t d))
    ∗ (∃ d, owns (c : Thread nD τ) (st0_2 t) fullShare ((pd0 V c).before 2 t d)))

/-- and what it returns. -/
def left0 (c : Dev nD) (t : Fin cfg0.N) : sProp 𝕄 :=
  iprop((pd0 V c).Φ t.succ ∗ (pd0 V c).owesAt () t.succ
    ∗ owns (c : Thread nD τ) (st0_0 t) fullShare ((pd0 V c).after 0 t)
    ∗ owns (c : Thread nD τ) (st0_1 t) fullShare ((pd0 V c).after 1 t)
    ∗ owns (c : Thread nD τ) (st0_2 t) fullShare ((pd0 V c).after 2 t))

/-- The body at any point: the inputs' staging buffers hold their blocks, so `body_run0` applies; the invariant and what
    the core owes pass through unread. -/
theorem body_at0 (c : Dev nD) (t : Fin cfg0.N) :
    entered0 V c t ⊢ wp frame (wpE (defs₀ (F := F)) Variants.none c none) Set.univ (bodyAt0 t) (fun _ => left0 V c t) := by
  unfold entered0 left0 bodyAt0
  simp only [pd0_before_0, pd0_before_1]
  rw [show (pd0 V c).Φ t.succ = (pd0 V c).Φ t.castSucc from rfl,
    show (pd0 V c).owesAt () t.succ = (pd0 V c).owesAt () t.castSucc from rfl,
    pd0_after_0, pd0_after_1, pd0_after_2]
  iintro ⟨HΦ, Ho, ⟨%d0, H0⟩, ⟨%d1, H1⟩, ⟨%d2, H2⟩⟩
  iapply (body_run0 c Set.univ (grid0.coords t) _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for region 0, at every point. -/
theorem obligation0 (c : Dev nD) : BodyObligation (pd0 (F := F) V c) (defs₀ (F := F)) Variants.none () Set.univ := fun t => by
  rw [bigSep_W0, bigSep_W0]
  exact body_at0 V c t

end Cert.KernelIdeal.Frm

end
-- ==== Proof.KIRegion1.lean ====
/-
  Region 1 of the kernel program, at any float instance: one 5000-row block of the first stage's output normalised column by column, max(γ·(y − mean)·rsqrt(var + ε) + β, 0), the four 1×64 rows (mean, variance, γ, β) the same at every point.
  Stated at a parameter `V`, the contents of the core's buffers when the region is entered: each window's block at a grid
  point is the window's rectangle of its array read through `V`; the body reads every input block whole, stores the one
  output block whole, so after the body the output's staging buffer holds the body's arithmetic of the input blocks and
  every input's staging buffer still holds its block — also at the points where a window whose index does not move
  (the matrix, the per-column rows) is not fetched again.
-/
import proofs.«178339_j40699110097748_1_alg».proof.Proof.Gen.KernelIdeal.Launch
import proofs.«178339_j40699110097748_1_alg».proof.Proof.Gen.KernelIdeal.Skeleton
import proofs.«178339_j40699110097748_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: its rectangle of the window's array, read through the entry contents. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds the window's block at every point, fetched there or not (where it is
    not fetched its index has not moved), for any proof data over the entry contents whose body leaves the block in place. -/
theorem held1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- Input window 1's current staging buffer holds the window's block at every point, fetched there or not (where it is
    not fetched its index has not moved), for any proof data over the entry contents whose body leaves the block in place. -/
theorem held1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- Input window 2's current staging buffer holds the window's block at every point, fetched there or not (where it is
    not fetched its index has not moved), for any proof data over the entry contents whose body leaves the block in place. -/
theorem held1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-- Input window 3's current staging buffer holds the window's block at every point, fetched there or not (where it is
    not fetched its index has not moved), for any proof data over the entry contents whose body leaves the block in place. -/
theorem held1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)

/-- Input window 4's current staging buffer holds the window's block at every point, fetched there or not (where it is
    not fetched its index has not moved), for any proof data over the entry contents whose body leaves the block in place. -/
theorem held1_4_of {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)

/-! ## What the body reads and writes: every block whole -/

abbrev whole1_S5000x64 : Rect S5000x64 := Rect.unit (s := S5000x64) ![0, 0] S5000x64.size inb_S5000x64_S5000x64_0_0
abbrev whole1_S1x64 : Rect S1x64 := Rect.unit (s := S1x64) ![0, 0] S1x64.size inb_S1x64_S1x64_0_0

/-- The output block after the body, from the input blocks: the one whole-block store of the body's arithmetic. -/
def stored1 (x0 : Vec F S5000x64 .f32) (x1 : Vec F S1x64 .f32) (x2 : Vec F S1x64 .f32) (x3 : Vec F S1x64 .f32) (x4 : Vec F S1x64 .f32) : Vec F S5000x64 .f32 :=
  View.canon [⟨whole1_S5000x64, k1_pay1 (View.ld x0 whole1_S5000x64) (View.ld x3 whole1_S1x64) (View.ld x1 whole1_S1x64) (View.ld x2 whole1_S1x64) (View.ld x4 whole1_S1x64)⟩]

/-- The one store covers the output block. -/
theorem covered1 (p0 : Vec F S5000x64 .f32) (y : S5000x64.Idx) :
    ∃ pc ∈ ([⟨whole1_S5000x64, p0⟩] : List (View.Piece (Elt F) S5000x64 .f32)), y ∈ pc.1.set :=
  View.cover_of_tiled [⟨whole1_S5000x64, p0⟩] S5000x64.size (by rfl) y

set_option maxHeartbeats 1000000 in
/-- The body on whole staging buffers, the inputs' holding `x_w` and the output's anything: it runs, without a fault, to a
    state where the inputs' hold what they held and the output's holds `stored1` of them. -/
theorem body_run1 (c : Dev nD) (E : Set ℕ) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x64 .f32) (harg6 : arg6.IsWhole)
    (x0 : Vec F S5000x64 .f32) (x1 : Vec F S1x64 .f32) (x2 : Vec F S1x64 .f32) (x3 : Vec F S1x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (stored1 x0 x1 x2 x3 x4)) -∗ K ⟨⟩))
      ⊢ wp frame (wpE (defs₀ (F := F)) Variants.none c none) E (cc1__bn_relu_kernel i arg1 harg1 arg2 harg2 arg3 harg3 arg4 harg4 arg5 harg5 arg6 harg6) K := by
  simp only [cc1__bn_relu_kernel_eq_skeleton]; unfold cc1__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (covered1 _)

/-- The region's proof data on core `c`: the arrays as the region finds them; after the body at point `t` every input's
    staging buffer at its block, the output's at `stored1` of the input blocks; nothing owed, full shares. -/
def pd1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => stored1 (blk1 V c 0 t) (blk1 V c 1 t) (blk1 V c 2 t) (blk1 V c 3 t) (blk1 V c 4 t)
  Φ _ := Pipeline.ΦA spec1 c
  q _ := fullShare
  owed _ := 0

theorem pd1_A (c : Dev nD) (w : Fin cfg1.W) : (pd1 V c).A w = V c (Pipeline.arrRef spec1 w) := by
  dsimp only [pd1]

theorem pd1_after_0 (c : Dev nD) (t : Fin cfg1.N) : (pd1 V c).after 0 t = blk1 V c 0 t := by dsimp only [pd1]
theorem pd1_after_1 (c : Dev nD) (t : Fin cfg1.N) : (pd1 V c).after 1 t = blk1 V c 1 t := by dsimp only [pd1]
theorem pd1_after_2 (c : Dev nD) (t : Fin cfg1.N) : (pd1 V c).after 2 t = blk1 V c 2 t := by dsimp only [pd1]
theorem pd1_after_3 (c : Dev nD) (t : Fin cfg1.N) : (pd1 V c).after 3 t = blk1 V c 3 t := by dsimp only [pd1]
theorem pd1_after_4 (c : Dev nD) (t : Fin cfg1.N) : (pd1 V c).after 4 t = blk1 V c 4 t := by dsimp only [pd1]
theorem pd1_after_5 (c : Dev nD) (t : Fin cfg1.N) : (pd1 V c).after 5 t = stored1 (blk1 V c 0 t) (blk1 V c 1 t) (blk1 V c 2 t) (blk1 V c 3 t) (blk1 V c 4 t) := by dsimp only [pd1]

theorem pd1_before_0 (c : Dev nD) (t : Fin cfg1.N) (d) : (pd1 V c).before 0 t d = blk1 V c 0 t :=
  held1_0_of V (pd1 V c) (pd1_A V c 0) (pd1_after_0 V c) t d
theorem pd1_before_1 (c : Dev nD) (t : Fin cfg1.N) (d) : (pd1 V c).before 1 t d = blk1 V c 1 t :=
  held1_1_of V (pd1 V c) (pd1_A V c 1) (pd1_after_1 V c) t d
theorem pd1_before_2 (c : Dev nD) (t : Fin cfg1.N) (d) : (pd1 V c).before 2 t d = blk1 V c 2 t :=
  held1_2_of V (pd1 V c) (pd1_A V c 2) (pd1_after_2 V c) t d
theorem pd1_before_3 (c : Dev nD) (t : Fin cfg1.N) (d) : (pd1 V c).before 3 t d = blk1 V c 3 t :=
  held1_3_of V (pd1 V c) (pd1_A V c 3) (pd1_after_3 V c) t d
theorem pd1_before_4 (c : Dev nD) (t : Fin cfg1.N) (d) : (pd1 V c).before 4 t d = blk1 V c 4 t :=
  held1_4_of V (pd1 V c) (pd1_A V c 4) (pd1_after_4 V c) t d

/-- What the body is entered with at point `t`, window by window, -/
def entered1 (c : Dev nD) (t : Fin cfg1.N) : sProp 𝕄 :=
  iprop((pd1 V c).Φ t.castSucc ∗ (pd1 V c).owesAt () t.castSucc
    ∗ (∃ d, owns (c : Thread nD τ) (st1_0 t) fullShare ((pd1 V c).before 0 t d))
    ∗ (∃ d, owns (c : Thread nD τ) (st1_1 t) fullShare ((pd1 V c).before 1 t d))
    ∗ (∃ d, owns (c : Thread nD τ) (st1_2 t) fullShare ((pd1 V c).before 2 t d))
    ∗ (∃ d, owns (c : Thread nD τ) (st1_3 t) fullShare ((pd1 V c).before 3 t d))
    ∗ (∃ d, owns (c : Thread nD τ) (st1_4 t) fullShare ((pd1 V c).before 4 t d))
    ∗ (∃ d, owns (c : Thread nD τ) (st1_5 t) fullShare ((pd1 V c).before 5 t d)))

/-- and what it returns. -/
def left1 (c : Dev nD) (t : Fin cfg1.N) : sProp 𝕄 :=
  iprop((pd1 V c).Φ t.succ ∗ (pd1 V c).owesAt () t.succ
    ∗ owns (c : Thread nD τ) (st1_0 t) fullShare ((pd1 V c).after 0 t)
    ∗ owns (c : Thread nD τ) (st1_1 t) fullShare ((pd1 V c).after 1 t)
    ∗ owns (c : Thread nD τ) (st1_2 t) fullShare ((pd1 V c).after 2 t)
    ∗ owns (c : Thread nD τ) (st1_3 t) fullShare ((pd1 V c).after 3 t)
    ∗ owns (c : Thread nD τ) (st1_4 t) fullShare ((pd1 V c).after 4 t)
    ∗ owns (c : Thread nD τ) (st1_5 t) fullShare ((pd1 V c).after 5 t))

/-- The body at any point: the inputs' staging buffers hold their blocks, so `body_run1` applies; the invariant and what
    the core owes pass through unread. -/
theorem body_at1 (c : Dev nD) (t : Fin cfg1.N) :
    entered1 V c t ⊢ wp frame (wpE (defs₀ (F := F)) Variants.none c none) Set.univ (bodyAt1 t) (fun _ => left1 V c t) := by
  unfold entered1 left1 bodyAt1
  simp only [pd1_before_0, pd1_before_1, pd1_before_2, pd1_before_3, pd1_before_4]
  rw [show (pd1 V c).Φ t.succ = (pd1 V c).Φ t.castSucc from rfl,
    show (pd1 V c).owesAt () t.succ = (pd1 V c).owesAt () t.castSucc from rfl,
    pd1_after_0, pd1_after_1, pd1_after_2, pd1_after_3, pd1_after_4, pd1_after_5]
  iintro ⟨HΦ, Ho, ⟨%d0, H0⟩, ⟨%d1, H1⟩, ⟨%d2, H2⟩, ⟨%d3, H3⟩, ⟨%d4, H4⟩, ⟨%d5, H5⟩⟩
  iapply (body_run1 c Set.univ (grid1.coords t) _ _ _ _ _ _ _ _ _ _ _ _ (blk1 V c 0 t) (blk1 V c 1 t) (blk1 V c 2 t) (blk1 V c 3 t) (blk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for region 1, at every point. -/
theorem obligation1 (c : Dev nD) : BodyObligation (pd1 (F := F) V c) (defs₀ (F := F)) Variants.none () Set.univ := fun t => by
  rw [bigSep_W1, bigSep_W1]
  exact body_at1 V c t

end Cert.KernelIdeal.Frm

end
-- ==== Proof.KIRegion2.lean ====
/-
  Region 2 of the kernel program, at any float instance: one 5000-row block of the normalised first-stage features times the 64×256 matrix of the four second-stage weight matrices side by side.
  Stated at a parameter `V`, the contents of the core's buffers when the region is entered: each window's block at a grid
  point is the window's rectangle of its array read through `V`; the body reads every input block whole, stores the one
  output block whole, so after the body the output's staging buffer holds the body's arithmetic of the input blocks and
  every input's staging buffer still holds its block — also at the points where a window whose index does not move
  (the matrix, the per-column rows) is not fetched again.
-/
import proofs.«178339_j40699110097748_1_alg».proof.Proof.Gen.KernelIdeal.Launch
import proofs.«178339_j40699110097748_1_alg».proof.Proof.Gen.KernelIdeal.Skeleton
import proofs.«178339_j40699110097748_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: its rectangle of the window's array, read through the entry contents. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds the window's block at every point, fetched there or not (where it is
    not fetched its index has not moved), for any proof data over the entry contents whose body leaves the block in place. -/
theorem held2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

/-- Input window 1's current staging buffer holds the window's block at every point, fetched there or not (where it is
    not fetched its index has not moved), for any proof data over the entry contents whose body leaves the block in place. -/
theorem held2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

/-! ## What the body reads and writes: every block whole -/

abbrev whole2_S5000x64 : Rect S5000x64 := Rect.unit (s := S5000x64) ![0, 0] S5000x64.size inb_S5000x64_S5000x64_0_0
abbrev whole2_S64x256 : Rect S64x256 := Rect.unit (s := S64x256) ![0, 0] S64x256.size inb_S64x256_S64x256_0_0
abbrev whole2_S5000x256 : Rect S5000x256 := Rect.unit (s := S5000x256) ![0, 0] S5000x256.size inb_S5000x256_S5000x256_0_0

/-- The output block after the body, from the input blocks: the one whole-block store of the body's arithmetic. -/
def stored2 (x0 : Vec F S5000x64 .f32) (x1 : Vec F S64x256 .f32) : Vec F S5000x256 .f32 :=
  View.canon [⟨whole2_S5000x256, k2_pay1 (View.ld x0 whole2_S5000x64) (View.ld x1 whole2_S64x256)⟩]

/-- The one store covers the output block. -/
theorem covered2 (p0 : Vec F S5000x256 .f32) (y : S5000x256.Idx) :
    ∃ pc ∈ ([⟨whole2_S5000x256, p0⟩] : List (View.Piece (Elt F) S5000x256 .f32)), y ∈ pc.1.set :=
  View.cover_of_tiled [⟨whole2_S5000x256, p0⟩] S5000x256.size (by rfl) y

set_option maxHeartbeats 1000000 in
/-- The body on whole staging buffers, the inputs' holding `x_w` and the output's anything: it runs, without a fault, to a
    state where the inputs' hold what they held and the output's holds `stored2` of them. -/
theorem body_run2 (c : Dev nD) (E : Set ℕ) (i : grid2.Coords) (arg1 : Memref sig .tc .vmem S5000x64 .f32) (harg1 : arg1.IsWhole) (arg2 : Memref sig .tc .vmem S64x256 .f32) (harg2 : arg2.IsWhole) (arg3 : Memref sig .tc .vmem S5000x256 .f32) (harg3 : arg3.IsWhole)
    (x0 : Vec F S5000x64 .f32) (x1 : Vec F S64x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (stored2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (covered2 _)

/-- The region's proof data on core `c`: the arrays as the region finds them; after the body at point `t` every input's
    staging buffer at its block, the output's at `stored2` of the input blocks; nothing owed, full shares. -/
def pd2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => stored2 (blk2 V c 0 t) (blk2 V c 1 t)
  Φ _ := Pipeline.ΦA spec2 c
  q _ := fullShare
  owed _ := 0

theorem pd2_A (c : Dev nD) (w : Fin cfg2.W) : (pd2 V c).A w = V c (Pipeline.arrRef spec2 w) := by
  dsimp only [pd2]

theorem pd2_after_0 (c : Dev nD) (t : Fin cfg2.N) : (pd2 V c).after 0 t = blk2 V c 0 t := by dsimp only [pd2]
theorem pd2_after_1 (c : Dev nD) (t : Fin cfg2.N) : (pd2 V c).after 1 t = blk2 V c 1 t := by dsimp only [pd2]
theorem pd2_after_2 (c : Dev nD) (t : Fin cfg2.N) : (pd2 V c).after 2 t = stored2 (blk2 V c 0 t) (blk2 V c 1 t) := by dsimp only [pd2]

theorem pd2_before_0 (c : Dev nD) (t : Fin cfg2.N) (d) : (pd2 V c).before 0 t d = blk2 V c 0 t :=
  held2_0_of V (pd2 V c) (pd2_A V c 0) (pd2_after_0 V c) t d
theorem pd2_before_1 (c : Dev nD) (t : Fin cfg2.N) (d) : (pd2 V c).before 1 t d = blk2 V c 1 t :=
  held2_1_of V (pd2 V c) (pd2_A V c 1) (pd2_after_1 V c) t d

/-- What the body is entered with at point `t`, window by window, -/
def entered2 (c : Dev nD) (t : Fin cfg2.N) : sProp 𝕄 :=
  iprop((pd2 V c).Φ t.castSucc ∗ (pd2 V c).owesAt () t.castSucc
    ∗ (∃ d, owns (c : Thread nD τ) (st2_0 t) fullShare ((pd2 V c).before 0 t d))
    ∗ (∃ d, owns (c : Thread nD τ) (st2_1 t) fullShare ((pd2 V c).before 1 t d))
    ∗ (∃ d, owns (c : Thread nD τ) (st2_2 t) fullShare ((pd2 V c).before 2 t d)))

/-- and what it returns. -/
def left2 (c : Dev nD) (t : Fin cfg2.N) : sProp 𝕄 :=
  iprop((pd2 V c).Φ t.succ ∗ (pd2 V c).owesAt () t.succ
    ∗ owns (c : Thread nD τ) (st2_0 t) fullShare ((pd2 V c).after 0 t)
    ∗ owns (c : Thread nD τ) (st2_1 t) fullShare ((pd2 V c).after 1 t)
    ∗ owns (c : Thread nD τ) (st2_2 t) fullShare ((pd2 V c).after 2 t))

/-- The body at any point: the inputs' staging buffers hold their blocks, so `body_run2` applies; the invariant and what
    the core owes pass through unread. -/
theorem body_at2 (c : Dev nD) (t : Fin cfg2.N) :
    entered2 V c t ⊢ wp frame (wpE (defs₀ (F := F)) Variants.none c none) Set.univ (bodyAt2 t) (fun _ => left2 V c t) := by
  unfold entered2 left2 bodyAt2
  simp only [pd2_before_0, pd2_before_1]
  rw [show (pd2 V c).Φ t.succ = (pd2 V c).Φ t.castSucc from rfl,
    show (pd2 V c).owesAt () t.succ = (pd2 V c).owesAt () t.castSucc from rfl,
    pd2_after_0, pd2_after_1, pd2_after_2]
  iintro ⟨HΦ, Ho, ⟨%d0, H0⟩, ⟨%d1, H1⟩, ⟨%d2, H2⟩⟩
  iapply (body_run2 c Set.univ (grid2.coords t) _ _ _ _ _ _ (blk2 V c 0 t) (blk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for region 2, at every point. -/
theorem obligation2 (c : Dev nD) : BodyObligation (pd2 (F := F) V c) (defs₀ (F := F)) Variants.none () Set.univ := fun t => by
  rw [bigSep_W2, bigSep_W2]
  exact body_at2 V c t

end Cert.KernelIdeal.Frm

end
-- ==== Proof.KIRegion3.lean ====
/-
  Region 3 of the kernel program, at any float instance: one 5000-row block of the input node features times the 64×64 residual matrix R.
  Stated at a parameter `V`, the contents of the core's buffers when the region is entered: each window's block at a grid
  point is the window's rectangle of its array read through `V`; the body reads every input block whole, stores the one
  output block whole, so after the body the output's staging buffer holds the body's arithmetic of the input blocks and
  every input's staging buffer still holds its block — also at the points where a window whose index does not move
  (the matrix, the per-column rows) is not fetched again.
-/
import proofs.«178339_j40699110097748_1_alg».proof.Proof.Gen.KernelIdeal.Launch
import proofs.«178339_j40699110097748_1_alg».proof.Proof.Gen.KernelIdeal.Skeleton
import proofs.«178339_j40699110097748_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: its rectangle of the window's array, read through the entry contents. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds the window's block at every point, fetched there or not (where it is
    not fetched its index has not moved), for any proof data over the entry contents whose body leaves the block in place. -/
theorem held3_0_of {c : Dev nD} (dat : Dat τ (Elt F) Unit ℕ (UR sig nD τ) ℕ cfg3 c) (hA : dat.A 0 = V c (Pipeline.arrRef spec3 0))
    (hafter : ∀ t, dat.after 0 t = blk3 V c 0 t) (t : Fin cfg3.N) (d) : dat.before 0 t d = blk3 V c 0 t :=
  (dat.before_in_eq_fetched 0 rfl (fun _ => rfl) (fun _ _ _ => rfl) (fun t => by rw [hafter]; unfold Dat.blockOf blk3; rw [hA]; try rfl) t d).trans
    (by unfold Dat.fetched Dat.blockOf blk3; rw [hA]; try rfl)

/-- Input window 1's current staging buffer holds the window's block at every point, fetched there or not (where it is
    not fetched its index has not moved), for any proof data over the entry contents whose body leaves the block in place. -/
theorem held3_1_of {c : Dev nD} (dat : Dat τ (Elt F) Unit ℕ (UR sig nD τ) ℕ cfg3 c) (hA : dat.A 1 = V c (Pipeline.arrRef spec3 1))
    (hafter : ∀ t, dat.after 1 t = blk3 V c 1 t) (t : Fin cfg3.N) (d) : dat.before 1 t d = blk3 V c 1 t :=
  (dat.before_in_eq_fetched 1 rfl (fun _ => rfl) (fun _ _ _ => rfl) (fun t => by rw [hafter]; unfold Dat.blockOf blk3; rw [hA]; try rfl) t d).trans
    (by unfold Dat.fetched Dat.blockOf blk3; rw [hA]; try rfl)

/-! ## What the body reads and writes: every block whole -/

abbrev whole3_S5000x64 : Rect S5000x64 := Rect.unit (s := S5000x64) ![0, 0] S5000x64.size inb_S5000x64_S5000x64_0_0
abbrev whole3_S64x64 : Rect S64x64 := Rect.unit (s := S64x64) ![0, 0] S64x64.size inb_S64x64_S64x64_0_0

/-- The output block after the body, from the input blocks: the one whole-block store of the body's arithmetic. -/
def stored3 (x0 : Vec F S5000x64 .f32) (x1 : Vec F S64x64 .f32) : Vec F S5000x64 .f32 :=
  View.canon [⟨whole3_S5000x64, k3_pay1 (View.ld x0 whole3_S5000x64) (View.ld x1 whole3_S64x64)⟩]

/-- The one store covers the output block. -/
theorem covered3 (p0 : Vec F S5000x64 .f32) (y : S5000x64.Idx) :
    ∃ pc ∈ ([⟨whole3_S5000x64, p0⟩] : List (View.Piece (Elt F) S5000x64 .f32)), y ∈ pc.1.set :=
  View.cover_of_tiled [⟨whole3_S5000x64, p0⟩] S5000x64.size (by rfl) y

set_option maxHeartbeats 1000000 in
/-- The body on whole staging buffers, the inputs' holding `x_w` and the output's anything: it runs, without a fault, to a
    state where the inputs' hold what they held and the output's holds `stored3` of them. -/
theorem body_run3 (c : Dev nD) (E : Set ℕ) (i : grid3.Coords) (arg1 : Memref sig .tc .vmem S5000x64 .f32) (harg1 : arg1.IsWhole) (arg2 : Memref sig .tc .vmem S64x64 .f32) (harg2 : arg2.IsWhole) (arg3 : Memref sig .tc .vmem S5000x64 .f32) (harg3 : arg3.IsWhole)
    (x0 : Vec F S5000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (stored3 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (covered3 _)

/-- The region's proof data on core `c`: the arrays as the region finds them; after the body at point `t` every input's
    staging buffer at its block, the output's at `stored3` of the input blocks; nothing owed, full shares. -/
def pd3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => stored3 (blk3 V c 0 t) (blk3 V c 1 t)
  Φ _ := Pipeline.ΦA spec3 c
  q _ := fullShare
  owed _ := 0

theorem pd3_A (c : Dev nD) (w : Fin cfg3.W) : (pd3 V c).A w = V c (Pipeline.arrRef spec3 w) := by
  dsimp only [pd3]

theorem pd3_after_0 (c : Dev nD) (t : Fin cfg3.N) : (pd3 V c).after 0 t = blk3 V c 0 t := by dsimp only [pd3]
theorem pd3_after_1 (c : Dev nD) (t : Fin cfg3.N) : (pd3 V c).after 1 t = blk3 V c 1 t := by dsimp only [pd3]
theorem pd3_after_2 (c : Dev nD) (t : Fin cfg3.N) : (pd3 V c).after 2 t = stored3 (blk3 V c 0 t) (blk3 V c 1 t) := by dsimp only [pd3]

theorem pd3_before_0 (c : Dev nD) (t : Fin cfg3.N) (d) : (pd3 V c).before 0 t d = blk3 V c 0 t :=
  held3_0_of V (pd3 V c) (pd3_A V c 0) (pd3_after_0 V c) t d
theorem pd3_before_1 (c : Dev nD) (t : Fin cfg3.N) (d) : (pd3 V c).before 1 t d = blk3 V c 1 t :=
  held3_1_of V (pd3 V c) (pd3_A V c 1) (pd3_after_1 V c) t d

/-- What the body is entered with at point `t`, window by window, -/
def entered3 (c : Dev nD) (t : Fin cfg3.N) : sProp 𝕄 :=
  iprop((pd3 V c).Φ t.castSucc ∗ (pd3 V c).owesAt () t.castSucc
    ∗ (∃ d, owns (c : Thread nD τ) (st3_0 t) fullShare ((pd3 V c).before 0 t d))
    ∗ (∃ d, owns (c : Thread nD τ) (st3_1 t) fullShare ((pd3 V c).before 1 t d))
    ∗ (∃ d, owns (c : Thread nD τ) (st3_2 t) fullShare ((pd3 V c).before 2 t d)))

/-- and what it returns. -/
def left3 (c : Dev nD) (t : Fin cfg3.N) : sProp 𝕄 :=
  iprop((pd3 V c).Φ t.succ ∗ (pd3 V c).owesAt () t.succ
    ∗ owns (c : Thread nD τ) (st3_0 t) fullShare ((pd3 V c).after 0 t)
    ∗ owns (c : Thread nD τ) (st3_1 t) fullShare ((pd3 V c).after 1 t)
    ∗ owns (c : Thread nD τ) (st3_2 t) fullShare ((pd3 V c).after 2 t))

/-- The body at any point: the inputs' staging buffers hold their blocks, so `body_run3` applies; the invariant and what
    the core owes pass through unread. -/
theorem body_at3 (c : Dev nD) (t : Fin cfg3.N) :
    entered3 V c t ⊢ wp frame (wpE (defs₀ (F := F)) Variants.none c none) Set.univ (bodyAt3 t) (fun _ => left3 V c t) := by
  unfold entered3 left3 bodyAt3
  simp only [pd3_before_0, pd3_before_1]
  rw [show (pd3 V c).Φ t.succ = (pd3 V c).Φ t.castSucc from rfl,
    show (pd3 V c).owesAt () t.succ = (pd3 V c).owesAt () t.castSucc from rfl,
    pd3_after_0, pd3_after_1, pd3_after_2]
  iintro ⟨HΦ, Ho, ⟨%d0, H0⟩, ⟨%d1, H1⟩, ⟨%d2, H2⟩⟩
  iapply (body_run3 c Set.univ (grid3.coords t) _ _ _ _ _ _ (blk3 V c 0 t) (blk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for region 3, at every point. -/
theorem obligation3 (c : Dev nD) : BodyObligation (pd3 (F := F) V c) (defs₀ (F := F)) Variants.none () Set.univ := fun t => by
  rw [bigSep_W3, bigSep_W3]
  exact body_at3 V c t

end Cert.KernelIdeal.Frm

end
-- ==== Proof.KIRegion4.lean ====
/-
  Region 4 of the kernel program, at any float instance: one 5000-row block of the second stage's output normalised column by column, the residual block added, then clamped at zero: max(γ·(y − mean)·rsqrt(var + ε) + β + x·R, 0).
  Stated at a parameter `V`, the contents of the core's buffers when the region is entered: each window's block at a grid
  point is the window's rectangle of its array read through `V`; the body reads every input block whole, stores the one
  output block whole, so after the body the output's staging buffer holds the body's arithmetic of the input blocks and
  every input's staging buffer still holds its block — also at the points where a window whose index does not move
  (the matrix, the per-column rows) is not fetched again.
-/
import proofs.«178339_j40699110097748_1_alg».proof.Proof.Gen.KernelIdeal.Launch
import proofs.«178339_j40699110097748_1_alg».proof.Proof.Gen.KernelIdeal.Skeleton
import proofs.«178339_j40699110097748_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: its rectangle of the window's array, read through the entry contents. -/
def blk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds the window's block at every point, fetched there or not (where it is
    not fetched its index has not moved), for any proof data over the entry contents whose body leaves the block in place. -/
theorem held4_0_of {c : Dev nD} (dat : Dat τ (Elt F) Unit ℕ (UR sig nD τ) ℕ cfg4 c) (hA : dat.A 0 = V c (Pipeline.arrRef spec4 0))
    (hafter : ∀ t, dat.after 0 t = blk4 V c 0 t) (t : Fin cfg4.N) (d) : dat.before 0 t d = blk4 V c 0 t :=
  (dat.before_in_eq_fetched 0 rfl (fun _ => rfl) (fun _ _ _ => rfl) (fun t => by rw [hafter]; unfold Dat.blockOf blk4; rw [hA]; try rfl) t d).trans
    (by unfold Dat.fetched Dat.blockOf blk4; rw [hA]; try rfl)

/-- Input window 1's current staging buffer holds the window's block at every point, fetched there or not (where it is
    not fetched its index has not moved), for any proof data over the entry contents whose body leaves the block in place. -/
theorem held4_1_of {c : Dev nD} (dat : Dat τ (Elt F) Unit ℕ (UR sig nD τ) ℕ cfg4 c) (hA : dat.A 1 = V c (Pipeline.arrRef spec4 1))
    (hafter : ∀ t, dat.after 1 t = blk4 V c 1 t) (t : Fin cfg4.N) (d) : dat.before 1 t d = blk4 V c 1 t :=
  (dat.before_in_eq_fetched 1 rfl (fun _ => rfl) (fun _ _ _ => rfl) (fun t => by rw [hafter]; unfold Dat.blockOf blk4; rw [hA]; try rfl) t d).trans
    (by unfold Dat.fetched Dat.blockOf blk4; rw [hA]; try rfl)

/-- Input window 2's current staging buffer holds the window's block at every point, fetched there or not (where it is
    not fetched its index has not moved), for any proof data over the entry contents whose body leaves the block in place. -/
theorem held4_2_of {c : Dev nD} (dat : Dat τ (Elt F) Unit ℕ (UR sig nD τ) ℕ cfg4 c) (hA : dat.A 2 = V c (Pipeline.arrRef spec4 2))
    (hafter : ∀ t, dat.after 2 t = blk4 V c 2 t) (t : Fin cfg4.N) (d) : dat.before 2 t d = blk4 V c 2 t :=
  (dat.before_in_eq_fetched 2 rfl (fun _ => rfl) (fun _ _ _ => rfl) (fun t => by rw [hafter]; unfold Dat.blockOf blk4; rw [hA]; try rfl) t d).trans
    (by unfold Dat.fetched Dat.blockOf blk4; rw [hA]; try rfl)

/-- Input window 3's current staging buffer holds the window's block at every point, fetched there or not (where it is
    not fetched its index has not moved), for any proof data over the entry contents whose body leaves the block in place. -/
theorem held4_3_of {c : Dev nD} (dat : Dat τ (Elt F) Unit ℕ (UR sig nD τ) ℕ cfg4 c) (hA : dat.A 3 = V c (Pipeline.arrRef spec4 3))
    (hafter : ∀ t, dat.after 3 t = blk4 V c 3 t) (t : Fin cfg4.N) (d) : dat.before 3 t d = blk4 V c 3 t :=
  (dat.before_in_eq_fetched 3 rfl (fun _ => rfl) (fun _ _ _ => rfl) (fun t => by rw [hafter]; unfold Dat.blockOf blk4; rw [hA]; try rfl) t d).trans
    (by unfold Dat.fetched Dat.blockOf blk4; rw [hA]; try rfl)

/-- Input window 4's current staging buffer holds the window's block at every point, fetched there or not (where it is
    not fetched its index has not moved), for any proof data over the entry contents whose body leaves the block in place. -/
theorem held4_4_of {c : Dev nD} (dat : Dat τ (Elt F) Unit ℕ (UR sig nD τ) ℕ cfg4 c) (hA : dat.A 4 = V c (Pipeline.arrRef spec4 4))
    (hafter : ∀ t, dat.after 4 t = blk4 V c 4 t) (t : Fin cfg4.N) (d) : dat.before 4 t d = blk4 V c 4 t :=
  (dat.before_in_eq_fetched 4 rfl (fun _ => rfl) (fun _ _ _ => rfl) (fun t => by rw [hafter]; unfold Dat.blockOf blk4; rw [hA]; try rfl) t d).trans
    (by unfold Dat.fetched Dat.blockOf blk4; rw [hA]; try rfl)

/-- Input window 5's current staging buffer holds the window's block at every point, fetched there or not (where it is
    not fetched its index has not moved), for any proof data over the entry contents whose body leaves the block in place. -/
theorem held4_5_of {c : Dev nD} (dat : Dat τ (Elt F) Unit ℕ (UR sig nD τ) ℕ cfg4 c) (hA : dat.A 5 = V c (Pipeline.arrRef spec4 5))
    (hafter : ∀ t, dat.after 5 t = blk4 V c 5 t) (t : Fin cfg4.N) (d) : dat.before 5 t d = blk4 V c 5 t :=
  (dat.before_in_eq_fetched 5 rfl (fun _ => rfl) (fun _ _ _ => rfl) (fun t => by rw [hafter]; unfold Dat.blockOf blk4; rw [hA]; try rfl) t d).trans
    (by unfold Dat.fetched Dat.blockOf blk4; rw [hA]; try rfl)

/-! ## What the body reads and writes: every block whole -/

abbrev whole4_S5000x64 : Rect S5000x64 := Rect.unit (s := S5000x64) ![0, 0] S5000x64.size inb_S5000x64_S5000x64_0_0
abbrev whole4_S1x64 : Rect S1x64 := Rect.unit (s := S1x64) ![0, 0] S1x64.size inb_S1x64_S1x64_0_0

/-- The output block after the body, from the input blocks: the one whole-block store of the body's arithmetic. -/
def stored4 (x0 : Vec F S5000x64 .f32) (x1 : Vec F S1x64 .f32) (x2 : Vec F S1x64 .f32) (x3 : Vec F S1x64 .f32) (x4 : Vec F S1x64 .f32) (x5 : Vec F S5000x64 .f32) : Vec F S5000x64 .f32 :=
  View.canon [⟨whole4_S5000x64, k4_pay1 (View.ld x0 whole4_S5000x64) (View.ld x3 whole4_S1x64) (View.ld x1 whole4_S1x64) (View.ld x2 whole4_S1x64) (View.ld x4 whole4_S1x64) (View.ld x5 whole4_S5000x64)⟩]

/-- The one store covers the output block. -/
theorem covered4 (p0 : Vec F S5000x64 .f32) (y : S5000x64.Idx) :
    ∃ pc ∈ ([⟨whole4_S5000x64, p0⟩] : List (View.Piece (Elt F) S5000x64 .f32)), y ∈ pc.1.set :=
  View.cover_of_tiled [⟨whole4_S5000x64, p0⟩] S5000x64.size (by rfl) y

set_option maxHeartbeats 1000000 in
/-- The body on whole staging buffers, the inputs' holding `x_w` and the output's anything: it runs, without a fault, to a
    state where the inputs' hold what they held and the output's holds `stored4` of them. -/
theorem body_run4 (c : Dev nD) (E : Set ℕ) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S5000x64 .f32) (harg7 : arg7.IsWhole)
    (x0 : Vec F S5000x64 .f32) (x1 : Vec F S1x64 .f32) (x2 : Vec F S1x64 .f32) (x3 : Vec F S1x64 .f32) (x4 : Vec F S1x64 .f32) (x5 : Vec F S5000x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (stored4 x0 x1 x2 x3 x4 x5)) -∗ K ⟨⟩))
      ⊢ wp frame (wpE (defs₀ (F := F)) Variants.none c none) E (cc4__bn_relu_resid_kernel i arg1 harg1 arg2 harg2 arg3 harg3 arg4 harg4 arg5 harg5 arg6 harg6 arg7 harg7) K := by
  simp only [cc4__bn_relu_resid_kernel_eq_skeleton]; unfold cc4__bn_relu_resid_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (covered4 _)

/-- The region's proof data on core `c`: the arrays as the region finds them; after the body at point `t` every input's
    staging buffer at its block, the output's at `stored4` of the input blocks; nothing owed, full shares. -/
def pd4 (c : Dev nD) : Dat τ (Elt F) Unit ℕ (UR sig nD τ) ℕ cfg4 c where
  A w := V c (Pipeline.arrRef spec4 w)
  after w t := match w with
    | ⟨0, _⟩ => blk4 V c 0 t
    | ⟨1, _⟩ => blk4 V c 1 t
    | ⟨2, _⟩ => blk4 V c 2 t
    | ⟨3, _⟩ => blk4 V c 3 t
    | ⟨4, _⟩ => blk4 V c 4 t
    | ⟨5, _⟩ => blk4 V c 5 t
    | ⟨6, _⟩ => stored4 (blk4 V c 0 t) (blk4 V c 1 t) (blk4 V c 2 t) (blk4 V c 3 t) (blk4 V c 4 t) (blk4 V c 5 t)
  Φ _ := Pipeline.ΦA spec4 c
  q _ := fullShare
  owed _ := 0

theorem pd4_A (c : Dev nD) (w : Fin cfg4.W) : (pd4 V c).A w = V c (Pipeline.arrRef spec4 w) := by
  dsimp only [pd4]

theorem pd4_after_0 (c : Dev nD) (t : Fin cfg4.N) : (pd4 V c).after 0 t = blk4 V c 0 t := by dsimp only [pd4]
theorem pd4_after_1 (c : Dev nD) (t : Fin cfg4.N) : (pd4 V c).after 1 t = blk4 V c 1 t := by dsimp only [pd4]
theorem pd4_after_2 (c : Dev nD) (t : Fin cfg4.N) : (pd4 V c).after 2 t = blk4 V c 2 t := by dsimp only [pd4]
theorem pd4_after_3 (c : Dev nD) (t : Fin cfg4.N) : (pd4 V c).after 3 t = blk4 V c 3 t := by dsimp only [pd4]
theorem pd4_after_4 (c : Dev nD) (t : Fin cfg4.N) : (pd4 V c).after 4 t = blk4 V c 4 t := by dsimp only [pd4]
theorem pd4_after_5 (c : Dev nD) (t : Fin cfg4.N) : (pd4 V c).after 5 t = blk4 V c 5 t := by dsimp only [pd4]
theorem pd4_after_6 (c : Dev nD) (t : Fin cfg4.N) : (pd4 V c).after 6 t = stored4 (blk4 V c 0 t) (blk4 V c 1 t) (blk4 V c 2 t) (blk4 V c 3 t) (blk4 V c 4 t) (blk4 V c 5 t) := by dsimp only [pd4]

theorem pd4_before_0 (c : Dev nD) (t : Fin cfg4.N) (d) : (pd4 V c).before 0 t d = blk4 V c 0 t :=
  held4_0_of V (pd4 V c) (pd4_A V c 0) (pd4_after_0 V c) t d
theorem pd4_before_1 (c : Dev nD) (t : Fin cfg4.N) (d) : (pd4 V c).before 1 t d = blk4 V c 1 t :=
  held4_1_of V (pd4 V c) (pd4_A V c 1) (pd4_after_1 V c) t d
theorem pd4_before_2 (c : Dev nD) (t : Fin cfg4.N) (d) : (pd4 V c).before 2 t d = blk4 V c 2 t :=
  held4_2_of V (pd4 V c) (pd4_A V c 2) (pd4_after_2 V c) t d
theorem pd4_before_3 (c : Dev nD) (t : Fin cfg4.N) (d) : (pd4 V c).before 3 t d = blk4 V c 3 t :=
  held4_3_of V (pd4 V c) (pd4_A V c 3) (pd4_after_3 V c) t d
theorem pd4_before_4 (c : Dev nD) (t : Fin cfg4.N) (d) : (pd4 V c).before 4 t d = blk4 V c 4 t :=
  held4_4_of V (pd4 V c) (pd4_A V c 4) (pd4_after_4 V c) t d
theorem pd4_before_5 (c : Dev nD) (t : Fin cfg4.N) (d) : (pd4 V c).before 5 t d = blk4 V c 5 t :=
  held4_5_of V (pd4 V c) (pd4_A V c 5) (pd4_after_5 V c) t d

/-- What the body is entered with at point `t`, window by window, -/
def entered4 (c : Dev nD) (t : Fin cfg4.N) : sProp 𝕄 :=
  iprop((pd4 V c).Φ t.castSucc ∗ (pd4 V c).owesAt () t.castSucc
    ∗ (∃ d, owns (c : Thread nD τ) (st4_0 t) fullShare ((pd4 V c).before 0 t d))
    ∗ (∃ d, owns (c : Thread nD τ) (st4_1 t) fullShare ((pd4 V c).before 1 t d))
    ∗ (∃ d, owns (c : Thread nD τ) (st4_2 t) fullShare ((pd4 V c).before 2 t d))
    ∗ (∃ d, owns (c : Thread nD τ) (st4_3 t) fullShare ((pd4 V c).before 3 t d))
    ∗ (∃ d, owns (c : Thread nD τ) (st4_4 t) fullShare ((pd4 V c).before 4 t d))
    ∗ (∃ d, owns (c : Thread nD τ) (st4_5 t) fullShare ((pd4 V c).before 5 t d))
    ∗ (∃ d, owns (c : Thread nD τ) (st4_6 t) fullShare ((pd4 V c).before 6 t d)))

/-- and what it returns. -/
def left4 (c : Dev nD) (t : Fin cfg4.N) : sProp 𝕄 :=
  iprop((pd4 V c).Φ t.succ ∗ (pd4 V c).owesAt () t.succ
    ∗ owns (c : Thread nD τ) (st4_0 t) fullShare ((pd4 V c).after 0 t)
    ∗ owns (c : Thread nD τ) (st4_1 t) fullShare ((pd4 V c).after 1 t)
    ∗ owns (c : Thread nD τ) (st4_2 t) fullShare ((pd4 V c).after 2 t)
    ∗ owns (c : Thread nD τ) (st4_3 t) fullShare ((pd4 V c).after 3 t)
    ∗ owns (c : Thread nD τ) (st4_4 t) fullShare ((pd4 V c).after 4 t)
    ∗ owns (c : Thread nD τ) (st4_5 t) fullShare ((pd4 V c).after 5 t)
    ∗ owns (c : Thread nD τ) (st4_6 t) fullShare ((pd4 V c).after 6 t))

/-- The body at any point: the inputs' staging buffers hold their blocks, so `body_run4` applies; the invariant and what
    the core owes pass through unread. -/
theorem body_at4 (c : Dev nD) (t : Fin cfg4.N) :
    entered4 V c t ⊢ wp frame (wpE (defs₀ (F := F)) Variants.none c none) Set.univ (bodyAt4 t) (fun _ => left4 V c t) := by
  unfold entered4 left4 bodyAt4
  simp only [pd4_before_0, pd4_before_1, pd4_before_2, pd4_before_3, pd4_before_4, pd4_before_5]
  rw [show (pd4 V c).Φ t.succ = (pd4 V c).Φ t.castSucc from rfl,
    show (pd4 V c).owesAt () t.succ = (pd4 V c).owesAt () t.castSucc from rfl,
    pd4_after_0, pd4_after_1, pd4_after_2, pd4_after_3, pd4_after_4, pd4_after_5, pd4_after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_run4 c Set.univ (grid4.coords t) _ _ _ _ _ _ _ _ _ _ _ _ _ _ (blk4 V c 0 t) (blk4 V c 1 t) (blk4 V c 2 t) (blk4 V c 3 t) (blk4 V c 4 t) (blk4 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation for region 4, at every point. -/
theorem obligation4 (c : Dev nD) : BodyObligation (pd4 (F := F) V c) (defs₀ (F := F)) Variants.none () Set.univ := fun t => by
  rw [bigSep_W4, bigSep_W4]
  exact body_at4 V c t

end Cert.KernelIdeal.Frm

end
-- ==== Proof.KIRun.lean ====
/-
  The kernel program's run from the launch to the return, at any float instance. Its @main is nine stretches of host
  operations around five kernel regions. The contents of a core's buffers are followed from boundary to boundary:
  a host stretch leaves the fold of its operations' results over what it found; a region leaves each of its arrays at
  what its write-backs make of it (an input's array as entered, the output's at the blocks the body stored, point by
  point) and every other buffer as entered. Each region is entered from "every unscoped buffer at the boundary's
  contents, the generator register at some state, nothing owed" and left in the same form at the next boundary's
  contents. The run ends with every buffer at the last boundary's contents, from which both the frame (no stretch and
  no region writes an argument) and the values of the two results are read.
-/
import proofs.«178339_j40699110097748_1_alg».proof.Proof.Gen.KernelIdeal.Regions
import proofs.«178339_j40699110097748_1_alg».proof.Proof.KIRegion0
import proofs.«178339_j40699110097748_1_alg».proof.Proof.KIRegion1
import proofs.«178339_j40699110097748_1_alg».proof.Proof.KIRegion2
import proofs.«178339_j40699110097748_1_alg».proof.Proof.KIRegion3
import proofs.«178339_j40699110097748_1_alg».proof.Proof.KIRegion4

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core `c`'s buffers at launch. -/
abbrev B0 : Dev nD → Valuation τ sig (Elt F) := fun c b => m (c, b)
/-- After the host stretch `hostOps0`. -/
abbrev B1 : Dev nD → Valuation τ sig (Elt F) := fun c => StableHlo.after hostOps0 (B0 m c)
/-- The same read at the TensorCore's references: what region 0 is entered with. -/
abbrev E1 : (c : Dev nD) → (b : Ref sig .tc) → Buf (Elt F) ((c : Thread nD τ).loc b) := fun c b => B1 m c b
/-- At region 0's exit: its arrays at what the write-backs leave, every other buffer as entered. -/
def B2 (c : Dev nD) : Valuation τ sig (Elt F) :=
  Pipeline.withArrays spec0 c (B1 m c) fun w => (pd0 (E1 m) c).arrAt w cfg0.N
theorem B2_arr (c : Dev nD) (w : Fin cfg0.W) :
    B2 m c (Proc.devRef .tc (Pipeline.arrRef spec0 w)) = (pd0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev E2 : (c : Dev nD) → (b : Ref sig .tc) → Buf (Elt F) ((c : Thread nD τ).loc b) := fun c b => B2 m c b
theorem exitArr0 (c : Dev nD) (w : Fin cfg0.W) : (pd0 (E1 m) c).arrAt w cfg0.N = E2 m c (Pipeline.arrRef spec0 w) :=
  (B2_arr m c w).symm
theorem exitRest0 (c : Dev nD) : ∀ b, b ∉ Finset.univ.image (Pipeline.arrRef spec0) → E2 m c b = E1 m c b :=
  fun b hb => B2_of_ne m c b fun w e => hb (Finset.mem_image.mpr ⟨w, Finset.mem_univ _, e⟩)
/-- After the host stretch `hostOps1`. -/
abbrev B3 : Dev nD → Valuation τ sig (Elt F) := fun c => StableHlo.after hostOps1 (B2 m c)
/-- After the host stretch `hostOps1_1`. -/
abbrev B4 : Dev nD → Valuation τ sig (Elt F) := fun c => StableHlo.after hostOps1_1 (B3 m c)
/-- After the host stretch `hostOps1_2`. -/
abbrev B5 : Dev nD → Valuation τ sig (Elt F) := fun c => StableHlo.after hostOps1_2 (B4 m c)
/-- The same read at the TensorCore's references: what region 1 is entered with. -/
abbrev E5 : (c : Dev nD) → (b : Ref sig .tc) → Buf (Elt F) ((c : Thread nD τ).loc b) := fun c b => B5 m c b
/-- At region 1's exit: its arrays at what the write-backs leave, every other buffer as entered. -/
def B6 (c : Dev nD) : Valuation τ sig (Elt F) :=
  Pipeline.withArrays spec1 c (B5 m c) fun w => (pd1 (E5 m) c).arrAt w cfg1.N
theorem B6_arr (c : Dev nD) (w : Fin cfg1.W) :
    B6 m c (Proc.devRef .tc (Pipeline.arrRef spec1 w)) = (pd1 (E5 m) c).arrAt w cfg1.N := by
  unfold B6; exact Pipeline.withArrays_arr spec1 launch1.win.arr_inj c _ _ w
theorem B6_of_ne (c : Dev nD) (b : Ref sig .tc) (hb : ∀ w, Pipeline.arrRef spec1 w ≠ b) :
    B6 m c (Proc.devRef .tc b) = B5 m c (Proc.devRef .tc b) := by
  unfold B6; exact Pipeline.withArrays_of_ne spec1 c _ _ b hb
abbrev E6 : (c : Dev nD) → (b : Ref sig .tc) → Buf (Elt F) ((c : Thread nD τ).loc b) := fun c b => B6 m c b
theorem exitArr1 (c : Dev nD) (w : Fin cfg1.W) : (pd1 (E5 m) c).arrAt w cfg1.N = E6 m c (Pipeline.arrRef spec1 w) :=
  (B6_arr m c w).symm
theorem exitRest1 (c : Dev nD) : ∀ b, b ∉ Finset.univ.image (Pipeline.arrRef spec1) → E6 m c b = E5 m c b :=
  fun b hb => B6_of_ne m c b fun w e => hb (Finset.mem_image.mpr ⟨w, Finset.mem_univ _, e⟩)
/-- After the host stretch `hostOps2`. -/
abbrev B7 : Dev nD → Valuation τ sig (Elt F) := fun c => StableHlo.after hostOps2 (B6 m c)
/-- The same read at the TensorCore's references: what region 2 is entered with. -/
abbrev E7 : (c : Dev nD) → (b : Ref sig .tc) → Buf (Elt F) ((c : Thread nD τ).loc b) := fun c b => B7 m c b
/-- At region 2's exit: its arrays at what the write-backs leave, every other buffer as entered. -/
def B8 (c : Dev nD) : Valuation τ sig (Elt F) :=
  Pipeline.withArrays spec2 c (B7 m c) fun w => (pd2 (E7 m) c).arrAt w cfg2.N
theorem B8_arr (c : Dev nD) (w : Fin cfg2.W) :
    B8 m c (Proc.devRef .tc (Pipeline.arrRef spec2 w)) = (pd2 (E7 m) c).arrAt w cfg2.N := by
  unfold B8; exact Pipeline.withArrays_arr spec2 launch2.win.arr_inj c _ _ w
theorem B8_of_ne (c : Dev nD) (b : Ref sig .tc) (hb : ∀ w, Pipeline.arrRef spec2 w ≠ b) :
    B8 m c (Proc.devRef .tc b) = B7 m c (Proc.devRef .tc b) := by
  unfold B8; exact Pipeline.withArrays_of_ne spec2 c _ _ b hb
abbrev E8 : (c : Dev nD) → (b : Ref sig .tc) → Buf (Elt F) ((c : Thread nD τ).loc b) := fun c b => B8 m c b
theorem exitArr2 (c : Dev nD) (w : Fin cfg2.W) : (pd2 (E7 m) c).arrAt w cfg2.N = E8 m c (Pipeline.arrRef spec2 w) :=
  (B8_arr m c w).symm
theorem exitRest2 (c : Dev nD) : ∀ b, b ∉ Finset.univ.image (Pipeline.arrRef spec2) → E8 m c b = E7 m c b :=
  fun b hb => B8_of_ne m c b fun w e => hb (Finset.mem_image.mpr ⟨w, Finset.mem_univ _, e⟩)
/-- After the host stretch `hostOps3`. -/
abbrev B9 : Dev nD → Valuation τ sig (Elt F) := fun c => StableHlo.after hostOps3 (B8 m c)
/-- After the host stretch `hostOps3_1`. -/
abbrev B10 : Dev nD → Valuation τ sig (Elt F) := fun c => StableHlo.after hostOps3_1 (B9 m c)
/-- The same read at the TensorCore's references: what region 3 is entered with. -/
abbrev E10 : (c : Dev nD) → (b : Ref sig .tc) → Buf (Elt F) ((c : Thread nD τ).loc b) := fun c b => B10 m c b
/-- At region 3's exit: its arrays at what the write-backs leave, every other buffer as entered. -/
def B11 (c : Dev nD) : Valuation τ sig (Elt F) :=
  Pipeline.withArrays spec3 c (B10 m c) fun w => (pd3 (E10 m) c).arrAt w cfg3.N
theorem B11_arr (c : Dev nD) (w : Fin cfg3.W) :
    B11 m c (Proc.devRef .tc (Pipeline.arrRef spec3 w)) = (pd3 (E10 m) c).arrAt w cfg3.N := by
  unfold B11; exact Pipeline.withArrays_arr spec3 launch3.win.arr_inj c _ _ w
theorem B11_of_ne (c : Dev nD) (b : Ref sig .tc) (hb : ∀ w, Pipeline.arrRef spec3 w ≠ b) :
    B11 m c (Proc.devRef .tc b) = B10 m c (Proc.devRef .tc b) := by
  unfold B11; exact Pipeline.withArrays_of_ne spec3 c _ _ b hb
abbrev E11 : (c : Dev nD) → (b : Ref sig .tc) → Buf (Elt F) ((c : Thread nD τ).loc b) := fun c b => B11 m c b
theorem exitArr3 (c : Dev nD) (w : Fin cfg3.W) : (pd3 (E10 m) c).arrAt w cfg3.N = E11 m c (Pipeline.arrRef spec3 w) :=
  (B11_arr m c w).symm
theorem exitRest3 (c : Dev nD) : ∀ b, b ∉ Finset.univ.image (Pipeline.arrRef spec3) → E11 m c b = E10 m c b :=
  fun b hb => B11_of_ne m c b fun w e => hb (Finset.mem_image.mpr ⟨w, Finset.mem_univ _, e⟩)
/-- After the host stretch `hostOps4`. -/
abbrev B12 : Dev nD → Valuation τ sig (Elt F) := fun c => StableHlo.after hostOps4 (B11 m c)
/-- The same read at the TensorCore's references: what region 4 is entered with. -/
abbrev E12 : (c : Dev nD) → (b : Ref sig .tc) → Buf (Elt F) ((c : Thread nD τ).loc b) := fun c b => B12 m c b
/-- At region 4's exit: its arrays at what the write-backs leave, every other buffer as entered. -/
def B13 (c : Dev nD) : Valuation τ sig (Elt F) :=
  Pipeline.withArrays spec4 c (B12 m c) fun w => (pd4 (E12 m) c).arrAt w cfg4.N
theorem B13_arr (c : Dev nD) (w : Fin cfg4.W) :
    B13 m c (Proc.devRef .tc (Pipeline.arrRef spec4 w)) = (pd4 (E12 m) c).arrAt w cfg4.N := by
  unfold B13; exact Pipeline.withArrays_arr spec4 launch4.win.arr_inj c _ _ w
theorem B13_of_ne (c : Dev nD) (b : Ref sig .tc) (hb : ∀ w, Pipeline.arrRef spec4 w ≠ b) :
    B13 m c (Proc.devRef .tc b) = B12 m c (Proc.devRef .tc b) := by
  unfold B13; exact Pipeline.withArrays_of_ne spec4 c _ _ b hb
abbrev E13 : (c : Dev nD) → (b : Ref sig .tc) → Buf (Elt F) ((c : Thread nD τ).loc b) := fun c b => B13 m c b
theorem exitArr4 (c : Dev nD) (w : Fin cfg4.W) : (pd4 (E12 m) c).arrAt w cfg4.N = E13 m c (Pipeline.arrRef spec4 w) :=
  (B13_arr m c w).symm
theorem exitRest4 (c : Dev nD) : ∀ b, b ∉ Finset.univ.image (Pipeline.arrRef spec4) → E13 m c b = E12 m c b :=
  fun b hb => B13_of_ne m c b fun w e => hb (Finset.mem_image.mpr ⟨w, Finset.mem_univ _, e⟩)
/-- After the host stretch `hostOps5`. -/
abbrev B14 : Dev nD → Valuation τ sig (Elt F) := fun c => StableHlo.after hostOps5 (B13 m c)

/-! ## The proof data family and the thread state -/

/-- Every region's proof data, each at its region's entry contents. -/
def pds : (p : Fin 5) → (c : Dev nD) → Dat τ (Elt F) Unit ℕ (UR sig nD τ) ℕ (Pipeline.pin (pcfgs (F := F)) adm p) c
  | ⟨0, _⟩ => fun c => pd0 (E1 m) c
  | ⟨1, _⟩ => fun c => pd1 (E5 m) c
  | ⟨2, _⟩ => fun c => pd2 (E7 m) c
  | ⟨3, _⟩ => fun c => pd3 (E10 m) c
  | ⟨4, _⟩ => fun c => pd4 (E12 m) c
abbrev noVar : Variants := Variants.none
/-- No core owes another anything: no level is assigned. -/
abbrev noL : GSem nD τ sig → Finset Unit := fun _ => ∅
abbrev noLv : GSem nD τ sig → Unit → ℕ := fun _ _ => 0
/-- What rides beside the buffers through every item: the generator register at some state, and nothing owed. -/
abbrev Ride (c : Dev nD) : sProp 𝕄 := iprop((∃ r, prngReg c r) ∗ ∃ W, owes (c : Thread nD τ) (0 : CellTallies nD τ sig Unit) W)
/-- A host stretch as an item of the run, from the contents `W`. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVar noL noLv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Ride
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed. -/
abbrev Tend (c : Dev nD) : sProp 𝕄 := iprop(StableHlo.held (c : Thread nD τ) (Pipeline.ucRefs τ sig) (B14 m c) ∗ ∃ r, prngReg c r)

/-! ## The regions as items of the run -/

set_option backward.isDefEq.respectTransparency.types false in
/-- Region 0: entered from every unscoped buffer at `B1`, left at `B2`; its arrays split out of the unscoped buffers
    and put back at the exit contents; the generator register into the class invariant and out; nothing owed. -/
def reg0 : Pipeline.RegionSeg (pcfgs (F := F)) adm (pds m) () defs₀ noVar noL noLv 0 where
  win := launch0.win.to₀
  block_pos := launch0.block_pos
  stage_whole := launch0.stage_whole
  K := PEmpty
  osem k := k.elim
  ho := Pipeline.OwnSemFacts.none _
  hbody c := (obligation0 (E1 m) c).loose
  hwaits := Pipeline.hwaits_of_owed_zero _ _ _ _ noL noLv 0 fun _ _ => rfl
  pre c := iprop(StableHlo.held (c : Thread nD τ) (Pipeline.ucRefs τ sig) (B1 m c) ∗ Ride c)
  post c := iprop(StableHlo.held (c : Thread nD τ) (Pipeline.ucRefs τ sig) (B2 m c) ∗ Ride c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pds m) launch0.win launch0.arr_whole c
      ((pds m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pds m 0 c).Φ 0 = Pipeline.ΦA spec0 c from rfl]; unfold Pipeline.ΦA
    iintro ⟨Hp, -, Hr⟩
    isplitl [Hr]; · iexact Hr
    iexact Hp
  hout c := by
    rw [Pipeline.ownSems0_none, show (pds m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pds m) ((pds m 0 c).share_full fun _ => rfl)
      (E1 m c) (E2 m c) ((pds m 0 c).arrAt · cfg0.N) (exitArr0 m c) (exitRest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `B5`, left at `B6`; its arrays split out of the unscoped buffers
    and put back at the exit contents; the generator register into the class invariant and out; nothing owed. -/
def reg1 : Pipeline.RegionSeg (pcfgs (F := F)) adm (pds m) () defs₀ noVar noL noLv 1 where
  win := launch1.win.to₀
  block_pos := launch1.block_pos
  stage_whole := launch1.stage_whole
  K := PEmpty
  osem k := k.elim
  ho := Pipeline.OwnSemFacts.none _
  hbody c := (obligation1 (E5 m) c).loose
  hwaits := Pipeline.hwaits_of_owed_zero _ _ _ _ noL noLv 1 fun _ _ => rfl
  pre c := iprop(StableHlo.held (c : Thread nD τ) (Pipeline.ucRefs τ sig) (B5 m c) ∗ Ride c)
  post c := iprop(StableHlo.held (c : Thread nD τ) (Pipeline.ucRefs τ sig) (B6 m c) ∗ Ride c)
  X c := iprop(∃ r, prngReg c r)
  Y c := iprop(∃ r, prngReg c r)
  Z c := Pipeline.unscopedRest (Ix := Unit) (Name := ℕ) (U := UR sig nD τ) (Lvl := ℕ) spec1 c (E5 m c)
  hentry c := by
    rw [Pipeline.ownSems0_none]
    have hsplit := Pipeline.arrays_of_unscopedBufs (p := 1) (pcfgs (F := F)) adm (pds m) launch1.win launch1.arr_whole c
      ((pds m 1 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pds m 1 c).Φ 0 = Pipeline.ΦA spec1 c from rfl]; unfold Pipeline.ΦA
    iintro ⟨Hp, -, Hr⟩
    isplitl [Hr]; · iexact Hr
    iexact Hp
  hout c := by
    rw [Pipeline.ownSems0_none, show (pds m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pds m) ((pds m 1 c).share_full fun _ => rfl)
      (E5 m c) (E6 m c) ((pds m 1 c).arrAt · cfg1.N) (exitArr1 m c) (exitRest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at `B7`, left at `B8`; its arrays split out of the unscoped buffers
    and put back at the exit contents; the generator register into the class invariant and out; nothing owed. -/
def reg2 : Pipeline.RegionSeg (pcfgs (F := F)) adm (pds m) () defs₀ noVar noL noLv 2 where
  win := launch2.win.to₀
  block_pos := launch2.block_pos
  stage_whole := launch2.stage_whole
  K := PEmpty
  osem k := k.elim
  ho := Pipeline.OwnSemFacts.none _
  hbody c := (obligation2 (E7 m) c).loose
  hwaits := Pipeline.hwaits_of_owed_zero _ _ _ _ noL noLv 2 fun _ _ => rfl
  pre c := iprop(StableHlo.held (c : Thread nD τ) (Pipeline.ucRefs τ sig) (B7 m c) ∗ Ride c)
  post c := iprop(StableHlo.held (c : Thread nD τ) (Pipeline.ucRefs τ sig) (B8 m c) ∗ Ride c)
  X c := iprop(∃ r, prngReg c r)
  Y c := iprop(∃ r, prngReg c r)
  Z c := Pipeline.unscopedRest (Ix := Unit) (Name := ℕ) (U := UR sig nD τ) (Lvl := ℕ) spec2 c (E7 m c)
  hentry c := by
    rw [Pipeline.ownSems0_none]
    have hsplit := Pipeline.arrays_of_unscopedBufs (p := 2) (pcfgs (F := F)) adm (pds m) launch2.win launch2.arr_whole c
      ((pds m 2 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pds m 2 c).Φ 0 = Pipeline.ΦA spec2 c from rfl]; unfold Pipeline.ΦA
    iintro ⟨Hp, -, Hr⟩
    isplitl [Hr]; · iexact Hr
    iexact Hp
  hout c := by
    rw [Pipeline.ownSems0_none, show (pds m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pds m) ((pds m 2 c).share_full fun _ => rfl)
      (E7 m c) (E8 m c) ((pds m 2 c).arrAt · cfg2.N) (exitArr2 m c) (exitRest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every unscoped buffer at `B10`, left at `B11`; its arrays split out of the unscoped buffers
    and put back at the exit contents; the generator register into the class invariant and out; nothing owed. -/
def reg3 : Pipeline.RegionSeg (pcfgs (F := F)) adm (pds m) () defs₀ noVar noL noLv 3 where
  win := launch3.win.to₀
  block_pos := launch3.block_pos
  stage_whole := launch3.stage_whole
  K := PEmpty
  osem k := k.elim
  ho := Pipeline.OwnSemFacts.none _
  hbody c := (obligation3 (E10 m) c).loose
  hwaits := Pipeline.hwaits_of_owed_zero _ _ _ _ noL noLv 3 fun _ _ => rfl
  pre c := iprop(StableHlo.held (c : Thread nD τ) (Pipeline.ucRefs τ sig) (B10 m c) ∗ Ride c)
  post c := iprop(StableHlo.held (c : Thread nD τ) (Pipeline.ucRefs τ sig) (B11 m c) ∗ Ride c)
  X c := iprop(∃ r, prngReg c r)
  Y c := iprop(∃ r, prngReg c r)
  Z c := Pipeline.unscopedRest (Ix := Unit) (Name := ℕ) (U := UR sig nD τ) (Lvl := ℕ) spec3 c (E10 m c)
  hentry c := by
    rw [Pipeline.ownSems0_none]
    have hsplit := Pipeline.arrays_of_unscopedBufs (p := 3) (pcfgs (F := F)) adm (pds m) launch3.win launch3.arr_whole c
      ((pds m 3 c).share_full fun _ => rfl) (E10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pds m 3 c).Φ 0 = Pipeline.ΦA spec3 c from rfl]; unfold Pipeline.ΦA
    iintro ⟨Hp, -, Hr⟩
    isplitl [Hr]; · iexact Hr
    iexact Hp
  hout c := by
    rw [Pipeline.ownSems0_none, show (pds m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pds m) ((pds m 3 c).share_full fun _ => rfl)
      (E10 m c) (E11 m c) ((pds m 3 c).arrAt · cfg3.N) (exitArr3 m c) (exitRest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered from every unscoped buffer at `B12`, left at `B13`; its arrays split out of the unscoped buffers
    and put back at the exit contents; the generator register into the class invariant and out; nothing owed. -/
def reg4 : Pipeline.RegionSeg (pcfgs (F := F)) adm (pds m) () defs₀ noVar noL noLv 4 where
  win := launch4.win.to₀
  block_pos := launch4.block_pos
  stage_whole := launch4.stage_whole
  K := PEmpty
  osem k := k.elim
  ho := Pipeline.OwnSemFacts.none _
  hbody c := (obligation4 (E12 m) c).loose
  hwaits := Pipeline.hwaits_of_owed_zero _ _ _ _ noL noLv 4 fun _ _ => rfl
  pre c := iprop(StableHlo.held (c : Thread nD τ) (Pipeline.ucRefs τ sig) (B12 m c) ∗ Ride c)
  post c := iprop(StableHlo.held (c : Thread nD τ) (Pipeline.ucRefs τ sig) (B13 m c) ∗ Ride c)
  X c := iprop(∃ r, prngReg c r)
  Y c := iprop(∃ r, prngReg c r)
  Z c := Pipeline.unscopedRest (Ix := Unit) (Name := ℕ) (U := UR sig nD τ) (Lvl := ℕ) spec4 c (E12 m c)
  hentry c := by
    rw [Pipeline.ownSems0_none]
    have hsplit := Pipeline.arrays_of_unscopedBufs (p := 4) (pcfgs (F := F)) adm (pds m) launch4.win launch4.arr_whole c
      ((pds m 4 c).share_full fun _ => rfl) (E12 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pds m 4 c).Φ 0 = Pipeline.ΦA spec4 c from rfl]; unfold Pipeline.ΦA
    iintro ⟨Hp, -, Hr⟩
    isplitl [Hr]; · iexact Hr
    iexact Hp
  hout c := by
    rw [Pipeline.ownSems0_none, show (pds m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pds m) ((pds m 4 c).share_full fun _ => rfl)
      (E12 m c) (E13 m c) ((pds m 4 c).arrAt · cfg4.N) (exitArr4 m c) (exitRest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as the items in order, and the launch -/

abbrev items : List (Pipeline.Seg (pcfgs (F := F)) adm (pds m) () defs₀ noVar noL noLv) :=
  [ .host (stretch hostOps0 hostOps0_sub hostOps0_fresh (B0 m)),
    .region (reg0 m),
    .host (stretch hostOps1 hostOps1_sub hostOps1_fresh (B2 m)),
    .host (stretch hostOps1_1 hostOps1_1_sub hostOps1_1_fresh (B3 m)),
    .host (stretch hostOps1_2 hostOps1_2_sub hostOps1_2_fresh (B4 m)),
    .region (reg1 m),
    .host (stretch hostOps2 hostOps2_sub hostOps2_fresh (B6 m)),
    .region (reg2 m),
    .host (stretch hostOps3 hostOps3_sub hostOps3_fresh (B8 m)),
    .host (stretch hostOps3_1 hostOps3_1_sub hostOps3_1_fresh (B9 m)),
    .region (reg3 m),
    .host (stretch hostOps4 hostOps4_sub hostOps4_fresh (B11 m)),
    .region (reg4 m),
    .host (stretch hostOps5 hostOps5_sub hostOps5_fresh (B13 m)) ]
/-- @main is the run of the items. -/
theorem main_items (c : Dev nD) : main (F := F) c = Pipeline.Seg.run (items m) := (main_chain c).trans (by chain_rfl)

set_option backward.isDefEq.respectTransparency.types false in
/-- THE RUN: from any memory with zero counters every weakly fair execution of @main on the TensorCores terminates,
    nothing faulting, and in every final state every unscoped buffer of every core holds the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = B14 m c b) :=
  Pipeline.θ_run_regions_kit (pcfgs (F := F)) adm (pds m) () cellOf_inj emb₁ defs₀ noVar noL noLv m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ Ride c)) (Tₙ := Tend m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (B14 m c) ∗ Ride c) ⊢ _
      iintro ⟨Hh, Hp, HO⟩
      isplitl [Hh Hp]
      · isplitl [Hh]; · iexact Hh
        iexact Hp
      iexact HO⟩)
    (hinit := by
      refine Pipeline.initEach noL noLv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B14 m c b)
    (hfin := fun c s' => by
      iintro ⟨⟨Hh, -⟩, HSI⟩
      unfold StableHlo.held
      imodintro
      iapply (pointsTo_read_all (Pipeline.ucRefs τ sig) (fun b => (((c : Thread nD τ)).1, b)) (B14 m c) s')
      isplitl [Hh] <;> iassumption)
    (hQ := fun s h c => h c)

end Cert.KernelIdeal.Frm

end
-- ==== Proof.KIFrame.lean ====
/-
  The frame of the kernel program: every argument array ends as launched. No host operation writes an argument and no
  region's output array is one; a region whose INPUT window stages an argument (the residual matrix) leaves it as
  entered. So the last boundary's contents at an argument walk back, boundary by boundary, to the launch memory.
-/
import proofs.«178339_j40699110097748_1_alg».proof.Proof.KIRun

set_option maxRecDepth 16384

noncomputable section

namespace Cert.KernelIdeal.Frm

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ)

/-- A buffer no host stretch writes and no region stages ends as launched. -/
theorem untouched (c : Dev nD) (r : Ref sig .tc)
    (h0 : r ∉ hostOps0_W) (h1 : r ∉ hostOps1_W) (h2 : r ∉ hostOps1_1_W) (h3 : r ∉ hostOps1_2_W) (h4 : r ∉ hostOps2_W) (h5 : r ∉ hostOps3_W) (h6 : r ∉ hostOps3_1_W) (h7 : r ∉ hostOps4_W) (h8 : r ∉ hostOps5_W)
    (a0 : ∀ w, Pipeline.arrRef spec0 w ≠ r) (a1 : ∀ w, Pipeline.arrRef spec1 w ≠ r) (a2 : ∀ w, Pipeline.arrRef spec2 w ≠ r) (a3 : ∀ w, Pipeline.arrRef spec3 w ≠ r) (a4 : ∀ w, Pipeline.arrRef spec4 w ≠ r) :
    B14 m c r = m ((c : Thread nD τ).loc r) :=
  (StableHlo.after_of_writes_sub hostOps5 _ hostOps5_writes h8).trans <| (B13_of_ne m c r a4).trans <|
  (StableHlo.after_of_writes_sub hostOps4 _ hostOps4_writes h7).trans <| (B11_of_ne m c r a3).trans <|
  (StableHlo.after_of_writes_sub hostOps3_1 _ hostOps3_1_writes h6).trans <| (StableHlo.after_of_writes_sub hostOps3 _ hostOps3_writes h5).trans <|
  (B8_of_ne m c r a2).trans <| (StableHlo.after_of_writes_sub hostOps2 _ hostOps2_writes h4).trans <| (B6_of_ne m c r a1).trans <|
  (StableHlo.after_of_writes_sub hostOps1_2 _ hostOps1_2_writes h3).trans <| (StableHlo.after_of_writes_sub hostOps1_1 _ hostOps1_1_writes h2).trans <|
  (StableHlo.after_of_writes_sub hostOps1 _ hostOps1_writes h1).trans <| (B2_of_ne m c r a0).trans <|
  (StableHlo.after_of_writes_sub hostOps0 _ hostOps0_writes h0)

/-- The residual matrix is the fourth region's second input window: the region leaves an input's array as entered. -/
theorem untouched_R (c : Dev nD) : B14 m c main_arg16 = m ((c : Thread nD τ).loc main_arg16) :=
  (StableHlo.after_of_writes_sub hostOps5 _ hostOps5_writes (by decide)).trans <| (B13_of_ne m c main_arg16 (by decide)).trans <|
  (StableHlo.after_of_writes_sub hostOps4 _ hostOps4_writes (by decide)).trans <|
  ((B11_arr m c 1).trans (((pd3 (E10 m) c).arrAt_in 1 rfl _).trans (pd3_A (E10 m) c 1))).trans <|
  (StableHlo.after_of_writes_sub hostOps3_1 _ hostOps3_1_writes (by decide)).trans <| (StableHlo.after_of_writes_sub hostOps3 _ hostOps3_writes (by decide)).trans <|
  (B8_of_ne m c main_arg16 (by decide)).trans <| (StableHlo.after_of_writes_sub hostOps2 _ hostOps2_writes (by decide)).trans <| (B6_of_ne m c main_arg16 (by decide)).trans <|
  (StableHlo.after_of_writes_sub hostOps1_2 _ hostOps1_2_writes (by decide)).trans <| (StableHlo.after_of_writes_sub hostOps1_1 _ hostOps1_1_writes (by decide)).trans <|
  (StableHlo.after_of_writes_sub hostOps1 _ hostOps1_writes (by decide)).trans <| (B2_of_ne m c main_arg16 (by decide)).trans <|
  (StableHlo.after_of_writes_sub hostOps0 _ hostOps0_writes (by decide))

theorem kept_arg0 (c : Dev nD) : B14 m c main_arg0 = m ((c : Thread nD τ).loc main_arg0) :=
  untouched m c main_arg0 (by decide) (by decide) (by decide) (by decide) (by decide) (by decide) (by decide) (by decide) (by decide) (by decide) (by decide) (by decide) (by decide) (by decide)
theorem kept_arg1 (c : Dev nD) : B14 m c main_arg1 = m ((c : Thread nD τ).loc main_arg1) :=
  untouched m c main_arg1 (by decide) (by decide) (by decide) (by decide) (by decide) (by decide) (by decide) (by decide) (by decide) (by decide) (by decide) (by decide) (by decide) (by decide)
theorem kept_arg2 (c : Dev nD) : B14 m c main_arg2 = m ((c : Thread nD τ).loc main_arg2) :=
  untouched m c main_arg2 (by decide) (by decide) (by decide) (by decide) (by decide) (by decide) (by decide) (by decide) (by decide) (by decide) (by decide) (by decide) (by decide) (by decide)
theorem kept_arg3 (c : Dev nD) : B14 m c main_arg3 = m ((c : Thread nD τ).loc main_arg3) :=
  untouched m c main_arg3 (by decide) (by decide) (by decide) (by decide) (by decide) (by decide) (by decide) (by decide) (by decide) (by decide) (by decide) (by decide) (by decide) (by decide)
theorem kept_arg4 (c : Dev nD) : B14 m c main_arg4 = m ((c : Thread nD τ).loc main_arg4) :=
  untouched m c main_arg4 (by decide) (by decide) (by decide) (by decide) (by decide) (by decide) (by decide) (by decide) (by decide) (by decide) (by decide) (by decide) (by decide) (by decide)
theorem kept_arg5 (c : Dev nD) : B14 m c main_arg5 = m ((c : Thread nD τ).loc main_arg5) :=
  untouched m c main_arg5 (by decide) (by decide) (by decide) (by decide) (by decide) (by decide) (by decide) (by decide) (by decide) (by decide) (by decide) (by decide) (by decide) (by decide)
theorem kept_arg6 (c : Dev nD) : B14 m c main_arg6 = m ((c : Thread nD τ).loc main_arg6) :=
  untouched m c main_arg6 (by decide) (by decide) (by decide) (by decide) (by decide) (by decide) (by decide) (by decide) (by decide) (by decide) (by decide) (by decide) (by decide) (by decide)
theorem kept_arg7 (c : Dev nD) : B14 m c main_arg7 = m ((c : Thread nD τ).loc main_arg7) :=
  untouched m c main_arg7 (by decide) (by decide) (by decide) (by decide) (by decide) (by decide) (by decide) (by decide) (by decide) (by decide) (by decide) (by decide) (by decide) (by decide)
theorem kept_arg8 (c : Dev nD) : B14 m c main_arg8 = m ((c : Thread nD τ).loc main_arg8) :=
  untouched m c main_arg8 (by decide) (by decide) (by decide) (by decide) (by decide) (by decide) (by decide) (by decide) (by decide) (by decide) (by decide) (by decide) (by decide) (by decide)
theorem kept_arg9 (c : Dev nD) : B14 m c main_arg9 = m ((c : Thread nD τ).loc main_arg9) :=
  untouched m c main_arg9 (by decide) (by decide) (by decide) (by decide) (by decide) (by decide) (by decide) (by decide) (by decide) (by decide) (by decide) (by decide) (by decide) (by decide)
theorem kept_arg10 (c : Dev nD) : B14 m c main_arg10 = m ((c : Thread nD τ).loc main_arg10) :=
  untouched m c main_arg10 (by decide) (by decide) (by decide) (by decide) (by decide) (by decide) (by decide) (by decide) (by decide) (by decide) (by decide) (by decide) (by decide) (by decide)
theorem kept_arg11 (c : Dev nD) : B14 m c main_arg11 = m ((c : Thread nD τ).loc main_arg11) :=
  untouched m c main_arg11 (by decide) (by decide) (by decide) (by decide) (by decide) (by decide) (by decide) (by decide) (by decide) (by decide) (by decide) (by decide) (by decide) (by decide)
theorem kept_arg12 (c : Dev nD) : B14 m c main_arg12 = m ((c : Thread nD τ).loc main_arg12) :=
  untouched m c main_arg12 (by decide) (by decide) (by decide) (by decide) (by decide) (by decide) (by decide) (by decide) (by decide) (by decide) (by decide) (by decide) (by decide) (by decide)
theorem kept_arg13 (c : Dev nD) : B14 m c main_arg13 = m ((c : Thread nD τ).loc main_arg13) :=
  untouched m c main_arg13 (by decide) (by decide) (by decide) (by decide) (by decide) (by decide) (by decide) (by decide) (by decide) (by decide) (by decide) (by decide) (by decide) (by decide)
theorem kept_arg14 (c : Dev nD) : B14 m c main_arg14 = m ((c : Thread nD τ).loc main_arg14) :=
  untouched m c main_arg14 (by decide) (by decide) (by decide) (by decide) (by decide) (by decide) (by decide) (by decide) (by decide) (by decide) (by decide) (by decide) (by decide) (by decide)
theorem kept_arg15 (c : Dev nD) : B14 m c main_arg15 = m ((c : Thread nD τ).loc main_arg15) :=
  untouched m c main_arg15 (by decide) (by decide) (by decide) (by decide) (by decide) (by decide) (by decide) (by decide) (by decide) (by decide) (by decide) (by decide) (by decide) (by decide)
theorem kept_arg17 (c : Dev nD) : B14 m c main_arg17 = m ((c : Thread nD τ).loc main_arg17) :=
  untouched m c main_arg17 (by decide) (by decide) (by decide) (by decide) (by decide) (by decide) (by decide) (by decide) (by decide) (by decide) (by decide) (by decide) (by decide) (by decide)
theorem kept_arg18 (c : Dev nD) : B14 m c main_arg18 = m ((c : Thread nD τ).loc main_arg18) :=
  untouched m c main_arg18 (by decide) (by decide) (by decide) (by decide) (by decide) (by decide) (by decide) (by decide) (by decide) (by decide) (by decide) (by decide) (by decide) (by decide)
theorem kept_arg19 (c : Dev nD) : B14 m c main_arg19 = m ((c : Thread nD τ).loc main_arg19) :=
  untouched m c main_arg19 (by decide) (by decide) (by decide) (by decide) (by decide) (by decide) (by decide) (by decide) (by decide) (by decide) (by decide) (by decide) (by decide) (by decide)
theorem kept_arg20 (c : Dev nD) : B14 m c main_arg20 = m ((c : Thread nD τ).loc main_arg20) :=
  untouched m c main_arg20 (by decide) (by decide) (by decide) (by decide) (by decide) (by decide) (by decide) (by decide) (by decide) (by decide) (by decide) (by decide) (by decide) (by decide)
theorem kept_arg16 (c : Dev nD) : B14 m c main_arg16 = m ((c : Thread nD τ).loc main_arg16) := untouched_R m c

/-- THE FRAME, at any float instance. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c => ⟨(h c _ (mem_uc main_arg0 (by decide))).trans (kept_arg0 m c),
    (h c _ (mem_uc main_arg1 (by decide))).trans (kept_arg1 m c),
    (h c _ (mem_uc main_arg2 (by decide))).trans (kept_arg2 m c),
    (h c _ (mem_uc main_arg3 (by decide))).trans (kept_arg3 m c),
    (h c _ (mem_uc main_arg4 (by decide))).trans (kept_arg4 m c),
    (h c _ (mem_uc main_arg5 (by decide))).trans (kept_arg5 m c),
    (h c _ (mem_uc main_arg6 (by decide))).trans (kept_arg6 m c),
    (h c _ (mem_uc main_arg7 (by decide))).trans (kept_arg7 m c),
    (h c _ (mem_uc main_arg8 (by decide))).trans (kept_arg8 m c),
    (h c _ (mem_uc main_arg9 (by decide))).trans (kept_arg9 m c),
    (h c _ (mem_uc main_arg10 (by decide))).trans (kept_arg10 m c),
    (h c _ (mem_uc main_arg11 (by decide))).trans (kept_arg11 m c),
    (h c _ (mem_uc main_arg12 (by decide))).trans (kept_arg12 m c),
    (h c _ (mem_uc main_arg13 (by decide))).trans (kept_arg13 m c),
    (h c _ (mem_uc main_arg14 (by decide))).trans (kept_arg14 m c),
    (h c _ (mem_uc main_arg15 (by decide))).trans (kept_arg15 m c),
    (h c _ (mem_uc main_arg16 (by decide))).trans (kept_arg16 m c),
    (h c _ (mem_uc main_arg17 (by decide))).trans (kept_arg17 m c),
    (h c _ (mem_uc main_arg18 (by decide))).trans (kept_arg18 m c),
    (h c _ (mem_uc main_arg19 (by decide))).trans (kept_arg19 m c),
    (h c _ (mem_uc main_arg20 (by decide))).trans (kept_arg20 m c)⟩)
    (run_all m ρ)

end Cert.KernelIdeal.Frm

end
-- ==== Proof.RefOps.lean ====
/- The reference program's @main as a LIST of its host operations, the outlined functions' operations written at
   their calls over each call's own buffers. The program is a two-stage gated graph convolution with batch
   normalisation over 100000 nodes of 64 features and 1000000 edges: each stage projects the node table four ways
   (`x·W`), forms an edge gate `sigmoid (gather + gather + b)` from two of the projections gathered at the edge's ends,
   sums the gated third projection's rows per destination node, adds the fourth projection and a bias, takes the
   mean and variance over the nodes, normalises, and (after a residual projection in stage two) keeps the positive part. -/
import proofs.«178339_j40699110097748_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The operations, stretch by stretch -/

/-- Stage one up to its per-feature mean: the node table (the two halves stacked), its four projections `x·W`, the edge gate `1 / (1 + exp (−(gather + gather + b)))`, the gated messages summed per destination node (a scatter-add onto zeros), the projection of the node itself and the bias added (`main_v43`), the column sums over the nodes (`main_v44`) divided by the node count (`main_v46`), and the zero correction of the variance. 59 operations. -/
abbrev opsA : List (HloOp τ sig (Elt F)) :=
  [ StableHlo.binary main_arg0 main_arg1 main_v0 ((fun a b => concatenate S100000x64 0 [⟨S60000x64, a⟩, ⟨S40000x64, b⟩] concatenates_S60000x64_S40000x64_S100000x64_d0) : (⟨S60000x64, .f32⟩ : BufTy).Contents (Elt F) → (⟨S40000x64, .f32⟩ : BufTy).Contents (Elt F) → (⟨S100000x64, .f32⟩ : BufTy).Contents (Elt F)),
    StableHlo.binary main_v0 main_arg6 main_v1 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_c (constantI S_ 32 0#32),
    StableHlo.unary main_c main_v2 (broadcastInDim S1000000 ![] bcast_S_S1000000 : (⟨S_, .i32⟩ : BufTy).Contents (Elt F) → (⟨S1000000, .i32⟩ : BufTy).Contents (Elt F)),
    StableHlo.binary main_arg3 main_v2 main_v3 (cmpi .slt : (⟨S1000000, .i32⟩ : BufTy).Contents (Elt F) → (⟨S1000000, .i32⟩ : BufTy).Contents (Elt F) → (⟨S1000000, .i1⟩ : BufTy).Contents (Elt F)),
    StableHlo.nullary main_c_0 (constantI S_ 32 100000#32),
    StableHlo.unary main_c_0 main_v4 (broadcastInDim S1000000 ![] bcast_S_S1000000 : (⟨S_, .i32⟩ : BufTy).Contents (Elt F) → (⟨S1000000, .i32⟩ : BufTy).Contents (Elt F)),
    StableHlo.binary main_arg3 main_v4 main_v5 (addi : (⟨S1000000, .i32⟩ : BufTy).Contents (Elt F) → (⟨S1000000, .i32⟩ : BufTy).Contents (Elt F) → (⟨S1000000, .i32⟩ : BufTy).Contents (Elt F)),
    StableHlo.ternary main_v3 main_v5 main_arg3 main_v6 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v6 main_v7 (broadcastInDim S1000000x1 ![0] bcast_S1000000_S1000000x1_0 : (⟨S1000000, .i32⟩ : BufTy).Contents (Elt F) → (⟨S1000000x1, .i32⟩ : BufTy).Contents (Elt F)),
    StableHlo.binary main_v1 main_v7 main_v8 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    StableHlo.binary main_v0 main_arg7 main_v9 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_c_1 (constantI S_ 32 0#32),
    StableHlo.unary main_c_1 main_v10 (broadcastInDim S1000000 ![] bcast_S_S1000000 : (⟨S_, .i32⟩ : BufTy).Contents (Elt F) → (⟨S1000000, .i32⟩ : BufTy).Contents (Elt F)),
    StableHlo.binary main_arg2 main_v10 main_v11 (cmpi .slt : (⟨S1000000, .i32⟩ : BufTy).Contents (Elt F) → (⟨S1000000, .i32⟩ : BufTy).Contents (Elt F) → (⟨S1000000, .i1⟩ : BufTy).Contents (Elt F)),
    StableHlo.nullary main_c_2 (constantI S_ 32 100000#32),
    StableHlo.unary main_c_2 main_v12 (broadcastInDim S1000000 ![] bcast_S_S1000000 : (⟨S_, .i32⟩ : BufTy).Contents (Elt F) → (⟨S1000000, .i32⟩ : BufTy).Contents (Elt F)),
    StableHlo.binary main_arg2 main_v12 main_v13 (addi : (⟨S1000000, .i32⟩ : BufTy).Contents (Elt F) → (⟨S1000000, .i32⟩ : BufTy).Contents (Elt F) → (⟨S1000000, .i32⟩ : BufTy).Contents (Elt F)),
    StableHlo.ternary main_v11 main_v13 main_arg2 main_v14 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v14 main_v15 (broadcastInDim S1000000x1 ![0] bcast_S1000000_S1000000x1_0 : (⟨S1000000, .i32⟩ : BufTy).Contents (Elt F) → (⟨S1000000x1, .i32⟩ : BufTy).Contents (Elt F)),
    StableHlo.binary main_v9 main_v15 main_v16 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    StableHlo.binary main_v8 main_v16 main_v17 (addf : (⟨S1000000x64, .f32⟩ : BufTy).Contents (Elt F) → (⟨S1000000x64, .f32⟩ : BufTy).Contents (Elt F) → (⟨S1000000x64, .f32⟩ : BufTy).Contents (Elt F)),
    StableHlo.unary main_arg9 main_v18 (broadcastInDim S1x64 ![1] bcast_S64_S1x64_1 : (⟨S64, .f32⟩ : BufTy).Contents (Elt F) → (⟨S1x64, .f32⟩ : BufTy).Contents (Elt F)),
    StableHlo.unary main_v18 main_v19 (broadcastInDim S1000000x64 ![0, 1] bcast_S1x64_S1000000x64_0_1 : (⟨S1x64, .f32⟩ : BufTy).Contents (Elt F) → (⟨S1000000x64, .f32⟩ : BufTy).Contents (Elt F)),
    StableHlo.binary main_v17 main_v19 main_v20 (addf : (⟨S1000000x64, .f32⟩ : BufTy).Contents (Elt F) → (⟨S1000000x64, .f32⟩ : BufTy).Contents (Elt F) → (⟨S1000000x64, .f32⟩ : BufTy).Contents (Elt F)),
    StableHlo.unary main_v20 main_v21 (Host.negf : (⟨S1000000x64, .f32⟩ : BufTy).Contents (Elt F) → (⟨S1000000x64, .f32⟩ : BufTy).Contents (Elt F)),
    StableHlo.unary main_v21 main_v22 (Host.exp : (⟨S1000000x64, .f32⟩ : BufTy).Contents (Elt F) → (⟨S1000000x64, .f32⟩ : BufTy).Contents (Elt F)),
    StableHlo.nullary main_cst (constant S_ .f32 0x3F800000#32),
    StableHlo.unary main_cst main_v23 (broadcastInDim S1000000x64 ![] bcast_S_S1000000x64 : (⟨S_, .f32⟩ : BufTy).Contents (Elt F) → (⟨S1000000x64, .f32⟩ : BufTy).Contents (Elt F)),
    StableHlo.binary main_v23 main_v22 main_v24 (addf : (⟨S1000000x64, .f32⟩ : BufTy).Contents (Elt F) → (⟨S1000000x64, .f32⟩ : BufTy).Contents (Elt F) → (⟨S1000000x64, .f32⟩ : BufTy).Contents (Elt F)),
    StableHlo.nullary main_cst_3 (constant S_ .f32 0x3F800000#32),
    StableHlo.unary main_cst_3 main_v25 (broadcastInDim S1000000x64 ![] bcast_S_S1000000x64 : (⟨S_, .f32⟩ : BufTy).Contents (Elt F) → (⟨S1000000x64, .f32⟩ : BufTy).Contents (Elt F)),
    StableHlo.binary main_v25 main_v24 main_v26 (Host.divf : (⟨S1000000x64, .f32⟩ : BufTy).Contents (Elt F) → (⟨S1000000x64, .f32⟩ : BufTy).Contents (Elt F) → (⟨S1000000x64, .f32⟩ : BufTy).Contents (Elt F)),
    StableHlo.binary main_v0 main_arg4 main_v27 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_c_4 (constantI S_ 32 0#32),
    StableHlo.unary main_c_4 main_v28 (broadcastInDim S1000000 ![] bcast_S_S1000000 : (⟨S_, .i32⟩ : BufTy).Contents (Elt F) → (⟨S1000000, .i32⟩ : BufTy).Contents (Elt F)),
    StableHlo.binary main_arg2 main_v28 main_v29 (cmpi .slt : (⟨S1000000, .i32⟩ : BufTy).Contents (Elt F) → (⟨S1000000, .i32⟩ : BufTy).Contents (Elt F) → (⟨S1000000, .i1⟩ : BufTy).Contents (Elt F)),
    StableHlo.nullary main_c_5 (constantI S_ 32 100000#32),
    StableHlo.unary main_c_5 main_v30 (broadcastInDim S1000000 ![] bcast_S_S1000000 : (⟨S_, .i32⟩ : BufTy).Contents (Elt F) → (⟨S1000000, .i32⟩ : BufTy).Contents (Elt F)),
    StableHlo.binary main_arg2 main_v30 main_v31 (addi : (⟨S1000000, .i32⟩ : BufTy).Contents (Elt F) → (⟨S1000000, .i32⟩ : BufTy).Contents (Elt F) → (⟨S1000000, .i32⟩ : BufTy).Contents (Elt F)),
    StableHlo.ternary main_v29 main_v31 main_arg2 main_v32 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v32 main_v33 (broadcastInDim S1000000x1 ![0] bcast_S1000000_S1000000x1_0 : (⟨S1000000, .i32⟩ : BufTy).Contents (Elt F) → (⟨S1000000x1, .i32⟩ : BufTy).Contents (Elt F)),
    StableHlo.binary main_v27 main_v33 main_v34 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    StableHlo.binary main_v26 main_v34 main_v35 (mulf : (⟨S1000000x64, .f32⟩ : BufTy).Contents (Elt F) → (⟨S1000000x64, .f32⟩ : BufTy).Contents (Elt F) → (⟨S1000000x64, .f32⟩ : BufTy).Contents (Elt F)),
    StableHlo.nullary main_cst_6 (constant S_ .f32 0x00000000#32),
    StableHlo.unary main_cst_6 main_v36 (broadcastInDim S100000x64 ![] bcast_S_S100000x64 : (⟨S_, .f32⟩ : BufTy).Contents (Elt F) → (⟨S100000x64, .f32⟩ : BufTy).Contents (Elt F)),
    StableHlo.unary main_arg3 main_v37 (broadcastInDim S1000000x1 ![0] bcast_S1000000_S1000000x1_0 : (⟨S1000000, .i32⟩ : BufTy).Contents (Elt F) → (⟨S1000000x1, .i32⟩ : BufTy).Contents (Elt F)),
    StableHlo.ternary main_v36 main_v37 main_v35 main_v38 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    StableHlo.binary main_v0 main_arg5 main_v39 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v39 main_v38 main_v40 (addf : (⟨S100000x64, .f32⟩ : BufTy).Contents (Elt F) → (⟨S100000x64, .f32⟩ : BufTy).Contents (Elt F) → (⟨S100000x64, .f32⟩ : BufTy).Contents (Elt F)),
    StableHlo.unary main_arg8 main_v41 (broadcastInDim S1x64 ![1] bcast_S64_S1x64_1 : (⟨S64, .f32⟩ : BufTy).Contents (Elt F) → (⟨S1x64, .f32⟩ : BufTy).Contents (Elt F)),
    StableHlo.unary main_v41 main_v42 (broadcastInDim S100000x64 ![0, 1] bcast_S1x64_S100000x64_0_1 : (⟨S1x64, .f32⟩ : BufTy).Contents (Elt F) → (⟨S100000x64, .f32⟩ : BufTy).Contents (Elt F)),
    StableHlo.binary main_v40 main_v42 main_v43 (addf : (⟨S100000x64, .f32⟩ : BufTy).Contents (Elt F) → (⟨S100000x64, .f32⟩ : BufTy).Contents (Elt F) → (⟨S100000x64, .f32⟩ : BufTy).Contents (Elt F)),
    StableHlo.nullary main_cst_7 (constant S_ .f32 0x00000000#32),
    StableHlo.binary main_v43 main_cst_7 main_v44 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_8 (constant S_ .f32 0x47C35000#32),
    StableHlo.unary main_cst_8 main_v45 (broadcastInDim S64 ![] bcast_S_S64 : (⟨S_, .f32⟩ : BufTy).Contents (Elt F) → (⟨S64, .f32⟩ : BufTy).Contents (Elt F)),
    StableHlo.binary main_v44 main_v45 main_v46 (Host.divf : (⟨S64, .f32⟩ : BufTy).Contents (Elt F) → (⟨S64, .f32⟩ : BufTy).Contents (Elt F) → (⟨S64, .f32⟩ : BufTy).Contents (Elt F)),
    StableHlo.nullary main_c_9 (constantI S_ 32 0#32) ]

theorem opsA_sub : (opsA : List (HloOp τ sig (Elt F))).Forall fun op => op.bufs ⊆ tcRefs τ sig :=
  ⟨binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub ..⟩

/-- The per-feature variance of stage one's output (`main_v43`): the mean again, the squared deviations summed over the nodes and divided by the node count less the correction, a NaN where that divisor is not positive (`main_v47`). 22 operations. -/
abbrev opsV1 : List (HloOp τ sig (Elt F)) :=
  [ StableHlo.TRef.nullary main_call0.cst (constant S_ .f32 0x00000000#32),
    StableHlo.TRef.binary (.of main_v43 : StableHlo.TRef sig ⟨S100000x64, .f32⟩) main_call0.cst main_call0.v0 (fun x v => Host.reduceAdd x v reducesTo_S100000x64_S64_d0 h_S_),
    StableHlo.TRef.unary main_call0.v0 main_call0.v1 (broadcastInDim S1x64 ![1] bcast_S64_S1x64_1),
    StableHlo.TRef.nullary main_call0.cst_0 (constant S_ .f32 0x47C35000#32),
    StableHlo.TRef.unary main_call0.cst_0 main_call0.v2 (broadcastInDim S1x64 ![] bcast_S_S1x64),
    StableHlo.TRef.binary main_call0.v1 main_call0.v2 main_call0.v3 Host.divf,
    StableHlo.TRef.unary main_call0.v3 main_call0.v4 (broadcastInDim S100000x64 ![0, 1] bcast_S1x64_S100000x64_0_1),
    StableHlo.TRef.binary (.of main_v43 : StableHlo.TRef sig ⟨S100000x64, .f32⟩) main_call0.v4 main_call0.v5 subf,
    StableHlo.TRef.binary main_call0.v5 main_call0.v5 main_call0.v6 mulf,
    StableHlo.TRef.unary (.of main_c_9 : StableHlo.TRef sig ⟨S_, .i32⟩) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x64_S64_d0 h_S_),
    StableHlo.TRef.unary main_call0.v8 main_call0.v10 (broadcastInDim S64 ![] bcast_S_S64),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S64 ![] bcast_S_S64),
    StableHlo.TRef.ternary main_call0.v12 main_call0.v11 main_call0.call0.v1 main_call0.call0.v2 (fun p a b => select (broadcastInDim S64 ![] bcast_S_S64 p) a b) ]

theorem opsV1_sub : (opsV1 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

/-- Stage one's batch normalisation: `γ · (y − mean) · rsqrt (var + ε) + β` (`main_v62`). 16 operations. -/
abbrev opsB : List (HloOp τ sig (Elt F)) :=
  [ StableHlo.unary main_v46 main_v48 (broadcastInDim S1x64 ![1] bcast_S64_S1x64_1 : (⟨S64, .f32⟩ : BufTy).Contents (Elt F) → (⟨S1x64, .f32⟩ : BufTy).Contents (Elt F)),
    StableHlo.unary main_v48 main_v49 (broadcastInDim S100000x64 ![0, 1] bcast_S1x64_S100000x64_0_1 : (⟨S1x64, .f32⟩ : BufTy).Contents (Elt F) → (⟨S100000x64, .f32⟩ : BufTy).Contents (Elt F)),
    StableHlo.binary main_v43 main_v49 main_v50 (subf : (⟨S100000x64, .f32⟩ : BufTy).Contents (Elt F) → (⟨S100000x64, .f32⟩ : BufTy).Contents (Elt F) → (⟨S100000x64, .f32⟩ : BufTy).Contents (Elt F)),
    StableHlo.unary main_arg17 main_v51 (broadcastInDim S1x64 ![1] bcast_S64_S1x64_1 : (⟨S64, .f32⟩ : BufTy).Contents (Elt F) → (⟨S1x64, .f32⟩ : BufTy).Contents (Elt F)),
    StableHlo.unary main_v51 main_v52 (broadcastInDim S100000x64 ![0, 1] bcast_S1x64_S100000x64_0_1 : (⟨S1x64, .f32⟩ : BufTy).Contents (Elt F) → (⟨S100000x64, .f32⟩ : BufTy).Contents (Elt F)),
    StableHlo.binary main_v52 main_v50 main_v53 (mulf : (⟨S100000x64, .f32⟩ : BufTy).Contents (Elt F) → (⟨S100000x64, .f32⟩ : BufTy).Contents (Elt F) → (⟨S100000x64, .f32⟩ : BufTy).Contents (Elt F)),
    StableHlo.nullary main_cst_10 (constant S_ .f32 0x3A83126F#32),
    StableHlo.unary main_cst_10 main_v54 (broadcastInDim S64 ![] bcast_S_S64 : (⟨S_, .f32⟩ : BufTy).Contents (Elt F) → (⟨S64, .f32⟩ : BufTy).Contents (Elt F)),
    StableHlo.binary main_v47 main_v54 main_v55 (addf : (⟨S64, .f32⟩ : BufTy).Contents (Elt F) → (⟨S64, .f32⟩ : BufTy).Contents (Elt F) → (⟨S64, .f32⟩ : BufTy).Contents (Elt F)),
    StableHlo.unary main_v55 main_v56 (Host.rsqrt : (⟨S64, .f32⟩ : BufTy).Contents (Elt F) → (⟨S64, .f32⟩ : BufTy).Contents (Elt F)),
    StableHlo.unary main_v56 main_v57 (broadcastInDim S1x64 ![1] bcast_S64_S1x64_1 : (⟨S64, .f32⟩ : BufTy).Contents (Elt F) → (⟨S1x64, .f32⟩ : BufTy).Contents (Elt F)),
    StableHlo.unary main_v57 main_v58 (broadcastInDim S100000x64 ![0, 1] bcast_S1x64_S100000x64_0_1 : (⟨S1x64, .f32⟩ : BufTy).Contents (Elt F) → (⟨S100000x64, .f32⟩ : BufTy).Contents (Elt F)),
    StableHlo.binary main_v53 main_v58 main_v59 (mulf : (⟨S100000x64, .f32⟩ : BufTy).Contents (Elt F) → (⟨S100000x64, .f32⟩ : BufTy).Contents (Elt F) → (⟨S100000x64, .f32⟩ : BufTy).Contents (Elt F)),
    StableHlo.unary main_arg18 main_v60 (broadcastInDim S1x64 ![1] bcast_S64_S1x64_1 : (⟨S64, .f32⟩ : BufTy).Contents (Elt F) → (⟨S1x64, .f32⟩ : BufTy).Contents (Elt F)),
    StableHlo.unary main_v60 main_v61 (broadcastInDim S100000x64 ![0, 1] bcast_S1x64_S100000x64_0_1 : (⟨S1x64, .f32⟩ : BufTy).Contents (Elt F) → (⟨S100000x64, .f32⟩ : BufTy).Contents (Elt F)),
    StableHlo.binary main_v59 main_v61 main_v62 (addf : (⟨S100000x64, .f32⟩ : BufTy).Contents (Elt F) → (⟨S100000x64, .f32⟩ : BufTy).Contents (Elt F) → (⟨S100000x64, .f32⟩ : BufTy).Contents (Elt F)) ]

theorem opsB_sub : (opsB : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub ..⟩

/-- Its positive part, the maximum with zero (`main_v63`): stage two's node table. 3 operations. -/
abbrev opsR1 : List (HloOp τ sig (Elt F)) :=
  [ StableHlo.TRef.nullary main_call1.cst (constant S_ .f32 0x00000000#32),
    StableHlo.TRef.unary main_call1.cst main_call1.v0 (broadcastInDim S100000x64 ![] bcast_S_S100000x64),
    StableHlo.TRef.binary (.of main_v62 : StableHlo.TRef sig ⟨S100000x64, .f32⟩) main_call1.v0 main_call1.v1 maximumf ]

theorem opsR1_sub : (opsR1 : List (HloOp τ sig (Elt F))).Forall fun op => op.bufs ⊆ tcRefs τ sig :=
  ⟨nullary_bufs_sub .., unary_bufs_sub .., binary_bufs_sub ..⟩

/-- Stage two up to the gated messages (`main_v98`): three projections of the node table, the edge gate, the gathered messages multiplied by it. 43 operations. -/
abbrev opsC : List (HloOp τ sig (Elt F)) :=
  [ StableHlo.binary main_v63 main_arg12 main_v64 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_c_11 (constantI S_ 32 0#32),
    StableHlo.unary main_c_11 main_v65 (broadcastInDim S1000000 ![] bcast_S_S1000000 : (⟨S_, .i32⟩ : BufTy).Contents (Elt F) → (⟨S1000000, .i32⟩ : BufTy).Contents (Elt F)),
    StableHlo.binary main_arg3 main_v65 main_v66 (cmpi .slt : (⟨S1000000, .i32⟩ : BufTy).Contents (Elt F) → (⟨S1000000, .i32⟩ : BufTy).Contents (Elt F) → (⟨S1000000, .i1⟩ : BufTy).Contents (Elt F)),
    StableHlo.nullary main_c_12 (constantI S_ 32 100000#32),
    StableHlo.unary main_c_12 main_v67 (broadcastInDim S1000000 ![] bcast_S_S1000000 : (⟨S_, .i32⟩ : BufTy).Contents (Elt F) → (⟨S1000000, .i32⟩ : BufTy).Contents (Elt F)),
    StableHlo.binary main_arg3 main_v67 main_v68 (addi : (⟨S1000000, .i32⟩ : BufTy).Contents (Elt F) → (⟨S1000000, .i32⟩ : BufTy).Contents (Elt F) → (⟨S1000000, .i32⟩ : BufTy).Contents (Elt F)),
    StableHlo.ternary main_v66 main_v68 main_arg3 main_v69 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v69 main_v70 (broadcastInDim S1000000x1 ![0] bcast_S1000000_S1000000x1_0 : (⟨S1000000, .i32⟩ : BufTy).Contents (Elt F) → (⟨S1000000x1, .i32⟩ : BufTy).Contents (Elt F)),
    StableHlo.binary main_v64 main_v70 main_v71 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    StableHlo.binary main_v63 main_arg13 main_v72 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_c_13 (constantI S_ 32 0#32),
    StableHlo.unary main_c_13 main_v73 (broadcastInDim S1000000 ![] bcast_S_S1000000 : (⟨S_, .i32⟩ : BufTy).Contents (Elt F) → (⟨S1000000, .i32⟩ : BufTy).Contents (Elt F)),
    StableHlo.binary main_arg2 main_v73 main_v74 (cmpi .slt : (⟨S1000000, .i32⟩ : BufTy).Contents (Elt F) → (⟨S1000000, .i32⟩ : BufTy).Contents (Elt F) → (⟨S1000000, .i1⟩ : BufTy).Contents (Elt F)),
    StableHlo.nullary main_c_14 (constantI S_ 32 100000#32),
    StableHlo.unary main_c_14 main_v75 (broadcastInDim S1000000 ![] bcast_S_S1000000 : (⟨S_, .i32⟩ : BufTy).Contents (Elt F) → (⟨S1000000, .i32⟩ : BufTy).Contents (Elt F)),
    StableHlo.binary main_arg2 main_v75 main_v76 (addi : (⟨S1000000, .i32⟩ : BufTy).Contents (Elt F) → (⟨S1000000, .i32⟩ : BufTy).Contents (Elt F) → (⟨S1000000, .i32⟩ : BufTy).Contents (Elt F)),
    StableHlo.ternary main_v74 main_v76 main_arg2 main_v77 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v77 main_v78 (broadcastInDim S1000000x1 ![0] bcast_S1000000_S1000000x1_0 : (⟨S1000000, .i32⟩ : BufTy).Contents (Elt F) → (⟨S1000000x1, .i32⟩ : BufTy).Contents (Elt F)),
    StableHlo.binary main_v72 main_v78 main_v79 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    StableHlo.binary main_v71 main_v79 main_v80 (addf : (⟨S1000000x64, .f32⟩ : BufTy).Contents (Elt F) → (⟨S1000000x64, .f32⟩ : BufTy).Contents (Elt F) → (⟨S1000000x64, .f32⟩ : BufTy).Contents (Elt F)),
    StableHlo.unary main_arg15 main_v81 (broadcastInDim S1x64 ![1] bcast_S64_S1x64_1 : (⟨S64, .f32⟩ : BufTy).Contents (Elt F) → (⟨S1x64, .f32⟩ : BufTy).Contents (Elt F)),
    StableHlo.unary main_v81 main_v82 (broadcastInDim S1000000x64 ![0, 1] bcast_S1x64_S1000000x64_0_1 : (⟨S1x64, .f32⟩ : BufTy).Contents (Elt F) → (⟨S1000000x64, .f32⟩ : BufTy).Contents (Elt F)),
    StableHlo.binary main_v80 main_v82 main_v83 (addf : (⟨S1000000x64, .f32⟩ : BufTy).Contents (Elt F) → (⟨S1000000x64, .f32⟩ : BufTy).Contents (Elt F) → (⟨S1000000x64, .f32⟩ : BufTy).Contents (Elt F)),
    StableHlo.unary main_v83 main_v84 (Host.negf : (⟨S1000000x64, .f32⟩ : BufTy).Contents (Elt F) → (⟨S1000000x64, .f32⟩ : BufTy).Contents (Elt F)),
    StableHlo.unary main_v84 main_v85 (Host.exp : (⟨S1000000x64, .f32⟩ : BufTy).Contents (Elt F) → (⟨S1000000x64, .f32⟩ : BufTy).Contents (Elt F)),
    StableHlo.nullary main_cst_15 (constant S_ .f32 0x3F800000#32),
    StableHlo.unary main_cst_15 main_v86 (broadcastInDim S1000000x64 ![] bcast_S_S1000000x64 : (⟨S_, .f32⟩ : BufTy).Contents (Elt F) → (⟨S1000000x64, .f32⟩ : BufTy).Contents (Elt F)),
    StableHlo.binary main_v86 main_v85 main_v87 (addf : (⟨S1000000x64, .f32⟩ : BufTy).Contents (Elt F) → (⟨S1000000x64, .f32⟩ : BufTy).Contents (Elt F) → (⟨S1000000x64, .f32⟩ : BufTy).Contents (Elt F)),
    StableHlo.nullary main_cst_16 (constant S_ .f32 0x3F800000#32),
    StableHlo.unary main_cst_16 main_v88 (broadcastInDim S1000000x64 ![] bcast_S_S1000000x64 : (⟨S_, .f32⟩ : BufTy).Contents (Elt F) → (⟨S1000000x64, .f32⟩ : BufTy).Contents (Elt F)),
    StableHlo.binary main_v88 main_v87 main_v89 (Host.divf : (⟨S1000000x64, .f32⟩ : BufTy).Contents (Elt F) → (⟨S1000000x64, .f32⟩ : BufTy).Contents (Elt F) → (⟨S1000000x64, .f32⟩ : BufTy).Contents (Elt F)),
    StableHlo.binary main_v63 main_arg10 main_v90 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_c_17 (constantI S_ 32 0#32),
    StableHlo.unary main_c_17 main_v91 (broadcastInDim S1000000 ![] bcast_S_S1000000 : (⟨S_, .i32⟩ : BufTy).Contents (Elt F) → (⟨S1000000, .i32⟩ : BufTy).Contents (Elt F)),
    StableHlo.binary main_arg2 main_v91 main_v92 (cmpi .slt : (⟨S1000000, .i32⟩ : BufTy).Contents (Elt F) → (⟨S1000000, .i32⟩ : BufTy).Contents (Elt F) → (⟨S1000000, .i1⟩ : BufTy).Contents (Elt F)),
    StableHlo.nullary main_c_18 (constantI S_ 32 100000#32),
    StableHlo.unary main_c_18 main_v93 (broadcastInDim S1000000 ![] bcast_S_S1000000 : (⟨S_, .i32⟩ : BufTy).Contents (Elt F) → (⟨S1000000, .i32⟩ : BufTy).Contents (Elt F)),
    StableHlo.binary main_arg2 main_v93 main_v94 (addi : (⟨S1000000, .i32⟩ : BufTy).Contents (Elt F) → (⟨S1000000, .i32⟩ : BufTy).Contents (Elt F) → (⟨S1000000, .i32⟩ : BufTy).Contents (Elt F)),
    StableHlo.ternary main_v92 main_v94 main_arg2 main_v95 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v95 main_v96 (broadcastInDim S1000000x1 ![0] bcast_S1000000_S1000000x1_0 : (⟨S1000000, .i32⟩ : BufTy).Contents (Elt F) → (⟨S1000000x1, .i32⟩ : BufTy).Contents (Elt F)),
    StableHlo.binary main_v90 main_v96 main_v97 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    StableHlo.binary main_v89 main_v97 main_v98 (mulf : (⟨S1000000x64, .f32⟩ : BufTy).Contents (Elt F) → (⟨S1000000x64, .f32⟩ : BufTy).Contents (Elt F) → (⟨S1000000x64, .f32⟩ : BufTy).Contents (Elt F)) ]

theorem opsC_sub : (opsC : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

/-- Stage two's output and its mean: the messages summed per destination node, the node's own projection and the bias added (`main_v106`), the column sums (`main_v107`) divided by the node count (`main_v109`), the zero correction. 15 operations. -/
abbrev opsD : List (HloOp τ sig (Elt F)) :=
  [ StableHlo.nullary main_cst_19 (constant S_ .f32 0x00000000#32),
    StableHlo.unary main_cst_19 main_v99 (broadcastInDim S100000x64 ![] bcast_S_S100000x64 : (⟨S_, .f32⟩ : BufTy).Contents (Elt F) → (⟨S100000x64, .f32⟩ : BufTy).Contents (Elt F)),
    StableHlo.unary main_arg3 main_v100 (broadcastInDim S1000000x1 ![0] bcast_S1000000_S1000000x1_0 : (⟨S1000000, .i32⟩ : BufTy).Contents (Elt F) → (⟨S1000000x1, .i32⟩ : BufTy).Contents (Elt F)),
    StableHlo.ternary main_v99 main_v100 main_v98 main_v101 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    StableHlo.binary main_v63 main_arg11 main_v102 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v102 main_v101 main_v103 (addf : (⟨S100000x64, .f32⟩ : BufTy).Contents (Elt F) → (⟨S100000x64, .f32⟩ : BufTy).Contents (Elt F) → (⟨S100000x64, .f32⟩ : BufTy).Contents (Elt F)),
    StableHlo.unary main_arg14 main_v104 (broadcastInDim S1x64 ![1] bcast_S64_S1x64_1 : (⟨S64, .f32⟩ : BufTy).Contents (Elt F) → (⟨S1x64, .f32⟩ : BufTy).Contents (Elt F)),
    StableHlo.unary main_v104 main_v105 (broadcastInDim S100000x64 ![0, 1] bcast_S1x64_S100000x64_0_1 : (⟨S1x64, .f32⟩ : BufTy).Contents (Elt F) → (⟨S100000x64, .f32⟩ : BufTy).Contents (Elt F)),
    StableHlo.binary main_v103 main_v105 main_v106 (addf : (⟨S100000x64, .f32⟩ : BufTy).Contents (Elt F) → (⟨S100000x64, .f32⟩ : BufTy).Contents (Elt F) → (⟨S100000x64, .f32⟩ : BufTy).Contents (Elt F)),
    StableHlo.nullary main_cst_20 (constant S_ .f32 0x00000000#32),
    StableHlo.binary main_v106 main_cst_20 main_v107 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_21 (constant S_ .f32 0x47C35000#32),
    StableHlo.unary main_cst_21 main_v108 (broadcastInDim S64 ![] bcast_S_S64 : (⟨S_, .f32⟩ : BufTy).Contents (Elt F) → (⟨S64, .f32⟩ : BufTy).Contents (Elt F)),
    StableHlo.binary main_v107 main_v108 main_v109 (Host.divf : (⟨S64, .f32⟩ : BufTy).Contents (Elt F) → (⟨S64, .f32⟩ : BufTy).Contents (Elt F) → (⟨S64, .f32⟩ : BufTy).Contents (Elt F)),
    StableHlo.nullary main_c_22 (constantI S_ 32 0#32) ]

theorem opsD_sub : (opsD : List (HloOp τ sig (Elt F))).Forall fun op => op.bufs ⊆ tcRefs τ sig :=
  ⟨nullary_bufs_sub .., unary_bufs_sub .., unary_bufs_sub .., ternary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub ..⟩

/-- The per-feature variance of stage two's output (`main_v106`), as for stage one (`main_v110`). 22 operations. -/
abbrev opsV2 : List (HloOp τ sig (Elt F)) :=
  [ StableHlo.TRef.nullary main_call2.cst (constant S_ .f32 0x00000000#32),
    StableHlo.TRef.binary (.of main_v106 : StableHlo.TRef sig ⟨S100000x64, .f32⟩) main_call2.cst main_call2.v0 (fun x v => Host.reduceAdd x v reducesTo_S100000x64_S64_d0 h_S_),
    StableHlo.TRef.unary main_call2.v0 main_call2.v1 (broadcastInDim S1x64 ![1] bcast_S64_S1x64_1),
    StableHlo.TRef.nullary main_call2.cst_0 (constant S_ .f32 0x47C35000#32),
    StableHlo.TRef.unary main_call2.cst_0 main_call2.v2 (broadcastInDim S1x64 ![] bcast_S_S1x64),
    StableHlo.TRef.binary main_call2.v1 main_call2.v2 main_call2.v3 Host.divf,
    StableHlo.TRef.unary main_call2.v3 main_call2.v4 (broadcastInDim S100000x64 ![0, 1] bcast_S1x64_S100000x64_0_1),
    StableHlo.TRef.binary (.of main_v106 : StableHlo.TRef sig ⟨S100000x64, .f32⟩) main_call2.v4 main_call2.v5 subf,
    StableHlo.TRef.binary main_call2.v5 main_call2.v5 main_call2.v6 mulf,
    StableHlo.TRef.unary (.of main_c_22 : StableHlo.TRef sig ⟨S_, .i32⟩) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x64_S64_d0 h_S_),
    StableHlo.TRef.unary main_call2.v8 main_call2.v10 (broadcastInDim S64 ![] bcast_S_S64),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S64 ![] bcast_S_S64),
    StableHlo.TRef.ternary main_call2.v12 main_call2.v11 main_call2.call0.v1 main_call2.call0.v2 (fun p a b => select (broadcastInDim S64 ![] bcast_S_S64 p) a b) ]

theorem opsV2_sub : (opsV2 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

/-- Stage two's batch normalisation (`main_v125`) and the residual projection of the stacked input added (`main_v127`). 18 operations. -/
abbrev opsE : List (HloOp τ sig (Elt F)) :=
  [ StableHlo.unary main_v109 main_v111 (broadcastInDim S1x64 ![1] bcast_S64_S1x64_1 : (⟨S64, .f32⟩ : BufTy).Contents (Elt F) → (⟨S1x64, .f32⟩ : BufTy).Contents (Elt F)),
    StableHlo.unary main_v111 main_v112 (broadcastInDim S100000x64 ![0, 1] bcast_S1x64_S100000x64_0_1 : (⟨S1x64, .f32⟩ : BufTy).Contents (Elt F) → (⟨S100000x64, .f32⟩ : BufTy).Contents (Elt F)),
    StableHlo.binary main_v106 main_v112 main_v113 (subf : (⟨S100000x64, .f32⟩ : BufTy).Contents (Elt F) → (⟨S100000x64, .f32⟩ : BufTy).Contents (Elt F) → (⟨S100000x64, .f32⟩ : BufTy).Contents (Elt F)),
    StableHlo.unary main_arg19 main_v114 (broadcastInDim S1x64 ![1] bcast_S64_S1x64_1 : (⟨S64, .f32⟩ : BufTy).Contents (Elt F) → (⟨S1x64, .f32⟩ : BufTy).Contents (Elt F)),
    StableHlo.unary main_v114 main_v115 (broadcastInDim S100000x64 ![0, 1] bcast_S1x64_S100000x64_0_1 : (⟨S1x64, .f32⟩ : BufTy).Contents (Elt F) → (⟨S100000x64, .f32⟩ : BufTy).Contents (Elt F)),
    StableHlo.binary main_v115 main_v113 main_v116 (mulf : (⟨S100000x64, .f32⟩ : BufTy).Contents (Elt F) → (⟨S100000x64, .f32⟩ : BufTy).Contents (Elt F) → (⟨S100000x64, .f32⟩ : BufTy).Contents (Elt F)),
    StableHlo.nullary main_cst_23 (constant S_ .f32 0x3A83126F#32),
    StableHlo.unary main_cst_23 main_v117 (broadcastInDim S64 ![] bcast_S_S64 : (⟨S_, .f32⟩ : BufTy).Contents (Elt F) → (⟨S64, .f32⟩ : BufTy).Contents (Elt F)),
    StableHlo.binary main_v110 main_v117 main_v118 (addf : (⟨S64, .f32⟩ : BufTy).Contents (Elt F) → (⟨S64, .f32⟩ : BufTy).Contents (Elt F) → (⟨S64, .f32⟩ : BufTy).Contents (Elt F)),
    StableHlo.unary main_v118 main_v119 (Host.rsqrt : (⟨S64, .f32⟩ : BufTy).Contents (Elt F) → (⟨S64, .f32⟩ : BufTy).Contents (Elt F)),
    StableHlo.unary main_v119 main_v120 (broadcastInDim S1x64 ![1] bcast_S64_S1x64_1 : (⟨S64, .f32⟩ : BufTy).Contents (Elt F) → (⟨S1x64, .f32⟩ : BufTy).Contents (Elt F)),
    StableHlo.unary main_v120 main_v121 (broadcastInDim S100000x64 ![0, 1] bcast_S1x64_S100000x64_0_1 : (⟨S1x64, .f32⟩ : BufTy).Contents (Elt F) → (⟨S100000x64, .f32⟩ : BufTy).Contents (Elt F)),
    StableHlo.binary main_v116 main_v121 main_v122 (mulf : (⟨S100000x64, .f32⟩ : BufTy).Contents (Elt F) → (⟨S100000x64, .f32⟩ : BufTy).Contents (Elt F) → (⟨S100000x64, .f32⟩ : BufTy).Contents (Elt F)),
    StableHlo.unary main_arg20 main_v123 (broadcastInDim S1x64 ![1] bcast_S64_S1x64_1 : (⟨S64, .f32⟩ : BufTy).Contents (Elt F) → (⟨S1x64, .f32⟩ : BufTy).Contents (Elt F)),
    StableHlo.unary main_v123 main_v124 (broadcastInDim S100000x64 ![0, 1] bcast_S1x64_S100000x64_0_1 : (⟨S1x64, .f32⟩ : BufTy).Contents (Elt F) → (⟨S100000x64, .f32⟩ : BufTy).Contents (Elt F)),
    StableHlo.binary main_v122 main_v124 main_v125 (addf : (⟨S100000x64, .f32⟩ : BufTy).Contents (Elt F) → (⟨S100000x64, .f32⟩ : BufTy).Contents (Elt F) → (⟨S100000x64, .f32⟩ : BufTy).Contents (Elt F)),
    StableHlo.binary main_v0 main_arg16 main_v126 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v125 main_v126 main_v127 (addf : (⟨S100000x64, .f32⟩ : BufTy).Contents (Elt F) → (⟨S100000x64, .f32⟩ : BufTy).Contents (Elt F) → (⟨S100000x64, .f32⟩ : BufTy).Contents (Elt F)) ]

theorem opsE_sub : (opsE : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., binary_bufs_sub .., binary_bufs_sub ..⟩

/-- Its positive part (`main_v128`). 3 operations. -/
abbrev opsR2 : List (HloOp τ sig (Elt F)) :=
  [ StableHlo.TRef.nullary main_call3.cst (constant S_ .f32 0x00000000#32),
    StableHlo.TRef.unary main_call3.cst main_call3.v0 (broadcastInDim S100000x64 ![] bcast_S_S100000x64),
    StableHlo.TRef.binary (.of main_v127 : StableHlo.TRef sig ⟨S100000x64, .f32⟩) main_call3.v0 main_call3.v1 maximumf ]

theorem opsR2_sub : (opsR2 : List (HloOp τ sig (Elt F))).Forall fun op => op.bufs ⊆ tcRefs τ sig :=
  ⟨nullary_bufs_sub .., unary_bufs_sub .., binary_bufs_sub ..⟩

/-- The two halves of the result: the first 60000 rows (`main_v129`) and the last 40000 (`main_v130`). 2 operations. -/
abbrev opsT : List (HloOp τ sig (Elt F)) :=
  [ StableHlo.unary main_v128 main_v129 ((extractStridedSlice S60000x64 ![0, 0] · slices_S100000x64_S60000x64_0_0) : (⟨S100000x64, .f32⟩ : BufTy).Contents (Elt F) → (⟨S60000x64, .f32⟩ : BufTy).Contents (Elt F)),
    StableHlo.unary main_v128 main_v130 ((extractStridedSlice S40000x64 ![60000, 0] · slices_S100000x64_S40000x64_60000_0) : (⟨S100000x64, .f32⟩ : BufTy).Contents (Elt F) → (⟨S40000x64, .f32⟩ : BufTy).Contents (Elt F)) ]

theorem opsT_sub : (opsT : List (HloOp τ sig (Elt F))).Forall fun op => op.bufs ⊆ tcRefs τ sig :=
  ⟨unary_bufs_sub .., unary_bufs_sub ..⟩

/-- @main's 203 operations, in order. -/
abbrev ops : List (HloOp τ sig (Elt F)) :=
  opsA ++ opsV1 ++ opsB ++ opsR1 ++ opsC ++ opsD ++ opsV2 ++ opsE ++ opsR2 ++ opsT

/-! ## @main is that line -/

/-- @main is the straight line of these operations: its three windows and the outlined functions' bodies unfold, and
    sequencing in the free monad computes, so both sides are the same chain of steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- A property of every operation of two lines holds of their concatenation. -/
theorem forall_append' {α : Type} {p : α → Prop} {xs ys : List α} (hx : xs.Forall p) (hy : ys.Forall p) : (xs ++ ys).Forall p :=
  List.forall_append.2 ⟨hx, hy⟩

/-- Each operation touches TensorCore references only. -/
theorem ops_sub : (ops : List (HloOp τ sig (Elt F))).Forall fun op => op.bufs ⊆ tcRefs τ sig :=
  forall_append' (forall_append' (forall_append' (forall_append' (forall_append' (forall_append' (forall_append' (forall_append' (forall_append' opsA_sub opsV1_sub) opsB_sub) opsR1_sub) opsC_sub) opsD_sub) opsV2_sub) opsE_sub) opsR2_sub) opsT_sub

theorem opsA_fresh : (opsA : List (HloOp τ sig (Elt F))).Forall fun op => op.fresh = ∅ := by
  simp only [List.Forall]; repeat' constructor
theorem opsV1_fresh : (opsV1 : List (HloOp τ sig (Elt F))).Forall fun op => op.fresh = ∅ := by
  simp only [List.Forall]; repeat' constructor
theorem opsB_fresh : (opsB : List (HloOp τ sig (Elt F))).Forall fun op => op.fresh = ∅ := by
  simp only [List.Forall]; repeat' constructor
theorem opsR1_fresh : (opsR1 : List (HloOp τ sig (Elt F))).Forall fun op => op.fresh = ∅ := by
  simp only [List.Forall]; repeat' constructor
theorem opsC_fresh : (opsC : List (HloOp τ sig (Elt F))).Forall fun op => op.fresh = ∅ := by
  simp only [List.Forall]; repeat' constructor
theorem opsD_fresh : (opsD : List (HloOp τ sig (Elt F))).Forall fun op => op.fresh = ∅ := by
  simp only [List.Forall]; repeat' constructor
theorem opsV2_fresh : (opsV2 : List (HloOp τ sig (Elt F))).Forall fun op => op.fresh = ∅ := by
  simp only [List.Forall]; repeat' constructor
theorem opsE_fresh : (opsE : List (HloOp τ sig (Elt F))).Forall fun op => op.fresh = ∅ := by
  simp only [List.Forall]; repeat' constructor
theorem opsR2_fresh : (opsR2 : List (HloOp τ sig (Elt F))).Forall fun op => op.fresh = ∅ := by
  simp only [List.Forall]; repeat' constructor
theorem opsT_fresh : (opsT : List (HloOp τ sig (Elt F))).Forall fun op => op.fresh = ∅ := by
  simp only [List.Forall]; repeat' constructor

/-- Every operation determines its results: none allocates. -/
theorem ops_fresh : (ops : List (HloOp τ sig (Elt F))).Forall fun op => op.fresh = ∅ :=
  forall_append' (forall_append' (forall_append' (forall_append' (forall_append' (forall_append' (forall_append' (forall_append' (forall_append' opsA_fresh opsV1_fresh) opsB_fresh) opsR1_fresh) opsC_fresh) opsD_fresh) opsV2_fresh) opsE_fresh) opsR2_fresh) opsT_fresh

end Cert.ReferenceIdeal.RefRun

end
-- ==== Proof.RefRun.lean ====
/- The reference program's run read back: every weakly fair execution of @main terminates with each TensorCore buffer
   at the fold of the operations' results over the launch contents; no operation writes an argument, so every
   argument array ends as launched. -/
import proofs.«178339_j40699110097748_1_alg».proof.Proof.RefOps
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- On every device, for any float values, from any memory with zero counters: every weakly fair execution of @main
    terminates, and every final state has each TensorCore buffer at the operations' fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = StableHlo.after ops (StableHlo.launchContents m d) (Proc.devRef .tc b) :=
  run_seq scopedRefs_eq scopedSems_eq defs main (fun _ => ops) main_eq (fun _ => ops_sub) m ρ
    (fun _ => List.forall_iff_forall_mem.1 ops_fresh)

/-! ## What the operations write

Every operation writes one buffer, its result's, and no two write the same one; none is an argument's. -/

/-- An operation's one written buffer is among the listed references. -/
local macro "writes_mem" : tactic =>
  `(tactic| (simp only [nullary_writes, unary_writes, binary_writes, ternary_writes, Finset.singleton_subset_iff, List.mem_toFinset]
             exact List.mem_map_of_mem (by decide)))

/-- The references `opsA`'s operations write. -/
abbrev opsA_W : List (Ref sig .tc) := [main_v0, main_v1, main_c, main_v2, main_v3, main_c_0, main_v4, main_v5, main_v6, main_v7, main_v8, main_v9, main_c_1, main_v10, main_v11, main_c_2, main_v12, main_v13, main_v14, main_v15, main_v16, main_v17, main_v18, main_v19, main_v20, main_v21, main_v22, main_cst, main_v23, main_v24, main_cst_3, main_v25, main_v26, main_v27, main_c_4, main_v28, main_v29, main_c_5, main_v30, main_v31, main_v32, main_v33, main_v34, main_v35, main_cst_6, main_v36, main_v37, main_v38, main_v39, main_v40, main_v41, main_v42, main_v43, main_cst_7, main_v44, main_cst_8, main_v45, main_v46, main_c_9]
theorem opsA_writes : (opsA : List (HloOp τ sig (Elt F))).Forall fun op => op.writes ⊆ (opsA_W.map (Proc.devRef (τ := τ) .tc)).toFinset := by
  simp only [List.Forall]; exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩

/-- The references `opsV1`'s operations write. -/
abbrev opsV1_W : List (Ref sig .tc) := [main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v47]
theorem opsV1_writes : (opsV1 : List (HloOp τ sig (Elt F))).Forall fun op => op.writes ⊆ (opsV1_W.map (Proc.devRef (τ := τ) .tc)).toFinset := by
  simp only [List.Forall]; exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩

/-- The references `opsB`'s operations write. -/
abbrev opsB_W : List (Ref sig .tc) := [main_v48, main_v49, main_v50, main_v51, main_v52, main_v53, main_cst_10, main_v54, main_v55, main_v56, main_v57, main_v58, main_v59, main_v60, main_v61, main_v62]
theorem opsB_writes : (opsB : List (HloOp τ sig (Elt F))).Forall fun op => op.writes ⊆ (opsB_W.map (Proc.devRef (τ := τ) .tc)).toFinset := by
  simp only [List.Forall]; exact ⟨by writes_mem, by writes_mem, by writes_mem, by writes_mem, by writes_mem, by writes_mem, by writes_mem, by writes_mem, by writes_mem, by writes_mem, by writes_mem, by writes_mem, by writes_mem, by writes_mem, by writes_mem, by writes_mem⟩

/-- The references `opsR1`'s operations write. -/
abbrev opsR1_W : List (Ref sig .tc) := [main_call1_cst, main_call1_v0, main_v63]
theorem opsR1_writes : (opsR1 : List (HloOp τ sig (Elt F))).Forall fun op => op.writes ⊆ (opsR1_W.map (Proc.devRef (τ := τ) .tc)).toFinset := by
  simp only [List.Forall]; exact ⟨by writes_mem, by writes_mem, by writes_mem⟩

/-- The references `opsC`'s operations write. -/
abbrev opsC_W : List (Ref sig .tc) := [main_v64, main_c_11, main_v65, main_v66, main_c_12, main_v67, main_v68, main_v69, main_v70, main_v71, main_v72, main_c_13, main_v73, main_v74, main_c_14, main_v75, main_v76, main_v77, main_v78, main_v79, main_v80, main_v81, main_v82, main_v83, main_v84, main_v85, main_cst_15, main_v86, main_v87, main_cst_16, main_v88, main_v89, main_v90, main_c_17, main_v91, main_v92, main_c_18, main_v93, main_v94, main_v95, main_v96, main_v97, main_v98]
theorem opsC_writes : (opsC : List (HloOp τ sig (Elt F))).Forall fun op => op.writes ⊆ (opsC_W.map (Proc.devRef (τ := τ) .tc)).toFinset := by
  simp only [List.Forall]; exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩

/-- The references `opsD`'s operations write. -/
abbrev opsD_W : List (Ref sig .tc) := [main_cst_19, main_v99, main_v100, main_v101, main_v102, main_v103, main_v104, main_v105, main_v106, main_cst_20, main_v107, main_cst_21, main_v108, main_v109, main_c_22]
theorem opsD_writes : (opsD : List (HloOp τ sig (Elt F))).Forall fun op => op.writes ⊆ (opsD_W.map (Proc.devRef (τ := τ) .tc)).toFinset := by
  simp only [List.Forall]; exact ⟨by writes_mem, by writes_mem, by writes_mem, by writes_mem, by writes_mem, by writes_mem, by writes_mem, by writes_mem, by writes_mem, by writes_mem, by writes_mem, by writes_mem, by writes_mem, by writes_mem, by writes_mem⟩

/-- The references `opsV2`'s operations write. -/
abbrev opsV2_W : List (Ref sig .tc) := [main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v110]
theorem opsV2_writes : (opsV2 : List (HloOp τ sig (Elt F))).Forall fun op => op.writes ⊆ (opsV2_W.map (Proc.devRef (τ := τ) .tc)).toFinset := by
  simp only [List.Forall]; exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩

/-- The references `opsE`'s operations write. -/
abbrev opsE_W : List (Ref sig .tc) := [main_v111, main_v112, main_v113, main_v114, main_v115, main_v116, main_cst_23, main_v117, main_v118, main_v119, main_v120, main_v121, main_v122, main_v123, main_v124, main_v125, main_v126, main_v127]
theorem opsE_writes : (opsE : List (HloOp τ sig (Elt F))).Forall fun op => op.writes ⊆ (opsE_W.map (Proc.devRef (τ := τ) .tc)).toFinset := by
  simp only [List.Forall]; exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩

/-- The references `opsR2`'s operations write. -/
abbrev opsR2_W : List (Ref sig .tc) := [main_call3_cst, main_call3_v0, main_v128]
theorem opsR2_writes : (opsR2 : List (HloOp τ sig (Elt F))).Forall fun op => op.writes ⊆ (opsR2_W.map (Proc.devRef (τ := τ) .tc)).toFinset := by
  simp only [List.Forall]; exact ⟨by writes_mem, by writes_mem, by writes_mem⟩

/-- The references `opsT`'s operations write. -/
abbrev opsT_W : List (Ref sig .tc) := [main_v129, main_v130]
theorem opsT_writes : (opsT : List (HloOp τ sig (Elt F))).Forall fun op => op.writes ⊆ (opsT_W.map (Proc.devRef (τ := τ) .tc)).toFinset := by
  simp only [List.Forall]; exact ⟨by writes_mem, by writes_mem⟩

/-- What one line leaves as it was and the next does too, their concatenation leaves as it was. -/
theorem after_append_keep {b : DevRef τ sig} {l₁ l₂ : List (HloOp τ sig (Elt F))}
    (h₁ : ∀ V : Valuation τ sig (Elt F), after l₁ V b = V b) (h₂ : ∀ V : Valuation τ sig (Elt F), after l₂ V b = V b)
    (V : Valuation τ sig (Elt F)) : after (l₁ ++ l₂) V b = V b := by
  rw [after_append, h₂, h₁]

/-- A reference no stretch writes holds after the whole line what it held before. -/
theorem after_ops_keep {r : Ref sig .tc} (hA : r ∉ opsA_W) (hV1 : r ∉ opsV1_W) (hB : r ∉ opsB_W) (hR1 : r ∉ opsR1_W) (hC : r ∉ opsC_W) (hD : r ∉ opsD_W) (hV2 : r ∉ opsV2_W) (hE : r ∉ opsE_W) (hR2 : r ∉ opsR2_W) (hT : r ∉ opsT_W)
    (V : Valuation τ sig (Elt F)) : after ops V (Proc.devRef .tc r) = V (Proc.devRef .tc r) :=
  after_append_keep (after_append_keep (after_append_keep (after_append_keep (after_append_keep (after_append_keep (after_append_keep (after_append_keep (after_append_keep ((fun V => after_of_writes_sub opsA V opsA_writes hA)) (fun V => after_of_writes_sub opsV1 V opsV1_writes hV1)) (fun V => after_of_writes_sub opsB V opsB_writes hB)) (fun V => after_of_writes_sub opsR1 V opsR1_writes hR1)) (fun V => after_of_writes_sub opsC V opsC_writes hC)) (fun V => after_of_writes_sub opsD V opsD_writes hD)) (fun V => after_of_writes_sub opsV2 V opsV2_writes hV2)) (fun V => after_of_writes_sub opsE V opsE_writes hE)) (fun V => after_of_writes_sub opsR2 V opsR2_writes hR2)) (fun V => after_of_writes_sub opsT V opsT_writes hT) V

/-! ## The arguments end as launched -/

theorem after_main_arg0 (m : (ℓ : Loc nD τ sig) → Buf (Elt F) ℓ) (d : Dev nD) :
    StableHlo.after ops (StableHlo.launchContents m d) (Proc.devRef .tc main_arg0) = m ((d.tc : Thread nD τ).loc main_arg0) :=
  after_ops_keep (by decide) (by decide) (by decide) (by decide) (by decide) (by decide) (by decide) (by decide) (by decide) (by decide) _
theorem after_main_arg1 (m : (ℓ : Loc nD τ sig) → Buf (Elt F) ℓ) (d : Dev nD) :
    StableHlo.after ops (StableHlo.launchContents m d) (Proc.devRef .tc main_arg1) = m ((d.tc : Thread nD τ).loc main_arg1) :=
  after_ops_keep (by decide) (by decide) (by decide) (by decide) (by decide) (by decide) (by decide) (by decide) (by decide) (by decide) _
theorem after_main_arg2 (m : (ℓ : Loc nD τ sig) → Buf (Elt F) ℓ) (d : Dev nD) :
    StableHlo.after ops (StableHlo.launchContents m d) (Proc.devRef .tc main_arg2) = m ((d.tc : Thread nD τ).loc main_arg2) :=
  after_ops_keep (by decide) (by decide) (by decide) (by decide) (by decide) (by decide) (by decide) (by decide) (by decide) (by decide) _
theorem after_main_arg3 (m : (ℓ : Loc nD τ sig) → Buf (Elt F) ℓ) (d : Dev nD) :
    StableHlo.after ops (StableHlo.launchContents m d) (Proc.devRef .tc main_arg3) = m ((d.tc : Thread nD τ).loc main_arg3) :=
  after_ops_keep (by decide) (by decide) (by decide) (by decide) (by decide) (by decide) (by decide) (by decide) (by decide) (by decide) _
theorem after_main_arg4 (m : (ℓ : Loc nD τ sig) → Buf (Elt F) ℓ) (d : Dev nD) :
    StableHlo.after ops (StableHlo.launchContents m d) (Proc.devRef .tc main_arg4) = m ((d.tc : Thread nD τ).loc main_arg4) :=
  after_ops_keep (by decide) (by decide) (by decide) (by decide) (by decide) (by decide) (by decide) (by decide) (by decide) (by decide) _
theorem after_main_arg5 (m : (ℓ : Loc nD τ sig) → Buf (Elt F) ℓ) (d : Dev nD) :
    StableHlo.after ops (StableHlo.launchContents m d) (Proc.devRef .tc main_arg5) = m ((d.tc : Thread nD τ).loc main_arg5) :=
  after_ops_keep (by decide) (by decide) (by decide) (by decide) (by decide) (by decide) (by decide) (by decide) (by decide) (by decide) _
theorem after_main_arg6 (m : (ℓ : Loc nD τ sig) → Buf (Elt F) ℓ) (d : Dev nD) :
    StableHlo.after ops (StableHlo.launchContents m d) (Proc.devRef .tc main_arg6) = m ((d.tc : Thread nD τ).loc main_arg6) :=
  after_ops_keep (by decide) (by decide) (by decide) (by decide) (by decide) (by decide) (by decide) (by decide) (by decide) (by decide) _
theorem after_main_arg7 (m : (ℓ : Loc nD τ sig) → Buf (Elt F) ℓ) (d : Dev nD) :
    StableHlo.after ops (StableHlo.launchContents m d) (Proc.devRef .tc main_arg7) = m ((d.tc : Thread nD τ).loc main_arg7) :=
  after_ops_keep (by decide) (by decide) (by decide) (by decide) (by decide) (by decide) (by decide) (by decide) (by decide) (by decide) _
theorem after_main_arg8 (m : (ℓ : Loc nD τ sig) → Buf (Elt F) ℓ) (d : Dev nD) :
    StableHlo.after ops (StableHlo.launchContents m d) (Proc.devRef .tc main_arg8) = m ((d.tc : Thread nD τ).loc main_arg8) :=
  after_ops_keep (by decide) (by decide) (by decide) (by decide) (by decide) (by decide) (by decide) (by decide) (by decide) (by decide) _
theorem after_main_arg9 (m : (ℓ : Loc nD τ sig) → Buf (Elt F) ℓ) (d : Dev nD) :
    StableHlo.after ops (StableHlo.launchContents m d) (Proc.devRef .tc main_arg9) = m ((d.tc : Thread nD τ).loc main_arg9) :=
  after_ops_keep (by decide) (by decide) (by decide) (by decide) (by decide) (by decide) (by decide) (by decide) (by decide) (by decide) _
theorem after_main_arg10 (m : (ℓ : Loc nD τ sig) → Buf (Elt F) ℓ) (d : Dev nD) :
    StableHlo.after ops (StableHlo.launchContents m d) (Proc.devRef .tc main_arg10) = m ((d.tc : Thread nD τ).loc main_arg10) :=
  after_ops_keep (by decide) (by decide) (by decide) (by decide) (by decide) (by decide) (by decide) (by decide) (by decide) (by decide) _
theorem after_main_arg11 (m : (ℓ : Loc nD τ sig) → Buf (Elt F) ℓ) (d : Dev nD) :
    StableHlo.after ops (StableHlo.launchContents m d) (Proc.devRef .tc main_arg11) = m ((d.tc : Thread nD τ).loc main_arg11) :=
  after_ops_keep (by decide) (by decide) (by decide) (by decide) (by decide) (by decide) (by decide) (by decide) (by decide) (by decide) _
theorem after_main_arg12 (m : (ℓ : Loc nD τ sig) → Buf (Elt F) ℓ) (d : Dev nD) :
    StableHlo.after ops (StableHlo.launchContents m d) (Proc.devRef .tc main_arg12) = m ((d.tc : Thread nD τ).loc main_arg12) :=
  after_ops_keep (by decide) (by decide) (by decide) (by decide) (by decide) (by decide) (by decide) (by decide) (by decide) (by decide) _
theorem after_main_arg13 (m : (ℓ : Loc nD τ sig) → Buf (Elt F) ℓ) (d : Dev nD) :
    StableHlo.after ops (StableHlo.launchContents m d) (Proc.devRef .tc main_arg13) = m ((d.tc : Thread nD τ).loc main_arg13) :=
  after_ops_keep (by decide) (by decide) (by decide) (by decide) (by decide) (by decide) (by decide) (by decide) (by decide) (by decide) _
theorem after_main_arg14 (m : (ℓ : Loc nD τ sig) → Buf (Elt F) ℓ) (d : Dev nD) :
    StableHlo.after ops (StableHlo.launchContents m d) (Proc.devRef .tc main_arg14) = m ((d.tc : Thread nD τ).loc main_arg14) :=
  after_ops_keep (by decide) (by decide) (by decide) (by decide) (by decide) (by decide) (by decide) (by decide) (by decide) (by decide) _
theorem after_main_arg15 (m : (ℓ : Loc nD τ sig) → Buf (Elt F) ℓ) (d : Dev nD) :
    StableHlo.after ops (StableHlo.launchContents m d) (Proc.devRef .tc main_arg15) = m ((d.tc : Thread nD τ).loc main_arg15) :=
  after_ops_keep (by decide) (by decide) (by decide) (by decide) (by decide) (by decide) (by decide) (by decide) (by decide) (by decide) _
theorem after_main_arg16 (m : (ℓ : Loc nD τ sig) → Buf (Elt F) ℓ) (d : Dev nD) :
    StableHlo.after ops (StableHlo.launchContents m d) (Proc.devRef .tc main_arg16) = m ((d.tc : Thread nD τ).loc main_arg16) :=
  after_ops_keep (by decide) (by decide) (by decide) (by decide) (by decide) (by decide) (by decide) (by decide) (by decide) (by decide) _
theorem after_main_arg17 (m : (ℓ : Loc nD τ sig) → Buf (Elt F) ℓ) (d : Dev nD) :
    StableHlo.after ops (StableHlo.launchContents m d) (Proc.devRef .tc main_arg17) = m ((d.tc : Thread nD τ).loc main_arg17) :=
  after_ops_keep (by decide) (by decide) (by decide) (by decide) (by decide) (by decide) (by decide) (by decide) (by decide) (by decide) _
theorem after_main_arg18 (m : (ℓ : Loc nD τ sig) → Buf (Elt F) ℓ) (d : Dev nD) :
    StableHlo.after ops (StableHlo.launchContents m d) (Proc.devRef .tc main_arg18) = m ((d.tc : Thread nD τ).loc main_arg18) :=
  after_ops_keep (by decide) (by decide) (by decide) (by decide) (by decide) (by decide) (by decide) (by decide) (by decide) (by decide) _
theorem after_main_arg19 (m : (ℓ : Loc nD τ sig) → Buf (Elt F) ℓ) (d : Dev nD) :
    StableHlo.after ops (StableHlo.launchContents m d) (Proc.devRef .tc main_arg19) = m ((d.tc : Thread nD τ).loc main_arg19) :=
  after_ops_keep (by decide) (by decide) (by decide) (by decide) (by decide) (by decide) (by decide) (by decide) (by decide) (by decide) _
theorem after_main_arg20 (m : (ℓ : Loc nD τ sig) → Buf (Elt F) ℓ) (d : Dev nD) :
    StableHlo.after ops (StableHlo.launchContents m d) (Proc.devRef .tc main_arg20) = m ((d.tc : Thread nD τ).loc main_arg20) :=
  after_ops_keep (by decide) (by decide) (by decide) (by decide) (by decide) (by decide) (by decide) (by decide) (by decide) (by decide) _

/-- On every device, for any float values, from any memory with zero counters: every weakly fair execution of @main
    terminates with every argument array holding its launch contents. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) :=
  (θ_run defs _ _).mono (fun _ h c => ⟨(h c main_arg0).trans (after_main_arg0 m c),
      (h c main_arg1).trans (after_main_arg1 m c),
      (h c main_arg2).trans (after_main_arg2 m c),
      (h c main_arg3).trans (after_main_arg3 m c),
      (h c main_arg4).trans (after_main_arg4 m c),
      (h c main_arg5).trans (after_main_arg5 m c),
      (h c main_arg6).trans (after_main_arg6 m c),
      (h c main_arg7).trans (after_main_arg7 m c),
      (h c main_arg8).trans (after_main_arg8 m c),
      (h c main_arg9).trans (after_main_arg9 m c),
      (h c main_arg10).trans (after_main_arg10 m c),
      (h c main_arg11).trans (after_main_arg11 m c),
      (h c main_arg12).trans (after_main_arg12 m c),
      (h c main_arg13).trans (after_main_arg13 m c),
      (h c main_arg14).trans (after_main_arg14 m c),
      (h c main_arg15).trans (after_main_arg15 m c),
      (h c main_arg16).trans (after_main_arg16 m c),
      (h c main_arg17).trans (after_main_arg17 m c),
      (h c main_arg18).trans (after_main_arg18 m c),
      (h c main_arg19).trans (after_main_arg19 m c),
      (h c main_arg20).trans (after_main_arg20 m c)⟩)
    (run_all m ρ)

end Cert.ReferenceIdeal.RefRun

end
-- ==== Proof.KIArgs.lean ====
/-
  At every boundary of the kernel program's run, an argument's buffer holds its launch contents: no host stretch
  writes an argument, and a region changes only its output array.
-/
import proofs.«178339_j40699110097748_1_alg».proof.Proof.KIRun

set_option maxRecDepth 16384

noncomputable section

namespace Cert.KernelIdeal.Frm

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ)

theorem B0_arg0 (c : Dev nD) : B0 m c main_arg0 = m ((c : Thread nD τ).loc main_arg0) := rfl
theorem B1_arg0 (c : Dev nD) : B1 m c main_arg0 = m ((c : Thread nD τ).loc main_arg0) := (StableHlo.after_of_writes_sub hostOps0 _ hostOps0_writes (by decide)).trans (B0_arg0 m c)
theorem B2_arg0 (c : Dev nD) : B2 m c main_arg0 = m ((c : Thread nD τ).loc main_arg0) := (B2_of_ne m c main_arg0 (by decide)).trans (B1_arg0 m c)
theorem B3_arg0 (c : Dev nD) : B3 m c main_arg0 = m ((c : Thread nD τ).loc main_arg0) := (StableHlo.after_of_writes_sub hostOps1 _ hostOps1_writes (by decide)).trans (B2_arg0 m c)
theorem B4_arg0 (c : Dev nD) : B4 m c main_arg0 = m ((c : Thread nD τ).loc main_arg0) := (StableHlo.after_of_writes_sub hostOps1_1 _ hostOps1_1_writes (by decide)).trans (B3_arg0 m c)
theorem B5_arg0 (c : Dev nD) : B5 m c main_arg0 = m ((c : Thread nD τ).loc main_arg0) := (StableHlo.after_of_writes_sub hostOps1_2 _ hostOps1_2_writes (by decide)).trans (B4_arg0 m c)
theorem B6_arg0 (c : Dev nD) : B6 m c main_arg0 = m ((c : Thread nD τ).loc main_arg0) := (B6_of_ne m c main_arg0 (by decide)).trans (B5_arg0 m c)
theorem B7_arg0 (c : Dev nD) : B7 m c main_arg0 = m ((c : Thread nD τ).loc main_arg0) := (StableHlo.after_of_writes_sub hostOps2 _ hostOps2_writes (by decide)).trans (B6_arg0 m c)
theorem B8_arg0 (c : Dev nD) : B8 m c main_arg0 = m ((c : Thread nD τ).loc main_arg0) := (B8_of_ne m c main_arg0 (by decide)).trans (B7_arg0 m c)
theorem B9_arg0 (c : Dev nD) : B9 m c main_arg0 = m ((c : Thread nD τ).loc main_arg0) := (StableHlo.after_of_writes_sub hostOps3 _ hostOps3_writes (by decide)).trans (B8_arg0 m c)
theorem B10_arg0 (c : Dev nD) : B10 m c main_arg0 = m ((c : Thread nD τ).loc main_arg0) := (StableHlo.after_of_writes_sub hostOps3_1 _ hostOps3_1_writes (by decide)).trans (B9_arg0 m c)
theorem B11_arg0 (c : Dev nD) : B11 m c main_arg0 = m ((c : Thread nD τ).loc main_arg0) := (B11_of_ne m c main_arg0 (by decide)).trans (B10_arg0 m c)
theorem B12_arg0 (c : Dev nD) : B12 m c main_arg0 = m ((c : Thread nD τ).loc main_arg0) := (StableHlo.after_of_writes_sub hostOps4 _ hostOps4_writes (by decide)).trans (B11_arg0 m c)
theorem B13_arg0 (c : Dev nD) : B13 m c main_arg0 = m ((c : Thread nD τ).loc main_arg0) := (B13_of_ne m c main_arg0 (by decide)).trans (B12_arg0 m c)
theorem B14_arg0 (c : Dev nD) : B14 m c main_arg0 = m ((c : Thread nD τ).loc main_arg0) := (StableHlo.after_of_writes_sub hostOps5 _ hostOps5_writes (by decide)).trans (B13_arg0 m c)
theorem B0_arg1 (c : Dev nD) : B0 m c main_arg1 = m ((c : Thread nD τ).loc main_arg1) := rfl
theorem B1_arg1 (c : Dev nD) : B1 m c main_arg1 = m ((c : Thread nD τ).loc main_arg1) := (StableHlo.after_of_writes_sub hostOps0 _ hostOps0_writes (by decide)).trans (B0_arg1 m c)
theorem B2_arg1 (c : Dev nD) : B2 m c main_arg1 = m ((c : Thread nD τ).loc main_arg1) := (B2_of_ne m c main_arg1 (by decide)).trans (B1_arg1 m c)
theorem B3_arg1 (c : Dev nD) : B3 m c main_arg1 = m ((c : Thread nD τ).loc main_arg1) := (StableHlo.after_of_writes_sub hostOps1 _ hostOps1_writes (by decide)).trans (B2_arg1 m c)
theorem B4_arg1 (c : Dev nD) : B4 m c main_arg1 = m ((c : Thread nD τ).loc main_arg1) := (StableHlo.after_of_writes_sub hostOps1_1 _ hostOps1_1_writes (by decide)).trans (B3_arg1 m c)
theorem B5_arg1 (c : Dev nD) : B5 m c main_arg1 = m ((c : Thread nD τ).loc main_arg1) := (StableHlo.after_of_writes_sub hostOps1_2 _ hostOps1_2_writes (by decide)).trans (B4_arg1 m c)
theorem B6_arg1 (c : Dev nD) : B6 m c main_arg1 = m ((c : Thread nD τ).loc main_arg1) := (B6_of_ne m c main_arg1 (by decide)).trans (B5_arg1 m c)
theorem B7_arg1 (c : Dev nD) : B7 m c main_arg1 = m ((c : Thread nD τ).loc main_arg1) := (StableHlo.after_of_writes_sub hostOps2 _ hostOps2_writes (by decide)).trans (B6_arg1 m c)
theorem B8_arg1 (c : Dev nD) : B8 m c main_arg1 = m ((c : Thread nD τ).loc main_arg1) := (B8_of_ne m c main_arg1 (by decide)).trans (B7_arg1 m c)
theorem B9_arg1 (c : Dev nD) : B9 m c main_arg1 = m ((c : Thread nD τ).loc main_arg1) := (StableHlo.after_of_writes_sub hostOps3 _ hostOps3_writes (by decide)).trans (B8_arg1 m c)
theorem B10_arg1 (c : Dev nD) : B10 m c main_arg1 = m ((c : Thread nD τ).loc main_arg1) := (StableHlo.after_of_writes_sub hostOps3_1 _ hostOps3_1_writes (by decide)).trans (B9_arg1 m c)
theorem B11_arg1 (c : Dev nD) : B11 m c main_arg1 = m ((c : Thread nD τ).loc main_arg1) := (B11_of_ne m c main_arg1 (by decide)).trans (B10_arg1 m c)
theorem B12_arg1 (c : Dev nD) : B12 m c main_arg1 = m ((c : Thread nD τ).loc main_arg1) := (StableHlo.after_of_writes_sub hostOps4 _ hostOps4_writes (by decide)).trans (B11_arg1 m c)
theorem B13_arg1 (c : Dev nD) : B13 m c main_arg1 = m ((c : Thread nD τ).loc main_arg1) := (B13_of_ne m c main_arg1 (by decide)).trans (B12_arg1 m c)
theorem B14_arg1 (c : Dev nD) : B14 m c main_arg1 = m ((c : Thread nD τ).loc main_arg1) := (StableHlo.after_of_writes_sub hostOps5 _ hostOps5_writes (by decide)).trans (B13_arg1 m c)
theorem B0_arg2 (c : Dev nD) : B0 m c main_arg2 = m ((c : Thread nD τ).loc main_arg2) := rfl
theorem B1_arg2 (c : Dev nD) : B1 m c main_arg2 = m ((c : Thread nD τ).loc main_arg2) := (StableHlo.after_of_writes_sub hostOps0 _ hostOps0_writes (by decide)).trans (B0_arg2 m c)
theorem B2_arg2 (c : Dev nD) : B2 m c main_arg2 = m ((c : Thread nD τ).loc main_arg2) := (B2_of_ne m c main_arg2 (by decide)).trans (B1_arg2 m c)
theorem B3_arg2 (c : Dev nD) : B3 m c main_arg2 = m ((c : Thread nD τ).loc main_arg2) := (StableHlo.after_of_writes_sub hostOps1 _ hostOps1_writes (by decide)).trans (B2_arg2 m c)
theorem B4_arg2 (c : Dev nD) : B4 m c main_arg2 = m ((c : Thread nD τ).loc main_arg2) := (StableHlo.after_of_writes_sub hostOps1_1 _ hostOps1_1_writes (by decide)).trans (B3_arg2 m c)
theorem B5_arg2 (c : Dev nD) : B5 m c main_arg2 = m ((c : Thread nD τ).loc main_arg2) := (StableHlo.after_of_writes_sub hostOps1_2 _ hostOps1_2_writes (by decide)).trans (B4_arg2 m c)
theorem B6_arg2 (c : Dev nD) : B6 m c main_arg2 = m ((c : Thread nD τ).loc main_arg2) := (B6_of_ne m c main_arg2 (by decide)).trans (B5_arg2 m c)
theorem B7_arg2 (c : Dev nD) : B7 m c main_arg2 = m ((c : Thread nD τ).loc main_arg2) := (StableHlo.after_of_writes_sub hostOps2 _ hostOps2_writes (by decide)).trans (B6_arg2 m c)
theorem B8_arg2 (c : Dev nD) : B8 m c main_arg2 = m ((c : Thread nD τ).loc main_arg2) := (B8_of_ne m c main_arg2 (by decide)).trans (B7_arg2 m c)
theorem B9_arg2 (c : Dev nD) : B9 m c main_arg2 = m ((c : Thread nD τ).loc main_arg2) := (StableHlo.after_of_writes_sub hostOps3 _ hostOps3_writes (by decide)).trans (B8_arg2 m c)
theorem B10_arg2 (c : Dev nD) : B10 m c main_arg2 = m ((c : Thread nD τ).loc main_arg2) := (StableHlo.after_of_writes_sub hostOps3_1 _ hostOps3_1_writes (by decide)).trans (B9_arg2 m c)
theorem B11_arg2 (c : Dev nD) : B11 m c main_arg2 = m ((c : Thread nD τ).loc main_arg2) := (B11_of_ne m c main_arg2 (by decide)).trans (B10_arg2 m c)
theorem B12_arg2 (c : Dev nD) : B12 m c main_arg2 = m ((c : Thread nD τ).loc main_arg2) := (StableHlo.after_of_writes_sub hostOps4 _ hostOps4_writes (by decide)).trans (B11_arg2 m c)
theorem B13_arg2 (c : Dev nD) : B13 m c main_arg2 = m ((c : Thread nD τ).loc main_arg2) := (B13_of_ne m c main_arg2 (by decide)).trans (B12_arg2 m c)
theorem B14_arg2 (c : Dev nD) : B14 m c main_arg2 = m ((c : Thread nD τ).loc main_arg2) := (StableHlo.after_of_writes_sub hostOps5 _ hostOps5_writes (by decide)).trans (B13_arg2 m c)
theorem B0_arg3 (c : Dev nD) : B0 m c main_arg3 = m ((c : Thread nD τ).loc main_arg3) := rfl
theorem B1_arg3 (c : Dev nD) : B1 m c main_arg3 = m ((c : Thread nD τ).loc main_arg3) := (StableHlo.after_of_writes_sub hostOps0 _ hostOps0_writes (by decide)).trans (B0_arg3 m c)
theorem B2_arg3 (c : Dev nD) : B2 m c main_arg3 = m ((c : Thread nD τ).loc main_arg3) := (B2_of_ne m c main_arg3 (by decide)).trans (B1_arg3 m c)
theorem B3_arg3 (c : Dev nD) : B3 m c main_arg3 = m ((c : Thread nD τ).loc main_arg3) := (StableHlo.after_of_writes_sub hostOps1 _ hostOps1_writes (by decide)).trans (B2_arg3 m c)
theorem B4_arg3 (c : Dev nD) : B4 m c main_arg3 = m ((c : Thread nD τ).loc main_arg3) := (StableHlo.after_of_writes_sub hostOps1_1 _ hostOps1_1_writes (by decide)).trans (B3_arg3 m c)
theorem B5_arg3 (c : Dev nD) : B5 m c main_arg3 = m ((c : Thread nD τ).loc main_arg3) := (StableHlo.after_of_writes_sub hostOps1_2 _ hostOps1_2_writes (by decide)).trans (B4_arg3 m c)
theorem B6_arg3 (c : Dev nD) : B6 m c main_arg3 = m ((c : Thread nD τ).loc main_arg3) := (B6_of_ne m c main_arg3 (by decide)).trans (B5_arg3 m c)
theorem B7_arg3 (c : Dev nD) : B7 m c main_arg3 = m ((c : Thread nD τ).loc main_arg3) := (StableHlo.after_of_writes_sub hostOps2 _ hostOps2_writes (by decide)).trans (B6_arg3 m c)
theorem B8_arg3 (c : Dev nD) : B8 m c main_arg3 = m ((c : Thread nD τ).loc main_arg3) := (B8_of_ne m c main_arg3 (by decide)).trans (B7_arg3 m c)
theorem B9_arg3 (c : Dev nD) : B9 m c main_arg3 = m ((c : Thread nD τ).loc main_arg3) := (StableHlo.after_of_writes_sub hostOps3 _ hostOps3_writes (by decide)).trans (B8_arg3 m c)
theorem B10_arg3 (c : Dev nD) : B10 m c main_arg3 = m ((c : Thread nD τ).loc main_arg3) := (StableHlo.after_of_writes_sub hostOps3_1 _ hostOps3_1_writes (by decide)).trans (B9_arg3 m c)
theorem B11_arg3 (c : Dev nD) : B11 m c main_arg3 = m ((c : Thread nD τ).loc main_arg3) := (B11_of_ne m c main_arg3 (by decide)).trans (B10_arg3 m c)
theorem B12_arg3 (c : Dev nD) : B12 m c main_arg3 = m ((c : Thread nD τ).loc main_arg3) := (StableHlo.after_of_writes_sub hostOps4 _ hostOps4_writes (by decide)).trans (B11_arg3 m c)
theorem B13_arg3 (c : Dev nD) : B13 m c main_arg3 = m ((c : Thread nD τ).loc main_arg3) := (B13_of_ne m c main_arg3 (by decide)).trans (B12_arg3 m c)
theorem B14_arg3 (c : Dev nD) : B14 m c main_arg3 = m ((c : Thread nD τ).loc main_arg3) := (StableHlo.after_of_writes_sub hostOps5 _ hostOps5_writes (by decide)).trans (B13_arg3 m c)
theorem B0_arg4 (c : Dev nD) : B0 m c main_arg4 = m ((c : Thread nD τ).loc main_arg4) := rfl
theorem B1_arg4 (c : Dev nD) : B1 m c main_arg4 = m ((c : Thread nD τ).loc main_arg4) := (StableHlo.after_of_writes_sub hostOps0 _ hostOps0_writes (by decide)).trans (B0_arg4 m c)
theorem B2_arg4 (c : Dev nD) : B2 m c main_arg4 = m ((c : Thread nD τ).loc main_arg4) := (B2_of_ne m c main_arg4 (by decide)).trans (B1_arg4 m c)
theorem B3_arg4 (c : Dev nD) : B3 m c main_arg4 = m ((c : Thread nD τ).loc main_arg4) := (StableHlo.after_of_writes_sub hostOps1 _ hostOps1_writes (by decide)).trans (B2_arg4 m c)
theorem B4_arg4 (c : Dev nD) : B4 m c main_arg4 = m ((c : Thread nD τ).loc main_arg4) := (StableHlo.after_of_writes_sub hostOps1_1 _ hostOps1_1_writes (by decide)).trans (B3_arg4 m c)
theorem B5_arg4 (c : Dev nD) : B5 m c main_arg4 = m ((c : Thread nD τ).loc main_arg4) := (StableHlo.after_of_writes_sub hostOps1_2 _ hostOps1_2_writes (by decide)).trans (B4_arg4 m c)
theorem B6_arg4 (c : Dev nD) : B6 m c main_arg4 = m ((c : Thread nD τ).loc main_arg4) := (B6_of_ne m c main_arg4 (by decide)).trans (B5_arg4 m c)
theorem B7_arg4 (c : Dev nD) : B7 m c main_arg4 = m ((c : Thread nD τ).loc main_arg4) := (StableHlo.after_of_writes_sub hostOps2 _ hostOps2_writes (by decide)).trans (B6_arg4 m c)
theorem B8_arg4 (c : Dev nD) : B8 m c main_arg4 = m ((c : Thread nD τ).loc main_arg4) := (B8_of_ne m c main_arg4 (by decide)).trans (B7_arg4 m c)
theorem B9_arg4 (c : Dev nD) : B9 m c main_arg4 = m ((c : Thread nD τ).loc main_arg4) := (StableHlo.after_of_writes_sub hostOps3 _ hostOps3_writes (by decide)).trans (B8_arg4 m c)
theorem B10_arg4 (c : Dev nD) : B10 m c main_arg4 = m ((c : Thread nD τ).loc main_arg4) := (StableHlo.after_of_writes_sub hostOps3_1 _ hostOps3_1_writes (by decide)).trans (B9_arg4 m c)
theorem B11_arg4 (c : Dev nD) : B11 m c main_arg4 = m ((c : Thread nD τ).loc main_arg4) := (B11_of_ne m c main_arg4 (by decide)).trans (B10_arg4 m c)
theorem B12_arg4 (c : Dev nD) : B12 m c main_arg4 = m ((c : Thread nD τ).loc main_arg4) := (StableHlo.after_of_writes_sub hostOps4 _ hostOps4_writes (by decide)).trans (B11_arg4 m c)
theorem B13_arg4 (c : Dev nD) : B13 m c main_arg4 = m ((c : Thread nD τ).loc main_arg4) := (B13_of_ne m c main_arg4 (by decide)).trans (B12_arg4 m c)
theorem B14_arg4 (c : Dev nD) : B14 m c main_arg4 = m ((c : Thread nD τ).loc main_arg4) := (StableHlo.after_of_writes_sub hostOps5 _ hostOps5_writes (by decide)).trans (B13_arg4 m c)
theorem B0_arg5 (c : Dev nD) : B0 m c main_arg5 = m ((c : Thread nD τ).loc main_arg5) := rfl
theorem B1_arg5 (c : Dev nD) : B1 m c main_arg5 = m ((c : Thread nD τ).loc main_arg5) := (StableHlo.after_of_writes_sub hostOps0 _ hostOps0_writes (by decide)).trans (B0_arg5 m c)
theorem B2_arg5 (c : Dev nD) : B2 m c main_arg5 = m ((c : Thread nD τ).loc main_arg5) := (B2_of_ne m c main_arg5 (by decide)).trans (B1_arg5 m c)
theorem B3_arg5 (c : Dev nD) : B3 m c main_arg5 = m ((c : Thread nD τ).loc main_arg5) := (StableHlo.after_of_writes_sub hostOps1 _ hostOps1_writes (by decide)).trans (B2_arg5 m c)
theorem B4_arg5 (c : Dev nD) : B4 m c main_arg5 = m ((c : Thread nD τ).loc main_arg5) := (StableHlo.after_of_writes_sub hostOps1_1 _ hostOps1_1_writes (by decide)).trans (B3_arg5 m c)
theorem B5_arg5 (c : Dev nD) : B5 m c main_arg5 = m ((c : Thread nD τ).loc main_arg5) := (StableHlo.after_of_writes_sub hostOps1_2 _ hostOps1_2_writes (by decide)).trans (B4_arg5 m c)
theorem B6_arg5 (c : Dev nD) : B6 m c main_arg5 = m ((c : Thread nD τ).loc main_arg5) := (B6_of_ne m c main_arg5 (by decide)).trans (B5_arg5 m c)
theorem B7_arg5 (c : Dev nD) : B7 m c main_arg5 = m ((c : Thread nD τ).loc main_arg5) := (StableHlo.after_of_writes_sub hostOps2 _ hostOps2_writes (by decide)).trans (B6_arg5 m c)
theorem B8_arg5 (c : Dev nD) : B8 m c main_arg5 = m ((c : Thread nD τ).loc main_arg5) := (B8_of_ne m c main_arg5 (by decide)).trans (B7_arg5 m c)
theorem B9_arg5 (c : Dev nD) : B9 m c main_arg5 = m ((c : Thread nD τ).loc main_arg5) := (StableHlo.after_of_writes_sub hostOps3 _ hostOps3_writes (by decide)).trans (B8_arg5 m c)
theorem B10_arg5 (c : Dev nD) : B10 m c main_arg5 = m ((c : Thread nD τ).loc main_arg5) := (StableHlo.after_of_writes_sub hostOps3_1 _ hostOps3_1_writes (by decide)).trans (B9_arg5 m c)
theorem B11_arg5 (c : Dev nD) : B11 m c main_arg5 = m ((c : Thread nD τ).loc main_arg5) := (B11_of_ne m c main_arg5 (by decide)).trans (B10_arg5 m c)
theorem B12_arg5 (c : Dev nD) : B12 m c main_arg5 = m ((c : Thread nD τ).loc main_arg5) := (StableHlo.after_of_writes_sub hostOps4 _ hostOps4_writes (by decide)).trans (B11_arg5 m c)
theorem B13_arg5 (c : Dev nD) : B13 m c main_arg5 = m ((c : Thread nD τ).loc main_arg5) := (B13_of_ne m c main_arg5 (by decide)).trans (B12_arg5 m c)
theorem B14_arg5 (c : Dev nD) : B14 m c main_arg5 = m ((c : Thread nD τ).loc main_arg5) := (StableHlo.after_of_writes_sub hostOps5 _ hostOps5_writes (by decide)).trans (B13_arg5 m c)
theorem B0_arg6 (c : Dev nD) : B0 m c main_arg6 = m ((c : Thread nD τ).loc main_arg6) := rfl
theorem B1_arg6 (c : Dev nD) : B1 m c main_arg6 = m ((c : Thread nD τ).loc main_arg6) := (StableHlo.after_of_writes_sub hostOps0 _ hostOps0_writes (by decide)).trans (B0_arg6 m c)
theorem B2_arg6 (c : Dev nD) : B2 m c main_arg6 = m ((c : Thread nD τ).loc main_arg6) := (B2_of_ne m c main_arg6 (by decide)).trans (B1_arg6 m c)
theorem B3_arg6 (c : Dev nD) : B3 m c main_arg6 = m ((c : Thread nD τ).loc main_arg6) := (StableHlo.after_of_writes_sub hostOps1 _ hostOps1_writes (by decide)).trans (B2_arg6 m c)
theorem B4_arg6 (c : Dev nD) : B4 m c main_arg6 = m ((c : Thread nD τ).loc main_arg6) := (StableHlo.after_of_writes_sub hostOps1_1 _ hostOps1_1_writes (by decide)).trans (B3_arg6 m c)
theorem B5_arg6 (c : Dev nD) : B5 m c main_arg6 = m ((c : Thread nD τ).loc main_arg6) := (StableHlo.after_of_writes_sub hostOps1_2 _ hostOps1_2_writes (by decide)).trans (B4_arg6 m c)
theorem B6_arg6 (c : Dev nD) : B6 m c main_arg6 = m ((c : Thread nD τ).loc main_arg6) := (B6_of_ne m c main_arg6 (by decide)).trans (B5_arg6 m c)
theorem B7_arg6 (c : Dev nD) : B7 m c main_arg6 = m ((c : Thread nD τ).loc main_arg6) := (StableHlo.after_of_writes_sub hostOps2 _ hostOps2_writes (by decide)).trans (B6_arg6 m c)
theorem B8_arg6 (c : Dev nD) : B8 m c main_arg6 = m ((c : Thread nD τ).loc main_arg6) := (B8_of_ne m c main_arg6 (by decide)).trans (B7_arg6 m c)
theorem B9_arg6 (c : Dev nD) : B9 m c main_arg6 = m ((c : Thread nD τ).loc main_arg6) := (StableHlo.after_of_writes_sub hostOps3 _ hostOps3_writes (by decide)).trans (B8_arg6 m c)
theorem B10_arg6 (c : Dev nD) : B10 m c main_arg6 = m ((c : Thread nD τ).loc main_arg6) := (StableHlo.after_of_writes_sub hostOps3_1 _ hostOps3_1_writes (by decide)).trans (B9_arg6 m c)
theorem B11_arg6 (c : Dev nD) : B11 m c main_arg6 = m ((c : Thread nD τ).loc main_arg6) := (B11_of_ne m c main_arg6 (by decide)).trans (B10_arg6 m c)
theorem B12_arg6 (c : Dev nD) : B12 m c main_arg6 = m ((c : Thread nD τ).loc main_arg6) := (StableHlo.after_of_writes_sub hostOps4 _ hostOps4_writes (by decide)).trans (B11_arg6 m c)
theorem B13_arg6 (c : Dev nD) : B13 m c main_arg6 = m ((c : Thread nD τ).loc main_arg6) := (B13_of_ne m c main_arg6 (by decide)).trans (B12_arg6 m c)
theorem B14_arg6 (c : Dev nD) : B14 m c main_arg6 = m ((c : Thread nD τ).loc main_arg6) := (StableHlo.after_of_writes_sub hostOps5 _ hostOps5_writes (by decide)).trans (B13_arg6 m c)
theorem B0_arg7 (c : Dev nD) : B0 m c main_arg7 = m ((c : Thread nD τ).loc main_arg7) := rfl
theorem B1_arg7 (c : Dev nD) : B1 m c main_arg7 = m ((c : Thread nD τ).loc main_arg7) := (StableHlo.after_of_writes_sub hostOps0 _ hostOps0_writes (by decide)).trans (B0_arg7 m c)
theorem B2_arg7 (c : Dev nD) : B2 m c main_arg7 = m ((c : Thread nD τ).loc main_arg7) := (B2_of_ne m c main_arg7 (by decide)).trans (B1_arg7 m c)
theorem B3_arg7 (c : Dev nD) : B3 m c main_arg7 = m ((c : Thread nD τ).loc main_arg7) := (StableHlo.after_of_writes_sub hostOps1 _ hostOps1_writes (by decide)).trans (B2_arg7 m c)
theorem B4_arg7 (c : Dev nD) : B4 m c main_arg7 = m ((c : Thread nD τ).loc main_arg7) := (StableHlo.after_of_writes_sub hostOps1_1 _ hostOps1_1_writes (by decide)).trans (B3_arg7 m c)
theorem B5_arg7 (c : Dev nD) : B5 m c main_arg7 = m ((c : Thread nD τ).loc main_arg7) := (StableHlo.after_of_writes_sub hostOps1_2 _ hostOps1_2_writes (by decide)).trans (B4_arg7 m c)
theorem B6_arg7 (c : Dev nD) : B6 m c main_arg7 = m ((c : Thread nD τ).loc main_arg7) := (B6_of_ne m c main_arg7 (by decide)).trans (B5_arg7 m c)
theorem B7_arg7 (c : Dev nD) : B7 m c main_arg7 = m ((c : Thread nD τ).loc main_arg7) := (StableHlo.after_of_writes_sub hostOps2 _ hostOps2_writes (by decide)).trans (B6_arg7 m c)
theorem B8_arg7 (c : Dev nD) : B8 m c main_arg7 = m ((c : Thread nD τ).loc main_arg7) := (B8_of_ne m c main_arg7 (by decide)).trans (B7_arg7 m c)
theorem B9_arg7 (c : Dev nD) : B9 m c main_arg7 = m ((c : Thread nD τ).loc main_arg7) := (StableHlo.after_of_writes_sub hostOps3 _ hostOps3_writes (by decide)).trans (B8_arg7 m c)
theorem B10_arg7 (c : Dev nD) : B10 m c main_arg7 = m ((c : Thread nD τ).loc main_arg7) := (StableHlo.after_of_writes_sub hostOps3_1 _ hostOps3_1_writes (by decide)).trans (B9_arg7 m c)
theorem B11_arg7 (c : Dev nD) : B11 m c main_arg7 = m ((c : Thread nD τ).loc main_arg7) := (B11_of_ne m c main_arg7 (by decide)).trans (B10_arg7 m c)
theorem B12_arg7 (c : Dev nD) : B12 m c main_arg7 = m ((c : Thread nD τ).loc main_arg7) := (StableHlo.after_of_writes_sub hostOps4 _ hostOps4_writes (by decide)).trans (B11_arg7 m c)
theorem B13_arg7 (c : Dev nD) : B13 m c main_arg7 = m ((c : Thread nD τ).loc main_arg7) := (B13_of_ne m c main_arg7 (by decide)).trans (B12_arg7 m c)
theorem B14_arg7 (c : Dev nD) : B14 m c main_arg7 = m ((c : Thread nD τ).loc main_arg7) := (StableHlo.after_of_writes_sub hostOps5 _ hostOps5_writes (by decide)).trans (B13_arg7 m c)
theorem B0_arg8 (c : Dev nD) : B0 m c main_arg8 = m ((c : Thread nD τ).loc main_arg8) := rfl
theorem B1_arg8 (c : Dev nD) : B1 m c main_arg8 = m ((c : Thread nD τ).loc main_arg8) := (StableHlo.after_of_writes_sub hostOps0 _ hostOps0_writes (by decide)).trans (B0_arg8 m c)
theorem B2_arg8 (c : Dev nD) : B2 m c main_arg8 = m ((c : Thread nD τ).loc main_arg8) := (B2_of_ne m c main_arg8 (by decide)).trans (B1_arg8 m c)
theorem B3_arg8 (c : Dev nD) : B3 m c main_arg8 = m ((c : Thread nD τ).loc main_arg8) := (StableHlo.after_of_writes_sub hostOps1 _ hostOps1_writes (by decide)).trans (B2_arg8 m c)
theorem B4_arg8 (c : Dev nD) : B4 m c main_arg8 = m ((c : Thread nD τ).loc main_arg8) := (StableHlo.after_of_writes_sub hostOps1_1 _ hostOps1_1_writes (by decide)).trans (B3_arg8 m c)
theorem B5_arg8 (c : Dev nD) : B5 m c main_arg8 = m ((c : Thread nD τ).loc main_arg8) := (StableHlo.after_of_writes_sub hostOps1_2 _ hostOps1_2_writes (by decide)).trans (B4_arg8 m c)
theorem B6_arg8 (c : Dev nD) : B6 m c main_arg8 = m ((c : Thread nD τ).loc main_arg8) := (B6_of_ne m c main_arg8 (by decide)).trans (B5_arg8 m c)
theorem B7_arg8 (c : Dev nD) : B7 m c main_arg8 = m ((c : Thread nD τ).loc main_arg8) := (StableHlo.after_of_writes_sub hostOps2 _ hostOps2_writes (by decide)).trans (B6_arg8 m c)
theorem B8_arg8 (c : Dev nD) : B8 m c main_arg8 = m ((c : Thread nD τ).loc main_arg8) := (B8_of_ne m c main_arg8 (by decide)).trans (B7_arg8 m c)
theorem B9_arg8 (c : Dev nD) : B9 m c main_arg8 = m ((c : Thread nD τ).loc main_arg8) := (StableHlo.after_of_writes_sub hostOps3 _ hostOps3_writes (by decide)).trans (B8_arg8 m c)
theorem B10_arg8 (c : Dev nD) : B10 m c main_arg8 = m ((c : Thread nD τ).loc main_arg8) := (StableHlo.after_of_writes_sub hostOps3_1 _ hostOps3_1_writes (by decide)).trans (B9_arg8 m c)
theorem B11_arg8 (c : Dev nD) : B11 m c main_arg8 = m ((c : Thread nD τ).loc main_arg8) := (B11_of_ne m c main_arg8 (by decide)).trans (B10_arg8 m c)
theorem B12_arg8 (c : Dev nD) : B12 m c main_arg8 = m ((c : Thread nD τ).loc main_arg8) := (StableHlo.after_of_writes_sub hostOps4 _ hostOps4_writes (by decide)).trans (B11_arg8 m c)
theorem B13_arg8 (c : Dev nD) : B13 m c main_arg8 = m ((c : Thread nD τ).loc main_arg8) := (B13_of_ne m c main_arg8 (by decide)).trans (B12_arg8 m c)
theorem B14_arg8 (c : Dev nD) : B14 m c main_arg8 = m ((c : Thread nD τ).loc main_arg8) := (StableHlo.after_of_writes_sub hostOps5 _ hostOps5_writes (by decide)).trans (B13_arg8 m c)
theorem B0_arg9 (c : Dev nD) : B0 m c main_arg9 = m ((c : Thread nD τ).loc main_arg9) := rfl
theorem B1_arg9 (c : Dev nD) : B1 m c main_arg9 = m ((c : Thread nD τ).loc main_arg9) := (StableHlo.after_of_writes_sub hostOps0 _ hostOps0_writes (by decide)).trans (B0_arg9 m c)
theorem B2_arg9 (c : Dev nD) : B2 m c main_arg9 = m ((c : Thread nD τ).loc main_arg9) := (B2_of_ne m c main_arg9 (by decide)).trans (B1_arg9 m c)
theorem B3_arg9 (c : Dev nD) : B3 m c main_arg9 = m ((c : Thread nD τ).loc main_arg9) := (StableHlo.after_of_writes_sub hostOps1 _ hostOps1_writes (by decide)).trans (B2_arg9 m c)
theorem B4_arg9 (c : Dev nD) : B4 m c main_arg9 = m ((c : Thread nD τ).loc main_arg9) := (StableHlo.after_of_writes_sub hostOps1_1 _ hostOps1_1_writes (by decide)).trans (B3_arg9 m c)
theorem B5_arg9 (c : Dev nD) : B5 m c main_arg9 = m ((c : Thread nD τ).loc main_arg9) := (StableHlo.after_of_writes_sub hostOps1_2 _ hostOps1_2_writes (by decide)).trans (B4_arg9 m c)
theorem B6_arg9 (c : Dev nD) : B6 m c main_arg9 = m ((c : Thread nD τ).loc main_arg9) := (B6_of_ne m c main_arg9 (by decide)).trans (B5_arg9 m c)
theorem B7_arg9 (c : Dev nD) : B7 m c main_arg9 = m ((c : Thread nD τ).loc main_arg9) := (StableHlo.after_of_writes_sub hostOps2 _ hostOps2_writes (by decide)).trans (B6_arg9 m c)
theorem B8_arg9 (c : Dev nD) : B8 m c main_arg9 = m ((c : Thread nD τ).loc main_arg9) := (B8_of_ne m c main_arg9 (by decide)).trans (B7_arg9 m c)
theorem B9_arg9 (c : Dev nD) : B9 m c main_arg9 = m ((c : Thread nD τ).loc main_arg9) := (StableHlo.after_of_writes_sub hostOps3 _ hostOps3_writes (by decide)).trans (B8_arg9 m c)
theorem B10_arg9 (c : Dev nD) : B10 m c main_arg9 = m ((c : Thread nD τ).loc main_arg9) := (StableHlo.after_of_writes_sub hostOps3_1 _ hostOps3_1_writes (by decide)).trans (B9_arg9 m c)
theorem B11_arg9 (c : Dev nD) : B11 m c main_arg9 = m ((c : Thread nD τ).loc main_arg9) := (B11_of_ne m c main_arg9 (by decide)).trans (B10_arg9 m c)
theorem B12_arg9 (c : Dev nD) : B12 m c main_arg9 = m ((c : Thread nD τ).loc main_arg9) := (StableHlo.after_of_writes_sub hostOps4 _ hostOps4_writes (by decide)).trans (B11_arg9 m c)
theorem B13_arg9 (c : Dev nD) : B13 m c main_arg9 = m ((c : Thread nD τ).loc main_arg9) := (B13_of_ne m c main_arg9 (by decide)).trans (B12_arg9 m c)
theorem B14_arg9 (c : Dev nD) : B14 m c main_arg9 = m ((c : Thread nD τ).loc main_arg9) := (StableHlo.after_of_writes_sub hostOps5 _ hostOps5_writes (by decide)).trans (B13_arg9 m c)
theorem B0_arg10 (c : Dev nD) : B0 m c main_arg10 = m ((c : Thread nD τ).loc main_arg10) := rfl
theorem B1_arg10 (c : Dev nD) : B1 m c main_arg10 = m ((c : Thread nD τ).loc main_arg10) := (StableHlo.after_of_writes_sub hostOps0 _ hostOps0_writes (by decide)).trans (B0_arg10 m c)
theorem B2_arg10 (c : Dev nD) : B2 m c main_arg10 = m ((c : Thread nD τ).loc main_arg10) := (B2_of_ne m c main_arg10 (by decide)).trans (B1_arg10 m c)
theorem B3_arg10 (c : Dev nD) : B3 m c main_arg10 = m ((c : Thread nD τ).loc main_arg10) := (StableHlo.after_of_writes_sub hostOps1 _ hostOps1_writes (by decide)).trans (B2_arg10 m c)
theorem B4_arg10 (c : Dev nD) : B4 m c main_arg10 = m ((c : Thread nD τ).loc main_arg10) := (StableHlo.after_of_writes_sub hostOps1_1 _ hostOps1_1_writes (by decide)).trans (B3_arg10 m c)
theorem B5_arg10 (c : Dev nD) : B5 m c main_arg10 = m ((c : Thread nD τ).loc main_arg10) := (StableHlo.after_of_writes_sub hostOps1_2 _ hostOps1_2_writes (by decide)).trans (B4_arg10 m c)
theorem B6_arg10 (c : Dev nD) : B6 m c main_arg10 = m ((c : Thread nD τ).loc main_arg10) := (B6_of_ne m c main_arg10 (by decide)).trans (B5_arg10 m c)
theorem B7_arg10 (c : Dev nD) : B7 m c main_arg10 = m ((c : Thread nD τ).loc main_arg10) := (StableHlo.after_of_writes_sub hostOps2 _ hostOps2_writes (by decide)).trans (B6_arg10 m c)
theorem B8_arg10 (c : Dev nD) : B8 m c main_arg10 = m ((c : Thread nD τ).loc main_arg10) := (B8_of_ne m c main_arg10 (by decide)).trans (B7_arg10 m c)
theorem B9_arg10 (c : Dev nD) : B9 m c main_arg10 = m ((c : Thread nD τ).loc main_arg10) := (StableHlo.after_of_writes_sub hostOps3 _ hostOps3_writes (by decide)).trans (B8_arg10 m c)
theorem B10_arg10 (c : Dev nD) : B10 m c main_arg10 = m ((c : Thread nD τ).loc main_arg10) := (StableHlo.after_of_writes_sub hostOps3_1 _ hostOps3_1_writes (by decide)).trans (B9_arg10 m c)
theorem B11_arg10 (c : Dev nD) : B11 m c main_arg10 = m ((c : Thread nD τ).loc main_arg10) := (B11_of_ne m c main_arg10 (by decide)).trans (B10_arg10 m c)
theorem B12_arg10 (c : Dev nD) : B12 m c main_arg10 = m ((c : Thread nD τ).loc main_arg10) := (StableHlo.after_of_writes_sub hostOps4 _ hostOps4_writes (by decide)).trans (B11_arg10 m c)
theorem B13_arg10 (c : Dev nD) : B13 m c main_arg10 = m ((c : Thread nD τ).loc main_arg10) := (B13_of_ne m c main_arg10 (by decide)).trans (B12_arg10 m c)
theorem B14_arg10 (c : Dev nD) : B14 m c main_arg10 = m ((c : Thread nD τ).loc main_arg10) := (StableHlo.after_of_writes_sub hostOps5 _ hostOps5_writes (by decide)).trans (B13_arg10 m c)
theorem B0_arg11 (c : Dev nD) : B0 m c main_arg11 = m ((c : Thread nD τ).loc main_arg11) := rfl
theorem B1_arg11 (c : Dev nD) : B1 m c main_arg11 = m ((c : Thread nD τ).loc main_arg11) := (StableHlo.after_of_writes_sub hostOps0 _ hostOps0_writes (by decide)).trans (B0_arg11 m c)
theorem B2_arg11 (c : Dev nD) : B2 m c main_arg11 = m ((c : Thread nD τ).loc main_arg11) := (B2_of_ne m c main_arg11 (by decide)).trans (B1_arg11 m c)
theorem B3_arg11 (c : Dev nD) : B3 m c main_arg11 = m ((c : Thread nD τ).loc main_arg11) := (StableHlo.after_of_writes_sub hostOps1 _ hostOps1_writes (by decide)).trans (B2_arg11 m c)
theorem B4_arg11 (c : Dev nD) : B4 m c main_arg11 = m ((c : Thread nD τ).loc main_arg11) := (StableHlo.after_of_writes_sub hostOps1_1 _ hostOps1_1_writes (by decide)).trans (B3_arg11 m c)
theorem B5_arg11 (c : Dev nD) : B5 m c main_arg11 = m ((c : Thread nD τ).loc main_arg11) := (StableHlo.after_of_writes_sub hostOps1_2 _ hostOps1_2_writes (by decide)).trans (B4_arg11 m c)
theorem B6_arg11 (c : Dev nD) : B6 m c main_arg11 = m ((c : Thread nD τ).loc main_arg11) := (B6_of_ne m c main_arg11 (by decide)).trans (B5_arg11 m c)
theorem B7_arg11 (c : Dev nD) : B7 m c main_arg11 = m ((c : Thread nD τ).loc main_arg11) := (StableHlo.after_of_writes_sub hostOps2 _ hostOps2_writes (by decide)).trans (B6_arg11 m c)
theorem B8_arg11 (c : Dev nD) : B8 m c main_arg11 = m ((c : Thread nD τ).loc main_arg11) := (B8_of_ne m c main_arg11 (by decide)).trans (B7_arg11 m c)
theorem B9_arg11 (c : Dev nD) : B9 m c main_arg11 = m ((c : Thread nD τ).loc main_arg11) := (StableHlo.after_of_writes_sub hostOps3 _ hostOps3_writes (by decide)).trans (B8_arg11 m c)
theorem B10_arg11 (c : Dev nD) : B10 m c main_arg11 = m ((c : Thread nD τ).loc main_arg11) := (StableHlo.after_of_writes_sub hostOps3_1 _ hostOps3_1_writes (by decide)).trans (B9_arg11 m c)
theorem B11_arg11 (c : Dev nD) : B11 m c main_arg11 = m ((c : Thread nD τ).loc main_arg11) := (B11_of_ne m c main_arg11 (by decide)).trans (B10_arg11 m c)
theorem B12_arg11 (c : Dev nD) : B12 m c main_arg11 = m ((c : Thread nD τ).loc main_arg11) := (StableHlo.after_of_writes_sub hostOps4 _ hostOps4_writes (by decide)).trans (B11_arg11 m c)
theorem B13_arg11 (c : Dev nD) : B13 m c main_arg11 = m ((c : Thread nD τ).loc main_arg11) := (B13_of_ne m c main_arg11 (by decide)).trans (B12_arg11 m c)
theorem B14_arg11 (c : Dev nD) : B14 m c main_arg11 = m ((c : Thread nD τ).loc main_arg11) := (StableHlo.after_of_writes_sub hostOps5 _ hostOps5_writes (by decide)).trans (B13_arg11 m c)
theorem B0_arg12 (c : Dev nD) : B0 m c main_arg12 = m ((c : Thread nD τ).loc main_arg12) := rfl
theorem B1_arg12 (c : Dev nD) : B1 m c main_arg12 = m ((c : Thread nD τ).loc main_arg12) := (StableHlo.after_of_writes_sub hostOps0 _ hostOps0_writes (by decide)).trans (B0_arg12 m c)
theorem B2_arg12 (c : Dev nD) : B2 m c main_arg12 = m ((c : Thread nD τ).loc main_arg12) := (B2_of_ne m c main_arg12 (by decide)).trans (B1_arg12 m c)
theorem B3_arg12 (c : Dev nD) : B3 m c main_arg12 = m ((c : Thread nD τ).loc main_arg12) := (StableHlo.after_of_writes_sub hostOps1 _ hostOps1_writes (by decide)).trans (B2_arg12 m c)
theorem B4_arg12 (c : Dev nD) : B4 m c main_arg12 = m ((c : Thread nD τ).loc main_arg12) := (StableHlo.after_of_writes_sub hostOps1_1 _ hostOps1_1_writes (by decide)).trans (B3_arg12 m c)
theorem B5_arg12 (c : Dev nD) : B5 m c main_arg12 = m ((c : Thread nD τ).loc main_arg12) := (StableHlo.after_of_writes_sub hostOps1_2 _ hostOps1_2_writes (by decide)).trans (B4_arg12 m c)
theorem B6_arg12 (c : Dev nD) : B6 m c main_arg12 = m ((c : Thread nD τ).loc main_arg12) := (B6_of_ne m c main_arg12 (by decide)).trans (B5_arg12 m c)
theorem B7_arg12 (c : Dev nD) : B7 m c main_arg12 = m ((c : Thread nD τ).loc main_arg12) := (StableHlo.after_of_writes_sub hostOps2 _ hostOps2_writes (by decide)).trans (B6_arg12 m c)
theorem B8_arg12 (c : Dev nD) : B8 m c main_arg12 = m ((c : Thread nD τ).loc main_arg12) := (B8_of_ne m c main_arg12 (by decide)).trans (B7_arg12 m c)
theorem B9_arg12 (c : Dev nD) : B9 m c main_arg12 = m ((c : Thread nD τ).loc main_arg12) := (StableHlo.after_of_writes_sub hostOps3 _ hostOps3_writes (by decide)).trans (B8_arg12 m c)
theorem B10_arg12 (c : Dev nD) : B10 m c main_arg12 = m ((c : Thread nD τ).loc main_arg12) := (StableHlo.after_of_writes_sub hostOps3_1 _ hostOps3_1_writes (by decide)).trans (B9_arg12 m c)
theorem B11_arg12 (c : Dev nD) : B11 m c main_arg12 = m ((c : Thread nD τ).loc main_arg12) := (B11_of_ne m c main_arg12 (by decide)).trans (B10_arg12 m c)
theorem B12_arg12 (c : Dev nD) : B12 m c main_arg12 = m ((c : Thread nD τ).loc main_arg12) := (StableHlo.after_of_writes_sub hostOps4 _ hostOps4_writes (by decide)).trans (B11_arg12 m c)
theorem B13_arg12 (c : Dev nD) : B13 m c main_arg12 = m ((c : Thread nD τ).loc main_arg12) := (B13_of_ne m c main_arg12 (by decide)).trans (B12_arg12 m c)
theorem B14_arg12 (c : Dev nD) : B14 m c main_arg12 = m ((c : Thread nD τ).loc main_arg12) := (StableHlo.after_of_writes_sub hostOps5 _ hostOps5_writes (by decide)).trans (B13_arg12 m c)
theorem B0_arg13 (c : Dev nD) : B0 m c main_arg13 = m ((c : Thread nD τ).loc main_arg13) := rfl
theorem B1_arg13 (c : Dev nD) : B1 m c main_arg13 = m ((c : Thread nD τ).loc main_arg13) := (StableHlo.after_of_writes_sub hostOps0 _ hostOps0_writes (by decide)).trans (B0_arg13 m c)
theorem B2_arg13 (c : Dev nD) : B2 m c main_arg13 = m ((c : Thread nD τ).loc main_arg13) := (B2_of_ne m c main_arg13 (by decide)).trans (B1_arg13 m c)
theorem B3_arg13 (c : Dev nD) : B3 m c main_arg13 = m ((c : Thread nD τ).loc main_arg13) := (StableHlo.after_of_writes_sub hostOps1 _ hostOps1_writes (by decide)).trans (B2_arg13 m c)
theorem B4_arg13 (c : Dev nD) : B4 m c main_arg13 = m ((c : Thread nD τ).loc main_arg13) := (StableHlo.after_of_writes_sub hostOps1_1 _ hostOps1_1_writes (by decide)).trans (B3_arg13 m c)
theorem B5_arg13 (c : Dev nD) : B5 m c main_arg13 = m ((c : Thread nD τ).loc main_arg13) := (StableHlo.after_of_writes_sub hostOps1_2 _ hostOps1_2_writes (by decide)).trans (B4_arg13 m c)
theorem B6_arg13 (c : Dev nD) : B6 m c main_arg13 = m ((c : Thread nD τ).loc main_arg13) := (B6_of_ne m c main_arg13 (by decide)).trans (B5_arg13 m c)
theorem B7_arg13 (c : Dev nD) : B7 m c main_arg13 = m ((c : Thread nD τ).loc main_arg13) := (StableHlo.after_of_writes_sub hostOps2 _ hostOps2_writes (by decide)).trans (B6_arg13 m c)
theorem B8_arg13 (c : Dev nD) : B8 m c main_arg13 = m ((c : Thread nD τ).loc main_arg13) := (B8_of_ne m c main_arg13 (by decide)).trans (B7_arg13 m c)
theorem B9_arg13 (c : Dev nD) : B9 m c main_arg13 = m ((c : Thread nD τ).loc main_arg13) := (StableHlo.after_of_writes_sub hostOps3 _ hostOps3_writes (by decide)).trans (B8_arg13 m c)
theorem B10_arg13 (c : Dev nD) : B10 m c main_arg13 = m ((c : Thread nD τ).loc main_arg13) := (StableHlo.after_of_writes_sub hostOps3_1 _ hostOps3_1_writes (by decide)).trans (B9_arg13 m c)
theorem B11_arg13 (c : Dev nD) : B11 m c main_arg13 = m ((c : Thread nD τ).loc main_arg13) := (B11_of_ne m c main_arg13 (by decide)).trans (B10_arg13 m c)
theorem B12_arg13 (c : Dev nD) : B12 m c main_arg13 = m ((c : Thread nD τ).loc main_arg13) := (StableHlo.after_of_writes_sub hostOps4 _ hostOps4_writes (by decide)).trans (B11_arg13 m c)
theorem B13_arg13 (c : Dev nD) : B13 m c main_arg13 = m ((c : Thread nD τ).loc main_arg13) := (B13_of_ne m c main_arg13 (by decide)).trans (B12_arg13 m c)
theorem B14_arg13 (c : Dev nD) : B14 m c main_arg13 = m ((c : Thread nD τ).loc main_arg13) := (StableHlo.after_of_writes_sub hostOps5 _ hostOps5_writes (by decide)).trans (B13_arg13 m c)
theorem B0_arg14 (c : Dev nD) : B0 m c main_arg14 = m ((c : Thread nD τ).loc main_arg14) := rfl
theorem B1_arg14 (c : Dev nD) : B1 m c main_arg14 = m ((c : Thread nD τ).loc main_arg14) := (StableHlo.after_of_writes_sub hostOps0 _ hostOps0_writes (by decide)).trans (B0_arg14 m c)
theorem B2_arg14 (c : Dev nD) : B2 m c main_arg14 = m ((c : Thread nD τ).loc main_arg14) := (B2_of_ne m c main_arg14 (by decide)).trans (B1_arg14 m c)
theorem B3_arg14 (c : Dev nD) : B3 m c main_arg14 = m ((c : Thread nD τ).loc main_arg14) := (StableHlo.after_of_writes_sub hostOps1 _ hostOps1_writes (by decide)).trans (B2_arg14 m c)
theorem B4_arg14 (c : Dev nD) : B4 m c main_arg14 = m ((c : Thread nD τ).loc main_arg14) := (StableHlo.after_of_writes_sub hostOps1_1 _ hostOps1_1_writes (by decide)).trans (B3_arg14 m c)
theorem B5_arg14 (c : Dev nD) : B5 m c main_arg14 = m ((c : Thread nD τ).loc main_arg14) := (StableHlo.after_of_writes_sub hostOps1_2 _ hostOps1_2_writes (by decide)).trans (B4_arg14 m c)
theorem B6_arg14 (c : Dev nD) : B6 m c main_arg14 = m ((c : Thread nD τ).loc main_arg14) := (B6_of_ne m c main_arg14 (by decide)).trans (B5_arg14 m c)
theorem B7_arg14 (c : Dev nD) : B7 m c main_arg14 = m ((c : Thread nD τ).loc main_arg14) := (StableHlo.after_of_writes_sub hostOps2 _ hostOps2_writes (by decide)).trans (B6_arg14 m c)
theorem B8_arg14 (c : Dev nD) : B8 m c main_arg14 = m ((c : Thread nD τ).loc main_arg14) := (B8_of_ne m c main_arg14 (by decide)).trans (B7_arg14 m c)
theorem B9_arg14 (c : Dev nD) : B9 m c main_arg14 = m ((c : Thread nD τ).loc main_arg14) := (StableHlo.after_of_writes_sub hostOps3 _ hostOps3_writes (by decide)).trans (B8_arg14 m c)
theorem B10_arg14 (c : Dev nD) : B10 m c main_arg14 = m ((c : Thread nD τ).loc main_arg14) := (StableHlo.after_of_writes_sub hostOps3_1 _ hostOps3_1_writes (by decide)).trans (B9_arg14 m c)
theorem B11_arg14 (c : Dev nD) : B11 m c main_arg14 = m ((c : Thread nD τ).loc main_arg14) := (B11_of_ne m c main_arg14 (by decide)).trans (B10_arg14 m c)
theorem B12_arg14 (c : Dev nD) : B12 m c main_arg14 = m ((c : Thread nD τ).loc main_arg14) := (StableHlo.after_of_writes_sub hostOps4 _ hostOps4_writes (by decide)).trans (B11_arg14 m c)
theorem B13_arg14 (c : Dev nD) : B13 m c main_arg14 = m ((c : Thread nD τ).loc main_arg14) := (B13_of_ne m c main_arg14 (by decide)).trans (B12_arg14 m c)
theorem B14_arg14 (c : Dev nD) : B14 m c main_arg14 = m ((c : Thread nD τ).loc main_arg14) := (StableHlo.after_of_writes_sub hostOps5 _ hostOps5_writes (by decide)).trans (B13_arg14 m c)
theorem B0_arg15 (c : Dev nD) : B0 m c main_arg15 = m ((c : Thread nD τ).loc main_arg15) := rfl
theorem B1_arg15 (c : Dev nD) : B1 m c main_arg15 = m ((c : Thread nD τ).loc main_arg15) := (StableHlo.after_of_writes_sub hostOps0 _ hostOps0_writes (by decide)).trans (B0_arg15 m c)
theorem B2_arg15 (c : Dev nD) : B2 m c main_arg15 = m ((c : Thread nD τ).loc main_arg15) := (B2_of_ne m c main_arg15 (by decide)).trans (B1_arg15 m c)
theorem B3_arg15 (c : Dev nD) : B3 m c main_arg15 = m ((c : Thread nD τ).loc main_arg15) := (StableHlo.after_of_writes_sub hostOps1 _ hostOps1_writes (by decide)).trans (B2_arg15 m c)
theorem B4_arg15 (c : Dev nD) : B4 m c main_arg15 = m ((c : Thread nD τ).loc main_arg15) := (StableHlo.after_of_writes_sub hostOps1_1 _ hostOps1_1_writes (by decide)).trans (B3_arg15 m c)
theorem B5_arg15 (c : Dev nD) : B5 m c main_arg15 = m ((c : Thread nD τ).loc main_arg15) := (StableHlo.after_of_writes_sub hostOps1_2 _ hostOps1_2_writes (by decide)).trans (B4_arg15 m c)
theorem B6_arg15 (c : Dev nD) : B6 m c main_arg15 = m ((c : Thread nD τ).loc main_arg15) := (B6_of_ne m c main_arg15 (by decide)).trans (B5_arg15 m c)
theorem B7_arg15 (c : Dev nD) : B7 m c main_arg15 = m ((c : Thread nD τ).loc main_arg15) := (StableHlo.after_of_writes_sub hostOps2 _ hostOps2_writes (by decide)).trans (B6_arg15 m c)
theorem B8_arg15 (c : Dev nD) : B8 m c main_arg15 = m ((c : Thread nD τ).loc main_arg15) := (B8_of_ne m c main_arg15 (by decide)).trans (B7_arg15 m c)
theorem B9_arg15 (c : Dev nD) : B9 m c main_arg15 = m ((c : Thread nD τ).loc main_arg15) := (StableHlo.after_of_writes_sub hostOps3 _ hostOps3_writes (by decide)).trans (B8_arg15 m c)
theorem B10_arg15 (c : Dev nD) : B10 m c main_arg15 = m ((c : Thread nD τ).loc main_arg15) := (StableHlo.after_of_writes_sub hostOps3_1 _ hostOps3_1_writes (by decide)).trans (B9_arg15 m c)
theorem B11_arg15 (c : Dev nD) : B11 m c main_arg15 = m ((c : Thread nD τ).loc main_arg15) := (B11_of_ne m c main_arg15 (by decide)).trans (B10_arg15 m c)
theorem B12_arg15 (c : Dev nD) : B12 m c main_arg15 = m ((c : Thread nD τ).loc main_arg15) := (StableHlo.after_of_writes_sub hostOps4 _ hostOps4_writes (by decide)).trans (B11_arg15 m c)
theorem B13_arg15 (c : Dev nD) : B13 m c main_arg15 = m ((c : Thread nD τ).loc main_arg15) := (B13_of_ne m c main_arg15 (by decide)).trans (B12_arg15 m c)
theorem B14_arg15 (c : Dev nD) : B14 m c main_arg15 = m ((c : Thread nD τ).loc main_arg15) := (StableHlo.after_of_writes_sub hostOps5 _ hostOps5_writes (by decide)).trans (B13_arg15 m c)
theorem B0_arg16 (c : Dev nD) : B0 m c main_arg16 = m ((c : Thread nD τ).loc main_arg16) := rfl
theorem B1_arg16 (c : Dev nD) : B1 m c main_arg16 = m ((c : Thread nD τ).loc main_arg16) := (StableHlo.after_of_writes_sub hostOps0 _ hostOps0_writes (by decide)).trans (B0_arg16 m c)
theorem B2_arg16 (c : Dev nD) : B2 m c main_arg16 = m ((c : Thread nD τ).loc main_arg16) := (B2_of_ne m c main_arg16 (by decide)).trans (B1_arg16 m c)
theorem B3_arg16 (c : Dev nD) : B3 m c main_arg16 = m ((c : Thread nD τ).loc main_arg16) := (StableHlo.after_of_writes_sub hostOps1 _ hostOps1_writes (by decide)).trans (B2_arg16 m c)
theorem B4_arg16 (c : Dev nD) : B4 m c main_arg16 = m ((c : Thread nD τ).loc main_arg16) := (StableHlo.after_of_writes_sub hostOps1_1 _ hostOps1_1_writes (by decide)).trans (B3_arg16 m c)
theorem B5_arg16 (c : Dev nD) : B5 m c main_arg16 = m ((c : Thread nD τ).loc main_arg16) := (StableHlo.after_of_writes_sub hostOps1_2 _ hostOps1_2_writes (by decide)).trans (B4_arg16 m c)
theorem B6_arg16 (c : Dev nD) : B6 m c main_arg16 = m ((c : Thread nD τ).loc main_arg16) := (B6_of_ne m c main_arg16 (by decide)).trans (B5_arg16 m c)
theorem B7_arg16 (c : Dev nD) : B7 m c main_arg16 = m ((c : Thread nD τ).loc main_arg16) := (StableHlo.after_of_writes_sub hostOps2 _ hostOps2_writes (by decide)).trans (B6_arg16 m c)
theorem B8_arg16 (c : Dev nD) : B8 m c main_arg16 = m ((c : Thread nD τ).loc main_arg16) := (B8_of_ne m c main_arg16 (by decide)).trans (B7_arg16 m c)
theorem B9_arg16 (c : Dev nD) : B9 m c main_arg16 = m ((c : Thread nD τ).loc main_arg16) := (StableHlo.after_of_writes_sub hostOps3 _ hostOps3_writes (by decide)).trans (B8_arg16 m c)
theorem B10_arg16 (c : Dev nD) : B10 m c main_arg16 = m ((c : Thread nD τ).loc main_arg16) := (StableHlo.after_of_writes_sub hostOps3_1 _ hostOps3_1_writes (by decide)).trans (B9_arg16 m c)
theorem B11_arg16 (c : Dev nD) : B11 m c main_arg16 = m ((c : Thread nD τ).loc main_arg16) := ((B11_arr m c 1).trans (((pd3 (E10 m) c).arrAt_in 1 rfl _).trans (pd3_A (E10 m) c 1))).trans (B10_arg16 m c)
theorem B12_arg16 (c : Dev nD) : B12 m c main_arg16 = m ((c : Thread nD τ).loc main_arg16) := (StableHlo.after_of_writes_sub hostOps4 _ hostOps4_writes (by decide)).trans (B11_arg16 m c)
theorem B13_arg16 (c : Dev nD) : B13 m c main_arg16 = m ((c : Thread nD τ).loc main_arg16) := (B13_of_ne m c main_arg16 (by decide)).trans (B12_arg16 m c)
theorem B14_arg16 (c : Dev nD) : B14 m c main_arg16 = m ((c : Thread nD τ).loc main_arg16) := (StableHlo.after_of_writes_sub hostOps5 _ hostOps5_writes (by decide)).trans (B13_arg16 m c)
theorem B0_arg17 (c : Dev nD) : B0 m c main_arg17 = m ((c : Thread nD τ).loc main_arg17) := rfl
theorem B1_arg17 (c : Dev nD) : B1 m c main_arg17 = m ((c : Thread nD τ).loc main_arg17) := (StableHlo.after_of_writes_sub hostOps0 _ hostOps0_writes (by decide)).trans (B0_arg17 m c)
theorem B2_arg17 (c : Dev nD) : B2 m c main_arg17 = m ((c : Thread nD τ).loc main_arg17) := (B2_of_ne m c main_arg17 (by decide)).trans (B1_arg17 m c)
theorem B3_arg17 (c : Dev nD) : B3 m c main_arg17 = m ((c : Thread nD τ).loc main_arg17) := (StableHlo.after_of_writes_sub hostOps1 _ hostOps1_writes (by decide)).trans (B2_arg17 m c)
theorem B4_arg17 (c : Dev nD) : B4 m c main_arg17 = m ((c : Thread nD τ).loc main_arg17) := (StableHlo.after_of_writes_sub hostOps1_1 _ hostOps1_1_writes (by decide)).trans (B3_arg17 m c)
theorem B5_arg17 (c : Dev nD) : B5 m c main_arg17 = m ((c : Thread nD τ).loc main_arg17) := (StableHlo.after_of_writes_sub hostOps1_2 _ hostOps1_2_writes (by decide)).trans (B4_arg17 m c)
theorem B6_arg17 (c : Dev nD) : B6 m c main_arg17 = m ((c : Thread nD τ).loc main_arg17) := (B6_of_ne m c main_arg17 (by decide)).trans (B5_arg17 m c)
theorem B7_arg17 (c : Dev nD) : B7 m c main_arg17 = m ((c : Thread nD τ).loc main_arg17) := (StableHlo.after_of_writes_sub hostOps2 _ hostOps2_writes (by decide)).trans (B6_arg17 m c)
theorem B8_arg17 (c : Dev nD) : B8 m c main_arg17 = m ((c : Thread nD τ).loc main_arg17) := (B8_of_ne m c main_arg17 (by decide)).trans (B7_arg17 m c)
theorem B9_arg17 (c : Dev nD) : B9 m c main_arg17 = m ((c : Thread nD τ).loc main_arg17) := (StableHlo.after_of_writes_sub hostOps3 _ hostOps3_writes (by decide)).trans (B8_arg17 m c)
theorem B10_arg17 (c : Dev nD) : B10 m c main_arg17 = m ((c : Thread nD τ).loc main_arg17) := (StableHlo.after_of_writes_sub hostOps3_1 _ hostOps3_1_writes (by decide)).trans (B9_arg17 m c)
theorem B11_arg17 (c : Dev nD) : B11 m c main_arg17 = m ((c : Thread nD τ).loc main_arg17) := (B11_of_ne m c main_arg17 (by decide)).trans (B10_arg17 m c)
theorem B12_arg17 (c : Dev nD) : B12 m c main_arg17 = m ((c : Thread nD τ).loc main_arg17) := (StableHlo.after_of_writes_sub hostOps4 _ hostOps4_writes (by decide)).trans (B11_arg17 m c)
theorem B13_arg17 (c : Dev nD) : B13 m c main_arg17 = m ((c : Thread nD τ).loc main_arg17) := (B13_of_ne m c main_arg17 (by decide)).trans (B12_arg17 m c)
theorem B14_arg17 (c : Dev nD) : B14 m c main_arg17 = m ((c : Thread nD τ).loc main_arg17) := (StableHlo.after_of_writes_sub hostOps5 _ hostOps5_writes (by decide)).trans (B13_arg17 m c)
theorem B0_arg18 (c : Dev nD) : B0 m c main_arg18 = m ((c : Thread nD τ).loc main_arg18) := rfl
theorem B1_arg18 (c : Dev nD) : B1 m c main_arg18 = m ((c : Thread nD τ).loc main_arg18) := (StableHlo.after_of_writes_sub hostOps0 _ hostOps0_writes (by decide)).trans (B0_arg18 m c)
theorem B2_arg18 (c : Dev nD) : B2 m c main_arg18 = m ((c : Thread nD τ).loc main_arg18) := (B2_of_ne m c main_arg18 (by decide)).trans (B1_arg18 m c)
theorem B3_arg18 (c : Dev nD) : B3 m c main_arg18 = m ((c : Thread nD τ).loc main_arg18) := (StableHlo.after_of_writes_sub hostOps1 _ hostOps1_writes (by decide)).trans (B2_arg18 m c)
theorem B4_arg18 (c : Dev nD) : B4 m c main_arg18 = m ((c : Thread nD τ).loc main_arg18) := (StableHlo.after_of_writes_sub hostOps1_1 _ hostOps1_1_writes (by decide)).trans (B3_arg18 m c)
theorem B5_arg18 (c : Dev nD) : B5 m c main_arg18 = m ((c : Thread nD τ).loc main_arg18) := (StableHlo.after_of_writes_sub hostOps1_2 _ hostOps1_2_writes (by decide)).trans (B4_arg18 m c)
theorem B6_arg18 (c : Dev nD) : B6 m c main_arg18 = m ((c : Thread nD τ).loc main_arg18) := (B6_of_ne m c main_arg18 (by decide)).trans (B5_arg18 m c)
theorem B7_arg18 (c : Dev nD) : B7 m c main_arg18 = m ((c : Thread nD τ).loc main_arg18) := (StableHlo.after_of_writes_sub hostOps2 _ hostOps2_writes (by decide)).trans (B6_arg18 m c)
theorem B8_arg18 (c : Dev nD) : B8 m c main_arg18 = m ((c : Thread nD τ).loc main_arg18) := (B8_of_ne m c main_arg18 (by decide)).trans (B7_arg18 m c)
theorem B9_arg18 (c : Dev nD) : B9 m c main_arg18 = m ((c : Thread nD τ).loc main_arg18) := (StableHlo.after_of_writes_sub hostOps3 _ hostOps3_writes (by decide)).trans (B8_arg18 m c)
theorem B10_arg18 (c : Dev nD) : B10 m c main_arg18 = m ((c : Thread nD τ).loc main_arg18) := (StableHlo.after_of_writes_sub hostOps3_1 _ hostOps3_1_writes (by decide)).trans (B9_arg18 m c)
theorem B11_arg18 (c : Dev nD) : B11 m c main_arg18 = m ((c : Thread nD τ).loc main_arg18) := (B11_of_ne m c main_arg18 (by decide)).trans (B10_arg18 m c)
theorem B12_arg18 (c : Dev nD) : B12 m c main_arg18 = m ((c : Thread nD τ).loc main_arg18) := (StableHlo.after_of_writes_sub hostOps4 _ hostOps4_writes (by decide)).trans (B11_arg18 m c)
theorem B13_arg18 (c : Dev nD) : B13 m c main_arg18 = m ((c : Thread nD τ).loc main_arg18) := (B13_of_ne m c main_arg18 (by decide)).trans (B12_arg18 m c)
theorem B14_arg18 (c : Dev nD) : B14 m c main_arg18 = m ((c : Thread nD τ).loc main_arg18) := (StableHlo.after_of_writes_sub hostOps5 _ hostOps5_writes (by decide)).trans (B13_arg18 m c)
theorem B0_arg19 (c : Dev nD) : B0 m c main_arg19 = m ((c : Thread nD τ).loc main_arg19) := rfl
theorem B1_arg19 (c : Dev nD) : B1 m c main_arg19 = m ((c : Thread nD τ).loc main_arg19) := (StableHlo.after_of_writes_sub hostOps0 _ hostOps0_writes (by decide)).trans (B0_arg19 m c)
theorem B2_arg19 (c : Dev nD) : B2 m c main_arg19 = m ((c : Thread nD τ).loc main_arg19) := (B2_of_ne m c main_arg19 (by decide)).trans (B1_arg19 m c)
theorem B3_arg19 (c : Dev nD) : B3 m c main_arg19 = m ((c : Thread nD τ).loc main_arg19) := (StableHlo.after_of_writes_sub hostOps1 _ hostOps1_writes (by decide)).trans (B2_arg19 m c)
theorem B4_arg19 (c : Dev nD) : B4 m c main_arg19 = m ((c : Thread nD τ).loc main_arg19) := (StableHlo.after_of_writes_sub hostOps1_1 _ hostOps1_1_writes (by decide)).trans (B3_arg19 m c)
theorem B5_arg19 (c : Dev nD) : B5 m c main_arg19 = m ((c : Thread nD τ).loc main_arg19) := (StableHlo.after_of_writes_sub hostOps1_2 _ hostOps1_2_writes (by decide)).trans (B4_arg19 m c)
theorem B6_arg19 (c : Dev nD) : B6 m c main_arg19 = m ((c : Thread nD τ).loc main_arg19) := (B6_of_ne m c main_arg19 (by decide)).trans (B5_arg19 m c)
theorem B7_arg19 (c : Dev nD) : B7 m c main_arg19 = m ((c : Thread nD τ).loc main_arg19) := (StableHlo.after_of_writes_sub hostOps2 _ hostOps2_writes (by decide)).trans (B6_arg19 m c)
theorem B8_arg19 (c : Dev nD) : B8 m c main_arg19 = m ((c : Thread nD τ).loc main_arg19) := (B8_of_ne m c main_arg19 (by decide)).trans (B7_arg19 m c)
theorem B9_arg19 (c : Dev nD) : B9 m c main_arg19 = m ((c : Thread nD τ).loc main_arg19) := (StableHlo.after_of_writes_sub hostOps3 _ hostOps3_writes (by decide)).trans (B8_arg19 m c)
theorem B10_arg19 (c : Dev nD) : B10 m c main_arg19 = m ((c : Thread nD τ).loc main_arg19) := (StableHlo.after_of_writes_sub hostOps3_1 _ hostOps3_1_writes (by decide)).trans (B9_arg19 m c)
theorem B11_arg19 (c : Dev nD) : B11 m c main_arg19 = m ((c : Thread nD τ).loc main_arg19) := (B11_of_ne m c main_arg19 (by decide)).trans (B10_arg19 m c)
theorem B12_arg19 (c : Dev nD) : B12 m c main_arg19 = m ((c : Thread nD τ).loc main_arg19) := (StableHlo.after_of_writes_sub hostOps4 _ hostOps4_writes (by decide)).trans (B11_arg19 m c)
theorem B13_arg19 (c : Dev nD) : B13 m c main_arg19 = m ((c : Thread nD τ).loc main_arg19) := (B13_of_ne m c main_arg19 (by decide)).trans (B12_arg19 m c)
theorem B14_arg19 (c : Dev nD) : B14 m c main_arg19 = m ((c : Thread nD τ).loc main_arg19) := (StableHlo.after_of_writes_sub hostOps5 _ hostOps5_writes (by decide)).trans (B13_arg19 m c)
theorem B0_arg20 (c : Dev nD) : B0 m c main_arg20 = m ((c : Thread nD τ).loc main_arg20) := rfl
theorem B1_arg20 (c : Dev nD) : B1 m c main_arg20 = m ((c : Thread nD τ).loc main_arg20) := (StableHlo.after_of_writes_sub hostOps0 _ hostOps0_writes (by decide)).trans (B0_arg20 m c)
theorem B2_arg20 (c : Dev nD) : B2 m c main_arg20 = m ((c : Thread nD τ).loc main_arg20) := (B2_of_ne m c main_arg20 (by decide)).trans (B1_arg20 m c)
theorem B3_arg20 (c : Dev nD) : B3 m c main_arg20 = m ((c : Thread nD τ).loc main_arg20) := (StableHlo.after_of_writes_sub hostOps1 _ hostOps1_writes (by decide)).trans (B2_arg20 m c)
theorem B4_arg20 (c : Dev nD) : B4 m c main_arg20 = m ((c : Thread nD τ).loc main_arg20) := (StableHlo.after_of_writes_sub hostOps1_1 _ hostOps1_1_writes (by decide)).trans (B3_arg20 m c)
theorem B5_arg20 (c : Dev nD) : B5 m c main_arg20 = m ((c : Thread nD τ).loc main_arg20) := (StableHlo.after_of_writes_sub hostOps1_2 _ hostOps1_2_writes (by decide)).trans (B4_arg20 m c)
theorem B6_arg20 (c : Dev nD) : B6 m c main_arg20 = m ((c : Thread nD τ).loc main_arg20) := (B6_of_ne m c main_arg20 (by decide)).trans (B5_arg20 m c)
theorem B7_arg20 (c : Dev nD) : B7 m c main_arg20 = m ((c : Thread nD τ).loc main_arg20) := (StableHlo.after_of_writes_sub hostOps2 _ hostOps2_writes (by decide)).trans (B6_arg20 m c)
theorem B8_arg20 (c : Dev nD) : B8 m c main_arg20 = m ((c : Thread nD τ).loc main_arg20) := (B8_of_ne m c main_arg20 (by decide)).trans (B7_arg20 m c)
theorem B9_arg20 (c : Dev nD) : B9 m c main_arg20 = m ((c : Thread nD τ).loc main_arg20) := (StableHlo.after_of_writes_sub hostOps3 _ hostOps3_writes (by decide)).trans (B8_arg20 m c)
theorem B10_arg20 (c : Dev nD) : B10 m c main_arg20 = m ((c : Thread nD τ).loc main_arg20) := (StableHlo.after_of_writes_sub hostOps3_1 _ hostOps3_1_writes (by decide)).trans (B9_arg20 m c)
theorem B11_arg20 (c : Dev nD) : B11 m c main_arg20 = m ((c : Thread nD τ).loc main_arg20) := (B11_of_ne m c main_arg20 (by decide)).trans (B10_arg20 m c)
theorem B12_arg20 (c : Dev nD) : B12 m c main_arg20 = m ((c : Thread nD τ).loc main_arg20) := (StableHlo.after_of_writes_sub hostOps4 _ hostOps4_writes (by decide)).trans (B11_arg20 m c)
theorem B13_arg20 (c : Dev nD) : B13 m c main_arg20 = m ((c : Thread nD τ).loc main_arg20) := (B13_of_ne m c main_arg20 (by decide)).trans (B12_arg20 m c)
theorem B14_arg20 (c : Dev nD) : B14 m c main_arg20 = m ((c : Thread nD τ).loc main_arg20) := (StableHlo.after_of_writes_sub hostOps5 _ hostOps5_writes (by decide)).trans (B13_arg20 m c)

end Cert.KernelIdeal.Frm

end
-- ==== Proof.Spec.lean ====
/-
  The index-wise functions the two programs are compared through, on extended reals:
  `mm X W` — rows times a matrix, (X·W)[r, c] = Σ_k X[r, k]·W[k, c], the sum over the 64 feature columns;
  `bn y μ σ γ β` — column-wise normalisation and clamping, max(γ[c]·(y[r, c] − μ[c])·rsqrt(σ[c] + ε) + β[c], 0);
  `bnRes … r` — the same with a residual added before the clamp, max(γ[c]·(y[r, c] − μ[c])·rsqrt(σ[c] + ε) + β[c] + r[r, c], 0).
  ε is the single-precision word 0x3A83126F (the float nearest 1/1000), the same word in both programs.
-/
import Idealize.ShloMosaic.PureOps.Ideal
import Idealize.ShloMosaic.Lib.ValueIdx

noncomputable section

namespace Cert.Spec

open Idealize.ShloMosaic Idealize.ShloMosaic.ValueIdx

/-- A matrix index's row and column as plain bounded numbers. -/
def rowOf {n p : Nat} (i : (⟨2, ![n, p]⟩ : Shape).Idx) : Fin n := ⟨(i 0).val, idx2_lt0 i⟩
def colOf {n p : Nat} (i : (⟨2, ![n, p]⟩ : Shape).Idx) : Fin p := ⟨(i 1).val, idx2_lt1 i⟩

/-- Rows times a matrix over the 64 feature columns. -/
def mm {n p : Nat} (X : (⟨2, ![n, 64]⟩ : Shape).Idx → Elt Ideal .f32) (W : (⟨2, ![64, p]⟩ : Shape).Idx → Elt Ideal .f32) :
    (⟨2, ![n, p]⟩ : Shape).Idx → Elt Ideal .f32 :=
  fun i => ∑ k : Fin 64, X (ix2 (rowOf i) k) * W (ix2 k (colOf i))

/-- The float nearest 1/1000, and zero. -/
abbrev eps : Elt Ideal .f32 := FloatOps.ofBits (F := Ideal) .f32 0x3A83126F#32
abbrev zero : Elt Ideal .f32 := FloatOps.ofBits (F := Ideal) .f32 0x00000000#32

/-- Column-wise normalisation, then clamping at zero. -/
def bn {n : Nat} (y : (⟨2, ![n, 64]⟩ : Shape).Idx → Elt Ideal .f32) (μ σ γ β : (⟨1, ![64]⟩ : Shape).Idx → Elt Ideal .f32) :
    (⟨2, ![n, 64]⟩ : Shape).Idx → Elt Ideal .f32 :=
  fun i => max (γ (ix1 (colOf i)) * (y i - μ (ix1 (colOf i))) * FloatOps.rsqrt (F := Ideal) (φ := .f32) (σ (ix1 (colOf i)) + eps) + β (ix1 (colOf i))) zero

/-- The same with a residual added before the clamp. -/
def bnRes {n : Nat} (y : (⟨2, ![n, 64]⟩ : Shape).Idx → Elt Ideal .f32) (μ σ γ β : (⟨1, ![64]⟩ : Shape).Idx → Elt Ideal .f32)
    (r : (⟨2, ![n, 64]⟩ : Shape).Idx → Elt Ideal .f32) : (⟨2, ![n, 64]⟩ : Shape).Idx → Elt Ideal .f32 :=
  fun i => max (γ (ix1 (colOf i)) * (y i - μ (ix1 (colOf i))) * FloatOps.rsqrt (F := Ideal) (φ := .f32) (σ (ix1 (colOf i)) + eps) + β (ix1 (colOf i)) + r i) zero

end Cert.Spec

end
-- ==== Proof.KIValBN.lean ====
/-
  The two normalisation regions' output arrays, at the exact instance. The body stores, at block row p and column q,
  max(γ[q]·(y[p, q] − μ[q])·rsqrt(σ[q] + ε) + β[q] (+ r[p, q]), 0) of its input blocks; the feature block (and the residual
  block) of grid point t is rows 5000·t … 5000·t + 4999 of its array, the same rows the output block is written back to,
  and the four 1×64 rows are whole arrays; the twenty blocks tile the 100000 rows. So the output array ends holding that
  function of the entry arrays at every index.
-/
import proofs.«178339_j40699110097748_1_alg».proof.Proof.KIRegion1
import proofs.«178339_j40699110097748_1_alg».proof.Proof.KIRegion4
import proofs.«178339_j40699110097748_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.ValueIdx
open Idealize.SL Idealize.SL.Sem
open Idealize.ShloMosaic.Pipeline (Dat)

theorem zero_off : (![0, 0] : Fin 2 → Nat) = fun _ => 0 := funext fun a => by fin_cases a <;> rfl

/-- The entry of a 1×64 row that a node-feature index reads: its column. -/
def rowAt {n : Nat} (i : (⟨2, ![n, 64]⟩ : Shape).Idx) : (⟨2, ![1, 64]⟩ : Shape).Idx := ix2 (0 : Fin 1) ⟨(i 1).val, idx2_lt1 i⟩

/-- Column-wise normalisation then clamping at zero, the four per-column quantities given as 1×64 rows. -/
def rowsBn (y : S100000x64.Idx → Elt Ideal .f32) (μ σ γ β : S1x64.Idx → Elt Ideal .f32) : S100000x64.Idx → Elt Ideal .f32 := fun i =>
  FloatOps.maximumf (F := Ideal) (FloatOps.addf (F := Ideal) (FloatOps.mulf (F := Ideal) (FloatOps.mulf (F := Ideal) (γ (rowAt i)) (FloatOps.subf (F := Ideal) (y i) (μ (rowAt i))))
    (FloatOps.rsqrt (F := Ideal) (FloatOps.addf (F := Ideal) (σ (rowAt i)) (Scalar.ofBits .f32 0x3A83126F#32)))) (β (rowAt i))) (Scalar.ofBits .f32 0x00000000#32)

/-- The same with a residual added before the clamp. -/
def rowsBnRes (y : S100000x64.Idx → Elt Ideal .f32) (μ σ γ β : S1x64.Idx → Elt Ideal .f32) (r : S100000x64.Idx → Elt Ideal .f32) : S100000x64.Idx → Elt Ideal .f32 := fun i =>
  FloatOps.maximumf (F := Ideal) (FloatOps.addf (F := Ideal) (FloatOps.addf (F := Ideal) (FloatOps.mulf (F := Ideal) (FloatOps.mulf (F := Ideal) (γ (rowAt i)) (FloatOps.subf (F := Ideal) (y i) (μ (rowAt i))))
    (FloatOps.rsqrt (F := Ideal) (FloatOps.addf (F := Ideal) (σ (rowAt i)) (Scalar.ofBits .f32 0x3A83126F#32)))) (β (rowAt i))) (r i)) (Scalar.ofBits .f32 0x00000000#32)

/-- The first normalisation body's arithmetic at block row `p`, column `q`. -/
theorem pay1_at (x0 : Vec Ideal S5000x64 .f32) (g mu va be : Vec Ideal S1x64 .f32) (p : Fin 5000) (q : Fin 64) :
    k1_pay1 x0 g mu va be (ix2 p q) =
      FloatOps.maximumf (FloatOps.addf (FloatOps.mulf (FloatOps.mulf (g (ix2 (0 : Fin 1) q)) (FloatOps.subf (x0 (ix2 p q)) (mu (ix2 (0 : Fin 1) q))))
        (FloatOps.rsqrt (FloatOps.addf (va (ix2 (0 : Fin 1) q)) (Scalar.ofBits .f32 0x3A83126F#32)))) (be (ix2 (0 : Fin 1) q))) (Scalar.ofBits .f32 0x00000000#32) := by
  unfold k1_pay1
  simp only [shapeCast_self]
  simp only [maximumf_apply, addf_apply, mulf_apply, subf_apply, broadcast_apply, broadcastTo_1b_ab_apply]
  rfl

/-- The second normalisation body's arithmetic, the residual added before the clamp. -/
theorem pay4_at (x0 : Vec Ideal S5000x64 .f32) (g mu va be : Vec Ideal S1x64 .f32) (r : Vec Ideal S5000x64 .f32) (p : Fin 5000) (q : Fin 64) :
    k4_pay1 x0 g mu va be r (ix2 p q) =
      FloatOps.maximumf (FloatOps.addf (FloatOps.addf (FloatOps.mulf (FloatOps.mulf (g (ix2 (0 : Fin 1) q)) (FloatOps.subf (x0 (ix2 p q)) (mu (ix2 (0 : Fin 1) q))))
        (FloatOps.rsqrt (FloatOps.addf (va (ix2 (0 : Fin 1) q)) (Scalar.ofBits .f32 0x3A83126F#32)))) (be (ix2 (0 : Fin 1) q))) (r (ix2 p q))) (Scalar.ofBits .f32 0x00000000#32) := by
  unfold k4_pay1
  simp only [shapeCast_self]
  simp only [maximumf_apply, addf_apply, mulf_apply, subf_apply, broadcast_apply, broadcastTo_1b_ab_apply]
  rfl

/-- The body's arithmetic at block index `j` is the normalisation at array index `i`, when the block's entry at `j` is
    the array's at `i`, the two have the same column, and the four rows are the arrays' rows. -/
theorem pay1_is (x0 : Vec Ideal S5000x64 .f32) (g mu va be : Vec Ideal S1x64 .f32)
    (Y : S100000x64.Idx → Elt Ideal .f32) (M S G B : S1x64.Idx → Elt Ideal .f32) (j : S5000x64.Idx) (i : S100000x64.Idx)
    (hx : x0 j = Y i) (hcol : (i 1).val = (j 1).val) (hg : g = G) (hmu : mu = M) (hva : va = S) (hbe : be = B) :
    k1_pay1 x0 g mu va be j = rowsBn Y M S G B i := by
  obtain ⟨p, q, rfl⟩ : ∃ (p : Fin 5000) (q : Fin 64), j = ix2 p q := ⟨j 0, j 1, eq_ix2 j⟩
  subst hg hmu hva hbe
  rw [pay1_at, hx]
  have hc : rowAt i = ix2 (0 : Fin 1) q := by
    unfold rowAt; exact congrArg (ix2 (0 : Fin 1)) (Fin.ext hcol)
  unfold rowsBn
  rw [hc]

theorem pay4_is (x0 : Vec Ideal S5000x64 .f32) (g mu va be : Vec Ideal S1x64 .f32) (r : Vec Ideal S5000x64 .f32)
    (Y : S100000x64.Idx → Elt Ideal .f32) (M S G B : S1x64.Idx → Elt Ideal .f32) (R : S100000x64.Idx → Elt Ideal .f32) (j : S5000x64.Idx) (i : S100000x64.Idx)
    (hx : x0 j = Y i) (hr : r j = R i) (hcol : (i 1).val = (j 1).val) (hg : g = G) (hmu : mu = M) (hva : va = S) (hbe : be = B) :
    k4_pay1 x0 g mu va be r j = rowsBnRes Y M S G B R i := by
  obtain ⟨p, q, rfl⟩ : ∃ (p : Fin 5000) (q : Fin 64), j = ix2 p q := ⟨j 0, j 1, eq_ix2 j⟩
  subst hg hmu hva hbe
  rw [pay4_at, hx, hr]
  have hc : rowAt i = ix2 (0 : Fin 1) q := by
    unfold rowAt; exact congrArg (ix2 (0 : Fin 1)) (Fin.ext hcol)
  unfold rowsBnRes
  rw [hc]

variable (V : (c : Dev nD) → (b : Ref sig .tc) → Buf (Elt Ideal) ((c : Thread nD τ).loc b))

/-! ## Region 1 -/

/-- The printed index maps over the grid: the feature window moves with the output window along the rows; the four
    per-column rows stay at block (0, 0); the output's block row is the point's number. -/
theorem idx1 : ∀ t : Fin cfg1.N, win1_0.index t (0 : Fin 2) = win1_5.index t (0 : Fin 2) ∧ win1_0.index t (1 : Fin 2) = 0
    ∧ win1_5.index t (1 : Fin 2) = 0 ∧ win1_5.index t (0 : Fin 2) = t.val
    ∧ win1_1.index t = ![0, 0] ∧ win1_2.index t = ![0, 0] ∧ win1_3.index t = ![0, 0] ∧ win1_4.index t = ![0, 0] :=
  (by decide +kernel : ∀ t : Fin grid1.N, _)

/-- What grid point `t` writes back is block `t` of the normalisation of the entry arrays. -/
theorem wrote1 (c : Dev nD) (t : Fin cfg1.N) :
    (pd1 V c).flushed 5 t = ((cfg1.win 5).blk t).view.read (Elt Ideal) (rowsBn (V c main_v45) (V c main_v50) (V c main_v51) (V c main_v52) (V c main_v53)) := by
  show (cfg1.win 5).cut (grid1.coords t) ((pd1 V c).after 5 t) = _
  rw [pd1_after_5]; unfold stored1
  rw [View.canon_unit_zero zero_off]
  simp only [View.ld_unit_zero (S := S5000x64) zero_off, View.ld_unit_zero (S := S1x64) zero_off]
  obtain ⟨e0, e1, e2, e3, r1, r2, r3, r4⟩ := idx1 t
  funext j
  refine pay1_is _ _ _ _ _ _ _ _ _ _ j (((cfg1.win 5).blk t).view.emb j) ?_ ?_ ?_ ?_ ?_ ?_
  ·
    show V c main_v45 (((cfg1.win 0).blk t).view.emb j) = V c main_v45 (((cfg1.win 5).blk t).view.emb j)
    refine congrArg _ (funext fun a => Fin.ext ?_)
    match a with
    | ⟨0, _⟩ => show win1_0.index t (0 : Fin 2) * 5000 + 1 * (j 0).val = win1_5.index t (0 : Fin 2) * 5000 + 1 * (j 0).val; omega
    | ⟨1, _⟩ => show win1_0.index t (1 : Fin 2) * 64 + 1 * (j 1).val = win1_5.index t (1 : Fin 2) * 64 + 1 * (j 1).val; omega
  · show win1_5.index t (1 : Fin 2) * 64 + 1 * (j 1).val = (j 1).val; omega
  · funext y
    show V c main_v52 (((cfg1.win 3).blk t).view.emb y) = V c main_v52 y
    refine congrArg _ (funext fun a => Fin.ext ?_)
    have h0 : win1_3.index t (0 : Fin 2) = 0 := congrFun r3 0
    have h1 : win1_3.index t (1 : Fin 2) = 0 := congrFun r3 1
    match a with
    | ⟨0, _⟩ => show win1_3.index t (0 : Fin 2) * 1 + 1 * (y 0).val = (y 0).val; omega
    | ⟨1, _⟩ => show win1_3.index t (1 : Fin 2) * 64 + 1 * (y 1).val = (y 1).val; omega
  · funext y
    show V c main_v50 (((cfg1.win 1).blk t).view.emb y) = V c main_v50 y
    refine congrArg _ (funext fun a => Fin.ext ?_)
    have h0 : win1_1.index t (0 : Fin 2) = 0 := congrFun r1 0
    have h1 : win1_1.index t (1 : Fin 2) = 0 := congrFun r1 1
    match a with
    | ⟨0, _⟩ => show win1_1.index t (0 : Fin 2) * 1 + 1 * (y 0).val = (y 0).val; omega
    | ⟨1, _⟩ => show win1_1.index t (1 : Fin 2) * 64 + 1 * (y 1).val = (y 1).val; omega
  · funext y
    show V c main_v51 (((cfg1.win 2).blk t).view.emb y) = V c main_v51 y
    refine congrArg _ (funext fun a => Fin.ext ?_)
    have h0 : win1_2.index t (0 : Fin 2) = 0 := congrFun r2 0
    have h1 : win1_2.index t (1 : Fin 2) = 0 := congrFun r2 1
    match a with
    | ⟨0, _⟩ => show win1_2.index t (0 : Fin 2) * 1 + 1 * (y 0).val = (y 0).val; omega
    | ⟨1, _⟩ => show win1_2.index t (1 : Fin 2) * 64 + 1 * (y 1).val = (y 1).val; omega
  · funext y
    show V c main_v53 (((cfg1.win 4).blk t).view.emb y) = V c main_v53 y
    refine congrArg _ (funext fun a => Fin.ext ?_)
    have h0 : win1_4.index t (0 : Fin 2) = 0 := congrFun r4 0
    have h1 : win1_4.index t (1 : Fin 2) = 0 := congrFun r4 1
    match a with
    | ⟨0, _⟩ => show win1_4.index t (0 : Fin 2) * 1 + 1 * (y 0).val = (y 0).val; omega
    | ⟨1, _⟩ => show win1_4.index t (1 : Fin 2) * 64 + 1 * (y 1).val = (y 1).val; omega

/-- An index of the output array is in point `t`'s block iff each coordinate is in the block's range on its axis. -/
theorem mem_blk1 (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v54).slice (win1_5.rect t)).set ↔ _
  rw [View.set_slice_whole, Rect.mem_set_unit]
  exact Iff.rfl

/-- The twenty blocks of 5000 rows tile the 100000 rows: an index is in the block of the point numbered by its row
    divided by 5000. -/
theorem cover1 (i : S100000x64.Idx) : ∃ t : Fin cfg1.N, (cfg1.win 5).flush t = true ∧ i ∈ ((cfg1.win 5).blk t).view.set := by
  have hi0 : (i 0).val < 100000 := idx2_lt0 i
  have hi1 : (i 1).val < 64 := idx2_lt1 i
  have hlt : (i 0).val / 5000 < cfg1.N := by show _ < grid1.N; rw [N_1]; omega
  refine ⟨⟨(i 0).val / 5000, hlt⟩, flush1_5 _, ?_⟩
  rw [mem_blk1]
  obtain ⟨e0, e1, e2, e3, -⟩ := idx1 ⟨(i 0).val / 5000, hlt⟩
  have e3' : win1_5.index ⟨(i 0).val / 5000, hlt⟩ (0 : Fin 2) = (i 0).val / 5000 := e3
  intro a
  match a with
  | ⟨0, _⟩ => show win1_5.index ⟨(i 0).val / 5000, hlt⟩ (0 : Fin 2) * 5000 ≤ (i 0).val ∧ (i 0).val < win1_5.index ⟨(i 0).val / 5000, hlt⟩ (0 : Fin 2) * 5000 + 5000; omega
  | ⟨1, _⟩ => show win1_5.index ⟨(i 0).val / 5000, hlt⟩ (1 : Fin 2) * 64 ≤ (i 1).val ∧ (i 1).val < win1_5.index ⟨(i 0).val / 5000, hlt⟩ (1 : Fin 2) * 64 + 64; omega

/-- The output array after region 1: the normalisation of the entry arrays, index by index. -/
theorem out1 (c : Dev nD) : (pd1 V c).arrAt 5 cfg1.N = rowsBn (V c main_v45) (V c main_v50) (V c main_v51) (V c main_v52) (V c main_v53) :=
  (pd1 V c).arrAt_eq_of_cover 5 _ (fun t _ => wrote1 V c t) cover1

/-! ## Region 4 -/

/-- The printed index maps over the grid: the feature window and the residual window move with the output window along the rows; the four
    per-column rows stay at block (0, 0); the output's block row is the point's number. -/
theorem idx4 : ∀ t : Fin cfg4.N, win4_0.index t (0 : Fin 2) = win4_6.index t (0 : Fin 2) ∧ win4_0.index t (1 : Fin 2) = 0
    ∧ win4_6.index t (1 : Fin 2) = 0 ∧ win4_6.index t (0 : Fin 2) = t.val
    ∧ win4_1.index t = ![0, 0] ∧ win4_2.index t = ![0, 0] ∧ win4_3.index t = ![0, 0] ∧ win4_4.index t = ![0, 0] ∧ win4_5.index t (0 : Fin 2) = win4_6.index t (0 : Fin 2) ∧ win4_5.index t (1 : Fin 2) = 0 :=
  (by decide +kernel : ∀ t : Fin grid4.N, _)

/-- What grid point `t` writes back is block `t` of the normalisation of the entry arrays. -/
theorem wrote4 (c : Dev nD) (t : Fin cfg4.N) :
    (pd4 V c).flushed 6 t = ((cfg4.win 6).blk t).view.read (Elt Ideal) (rowsBnRes (V c main_v99) (V c main_v105) (V c main_v106) (V c main_v107) (V c main_v108) (V c main_v104)) := by
  show (cfg4.win 6).cut (grid4.coords t) ((pd4 V c).after 6 t) = _
  rw [pd4_after_6]; unfold stored4
  rw [View.canon_unit_zero zero_off]
  simp only [View.ld_unit_zero (S := S5000x64) zero_off, View.ld_unit_zero (S := S1x64) zero_off]
  obtain ⟨e0, e1, e2, e3, r1, r2, r3, r4, e5, e6⟩ := idx4 t
  funext j
  refine pay4_is _ _ _ _ _ _ _ _ _ _ _ _ j (((cfg4.win 6).blk t).view.emb j) ?_ ?_ ?_ ?_ ?_ ?_ ?_
  ·
    show V c main_v99 (((cfg4.win 0).blk t).view.emb j) = V c main_v99 (((cfg4.win 6).blk t).view.emb j)
    refine congrArg _ (funext fun a => Fin.ext ?_)
    match a with
    | ⟨0, _⟩ => show win4_0.index t (0 : Fin 2) * 5000 + 1 * (j 0).val = win4_6.index t (0 : Fin 2) * 5000 + 1 * (j 0).val; omega
    | ⟨1, _⟩ => show win4_0.index t (1 : Fin 2) * 64 + 1 * (j 1).val = win4_6.index t (1 : Fin 2) * 64 + 1 * (j 1).val; omega
  ·
    show V c main_v104 (((cfg4.win 5).blk t).view.emb j) = V c main_v104 (((cfg4.win 6).blk t).view.emb j)
    refine congrArg _ (funext fun a => Fin.ext ?_)
    match a with
    | ⟨0, _⟩ => show win4_5.index t (0 : Fin 2) * 5000 + 1 * (j 0).val = win4_6.index t (0 : Fin 2) * 5000 + 1 * (j 0).val; omega
    | ⟨1, _⟩ => show win4_5.index t (1 : Fin 2) * 64 + 1 * (j 1).val = win4_6.index t (1 : Fin 2) * 64 + 1 * (j 1).val; omega
  · show win4_6.index t (1 : Fin 2) * 64 + 1 * (j 1).val = (j 1).val; omega
  · funext y
    show V c main_v107 (((cfg4.win 3).blk t).view.emb y) = V c main_v107 y
    refine congrArg _ (funext fun a => Fin.ext ?_)
    have h0 : win4_3.index t (0 : Fin 2) = 0 := congrFun r3 0
    have h1 : win4_3.index t (1 : Fin 2) = 0 := congrFun r3 1
    match a with
    | ⟨0, _⟩ => show win4_3.index t (0 : Fin 2) * 1 + 1 * (y 0).val = (y 0).val; omega
    | ⟨1, _⟩ => show win4_3.index t (1 : Fin 2) * 64 + 1 * (y 1).val = (y 1).val; omega
  · funext y
    show V c main_v105 (((cfg4.win 1).blk t).view.emb y) = V c main_v105 y
    refine congrArg _ (funext fun a => Fin.ext ?_)
    have h0 : win4_1.index t (0 : Fin 2) = 0 := congrFun r1 0
    have h1 : win4_1.index t (1 : Fin 2) = 0 := congrFun r1 1
    match a with
    | ⟨0, _⟩ => show win4_1.index t (0 : Fin 2) * 1 + 1 * (y 0).val = (y 0).val; omega
    | ⟨1, _⟩ => show win4_1.index t (1 : Fin 2) * 64 + 1 * (y 1).val = (y 1).val; omega
  · funext y
    show V c main_v106 (((cfg4.win 2).blk t).view.emb y) = V c main_v106 y
    refine congrArg _ (funext fun a => Fin.ext ?_)
    have h0 : win4_2.index t (0 : Fin 2) = 0 := congrFun r2 0
    have h1 : win4_2.index t (1 : Fin 2) = 0 := congrFun r2 1
    match a with
    | ⟨0, _⟩ => show win4_2.index t (0 : Fin 2) * 1 + 1 * (y 0).val = (y 0).val; omega
    | ⟨1, _⟩ => show win4_2.index t (1 : Fin 2) * 64 + 1 * (y 1).val = (y 1).val; omega
  · funext y
    show V c main_v108 (((cfg4.win 4).blk t).view.emb y) = V c main_v108 y
    refine congrArg _ (funext fun a => Fin.ext ?_)
    have h0 : win4_4.index t (0 : Fin 2) = 0 := congrFun r4 0
    have h1 : win4_4.index t (1 : Fin 2) = 0 := congrFun r4 1
    match a with
    | ⟨0, _⟩ => show win4_4.index t (0 : Fin 2) * 1 + 1 * (y 0).val = (y 0).val; omega
    | ⟨1, _⟩ => show win4_4.index t (1 : Fin 2) * 64 + 1 * (y 1).val = (y 1).val; omega

/-- An index of the output array is in point `t`'s block iff each coordinate is in the block's range on its axis. -/
theorem mem_blk4 (t : Fin cfg4.N) (i : S100000x64.Idx) :
    i ∈ ((cfg4.win 6).blk t).view.set ↔ ∀ a : Fin 2, win4_6.index t a * S5000x64.size a ≤ (i a).val ∧ (i a).val < win4_6.index t a * S5000x64.size a + S5000x64.size a := by
  show i ∈ ((View.whole main_v109).slice (win4_6.rect t)).set ↔ _
  rw [View.set_slice_whole, Rect.mem_set_unit]
  exact Iff.rfl

/-- The twenty blocks of 5000 rows tile the 100000 rows: an index is in the block of the point numbered by its row
    divided by 5000. -/
theorem cover4 (i : S100000x64.Idx) : ∃ t : Fin cfg4.N, (cfg4.win 6).flush t = true ∧ i ∈ ((cfg4.win 6).blk t).view.set := by
  have hi0 : (i 0).val < 100000 := idx2_lt0 i
  have hi1 : (i 1).val < 64 := idx2_lt1 i
  have hlt : (i 0).val / 5000 < cfg4.N := by show _ < grid4.N; rw [N_4]; omega
  refine ⟨⟨(i 0).val / 5000, hlt⟩, flush4_6 _, ?_⟩
  rw [mem_blk4]
  obtain ⟨e0, e1, e2, e3, -⟩ := idx4 ⟨(i 0).val / 5000, hlt⟩
  have e3' : win4_6.index ⟨(i 0).val / 5000, hlt⟩ (0 : Fin 2) = (i 0).val / 5000 := e3
  intro a
  match a with
  | ⟨0, _⟩ => show win4_6.index ⟨(i 0).val / 5000, hlt⟩ (0 : Fin 2) * 5000 ≤ (i 0).val ∧ (i 0).val < win4_6.index ⟨(i 0).val / 5000, hlt⟩ (0 : Fin 2) * 5000 + 5000; omega
  | ⟨1, _⟩ => show win4_6.index ⟨(i 0).val / 5000, hlt⟩ (1 : Fin 2) * 64 ≤ (i 1).val ∧ (i 1).val < win4_6.index ⟨(i 0).val / 5000, hlt⟩ (1 : Fin 2) * 64 + 64; omega

/-- The output array after region 4: the normalisation of the entry arrays, index by index. -/
theorem out4 (c : Dev nD) : (pd4 V c).arrAt 6 cfg4.N = rowsBnRes (V c main_v99) (V c main_v105) (V c main_v106) (V c main_v107) (V c main_v108) (V c main_v104) :=
  (pd4 V c).arrAt_eq_of_cover 6 _ (fun t _ => wrote4 V c t) cover4

/-! ## The rows are reshaped vectors -/

/-- With the four rows the [64] vectors cast to [1, 64], the normalisation is the specification's. -/
theorem rowsBn_cast (y : S100000x64.Idx → Elt Ideal .f32) (μ σ γ β : S64.Idx → Elt Ideal .f32) :
    rowsBn y (shapeCast S1x64 μ shapeCasts_S64_S1x64) (shapeCast S1x64 σ shapeCasts_S64_S1x64) (shapeCast S1x64 γ shapeCasts_S64_S1x64) (shapeCast S1x64 β shapeCasts_S64_S1x64)
      = Cert.Spec.bn y μ σ γ β := by
  funext i
  unfold rowsBn rowAt Cert.Spec.bn Cert.Spec.colOf
  simp only [shapeCast_a_1a_apply]
  rfl

theorem rowsBnRes_cast (y : S100000x64.Idx → Elt Ideal .f32) (μ σ γ β : S64.Idx → Elt Ideal .f32) (r : S100000x64.Idx → Elt Ideal .f32) :
    rowsBnRes y (shapeCast S1x64 μ shapeCasts_S64_S1x64) (shapeCast S1x64 σ shapeCasts_S64_S1x64) (shapeCast S1x64 γ shapeCasts_S64_S1x64) (shapeCast S1x64 β shapeCasts_S64_S1x64) r
      = Cert.Spec.bnRes y μ σ γ β r := by
  funext i
  unfold rowsBnRes rowAt Cert.Spec.bnRes Cert.Spec.colOf
  simp only [shapeCast_a_1a_apply]
  rfl

end Cert.KernelIdeal.Val

end
-- ==== Proof.KIValMM.lean ====
/-
  The three matrix-product regions' output arrays, at the exact instance. The body multiplies its 5000×64 block of rows
  by the whole 64×P matrix (P = 256 for the four weight matrices side by side, P = 64 for the residual matrix) into a zero
  accumulator; rounding the operands to half precision is the identity on exact values. So block row p, column q of what
  it stores is Σ_k x[p, k]·W[k, q]. The row block of grid point t is rows 5000·t … 5000·t + 4999, the same rows the
  output block is written back to, the matrix is a whole array, and the twenty blocks tile the 100000 rows: the output
  array ends holding rows times matrix at every index.
-/
import proofs.«178339_j40699110097748_1_alg».proof.Proof.KIRegion0
import proofs.«178339_j40699110097748_1_alg».proof.Proof.KIRegion2
import proofs.«178339_j40699110097748_1_alg».proof.Proof.KIRegion3
import proofs.«178339_j40699110097748_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.ValueIdx
open Idealize.SL Idealize.SL.Sem
open Idealize.ShloMosaic.Pipeline (Dat)

theorem zero_off2 : (![0, 0] : Fin 2 → Nat) = fun _ => 0 := funext fun a => by fin_cases a <;> rfl

/-! ## The block product with 256 columns -/

abbrev D256 := dot_S5000x64_S64x256_S5000x256_1_0_0_1_n_n

theorem D256_l0 (j : S5000x256.Idx) (k : D256.contr.Idx) : (D256.lhsIdx j k 0 : ℕ) = j 0 := by
  simp [DotDims.lhsIdx, D256, dot_S5000x64_S64x256_S5000x256_1_0_0_1_n_n]; rfl
theorem D256_l1 (j : S5000x256.Idx) (k : D256.contr.Idx) : (D256.lhsIdx j k 1 : ℕ) = k ⟨0, by decide⟩ := by
  simp [DotDims.lhsIdx, D256, dot_S5000x64_S64x256_S5000x256_1_0_0_1_n_n]; rfl
theorem D256_r0 (j : S5000x256.Idx) (k : D256.contr.Idx) : (D256.rhsIdx j k 0 : ℕ) = k ⟨0, by decide⟩ := by
  simp [DotDims.rhsIdx, D256, dot_S5000x64_S64x256_S5000x256_1_0_0_1_n_n]; rfl
theorem D256_r1 (j : S5000x256.Idx) (k : D256.contr.Idx) : (D256.rhsIdx j k 1 : ℕ) = j 1 := by
  simp [DotDims.rhsIdx, D256, dot_S5000x64_S64x256_S5000x256_1_0_0_1_n_n]; rfl

/-- The product into a zero accumulator read at block row `p`, column `q`: the sum over the 64 feature columns. -/
theorem prod256_at (x0 : FVec Ideal S5000x64 .bf16) (w : FVec Ideal S64x256 .bf16) (p : Fin 5000) (q : Fin 256) :
    matmul D256 none x0 w (constant S5000x256 .f32 0x00000000#32) (ix2 p q) = ∑ k : Fin 64, x0 (ix2 p k) * w (ix2 k q) := by
  refine (Ideal.matmul_constant_zero_apply D256 none x0 w (ix2 p q)).trans ?_
  rw [← Equiv.sum_comp (contrEquiv1 D256 64 rfl rfl).symm]
  refine Finset.sum_congr rfl fun k _ => ?_
  have hl : D256.lhsIdx (ix2 p q) ((contrEquiv1 D256 64 rfl rfl).symm k) = ix2 p k := by
    funext a; apply Fin.ext
    match a with
    | ⟨0, _⟩ => exact D256_l0 _ _
    | ⟨1, _⟩ => exact (D256_l1 _ _).trans (contrEquiv1_symm_val D256 64 rfl rfl k)
  have hr : D256.rhsIdx (ix2 p q) ((contrEquiv1 D256 64 rfl rfl).symm k) = ix2 k q := by
    funext a; apply Fin.ext
    match a with
    | ⟨0, _⟩ => exact (D256_r0 _ _).trans (contrEquiv1_symm_val D256 64 rfl rfl k)
    | ⟨1, _⟩ => exact D256_r1 _ _
  rw [hl, hr]

/-! ## The block product with 64 columns -/

abbrev D64 := dot_S5000x64_S64x64_S5000x64_1_0_0_1_n_n

theorem D64_l0 (j : S5000x64.Idx) (k : D64.contr.Idx) : (D64.lhsIdx j k 0 : ℕ) = j 0 := by
  simp [DotDims.lhsIdx, D64, dot_S5000x64_S64x64_S5000x64_1_0_0_1_n_n]; rfl
theorem D64_l1 (j : S5000x64.Idx) (k : D64.contr.Idx) : (D64.lhsIdx j k 1 : ℕ) = k ⟨0, by decide⟩ := by
  simp [DotDims.lhsIdx, D64, dot_S5000x64_S64x64_S5000x64_1_0_0_1_n_n]; rfl
theorem D64_r0 (j : S5000x64.Idx) (k : D64.contr.Idx) : (D64.rhsIdx j k 0 : ℕ) = k ⟨0, by decide⟩ := by
  simp [DotDims.rhsIdx, D64, dot_S5000x64_S64x64_S5000x64_1_0_0_1_n_n]; rfl
theorem D64_r1 (j : S5000x64.Idx) (k : D64.contr.Idx) : (D64.rhsIdx j k 1 : ℕ) = j 1 := by
  simp [DotDims.rhsIdx, D64, dot_S5000x64_S64x64_S5000x64_1_0_0_1_n_n]; rfl

/-- The product into a zero accumulator read at block row `p`, column `q`: the sum over the 64 feature columns. -/
theorem prod64_at (x0 : FVec Ideal S5000x64 .bf16) (w : FVec Ideal S64x64 .bf16) (p : Fin 5000) (q : Fin 64) :
    matmul D64 none x0 w (constant S5000x64 .f32 0x00000000#32) (ix2 p q) = ∑ k : Fin 64, x0 (ix2 p k) * w (ix2 k q) := by
  refine (Ideal.matmul_constant_zero_apply D64 none x0 w (ix2 p q)).trans ?_
  rw [← Equiv.sum_comp (contrEquiv1 D64 64 rfl rfl).symm]
  refine Finset.sum_congr rfl fun k _ => ?_
  have hl : D64.lhsIdx (ix2 p q) ((contrEquiv1 D64 64 rfl rfl).symm k) = ix2 p k := by
    funext a; apply Fin.ext
    match a with
    | ⟨0, _⟩ => exact D64_l0 _ _
    | ⟨1, _⟩ => exact (D64_l1 _ _).trans (contrEquiv1_symm_val D64 64 rfl rfl k)
  have hr : D64.rhsIdx (ix2 p q) ((contrEquiv1 D64 64 rfl rfl).symm k) = ix2 k q := by
    funext a; apply Fin.ext
    match a with
    | ⟨0, _⟩ => exact (D64_r0 _ _).trans (contrEquiv1_symm_val D64 64 rfl rfl k)
    | ⟨1, _⟩ => exact D64_r1 _ _
  rw [hl, hr]

/-! ## Region 0 -/

/-- The body's arithmetic at block row `p`, column `q`. -/
theorem pay0_at (x0 : Vec Ideal S5000x64 .f32) (w : Vec Ideal S64x256 .f32) (p : Fin 5000) (q : Fin 256) :
    k0_pay1 x0 w (ix2 p q) = ∑ k : Fin 64, x0 (ix2 p k) * w (ix2 k q) := by
  unfold k0_pay1
  simp only [shapeCast_self]
  exact prod256_at (truncf .bf16 (x0 : FVec Ideal S5000x64 .f32) bitsLt_bf16_f32) (truncf .bf16 (w : FVec Ideal S64x256 .f32) bitsLt_bf16_f32) p q

/-- The body's arithmetic at block index `j` is rows times matrix at array index `i`, when the block's row through `j` is
    the array's row through `i`, the matrix block is the matrix, and the two indices have the same column. -/
theorem pay0_is (x0 : Vec Ideal S5000x64 .f32) (w : Vec Ideal S64x256 .f32) (X : S100000x64.Idx → Elt Ideal .f32) (W : S64x256.Idx → Elt Ideal .f32)
    (j : S5000x256.Idx) (i : S100000x256.Idx) (hx : ∀ k : Fin 64, x0 (ix2 ⟨(j 0).val, idx2_lt0 j⟩ k) = X (ix2 (Cert.Spec.rowOf i) k)) (hw : w = W)
    (hcol : (i 1).val = (j 1).val) : k0_pay1 x0 w j = Cert.Spec.mm X W i := by
  obtain ⟨p, q, rfl⟩ : ∃ (p : Fin 5000) (q : Fin 256), j = ix2 p q := ⟨j 0, j 1, eq_ix2 j⟩
  subst hw
  rw [pay0_at]
  unfold Cert.Spec.mm
  have hc : Cert.Spec.colOf i = q := Fin.ext hcol
  rw [hc]
  exact Finset.sum_congr rfl fun k _ => congrArg (· * w (ix2 k q)) (hx k)

/-- The printed index maps over the grid: the row window moves with the output window; the matrix stays at block (0, 0);
    the output's block row is the point's number. -/
theorem idx0 : ∀ t : Fin cfg0.N, win0_0.index t (0 : Fin 2) = win0_2.index t (0 : Fin 2) ∧ win0_0.index t (1 : Fin 2) = 0
    ∧ win0_2.index t (1 : Fin 2) = 0 ∧ win0_2.index t (0 : Fin 2) = t.val ∧ win0_1.index t = ![0, 0] :=
  (by decide +kernel : ∀ t : Fin grid0.N, _)

section
variable (V : (c : Dev nD) → (b : Ref sig .tc) → Buf (Elt Ideal) ((c : Thread nD τ).loc b))

/-- What grid point `t` writes back is block `t` of rows times matrix of the entry arrays. -/
theorem wrote0 (c : Dev nD) (t : Fin cfg0.N) :
    (pd0 V c).flushed 2 t = ((cfg0.win 2).blk t).view.read (Elt Ideal) (Cert.Spec.mm (V c main_v0) (V c main_v1)) := by
  show (cfg0.win 2).cut (grid0.coords t) ((pd0 V c).after 2 t) = _
  rw [pd0_after_2]; unfold stored0
  rw [View.canon_unit_zero zero_off2]
  simp only [View.ld_unit_zero (S := S5000x64) zero_off2, View.ld_unit_zero (S := S64x256) zero_off2]
  obtain ⟨e0, e1, e2, e3, r1⟩ := idx0 t
  funext j
  refine pay0_is _ _ _ _ j (((cfg0.win 2).blk t).view.emb j) (fun k => ?_) ?_ ?_
  · show V c main_v0 (((cfg0.win 0).blk t).view.emb (ix2 ⟨(j 0).val, idx2_lt0 j⟩ k)) = V c main_v0 (ix2 (Cert.Spec.rowOf (((cfg0.win 2).blk t).view.emb j)) k)
    refine congrArg _ (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 64 + 1 * k.val = k.val; omega
  · funext y
    show V c main_v1 (((cfg0.win 1).blk t).view.emb y) = V c main_v1 y
    refine congrArg _ (funext fun a => Fin.ext ?_)
    have h0 : win0_1.index t (0 : Fin 2) = 0 := congrFun r1 0
    have h1 : win0_1.index t (1 : Fin 2) = 0 := congrFun r1 1
    match a with
    | ⟨0, _⟩ => show win0_1.index t (0 : Fin 2) * 64 + 1 * (y 0).val = (y 0).val; omega
    | ⟨1, _⟩ => show win0_1.index t (1 : Fin 2) * 256 + 1 * (y 1).val = (y 1).val; omega
  · show win0_2.index t (1 : Fin 2) * 256 + 1 * (j 1).val = (j 1).val; omega

/-- An index of the output array is in point `t`'s block iff each coordinate is in the block's range on its axis. -/
theorem mem_blk0 (t : Fin cfg0.N) (i : S100000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v2).slice (win0_2.rect t)).set ↔ _
  rw [View.set_slice_whole, Rect.mem_set_unit]
  exact Iff.rfl

/-- The twenty blocks of 5000 rows tile the 100000 rows. -/
theorem cover0 (i : S100000x256.Idx) : ∃ t : Fin cfg0.N, (cfg0.win 2).flush t = true ∧ i ∈ ((cfg0.win 2).blk t).view.set := by
  have hi0 : (i 0).val < 100000 := idx2_lt0 i
  have hi1 : (i 1).val < 256 := idx2_lt1 i
  have hlt : (i 0).val / 5000 < cfg0.N := by show _ < grid0.N; rw [N_0]; omega
  refine ⟨⟨(i 0).val / 5000, hlt⟩, flush0_2 _, ?_⟩
  rw [mem_blk0]
  obtain ⟨e0, e1, e2, e3, -⟩ := idx0 ⟨(i 0).val / 5000, hlt⟩
  have e3' : win0_2.index ⟨(i 0).val / 5000, hlt⟩ (0 : Fin 2) = (i 0).val / 5000 := e3
  intro a
  match a with
  | ⟨0, _⟩ => show win0_2.index ⟨(i 0).val / 5000, hlt⟩ (0 : Fin 2) * 5000 ≤ (i 0).val ∧ (i 0).val < win0_2.index ⟨(i 0).val / 5000, hlt⟩ (0 : Fin 2) * 5000 + 5000; omega
  | ⟨1, _⟩ => show win0_2.index ⟨(i 0).val / 5000, hlt⟩ (1 : Fin 2) * 256 ≤ (i 1).val ∧ (i 1).val < win0_2.index ⟨(i 0).val / 5000, hlt⟩ (1 : Fin 2) * 256 + 256; omega

/-- The output array after region 0: rows times matrix of the entry arrays, index by index. -/
theorem out0 (c : Dev nD) : (pd0 V c).arrAt 2 cfg0.N = Cert.Spec.mm (V c main_v0) (V c main_v1) :=
  (pd0 V c).arrAt_eq_of_cover 2 _ (fun t _ => wrote0 V c t) cover0

end

/-! ## Region 2 -/

/-- The body's arithmetic at block row `p`, column `q`. -/
theorem pay2_at (x0 : Vec Ideal S5000x64 .f32) (w : Vec Ideal S64x256 .f32) (p : Fin 5000) (q : Fin 256) :
    k2_pay1 x0 w (ix2 p q) = ∑ k : Fin 64, x0 (ix2 p k) * w (ix2 k q) := by
  unfold k2_pay1
  simp only [shapeCast_self]
  exact prod256_at (truncf .bf16 (x0 : FVec Ideal S5000x64 .f32) bitsLt_bf16_f32) (truncf .bf16 (w : FVec Ideal S64x256 .f32) bitsLt_bf16_f32) p q

/-- The body's arithmetic at block index `j` is rows times matrix at array index `i`, when the block's row through `j` is
    the array's row through `i`, the matrix block is the matrix, and the two indices have the same column. -/
theorem pay2_is (x0 : Vec Ideal S5000x64 .f32) (w : Vec Ideal S64x256 .f32) (X : S100000x64.Idx → Elt Ideal .f32) (W : S64x256.Idx → Elt Ideal .f32)
    (j : S5000x256.Idx) (i : S100000x256.Idx) (hx : ∀ k : Fin 64, x0 (ix2 ⟨(j 0).val, idx2_lt0 j⟩ k) = X (ix2 (Cert.Spec.rowOf i) k)) (hw : w = W)
    (hcol : (i 1).val = (j 1).val) : k2_pay1 x0 w j = Cert.Spec.mm X W i := by
  obtain ⟨p, q, rfl⟩ : ∃ (p : Fin 5000) (q : Fin 256), j = ix2 p q := ⟨j 0, j 1, eq_ix2 j⟩
  subst hw
  rw [pay2_at]
  unfold Cert.Spec.mm
  have hc : Cert.Spec.colOf i = q := Fin.ext hcol
  rw [hc]
  exact Finset.sum_congr rfl fun k _ => congrArg (· * w (ix2 k q)) (hx k)

/-- The printed index maps over the grid: the row window moves with the output window; the matrix stays at block (0, 0);
    the output's block row is the point's number. -/
theorem idx2 : ∀ t : Fin cfg2.N, win2_0.index t (0 : Fin 2) = win2_2.index t (0 : Fin 2) ∧ win2_0.index t (1 : Fin 2) = 0
    ∧ win2_2.index t (1 : Fin 2) = 0 ∧ win2_2.index t (0 : Fin 2) = t.val ∧ win2_1.index t = ![0, 0] :=
  (by decide +kernel : ∀ t : Fin grid2.N, _)

section
variable (V : (c : Dev nD) → (b : Ref sig .tc) → Buf (Elt Ideal) ((c : Thread nD τ).loc b))

/-- What grid point `t` writes back is block `t` of rows times matrix of the entry arrays. -/
theorem wrote2 (c : Dev nD) (t : Fin cfg2.N) :
    (pd2 V c).flushed 2 t = ((cfg2.win 2).blk t).view.read (Elt Ideal) (Cert.Spec.mm (V c main_v54) (V c main_v55)) := by
  show (cfg2.win 2).cut (grid2.coords t) ((pd2 V c).after 2 t) = _
  rw [pd2_after_2]; unfold stored2
  rw [View.canon_unit_zero zero_off2]
  simp only [View.ld_unit_zero (S := S5000x64) zero_off2, View.ld_unit_zero (S := S64x256) zero_off2]
  obtain ⟨e0, e1, e2, e3, r1⟩ := idx2 t
  funext j
  refine pay2_is _ _ _ _ j (((cfg2.win 2).blk t).view.emb j) (fun k => ?_) ?_ ?_
  · show V c main_v54 (((cfg2.win 0).blk t).view.emb (ix2 ⟨(j 0).val, idx2_lt0 j⟩ k)) = V c main_v54 (ix2 (Cert.Spec.rowOf (((cfg2.win 2).blk t).view.emb j)) k)
    refine congrArg _ (funext fun a => Fin.ext ?_)
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 64 + 1 * k.val = k.val; omega
  · funext y
    show V c main_v55 (((cfg2.win 1).blk t).view.emb y) = V c main_v55 y
    refine congrArg _ (funext fun a => Fin.ext ?_)
    have h0 : win2_1.index t (0 : Fin 2) = 0 := congrFun r1 0
    have h1 : win2_1.index t (1 : Fin 2) = 0 := congrFun r1 1
    match a with
    | ⟨0, _⟩ => show win2_1.index t (0 : Fin 2) * 64 + 1 * (y 0).val = (y 0).val; omega
    | ⟨1, _⟩ => show win2_1.index t (1 : Fin 2) * 256 + 1 * (y 1).val = (y 1).val; omega
  · show win2_2.index t (1 : Fin 2) * 256 + 1 * (j 1).val = (j 1).val; omega

/-- An index of the output array is in point `t`'s block iff each coordinate is in the block's range on its axis. -/
theorem mem_blk2 (t : Fin cfg2.N) (i : S100000x256.Idx) :
    i ∈ ((cfg2.win 2).blk t).view.set ↔ ∀ a : Fin 2, win2_2.index t a * S5000x256.size a ≤ (i a).val ∧ (i a).val < win2_2.index t a * S5000x256.size a + S5000x256.size a := by
  show i ∈ ((View.whole main_v56).slice (win2_2.rect t)).set ↔ _
  rw [View.set_slice_whole, Rect.mem_set_unit]
  exact Iff.rfl

/-- The twenty blocks of 5000 rows tile the 100000 rows. -/
theorem cover2 (i : S100000x256.Idx) : ∃ t : Fin cfg2.N, (cfg2.win 2).flush t = true ∧ i ∈ ((cfg2.win 2).blk t).view.set := by
  have hi0 : (i 0).val < 100000 := idx2_lt0 i
  have hi1 : (i 1).val < 256 := idx2_lt1 i
  have hlt : (i 0).val / 5000 < cfg2.N := by show _ < grid2.N; rw [N_2]; omega
  refine ⟨⟨(i 0).val / 5000, hlt⟩, flush2_2 _, ?_⟩
  rw [mem_blk2]
  obtain ⟨e0, e1, e2, e3, -⟩ := idx2 ⟨(i 0).val / 5000, hlt⟩
  have e3' : win2_2.index ⟨(i 0).val / 5000, hlt⟩ (0 : Fin 2) = (i 0).val / 5000 := e3
  intro a
  match a with
  | ⟨0, _⟩ => show win2_2.index ⟨(i 0).val / 5000, hlt⟩ (0 : Fin 2) * 5000 ≤ (i 0).val ∧ (i 0).val < win2_2.index ⟨(i 0).val / 5000, hlt⟩ (0 : Fin 2) * 5000 + 5000; omega
  | ⟨1, _⟩ => show win2_2.index ⟨(i 0).val / 5000, hlt⟩ (1 : Fin 2) * 256 ≤ (i 1).val ∧ (i 1).val < win2_2.index ⟨(i 0).val / 5000, hlt⟩ (1 : Fin 2) * 256 + 256; omega

/-- The output array after region 2: rows times matrix of the entry arrays, index by index. -/
theorem out2 (c : Dev nD) : (pd2 V c).arrAt 2 cfg2.N = Cert.Spec.mm (V c main_v54) (V c main_v55) :=
  (pd2 V c).arrAt_eq_of_cover 2 _ (fun t _ => wrote2 V c t) cover2

end

/-! ## Region 3 -/

/-- The body's arithmetic at block row `p`, column `q`. -/
theorem pay3_at (x0 : Vec Ideal S5000x64 .f32) (w : Vec Ideal S64x64 .f32) (p : Fin 5000) (q : Fin 64) :
    k3_pay1 x0 w (ix2 p q) = ∑ k : Fin 64, x0 (ix2 p k) * w (ix2 k q) := by
  unfold k3_pay1
  simp only [shapeCast_self]
  exact prod64_at (truncf .bf16 (x0 : FVec Ideal S5000x64 .f32) bitsLt_bf16_f32) (truncf .bf16 (w : FVec Ideal S64x64 .f32) bitsLt_bf16_f32) p q

/-- The body's arithmetic at block index `j` is rows times matrix at array index `i`, when the block's row through `j` is
    the array's row through `i`, the matrix block is the matrix, and the two indices have the same column. -/
theorem pay3_is (x0 : Vec Ideal S5000x64 .f32) (w : Vec Ideal S64x64 .f32) (X : S100000x64.Idx → Elt Ideal .f32) (W : S64x64.Idx → Elt Ideal .f32)
    (j : S5000x64.Idx) (i : S100000x64.Idx) (hx : ∀ k : Fin 64, x0 (ix2 ⟨(j 0).val, idx2_lt0 j⟩ k) = X (ix2 (Cert.Spec.rowOf i) k)) (hw : w = W)
    (hcol : (i 1).val = (j 1).val) : k3_pay1 x0 w j = Cert.Spec.mm X W i := by
  obtain ⟨p, q, rfl⟩ : ∃ (p : Fin 5000) (q : Fin 64), j = ix2 p q := ⟨j 0, j 1, eq_ix2 j⟩
  subst hw
  rw [pay3_at]
  unfold Cert.Spec.mm
  have hc : Cert.Spec.colOf i = q := Fin.ext hcol
  rw [hc]
  exact Finset.sum_congr rfl fun k _ => congrArg (· * w (ix2 k q)) (hx k)

/-- The printed index maps over the grid: the row window moves with the output window; the matrix stays at block (0, 0);
    the output's block row is the point's number. -/
theorem idx3 : ∀ t : Fin cfg3.N, win3_0.index t (0 : Fin 2) = win3_2.index t (0 : Fin 2) ∧ win3_0.index t (1 : Fin 2) = 0
    ∧ win3_2.index t (1 : Fin 2) = 0 ∧ win3_2.index t (0 : Fin 2) = t.val ∧ win3_1.index t = ![0, 0] :=
  (by decide +kernel : ∀ t : Fin grid3.N, _)

section
variable (V : (c : Dev nD) → (b : Ref sig .tc) → Buf (Elt Ideal) ((c : Thread nD τ).loc b))

/-- What grid point `t` writes back is block `t` of rows times matrix of the entry arrays. -/
theorem wrote3 (c : Dev nD) (t : Fin cfg3.N) :
    (pd3 V c).flushed 2 t = ((cfg3.win 2).blk t).view.read (Elt Ideal) (Cert.Spec.mm (V c main_v0) (V c main_arg16)) := by
  show (cfg3.win 2).cut (grid3.coords t) ((pd3 V c).after 2 t) = _
  rw [pd3_after_2]; unfold stored3
  rw [View.canon_unit_zero zero_off2]
  simp only [View.ld_unit_zero (S := S5000x64) zero_off2, View.ld_unit_zero (S := S64x64) zero_off2]
  obtain ⟨e0, e1, e2, e3, r1⟩ := idx3 t
  funext j
  refine pay3_is _ _ _ _ j (((cfg3.win 2).blk t).view.emb j) (fun k => ?_) ?_ ?_
  · show V c main_v0 (((cfg3.win 0).blk t).view.emb (ix2 ⟨(j 0).val, idx2_lt0 j⟩ k)) = V c main_v0 (ix2 (Cert.Spec.rowOf (((cfg3.win 2).blk t).view.emb j)) k)
    refine congrArg _ (funext fun a => Fin.ext ?_)
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 64 + 1 * k.val = k.val; omega
  · funext y
    show V c main_arg16 (((cfg3.win 1).blk t).view.emb y) = V c main_arg16 y
    refine congrArg _ (funext fun a => Fin.ext ?_)
    have h0 : win3_1.index t (0 : Fin 2) = 0 := congrFun r1 0
    have h1 : win3_1.index t (1 : Fin 2) = 0 := congrFun r1 1
    match a with
    | ⟨0, _⟩ => show win3_1.index t (0 : Fin 2) * 64 + 1 * (y 0).val = (y 0).val; omega
    | ⟨1, _⟩ => show win3_1.index t (1 : Fin 2) * 64 + 1 * (y 1).val = (y 1).val; omega
  · show win3_2.index t (1 : Fin 2) * 64 + 1 * (j 1).val = (j 1).val; omega

/-- An index of the output array is in point `t`'s block iff each coordinate is in the block's range on its axis. -/
theorem mem_blk3 (t : Fin cfg3.N) (i : S100000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v104).slice (win3_2.rect t)).set ↔ _
  rw [View.set_slice_whole, Rect.mem_set_unit]
  exact Iff.rfl

/-- The twenty blocks of 5000 rows tile the 100000 rows. -/
theorem cover3 (i : S100000x64.Idx) : ∃ t : Fin cfg3.N, (cfg3.win 2).flush t = true ∧ i ∈ ((cfg3.win 2).blk t).view.set := by
  have hi0 : (i 0).val < 100000 := idx2_lt0 i
  have hi1 : (i 1).val < 64 := idx2_lt1 i
  have hlt : (i 0).val / 5000 < cfg3.N := by show _ < grid3.N; rw [N_3]; omega
  refine ⟨⟨(i 0).val / 5000, hlt⟩, flush3_2 _, ?_⟩
  rw [mem_blk3]
  obtain ⟨e0, e1, e2, e3, -⟩ := idx3 ⟨(i 0).val / 5000, hlt⟩
  have e3' : win3_2.index ⟨(i 0).val / 5000, hlt⟩ (0 : Fin 2) = (i 0).val / 5000 := e3
  intro a
  match a with
  | ⟨0, _⟩ => show win3_2.index ⟨(i 0).val / 5000, hlt⟩ (0 : Fin 2) * 5000 ≤ (i 0).val ∧ (i 0).val < win3_2.index ⟨(i 0).val / 5000, hlt⟩ (0 : Fin 2) * 5000 + 5000; omega
  | ⟨1, _⟩ => show win3_2.index ⟨(i 0).val / 5000, hlt⟩ (1 : Fin 2) * 64 ≤ (i 1).val ∧ (i 1).val < win3_2.index ⟨(i 0).val / 5000, hlt⟩ (1 : Fin 2) * 64 + 64; omega

/-- The output array after region 3: rows times matrix of the entry arrays, index by index. -/
theorem out3 (c : Dev nD) : (pd3 V c).arrAt 2 cfg3.N = Cert.Spec.mm (V c main_v0) (V c main_arg16) :=
  (pd3 V c).arrAt_eq_of_cover 2 _ (fun t _ => wrote3 V c t) cover3

end

end Cert.KernelIdeal.Val

end
-- ==== Proof.KISlice.lean ====
/-
  A 64-column slice of rows times the four weight matrices side by side is rows times the one matrix those columns
  belong to: column 64·q + b of [W0 | W1 | W2 | W3] is column b of Wq, and the product's entry (a, 64·q + b) is the sum
  over the feature columns of X[a, k]·[W0 | W1 | W2 | W3][k, 64·q + b].
-/
import proofs.«178339_j40699110097748_1_alg».proof.Proof.Gen.KernelIdeal
import proofs.«178339_j40699110097748_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Val

open Cert.KernelIdeal Cert.KernelIdeal.Facts₀
open Idealize.ShloMosaic Idealize.ShloMosaic.ValueIdx

/-- Four 64×64 matrices side by side. -/
abbrev four (W0 W1 W2 W3 : S64x64.Idx → Elt Ideal .f32) : S64x256.Idx → Elt Ideal .f32 :=
  concatenate S64x256 1 [⟨S64x64, W0⟩, ⟨S64x64, W1⟩, ⟨S64x64, W2⟩, ⟨S64x64, W3⟩] concatenates_S64x64_S64x64_S64x64_S64x64_S64x256_d1

theorem rowOf_ix2 {n p : Nat} (a : Fin n) (b : Fin p) : Cert.Spec.rowOf (ix2 a b) = a := Fin.ext rfl
theorem colOf_ix2 {n p : Nat} (a : Fin n) (b : Fin p) : Cert.Spec.colOf (ix2 a b) = b := Fin.ext rfl

/-- Column 64·0 + b of the four side by side is column b of matrix 0. -/
theorem four_at0 (W0 W1 W2 W3 : S64x64.Idx → Elt Ideal .f32) (k : Fin 64) (b : Fin 64) (hb : 0 + b.val < 256) :
    four W0 W1 W2 W3 (ix2 k ⟨0 + b.val, hb⟩) = W0 (ix2 k b) :=
  concatenate_apply_piece (1 : Fin 2) _ _ (ix2 k ⟨0 + b.val, hb⟩) 0 (by show 0 < 4; omega) S64x64 W0 rfl rfl 0 (by rfl) (ix2 k b)
    (fun b' hb' => by
      match b' with
      | ⟨0, _⟩ => rfl
      | ⟨1, _⟩ => exact absurd rfl hb')
    rfl

/-- Columns 64·0 … 64·0 + 63 of rows times the four side by side: rows times matrix 0. -/
theorem slice_mm0 (X : S100000x64.Idx → Elt Ideal .f32) (W0 W1 W2 W3 : S64x64.Idx → Elt Ideal .f32) :
    extractStridedSlice S100000x64 ![0, 0] (Cert.Spec.mm X (four W0 W1 W2 W3)) slices_S100000x256_S100000x64_0_0 = Cert.Spec.mm X W0 := by
  funext i
  obtain ⟨a, b, rfl⟩ : ∃ (a : Fin 100000) (b : Fin 64), i = ix2 a b := ⟨i 0, i 1, eq_ix2 i⟩
  rw [slice2_axis1_eq]
  unfold Cert.Spec.mm
  simp only [rowOf_ix2, colOf_ix2]
  exact Finset.sum_congr rfl fun k _ => congrArg (X (ix2 a k) * ·) (four_at0 W0 W1 W2 W3 k b _)

/-- Column 64·1 + b of the four side by side is column b of matrix 1. -/
theorem four_at1 (W0 W1 W2 W3 : S64x64.Idx → Elt Ideal .f32) (k : Fin 64) (b : Fin 64) (hb : 64 + b.val < 256) :
    four W0 W1 W2 W3 (ix2 k ⟨64 + b.val, hb⟩) = W1 (ix2 k b) :=
  concatenate_apply_piece (1 : Fin 2) _ _ (ix2 k ⟨64 + b.val, hb⟩) 1 (by show 1 < 4; omega) S64x64 W1 rfl rfl 64 (by rfl) (ix2 k b)
    (fun b' hb' => by
      match b' with
      | ⟨0, _⟩ => rfl
      | ⟨1, _⟩ => exact absurd rfl hb')
    rfl

/-- Columns 64·1 … 64·1 + 63 of rows times the four side by side: rows times matrix 1. -/
theorem slice_mm1 (X : S100000x64.Idx → Elt Ideal .f32) (W0 W1 W2 W3 : S64x64.Idx → Elt Ideal .f32) :
    extractStridedSlice S100000x64 ![0, 64] (Cert.Spec.mm X (four W0 W1 W2 W3)) slices_S100000x256_S100000x64_0_64 = Cert.Spec.mm X W1 := by
  funext i
  obtain ⟨a, b, rfl⟩ : ∃ (a : Fin 100000) (b : Fin 64), i = ix2 a b := ⟨i 0, i 1, eq_ix2 i⟩
  rw [slice2_axis1_eq]
  unfold Cert.Spec.mm
  simp only [rowOf_ix2, colOf_ix2]
  exact Finset.sum_congr rfl fun k _ => congrArg (X (ix2 a k) * ·) (four_at1 W0 W1 W2 W3 k b _)

/-- Column 64·2 + b of the four side by side is column b of matrix 2. -/
theorem four_at2 (W0 W1 W2 W3 : S64x64.Idx → Elt Ideal .f32) (k : Fin 64) (b : Fin 64) (hb : 128 + b.val < 256) :
    four W0 W1 W2 W3 (ix2 k ⟨128 + b.val, hb⟩) = W2 (ix2 k b) :=
  concatenate_apply_piece (1 : Fin 2) _ _ (ix2 k ⟨128 + b.val, hb⟩) 2 (by show 2 < 4; omega) S64x64 W2 rfl rfl 128 (by rfl) (ix2 k b)
    (fun b' hb' => by
      match b' with
      | ⟨0, _⟩ => rfl
      | ⟨1, _⟩ => exact absurd rfl hb')
    rfl

/-- Columns 64·2 … 64·2 + 63 of rows times the four side by side: rows times matrix 2. -/
theorem slice_mm2 (X : S100000x64.Idx → Elt Ideal .f32) (W0 W1 W2 W3 : S64x64.Idx → Elt Ideal .f32) :
    extractStridedSlice S100000x64 ![0, 128] (Cert.Spec.mm X (four W0 W1 W2 W3)) slices_S100000x256_S100000x64_0_128 = Cert.Spec.mm X W2 := by
  funext i
  obtain ⟨a, b, rfl⟩ : ∃ (a : Fin 100000) (b : Fin 64), i = ix2 a b := ⟨i 0, i 1, eq_ix2 i⟩
  rw [slice2_axis1_eq]
  unfold Cert.Spec.mm
  simp only [rowOf_ix2, colOf_ix2]
  exact Finset.sum_congr rfl fun k _ => congrArg (X (ix2 a k) * ·) (four_at2 W0 W1 W2 W3 k b _)

/-- Column 64·3 + b of the four side by side is column b of matrix 3. -/
theorem four_at3 (W0 W1 W2 W3 : S64x64.Idx → Elt Ideal .f32) (k : Fin 64) (b : Fin 64) (hb : 192 + b.val < 256) :
    four W0 W1 W2 W3 (ix2 k ⟨192 + b.val, hb⟩) = W3 (ix2 k b) :=
  concatenate_apply_piece (1 : Fin 2) _ _ (ix2 k ⟨192 + b.val, hb⟩) 3 (by show 3 < 4; omega) S64x64 W3 rfl rfl 192 (by rfl) (ix2 k b)
    (fun b' hb' => by
      match b' with
      | ⟨0, _⟩ => rfl
      | ⟨1, _⟩ => exact absurd rfl hb')
    rfl

/-- Columns 64·3 … 64·3 + 63 of rows times the four side by side: rows times matrix 3. -/
theorem slice_mm3 (X : S100000x64.Idx → Elt Ideal .f32) (W0 W1 W2 W3 : S64x64.Idx → Elt Ideal .f32) :
    extractStridedSlice S100000x64 ![0, 192] (Cert.Spec.mm X (four W0 W1 W2 W3)) slices_S100000x256_S100000x64_0_192 = Cert.Spec.mm X W3 := by
  funext i
  obtain ⟨a, b, rfl⟩ : ∃ (a : Fin 100000) (b : Fin 64), i = ix2 a b := ⟨i 0, i 1, eq_ix2 i⟩
  rw [slice2_axis1_eq]
  unfold Cert.Spec.mm
  simp only [rowOf_ix2, colOf_ix2]
  exact Finset.sum_congr rfl fun k _ => congrArg (X (ix2 a k) * ·) (four_at3 W0 W1 W2 W3 k b _)

end Cert.KernelIdeal.Val

end
-- ==== Proof.KIStages.lean ====
/-
  The kernel program's stage outputs as functions of earlier boundary values, at the exact instance: the first region's
  product with the four first-stage matrices side by side; the first normalisation of the first stage's output, its
  column means and variances; the second product; the residual product; the second normalisation with the residual; and
  the two results as row slices of it. The host reshapes of the [64] vectors to 1×64 rows and the concatenations of the
  weight matrices are read off their stretches over any start contents.
-/
import proofs.«178339_j40699110097748_1_alg».proof.Proof.KIArgs
import proofs.«178339_j40699110097748_1_alg».proof.Proof.KIValBN
import proofs.«178339_j40699110097748_1_alg».proof.Proof.KIValMM
import proofs.«178339_j40699110097748_1_alg».proof.Proof.KISlice
import Idealize.ShloMosaic.Lib.StableHlo.Run

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.StableHlo
open Idealize.SL Idealize.SL.Sem

/-! ## Host stretches read over any start contents -/

section Readings
variable (W : Valuation τ sig (Elt Ideal))

theorem rd_xin : StableHlo.after hostOps0 W (Proc.devRef .tc main_v0) = concatenate S100000x64 0 [⟨S60000x64, W (Proc.devRef .tc main_arg0)⟩, ⟨S40000x64, W (Proc.devRef .tc main_arg1)⟩] concatenates_S60000x64_S40000x64_S100000x64_d0 := by
  after_results_simp
theorem rd_W1 : StableHlo.after hostOps0 W (Proc.devRef .tc main_v1) = four (W (Proc.devRef .tc main_arg4)) (W (Proc.devRef .tc main_arg5)) (W (Proc.devRef .tc main_arg6)) (W (Proc.devRef .tc main_arg7)) := by
  after_results_simp
  try rfl
theorem rd_W2 : StableHlo.after hostOps2 W (Proc.devRef .tc main_v55) = four (W (Proc.devRef .tc main_arg10)) (W (Proc.devRef .tc main_arg11)) (W (Proc.devRef .tc main_arg12)) (W (Proc.devRef .tc main_arg13)) := by
  after_results_simp
  try rfl
theorem rd_main_v50 : StableHlo.after hostOps1_2 W (Proc.devRef .tc main_v50) = shapeCast S1x64 (W (Proc.devRef .tc main_v48)) shapeCasts_S64_S1x64 := by
  after_results_simp
  try rfl
theorem rd_main_v51 : StableHlo.after hostOps1_2 W (Proc.devRef .tc main_v51) = shapeCast S1x64 (W (Proc.devRef .tc main_v49)) shapeCasts_S64_S1x64 := by
  after_results_simp
  try rfl
theorem rd_main_v52 : StableHlo.after hostOps1_2 W (Proc.devRef .tc main_v52) = shapeCast S1x64 (W (Proc.devRef .tc main_arg17)) shapeCasts_S64_S1x64 := by
  after_results_simp
  try rfl
theorem rd_main_v53 : StableHlo.after hostOps1_2 W (Proc.devRef .tc main_v53) = shapeCast S1x64 (W (Proc.devRef .tc main_arg18)) shapeCasts_S64_S1x64 := by
  after_results_simp
  try rfl
theorem rd_main_v105 : StableHlo.after hostOps4 W (Proc.devRef .tc main_v105) = shapeCast S1x64 (W (Proc.devRef .tc main_v102)) shapeCasts_S64_S1x64 := by
  after_results_simp
  try rfl
theorem rd_main_v106 : StableHlo.after hostOps4 W (Proc.devRef .tc main_v106) = shapeCast S1x64 (W (Proc.devRef .tc main_v103)) shapeCasts_S64_S1x64 := by
  after_results_simp
  try rfl
theorem rd_main_v107 : StableHlo.after hostOps4 W (Proc.devRef .tc main_v107) = shapeCast S1x64 (W (Proc.devRef .tc main_arg19)) shapeCasts_S64_S1x64 := by
  after_results_simp
  try rfl
theorem rd_main_v108 : StableHlo.after hostOps4 W (Proc.devRef .tc main_v108) = shapeCast S1x64 (W (Proc.devRef .tc main_arg20)) shapeCasts_S64_S1x64 := by
  after_results_simp
  try rfl
theorem rd_res0 : StableHlo.after hostOps5 W (Proc.devRef .tc main_v110) = extractStridedSlice S60000x64 ![0, 0] (W (Proc.devRef .tc main_v109)) slices_S100000x64_S60000x64_0_0 := by
  after_results_simp
  try rfl
theorem rd_res1 : StableHlo.after hostOps5 W (Proc.devRef .tc main_v111) = extractStridedSlice S40000x64 ![60000, 0] (W (Proc.devRef .tc main_v109)) slices_S100000x64_S40000x64_60000_0 := by
  after_results_simp
  try rfl

end Readings

variable (m : (ℓ : Loc nD τ sig) → Buf (Elt Ideal) ℓ) (c : Dev nD)

/-! ## Stage 1 -/

/-- The node features: users above items. -/
theorem K_xin : B1 m c main_v0 = concatenate S100000x64 0 [⟨S60000x64, (m ((c : Thread nD τ).loc main_arg0))⟩, ⟨S40000x64, (m ((c : Thread nD τ).loc main_arg1))⟩] concatenates_S60000x64_S40000x64_S100000x64_d0 :=
  rd_xin (B0 m c)

/-- The first region leaves the node features times the four first-stage matrices side by side. -/
theorem K_O1 : B2 m c main_v2 = Cert.Spec.mm (B1 m c main_v0) (four (m ((c : Thread nD τ).loc main_arg4)) (m ((c : Thread nD τ).loc main_arg5)) (m ((c : Thread nD τ).loc main_arg6)) (m ((c : Thread nD τ).loc main_arg7))) :=
  ((B2_arr m c 2).trans (out0 (E1 m) c)).trans (congrArg (Cert.Spec.mm (B1 m c main_v0)) (rd_W1 (B0 m c)))

theorem K_O1_cut0 : extractStridedSlice S100000x64 ![0, 0] (B2 m c main_v2) slices_S100000x256_S100000x64_0_0 = Cert.Spec.mm (B1 m c main_v0) (m ((c : Thread nD τ).loc main_arg4)) := by
  rw [K_O1]; exact slice_mm0 _ _ _ _ _
theorem K_O1_cut1 : extractStridedSlice S100000x64 ![0, 64] (B2 m c main_v2) slices_S100000x256_S100000x64_0_64 = Cert.Spec.mm (B1 m c main_v0) (m ((c : Thread nD τ).loc main_arg5)) := by
  rw [K_O1]; exact slice_mm1 _ _ _ _ _
theorem K_O1_cut2 : extractStridedSlice S100000x64 ![0, 128] (B2 m c main_v2) slices_S100000x256_S100000x64_0_128 = Cert.Spec.mm (B1 m c main_v0) (m ((c : Thread nD τ).loc main_arg6)) := by
  rw [K_O1]; exact slice_mm2 _ _ _ _ _
theorem K_O1_cut3 : extractStridedSlice S100000x64 ![0, 192] (B2 m c main_v2) slices_S100000x256_S100000x64_0_192 = Cert.Spec.mm (B1 m c main_v0) (m ((c : Thread nD τ).loc main_arg7)) := by
  rw [K_O1]; exact slice_mm3 _ _ _ _ _

/-- The first normalisation region leaves the normalised, clamped first-stage output. -/
theorem K_x1 : B6 m c main_v54 = Cert.Spec.bn (B3 m c main_v45) (B3 m c main_v48) (B4 m c main_v49) (m ((c : Thread nD τ).loc main_arg17)) (m ((c : Thread nD τ).loc main_arg18)) := by
  have e45 : B5 m c main_v45 = B3 m c main_v45 := (StableHlo.after_of_writes_sub hostOps1_2 _ hostOps1_2_writes (by decide)).trans (StableHlo.after_of_writes_sub hostOps1_1 _ hostOps1_1_writes (by decide))
  have e48 : B4 m c main_v48 = B3 m c main_v48 := (StableHlo.after_of_writes_sub hostOps1_1 _ hostOps1_1_writes (by decide))
  have e50 : B5 m c main_v50 = shapeCast S1x64 (B3 m c main_v48) shapeCasts_S64_S1x64 := (rd_main_v50 (B4 m c)).trans (congrArg (shapeCast S1x64 · shapeCasts_S64_S1x64) e48)
  have e51 : B5 m c main_v51 = shapeCast S1x64 (B4 m c main_v49) shapeCasts_S64_S1x64 := rd_main_v51 (B4 m c)
  have e52 : B5 m c main_v52 = shapeCast S1x64 (m ((c : Thread nD τ).loc main_arg17)) shapeCasts_S64_S1x64 := (rd_main_v52 (B4 m c)).trans (congrArg (shapeCast S1x64 · shapeCasts_S64_S1x64) (B4_arg17 m c))
  have e53 : B5 m c main_v53 = shapeCast S1x64 (m ((c : Thread nD τ).loc main_arg18)) shapeCasts_S64_S1x64 := (rd_main_v53 (B4 m c)).trans (congrArg (shapeCast S1x64 · shapeCasts_S64_S1x64) (B4_arg18 m c))
  refine ((B6_arr m c 5).trans (out1 (E5 m) c)).trans ?_
  show rowsBn (B5 m c main_v45) (B5 m c main_v50) (B5 m c main_v51) (B5 m c main_v52) (B5 m c main_v53) = _
  rw [e45, e50, e51, e52, e53, rowsBn_cast]

/-! ## Stage 2 -/

/-- The second product region leaves the normalised features times the four second-stage matrices side by side. -/
theorem K_O2 : B8 m c main_v56 = Cert.Spec.mm (B6 m c main_v54) (four (m ((c : Thread nD τ).loc main_arg10)) (m ((c : Thread nD τ).loc main_arg11)) (m ((c : Thread nD τ).loc main_arg12)) (m ((c : Thread nD τ).loc main_arg13))) := by
  have e54 : B7 m c main_v54 = B6 m c main_v54 := (StableHlo.after_of_writes_sub hostOps2 _ hostOps2_writes (by decide))
  have e55 : B7 m c main_v55 = four (m ((c : Thread nD τ).loc main_arg10)) (m ((c : Thread nD τ).loc main_arg11)) (m ((c : Thread nD τ).loc main_arg12)) (m ((c : Thread nD τ).loc main_arg13)) := by
    rw [show B7 m c main_v55 = _ from rd_W2 (B6 m c), B6_arg10, B6_arg11, B6_arg12, B6_arg13]
  refine ((B8_arr m c 2).trans (out2 (E7 m) c)).trans ?_
  show Cert.Spec.mm (B7 m c main_v54) (B7 m c main_v55) = _
  rw [e54, e55]

theorem K_O2_cut0 : extractStridedSlice S100000x64 ![0, 0] (B8 m c main_v56) slices_S100000x256_S100000x64_0_0 = Cert.Spec.mm (B6 m c main_v54) (m ((c : Thread nD τ).loc main_arg10)) := by
  rw [K_O2]; exact slice_mm0 _ _ _ _ _
theorem K_O2_cut1 : extractStridedSlice S100000x64 ![0, 64] (B8 m c main_v56) slices_S100000x256_S100000x64_0_64 = Cert.Spec.mm (B6 m c main_v54) (m ((c : Thread nD τ).loc main_arg11)) := by
  rw [K_O2]; exact slice_mm1 _ _ _ _ _
theorem K_O2_cut2 : extractStridedSlice S100000x64 ![0, 128] (B8 m c main_v56) slices_S100000x256_S100000x64_0_128 = Cert.Spec.mm (B6 m c main_v54) (m ((c : Thread nD τ).loc main_arg12)) := by
  rw [K_O2]; exact slice_mm2 _ _ _ _ _
theorem K_O2_cut3 : extractStridedSlice S100000x64 ![0, 192] (B8 m c main_v56) slices_S100000x256_S100000x64_0_192 = Cert.Spec.mm (B6 m c main_v54) (m ((c : Thread nD τ).loc main_arg13)) := by
  rw [K_O2]; exact slice_mm3 _ _ _ _ _

/-- The node features reach the residual product region as concatenated: no stretch writes them, and a region leaves an
    input window's array as entered. -/
theorem K_xin_late : B10 m c main_v0 = B1 m c main_v0 :=
  (StableHlo.after_of_writes_sub hostOps3_1 _ hostOps3_1_writes (by decide)).trans <| (StableHlo.after_of_writes_sub hostOps3 _ hostOps3_writes (by decide)).trans <| (B8_of_ne m c main_v0 (by decide)).trans <| (StableHlo.after_of_writes_sub hostOps2 _ hostOps2_writes (by decide)).trans <|
  (B6_of_ne m c main_v0 (by decide)).trans <| (StableHlo.after_of_writes_sub hostOps1_2 _ hostOps1_2_writes (by decide)).trans <| (StableHlo.after_of_writes_sub hostOps1_1 _ hostOps1_1_writes (by decide)).trans <| (StableHlo.after_of_writes_sub hostOps1 _ hostOps1_writes (by decide)).trans <|
  ((B2_arr m c 0).trans (((pd0 (E1 m) c).arrAt_in 0 rfl _).trans (pd0_A (E1 m) c 0)))

/-- The residual product region leaves the node features times R. -/
theorem K_xR : B11 m c main_v104 = Cert.Spec.mm (B1 m c main_v0) (m ((c : Thread nD τ).loc main_arg16)) := by
  refine ((B11_arr m c 2).trans (out3 (E10 m) c)).trans ?_
  show Cert.Spec.mm (B10 m c main_v0) (B10 m c main_arg16) = _
  rw [K_xin_late, B10_arg16]

/-- The second normalisation region leaves the normalised second-stage output plus the residual, clamped. -/
theorem K_x2 : B13 m c main_v109 = Cert.Spec.bnRes (B9 m c main_v99) (B9 m c main_v102) (B10 m c main_v103) (m ((c : Thread nD τ).loc main_arg19)) (m ((c : Thread nD τ).loc main_arg20)) (B11 m c main_v104) := by
  have e99 : B12 m c main_v99 = B9 m c main_v99 := (StableHlo.after_of_writes_sub hostOps4 _ hostOps4_writes (by decide)).trans <| (B11_of_ne m c main_v99 (by decide)).trans (StableHlo.after_of_writes_sub hostOps3_1 _ hostOps3_1_writes (by decide))
  have e102 : B11 m c main_v102 = B9 m c main_v102 := (B11_of_ne m c main_v102 (by decide)).trans (StableHlo.after_of_writes_sub hostOps3_1 _ hostOps3_1_writes (by decide))
  have e103 : B11 m c main_v103 = B10 m c main_v103 := B11_of_ne m c main_v103 (by decide)
  have e104 : B12 m c main_v104 = B11 m c main_v104 := (StableHlo.after_of_writes_sub hostOps4 _ hostOps4_writes (by decide))
  have e105 : B12 m c main_v105 = shapeCast S1x64 (B9 m c main_v102) shapeCasts_S64_S1x64 := (rd_main_v105 (B11 m c)).trans (congrArg (shapeCast S1x64 · shapeCasts_S64_S1x64) e102)
  have e106 : B12 m c main_v106 = shapeCast S1x64 (B10 m c main_v103) shapeCasts_S64_S1x64 := (rd_main_v106 (B11 m c)).trans (congrArg (shapeCast S1x64 · shapeCasts_S64_S1x64) e103)
  have e107 : B12 m c main_v107 = shapeCast S1x64 (m ((c : Thread nD τ).loc main_arg19)) shapeCasts_S64_S1x64 := (rd_main_v107 (B11 m c)).trans (congrArg (shapeCast S1x64 · shapeCasts_S64_S1x64) (B11_arg19 m c))
  have e108 : B12 m c main_v108 = shapeCast S1x64 (m ((c : Thread nD τ).loc main_arg20)) shapeCasts_S64_S1x64 := (rd_main_v108 (B11 m c)).trans (congrArg (shapeCast S1x64 · shapeCasts_S64_S1x64) (B11_arg20 m c))
  refine ((B13_arr m c 6).trans (out4 (E12 m) c)).trans ?_
  show rowsBnRes (B12 m c main_v99) (B12 m c main_v105) (B12 m c main_v106) (B12 m c main_v107) (B12 m c main_v108) (B12 m c main_v104) = _
  rw [e99, e105, e106, e107, e108, e104, rowsBnRes_cast]

/-- The two results: the users' rows and the items' rows of the last region's output. -/
theorem K_res0 : B14 m c main_v110 = extractStridedSlice S60000x64 ![0, 0] (B13 m c main_v109) slices_S100000x64_S60000x64_0_0 := rd_res0 (B13 m c)
theorem K_res1 : B14 m c main_v111 = extractStridedSlice S40000x64 ![60000, 0] (B13 m c main_v109) slices_S100000x64_S40000x64_60000_0 := rd_res1 (B13 m c)

end Cert.KernelIdeal.Val

end
-- ==== Proof.RefStages.lean ====
/- The reference program's run, stage by stage: the device's buffer contents at each boundary between two stretches of
   the line (stage one's output with its mean, its variance, the normalised table, its positive part, stage two's
   messages, its output with its mean, its variance, the normalised table with the residual added, its positive part,
   the two halves), each the fold of one stretch over the one before; the whole line's fold is the last of them. -/
import proofs.«178339_j40699110097748_1_alg».proof.Proof.RefRun

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The contents at each boundary -/

/-- Device `d`'s buffer contents once stage one's output, column sums and mean are written. -/
abbrev VA (m : (ℓ : Loc nD τ sig) → Buf (Elt F) ℓ) (d : Dev nD) : Valuation τ sig (Elt F) :=
  StableHlo.after opsA (StableHlo.launchContents m d)

/-- Device `d`'s buffer contents once stage one's variance is written. -/
abbrev VV1 (m : (ℓ : Loc nD τ sig) → Buf (Elt F) ℓ) (d : Dev nD) : Valuation τ sig (Elt F) :=
  StableHlo.after opsV1 (VA m d)

/-- Device `d`'s buffer contents once stage one is normalised. -/
abbrev VB (m : (ℓ : Loc nD τ sig) → Buf (Elt F) ℓ) (d : Dev nD) : Valuation τ sig (Elt F) :=
  StableHlo.after opsB (VV1 m d)

/-- Device `d`'s buffer contents once the positive part is taken: stage two's node table. -/
abbrev VR1 (m : (ℓ : Loc nD τ sig) → Buf (Elt F) ℓ) (d : Dev nD) : Valuation τ sig (Elt F) :=
  StableHlo.after opsR1 (VB m d)

/-- Device `d`'s buffer contents once stage two's gated messages are formed. -/
abbrev VC (m : (ℓ : Loc nD τ sig) → Buf (Elt F) ℓ) (d : Dev nD) : Valuation τ sig (Elt F) :=
  StableHlo.after opsC (VR1 m d)

/-- Device `d`'s buffer contents once stage two's output, column sums and mean are written. -/
abbrev VD (m : (ℓ : Loc nD τ sig) → Buf (Elt F) ℓ) (d : Dev nD) : Valuation τ sig (Elt F) :=
  StableHlo.after opsD (VC m d)

/-- Device `d`'s buffer contents once stage two's variance is written. -/
abbrev VV2 (m : (ℓ : Loc nD τ sig) → Buf (Elt F) ℓ) (d : Dev nD) : Valuation τ sig (Elt F) :=
  StableHlo.after opsV2 (VD m d)

/-- Device `d`'s buffer contents once stage two is normalised and the residual projection added. -/
abbrev VE (m : (ℓ : Loc nD τ sig) → Buf (Elt F) ℓ) (d : Dev nD) : Valuation τ sig (Elt F) :=
  StableHlo.after opsE (VV2 m d)

/-- Device `d`'s buffer contents once the positive part is taken. -/
abbrev VR2 (m : (ℓ : Loc nD τ sig) → Buf (Elt F) ℓ) (d : Dev nD) : Valuation τ sig (Elt F) :=
  StableHlo.after opsR2 (VE m d)

/-- Device `d`'s buffer contents once the two halves are cut out: the end of the line. -/
abbrev VT (m : (ℓ : Loc nD τ sig) → Buf (Elt F) ℓ) (d : Dev nD) : Valuation τ sig (Elt F) :=
  StableHlo.after opsT (VR2 m d)

/-- The whole line's fold is the stretches' folds one after the other. -/
theorem after_ops (m : (ℓ : Loc nD τ sig) → Buf (Elt F) ℓ) (d : Dev nD) :
    StableHlo.after ops (StableHlo.launchContents m d) = VT m d := by
  simp only [after_append]

/-- The run, read at the last boundary: every weakly fair execution of @main terminates with each TensorCore buffer
    at the last stretch's fold. -/
theorem run_stages (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = VT m d (Proc.devRef .tc b) :=
  (θ_run defs _ _).mono (fun _ h d b => (h d b).trans (congrFun (after_ops m d) _)) (run_all m ρ)

end Cert.ReferenceIdeal.RefRun

end
-- ==== Proof.RefWalk.lean ====
/- Reading a buffer back across the stretches of the reference program's line that do not write it: every buffer is
   written by one operation only, so at any later boundary it still holds what its writer's stretch left in it, and an
   argument holds its launch contents at every boundary. -/
import proofs.«178339_j40699110097748_1_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## One stretch back -/

/-- A reference `opsA` does not write holds at its end what it held at its start. -/
theorem VA_keep {r : Ref sig .tc} (h : r ∉ opsA_W) (m : (ℓ : Loc nD τ sig) → Buf (Elt F) ℓ) (d : Dev nD) :
    VA m d (Proc.devRef .tc r) = m ((d.tc : Thread nD τ).loc r) :=
  after_of_writes_sub opsA _ opsA_writes h

/-- A reference `opsV1` does not write holds at its end what it held at its start. -/
theorem VV1_keep {r : Ref sig .tc} (h : r ∉ opsV1_W) (m : (ℓ : Loc nD τ sig) → Buf (Elt F) ℓ) (d : Dev nD) :
    VV1 m d (Proc.devRef .tc r) = VA m d (Proc.devRef .tc r) :=
  after_of_writes_sub opsV1 _ opsV1_writes h

/-- A reference `opsB` does not write holds at its end what it held at its start. -/
theorem VB_keep {r : Ref sig .tc} (h : r ∉ opsB_W) (m : (ℓ : Loc nD τ sig) → Buf (Elt F) ℓ) (d : Dev nD) :
    VB m d (Proc.devRef .tc r) = VV1 m d (Proc.devRef .tc r) :=
  after_of_writes_sub opsB _ opsB_writes h

/-- A reference `opsR1` does not write holds at its end what it held at its start. -/
theorem VR1_keep {r : Ref sig .tc} (h : r ∉ opsR1_W) (m : (ℓ : Loc nD τ sig) → Buf (Elt F) ℓ) (d : Dev nD) :
    VR1 m d (Proc.devRef .tc r) = VB m d (Proc.devRef .tc r) :=
  after_of_writes_sub opsR1 _ opsR1_writes h

/-- A reference `opsC` does not write holds at its end what it held at its start. -/
theorem VC_keep {r : Ref sig .tc} (h : r ∉ opsC_W) (m : (ℓ : Loc nD τ sig) → Buf (Elt F) ℓ) (d : Dev nD) :
    VC m d (Proc.devRef .tc r) = VR1 m d (Proc.devRef .tc r) :=
  after_of_writes_sub opsC _ opsC_writes h

/-- A reference `opsD` does not write holds at its end what it held at its start. -/
theorem VD_keep {r : Ref sig .tc} (h : r ∉ opsD_W) (m : (ℓ : Loc nD τ sig) → Buf (Elt F) ℓ) (d : Dev nD) :
    VD m d (Proc.devRef .tc r) = VC m d (Proc.devRef .tc r) :=
  after_of_writes_sub opsD _ opsD_writes h

/-- A reference `opsV2` does not write holds at its end what it held at its start. -/
theorem VV2_keep {r : Ref sig .tc} (h : r ∉ opsV2_W) (m : (ℓ : Loc nD τ sig) → Buf (Elt F) ℓ) (d : Dev nD) :
    VV2 m d (Proc.devRef .tc r) = VD m d (Proc.devRef .tc r) :=
  after_of_writes_sub opsV2 _ opsV2_writes h

/-- A reference `opsE` does not write holds at its end what it held at its start. -/
theorem VE_keep {r : Ref sig .tc} (h : r ∉ opsE_W) (m : (ℓ : Loc nD τ sig) → Buf (Elt F) ℓ) (d : Dev nD) :
    VE m d (Proc.devRef .tc r) = VV2 m d (Proc.devRef .tc r) :=
  after_of_writes_sub opsE _ opsE_writes h

/-- A reference `opsR2` does not write holds at its end what it held at its start. -/
theorem VR2_keep {r : Ref sig .tc} (h : r ∉ opsR2_W) (m : (ℓ : Loc nD τ sig) → Buf (Elt F) ℓ) (d : Dev nD) :
    VR2 m d (Proc.devRef .tc r) = VE m d (Proc.devRef .tc r) :=
  after_of_writes_sub opsR2 _ opsR2_writes h

/-- A reference `opsT` does not write holds at its end what it held at its start. -/
theorem VT_keep {r : Ref sig .tc} (h : r ∉ opsT_W) (m : (ℓ : Loc nD τ sig) → Buf (Elt F) ℓ) (d : Dev nD) :
    VT m d (Proc.devRef .tc r) = VR2 m d (Proc.devRef .tc r) :=
  after_of_writes_sub opsT _ opsT_writes h

/-! ## The stage values, back to the stretch that wrote them -/

/-- Stage one's output (`main_v43`) at the end of `opsV1` is what `opsA` left. -/
theorem VV1_main_v43 (m : (ℓ : Loc nD τ sig) → Buf (Elt F) ℓ) (d : Dev nD) :
    VV1 m d (Proc.devRef .tc main_v43) = VA m d (Proc.devRef .tc main_v43) :=
  VV1_keep (r := main_v43) (by decide) m d
/-- Stage one's output (`main_v43`) at the end of `opsB` is what `opsA` left. -/
theorem VB_main_v43 (m : (ℓ : Loc nD τ sig) → Buf (Elt F) ℓ) (d : Dev nD) :
    VB m d (Proc.devRef .tc main_v43) = VA m d (Proc.devRef .tc main_v43) :=
  (VB_keep (r := main_v43) (by decide) m d).trans (VV1_main_v43 m d)
/-- Stage one's output (`main_v43`) at the end of `opsR1` is what `opsA` left. -/
theorem VR1_main_v43 (m : (ℓ : Loc nD τ sig) → Buf (Elt F) ℓ) (d : Dev nD) :
    VR1 m d (Proc.devRef .tc main_v43) = VA m d (Proc.devRef .tc main_v43) :=
  (VR1_keep (r := main_v43) (by decide) m d).trans (VB_main_v43 m d)

/-- Stage one's mean (`main_v46`) at the end of `opsV1` is what `opsA` left. -/
theorem VV1_main_v46 (m : (ℓ : Loc nD τ sig) → Buf (Elt F) ℓ) (d : Dev nD) :
    VV1 m d (Proc.devRef .tc main_v46) = VA m d (Proc.devRef .tc main_v46) :=
  VV1_keep (r := main_v46) (by decide) m d
/-- Stage one's mean (`main_v46`) at the end of `opsB` is what `opsA` left. -/
theorem VB_main_v46 (m : (ℓ : Loc nD τ sig) → Buf (Elt F) ℓ) (d : Dev nD) :
    VB m d (Proc.devRef .tc main_v46) = VA m d (Proc.devRef .tc main_v46) :=
  (VB_keep (r := main_v46) (by decide) m d).trans (VV1_main_v46 m d)
/-- Stage one's mean (`main_v46`) at the end of `opsR1` is what `opsA` left. -/
theorem VR1_main_v46 (m : (ℓ : Loc nD τ sig) → Buf (Elt F) ℓ) (d : Dev nD) :
    VR1 m d (Proc.devRef .tc main_v46) = VA m d (Proc.devRef .tc main_v46) :=
  (VR1_keep (r := main_v46) (by decide) m d).trans (VB_main_v46 m d)

/-- Stage one's variance (`main_v47`) at the end of `opsB` is what `opsV1` left. -/
theorem VB_main_v47 (m : (ℓ : Loc nD τ sig) → Buf (Elt F) ℓ) (d : Dev nD) :
    VB m d (Proc.devRef .tc main_v47) = VV1 m d (Proc.devRef .tc main_v47) :=
  VB_keep (r := main_v47) (by decide) m d
/-- Stage one's variance (`main_v47`) at the end of `opsR1` is what `opsV1` left. -/
theorem VR1_main_v47 (m : (ℓ : Loc nD τ sig) → Buf (Elt F) ℓ) (d : Dev nD) :
    VR1 m d (Proc.devRef .tc main_v47) = VV1 m d (Proc.devRef .tc main_v47) :=
  (VR1_keep (r := main_v47) (by decide) m d).trans (VB_main_v47 m d)

/-- Stage two's node table (`main_v63`) at the end of `opsC` is what `opsR1` left. -/
theorem VC_main_v63 (m : (ℓ : Loc nD τ sig) → Buf (Elt F) ℓ) (d : Dev nD) :
    VC m d (Proc.devRef .tc main_v63) = VR1 m d (Proc.devRef .tc main_v63) :=
  VC_keep (r := main_v63) (by decide) m d
/-- Stage two's node table (`main_v63`) at the end of `opsD` is what `opsR1` left. -/
theorem VD_main_v63 (m : (ℓ : Loc nD τ sig) → Buf (Elt F) ℓ) (d : Dev nD) :
    VD m d (Proc.devRef .tc main_v63) = VR1 m d (Proc.devRef .tc main_v63) :=
  (VD_keep (r := main_v63) (by decide) m d).trans (VC_main_v63 m d)

/-- Stage two's output (`main_v106`) at the end of `opsV2` is what `opsD` left. -/
theorem VV2_main_v106 (m : (ℓ : Loc nD τ sig) → Buf (Elt F) ℓ) (d : Dev nD) :
    VV2 m d (Proc.devRef .tc main_v106) = VD m d (Proc.devRef .tc main_v106) :=
  VV2_keep (r := main_v106) (by decide) m d
/-- Stage two's output (`main_v106`) at the end of `opsE` is what `opsD` left. -/
theorem VE_main_v106 (m : (ℓ : Loc nD τ sig) → Buf (Elt F) ℓ) (d : Dev nD) :
    VE m d (Proc.devRef .tc main_v106) = VD m d (Proc.devRef .tc main_v106) :=
  (VE_keep (r := main_v106) (by decide) m d).trans (VV2_main_v106 m d)

/-- Stage two's mean (`main_v109`) at the end of `opsV2` is what `opsD` left. -/
theorem VV2_main_v109 (m : (ℓ : Loc nD τ sig) → Buf (Elt F) ℓ) (d : Dev nD) :
    VV2 m d (Proc.devRef .tc main_v109) = VD m d (Proc.devRef .tc main_v109) :=
  VV2_keep (r := main_v109) (by decide) m d
/-- Stage two's mean (`main_v109`) at the end of `opsE` is what `opsD` left. -/
theorem VE_main_v109 (m : (ℓ : Loc nD τ sig) → Buf (Elt F) ℓ) (d : Dev nD) :
    VE m d (Proc.devRef .tc main_v109) = VD m d (Proc.devRef .tc main_v109) :=
  (VE_keep (r := main_v109) (by decide) m d).trans (VV2_main_v109 m d)

/-- Stage two's variance (`main_v110`) at the end of `opsE` is what `opsV2` left. -/
theorem VE_main_v110 (m : (ℓ : Loc nD τ sig) → Buf (Elt F) ℓ) (d : Dev nD) :
    VE m d (Proc.devRef .tc main_v110) = VV2 m d (Proc.devRef .tc main_v110) :=
  VE_keep (r := main_v110) (by decide) m d

/-- The stacked input (`main_v0`) at the end of `opsV1` is what `opsA` left. -/
theorem VV1_main_v0 (m : (ℓ : Loc nD τ sig) → Buf (Elt F) ℓ) (d : Dev nD) :
    VV1 m d (Proc.devRef .tc main_v0) = VA m d (Proc.devRef .tc main_v0) :=
  VV1_keep (r := main_v0) (by decide) m d
/-- The stacked input (`main_v0`) at the end of `opsB` is what `opsA` left. -/
theorem VB_main_v0 (m : (ℓ : Loc nD τ sig) → Buf (Elt F) ℓ) (d : Dev nD) :
    VB m d (Proc.devRef .tc main_v0) = VA m d (Proc.devRef .tc main_v0) :=
  (VB_keep (r := main_v0) (by decide) m d).trans (VV1_main_v0 m d)
/-- The stacked input (`main_v0`) at the end of `opsR1` is what `opsA` left. -/
theorem VR1_main_v0 (m : (ℓ : Loc nD τ sig) → Buf (Elt F) ℓ) (d : Dev nD) :
    VR1 m d (Proc.devRef .tc main_v0) = VA m d (Proc.devRef .tc main_v0) :=
  (VR1_keep (r := main_v0) (by decide) m d).trans (VB_main_v0 m d)
/-- The stacked input (`main_v0`) at the end of `opsC` is what `opsA` left. -/
theorem VC_main_v0 (m : (ℓ : Loc nD τ sig) → Buf (Elt F) ℓ) (d : Dev nD) :
    VC m d (Proc.devRef .tc main_v0) = VA m d (Proc.devRef .tc main_v0) :=
  (VC_keep (r := main_v0) (by decide) m d).trans (VR1_main_v0 m d)
/-- The stacked input (`main_v0`) at the end of `opsD` is what `opsA` left. -/
theorem VD_main_v0 (m : (ℓ : Loc nD τ sig) → Buf (Elt F) ℓ) (d : Dev nD) :
    VD m d (Proc.devRef .tc main_v0) = VA m d (Proc.devRef .tc main_v0) :=
  (VD_keep (r := main_v0) (by decide) m d).trans (VC_main_v0 m d)
/-- The stacked input (`main_v0`) at the end of `opsV2` is what `opsA` left. -/
theorem VV2_main_v0 (m : (ℓ : Loc nD τ sig) → Buf (Elt F) ℓ) (d : Dev nD) :
    VV2 m d (Proc.devRef .tc main_v0) = VA m d (Proc.devRef .tc main_v0) :=
  (VV2_keep (r := main_v0) (by decide) m d).trans (VD_main_v0 m d)
/-- The stacked input (`main_v0`) at the end of `opsE` is what `opsA` left. -/
theorem VE_main_v0 (m : (ℓ : Loc nD τ sig) → Buf (Elt F) ℓ) (d : Dev nD) :
    VE m d (Proc.devRef .tc main_v0) = VA m d (Proc.devRef .tc main_v0) :=
  (VE_keep (r := main_v0) (by decide) m d).trans (VV2_main_v0 m d)

/-- The result before it is cut in two (`main_v128`) at the end of `opsT` is what `opsR2` left. -/
theorem VT_main_v128 (m : (ℓ : Loc nD τ sig) → Buf (Elt F) ℓ) (d : Dev nD) :
    VT m d (Proc.devRef .tc main_v128) = VR2 m d (Proc.devRef .tc main_v128) :=
  VT_keep (r := main_v128) (by decide) m d

/-! ## The arguments at every boundary -/

theorem VA_main_arg0 (m : (ℓ : Loc nD τ sig) → Buf (Elt F) ℓ) (d : Dev nD) : VA m d (Proc.devRef .tc main_arg0) = m ((d.tc : Thread nD τ).loc main_arg0) :=
  VA_keep (r := main_arg0) (by decide) m d
theorem VA_main_arg1 (m : (ℓ : Loc nD τ sig) → Buf (Elt F) ℓ) (d : Dev nD) : VA m d (Proc.devRef .tc main_arg1) = m ((d.tc : Thread nD τ).loc main_arg1) :=
  VA_keep (r := main_arg1) (by decide) m d
theorem VA_main_arg2 (m : (ℓ : Loc nD τ sig) → Buf (Elt F) ℓ) (d : Dev nD) : VA m d (Proc.devRef .tc main_arg2) = m ((d.tc : Thread nD τ).loc main_arg2) :=
  VA_keep (r := main_arg2) (by decide) m d
theorem VA_main_arg3 (m : (ℓ : Loc nD τ sig) → Buf (Elt F) ℓ) (d : Dev nD) : VA m d (Proc.devRef .tc main_arg3) = m ((d.tc : Thread nD τ).loc main_arg3) :=
  VA_keep (r := main_arg3) (by decide) m d
theorem VA_main_arg4 (m : (ℓ : Loc nD τ sig) → Buf (Elt F) ℓ) (d : Dev nD) : VA m d (Proc.devRef .tc main_arg4) = m ((d.tc : Thread nD τ).loc main_arg4) :=
  VA_keep (r := main_arg4) (by decide) m d
theorem VA_main_arg5 (m : (ℓ : Loc nD τ sig) → Buf (Elt F) ℓ) (d : Dev nD) : VA m d (Proc.devRef .tc main_arg5) = m ((d.tc : Thread nD τ).loc main_arg5) :=
  VA_keep (r := main_arg5) (by decide) m d
theorem VA_main_arg6 (m : (ℓ : Loc nD τ sig) → Buf (Elt F) ℓ) (d : Dev nD) : VA m d (Proc.devRef .tc main_arg6) = m ((d.tc : Thread nD τ).loc main_arg6) :=
  VA_keep (r := main_arg6) (by decide) m d
theorem VA_main_arg7 (m : (ℓ : Loc nD τ sig) → Buf (Elt F) ℓ) (d : Dev nD) : VA m d (Proc.devRef .tc main_arg7) = m ((d.tc : Thread nD τ).loc main_arg7) :=
  VA_keep (r := main_arg7) (by decide) m d
theorem VA_main_arg8 (m : (ℓ : Loc nD τ sig) → Buf (Elt F) ℓ) (d : Dev nD) : VA m d (Proc.devRef .tc main_arg8) = m ((d.tc : Thread nD τ).loc main_arg8) :=
  VA_keep (r := main_arg8) (by decide) m d
theorem VA_main_arg9 (m : (ℓ : Loc nD τ sig) → Buf (Elt F) ℓ) (d : Dev nD) : VA m d (Proc.devRef .tc main_arg9) = m ((d.tc : Thread nD τ).loc main_arg9) :=
  VA_keep (r := main_arg9) (by decide) m d
theorem VA_main_arg10 (m : (ℓ : Loc nD τ sig) → Buf (Elt F) ℓ) (d : Dev nD) : VA m d (Proc.devRef .tc main_arg10) = m ((d.tc : Thread nD τ).loc main_arg10) :=
  VA_keep (r := main_arg10) (by decide) m d
theorem VA_main_arg11 (m : (ℓ : Loc nD τ sig) → Buf (Elt F) ℓ) (d : Dev nD) : VA m d (Proc.devRef .tc main_arg11) = m ((d.tc : Thread nD τ).loc main_arg11) :=
  VA_keep (r := main_arg11) (by decide) m d
theorem VA_main_arg12 (m : (ℓ : Loc nD τ sig) → Buf (Elt F) ℓ) (d : Dev nD) : VA m d (Proc.devRef .tc main_arg12) = m ((d.tc : Thread nD τ).loc main_arg12) :=
  VA_keep (r := main_arg12) (by decide) m d
theorem VA_main_arg13 (m : (ℓ : Loc nD τ sig) → Buf (Elt F) ℓ) (d : Dev nD) : VA m d (Proc.devRef .tc main_arg13) = m ((d.tc : Thread nD τ).loc main_arg13) :=
  VA_keep (r := main_arg13) (by decide) m d
theorem VA_main_arg14 (m : (ℓ : Loc nD τ sig) → Buf (Elt F) ℓ) (d : Dev nD) : VA m d (Proc.devRef .tc main_arg14) = m ((d.tc : Thread nD τ).loc main_arg14) :=
  VA_keep (r := main_arg14) (by decide) m d
theorem VA_main_arg15 (m : (ℓ : Loc nD τ sig) → Buf (Elt F) ℓ) (d : Dev nD) : VA m d (Proc.devRef .tc main_arg15) = m ((d.tc : Thread nD τ).loc main_arg15) :=
  VA_keep (r := main_arg15) (by decide) m d
theorem VA_main_arg16 (m : (ℓ : Loc nD τ sig) → Buf (Elt F) ℓ) (d : Dev nD) : VA m d (Proc.devRef .tc main_arg16) = m ((d.tc : Thread nD τ).loc main_arg16) :=
  VA_keep (r := main_arg16) (by decide) m d
theorem VA_main_arg17 (m : (ℓ : Loc nD τ sig) → Buf (Elt F) ℓ) (d : Dev nD) : VA m d (Proc.devRef .tc main_arg17) = m ((d.tc : Thread nD τ).loc main_arg17) :=
  VA_keep (r := main_arg17) (by decide) m d
theorem VA_main_arg18 (m : (ℓ : Loc nD τ sig) → Buf (Elt F) ℓ) (d : Dev nD) : VA m d (Proc.devRef .tc main_arg18) = m ((d.tc : Thread nD τ).loc main_arg18) :=
  VA_keep (r := main_arg18) (by decide) m d
theorem VA_main_arg19 (m : (ℓ : Loc nD τ sig) → Buf (Elt F) ℓ) (d : Dev nD) : VA m d (Proc.devRef .tc main_arg19) = m ((d.tc : Thread nD τ).loc main_arg19) :=
  VA_keep (r := main_arg19) (by decide) m d
theorem VA_main_arg20 (m : (ℓ : Loc nD τ sig) → Buf (Elt F) ℓ) (d : Dev nD) : VA m d (Proc.devRef .tc main_arg20) = m ((d.tc : Thread nD τ).loc main_arg20) :=
  VA_keep (r := main_arg20) (by decide) m d

theorem VV1_main_arg0 (m : (ℓ : Loc nD τ sig) → Buf (Elt F) ℓ) (d : Dev nD) : VV1 m d (Proc.devRef .tc main_arg0) = m ((d.tc : Thread nD τ).loc main_arg0) :=
  (VV1_keep (r := main_arg0) (by decide) m d).trans (VA_main_arg0 m d)
theorem VV1_main_arg1 (m : (ℓ : Loc nD τ sig) → Buf (Elt F) ℓ) (d : Dev nD) : VV1 m d (Proc.devRef .tc main_arg1) = m ((d.tc : Thread nD τ).loc main_arg1) :=
  (VV1_keep (r := main_arg1) (by decide) m d).trans (VA_main_arg1 m d)
theorem VV1_main_arg2 (m : (ℓ : Loc nD τ sig) → Buf (Elt F) ℓ) (d : Dev nD) : VV1 m d (Proc.devRef .tc main_arg2) = m ((d.tc : Thread nD τ).loc main_arg2) :=
  (VV1_keep (r := main_arg2) (by decide) m d).trans (VA_main_arg2 m d)
theorem VV1_main_arg3 (m : (ℓ : Loc nD τ sig) → Buf (Elt F) ℓ) (d : Dev nD) : VV1 m d (Proc.devRef .tc main_arg3) = m ((d.tc : Thread nD τ).loc main_arg3) :=
  (VV1_keep (r := main_arg3) (by decide) m d).trans (VA_main_arg3 m d)
theorem VV1_main_arg4 (m : (ℓ : Loc nD τ sig) → Buf (Elt F) ℓ) (d : Dev nD) : VV1 m d (Proc.devRef .tc main_arg4) = m ((d.tc : Thread nD τ).loc main_arg4) :=
  (VV1_keep (r := main_arg4) (by decide) m d).trans (VA_main_arg4 m d)
theorem VV1_main_arg5 (m : (ℓ : Loc nD τ sig) → Buf (Elt F) ℓ) (d : Dev nD) : VV1 m d (Proc.devRef .tc main_arg5) = m ((d.tc : Thread nD τ).loc main_arg5) :=
  (VV1_keep (r := main_arg5) (by decide) m d).trans (VA_main_arg5 m d)
theorem VV1_main_arg6 (m : (ℓ : Loc nD τ sig) → Buf (Elt F) ℓ) (d : Dev nD) : VV1 m d (Proc.devRef .tc main_arg6) = m ((d.tc : Thread nD τ).loc main_arg6) :=
  (VV1_keep (r := main_arg6) (by decide) m d).trans (VA_main_arg6 m d)
theorem VV1_main_arg7 (m : (ℓ : Loc nD τ sig) → Buf (Elt F) ℓ) (d : Dev nD) : VV1 m d (Proc.devRef .tc main_arg7) = m ((d.tc : Thread nD τ).loc main_arg7) :=
  (VV1_keep (r := main_arg7) (by decide) m d).trans (VA_main_arg7 m d)
theorem VV1_main_arg8 (m : (ℓ : Loc nD τ sig) → Buf (Elt F) ℓ) (d : Dev nD) : VV1 m d (Proc.devRef .tc main_arg8) = m ((d.tc : Thread nD τ).loc main_arg8) :=
  (VV1_keep (r := main_arg8) (by decide) m d).trans (VA_main_arg8 m d)
theorem VV1_main_arg9 (m : (ℓ : Loc nD τ sig) → Buf (Elt F) ℓ) (d : Dev nD) : VV1 m d (Proc.devRef .tc main_arg9) = m ((d.tc : Thread nD τ).loc main_arg9) :=
  (VV1_keep (r := main_arg9) (by decide) m d).trans (VA_main_arg9 m d)
theorem VV1_main_arg10 (m : (ℓ : Loc nD τ sig) → Buf (Elt F) ℓ) (d : Dev nD) : VV1 m d (Proc.devRef .tc main_arg10) = m ((d.tc : Thread nD τ).loc main_arg10) :=
  (VV1_keep (r := main_arg10) (by decide) m d).trans (VA_main_arg10 m d)
theorem VV1_main_arg11 (m : (ℓ : Loc nD τ sig) → Buf (Elt F) ℓ) (d : Dev nD) : VV1 m d (Proc.devRef .tc main_arg11) = m ((d.tc : Thread nD τ).loc main_arg11) :=
  (VV1_keep (r := main_arg11) (by decide) m d).trans (VA_main_arg11 m d)
theorem VV1_main_arg12 (m : (ℓ : Loc nD τ sig) → Buf (Elt F) ℓ) (d : Dev nD) : VV1 m d (Proc.devRef .tc main_arg12) = m ((d.tc : Thread nD τ).loc main_arg12) :=
  (VV1_keep (r := main_arg12) (by decide) m d).trans (VA_main_arg12 m d)
theorem VV1_main_arg13 (m : (ℓ : Loc nD τ sig) → Buf (Elt F) ℓ) (d : Dev nD) : VV1 m d (Proc.devRef .tc main_arg13) = m ((d.tc : Thread nD τ).loc main_arg13) :=
  (VV1_keep (r := main_arg13) (by decide) m d).trans (VA_main_arg13 m d)
theorem VV1_main_arg14 (m : (ℓ : Loc nD τ sig) → Buf (Elt F) ℓ) (d : Dev nD) : VV1 m d (Proc.devRef .tc main_arg14) = m ((d.tc : Thread nD τ).loc main_arg14) :=
  (VV1_keep (r := main_arg14) (by decide) m d).trans (VA_main_arg14 m d)
theorem VV1_main_arg15 (m : (ℓ : Loc nD τ sig) → Buf (Elt F) ℓ) (d : Dev nD) : VV1 m d (Proc.devRef .tc main_arg15) = m ((d.tc : Thread nD τ).loc main_arg15) :=
  (VV1_keep (r := main_arg15) (by decide) m d).trans (VA_main_arg15 m d)
theorem VV1_main_arg16 (m : (ℓ : Loc nD τ sig) → Buf (Elt F) ℓ) (d : Dev nD) : VV1 m d (Proc.devRef .tc main_arg16) = m ((d.tc : Thread nD τ).loc main_arg16) :=
  (VV1_keep (r := main_arg16) (by decide) m d).trans (VA_main_arg16 m d)
theorem VV1_main_arg17 (m : (ℓ : Loc nD τ sig) → Buf (Elt F) ℓ) (d : Dev nD) : VV1 m d (Proc.devRef .tc main_arg17) = m ((d.tc : Thread nD τ).loc main_arg17) :=
  (VV1_keep (r := main_arg17) (by decide) m d).trans (VA_main_arg17 m d)
theorem VV1_main_arg18 (m : (ℓ : Loc nD τ sig) → Buf (Elt F) ℓ) (d : Dev nD) : VV1 m d (Proc.devRef .tc main_arg18) = m ((d.tc : Thread nD τ).loc main_arg18) :=
  (VV1_keep (r := main_arg18) (by decide) m d).trans (VA_main_arg18 m d)
theorem VV1_main_arg19 (m : (ℓ : Loc nD τ sig) → Buf (Elt F) ℓ) (d : Dev nD) : VV1 m d (Proc.devRef .tc main_arg19) = m ((d.tc : Thread nD τ).loc main_arg19) :=
  (VV1_keep (r := main_arg19) (by decide) m d).trans (VA_main_arg19 m d)
theorem VV1_main_arg20 (m : (ℓ : Loc nD τ sig) → Buf (Elt F) ℓ) (d : Dev nD) : VV1 m d (Proc.devRef .tc main_arg20) = m ((d.tc : Thread nD τ).loc main_arg20) :=
  (VV1_keep (r := main_arg20) (by decide) m d).trans (VA_main_arg20 m d)

theorem VB_main_arg0 (m : (ℓ : Loc nD τ sig) → Buf (Elt F) ℓ) (d : Dev nD) : VB m d (Proc.devRef .tc main_arg0) = m ((d.tc : Thread nD τ).loc main_arg0) :=
  (VB_keep (r := main_arg0) (by decide) m d).trans (VV1_main_arg0 m d)
theorem VB_main_arg1 (m : (ℓ : Loc nD τ sig) → Buf (Elt F) ℓ) (d : Dev nD) : VB m d (Proc.devRef .tc main_arg1) = m ((d.tc : Thread nD τ).loc main_arg1) :=
  (VB_keep (r := main_arg1) (by decide) m d).trans (VV1_main_arg1 m d)
theorem VB_main_arg2 (m : (ℓ : Loc nD τ sig) → Buf (Elt F) ℓ) (d : Dev nD) : VB m d (Proc.devRef .tc main_arg2) = m ((d.tc : Thread nD τ).loc main_arg2) :=
  (VB_keep (r := main_arg2) (by decide) m d).trans (VV1_main_arg2 m d)
theorem VB_main_arg3 (m : (ℓ : Loc nD τ sig) → Buf (Elt F) ℓ) (d : Dev nD) : VB m d (Proc.devRef .tc main_arg3) = m ((d.tc : Thread nD τ).loc main_arg3) :=
  (VB_keep (r := main_arg3) (by decide) m d).trans (VV1_main_arg3 m d)
theorem VB_main_arg4 (m : (ℓ : Loc nD τ sig) → Buf (Elt F) ℓ) (d : Dev nD) : VB m d (Proc.devRef .tc main_arg4) = m ((d.tc : Thread nD τ).loc main_arg4) :=
  (VB_keep (r := main_arg4) (by decide) m d).trans (VV1_main_arg4 m d)
theorem VB_main_arg5 (m : (ℓ : Loc nD τ sig) → Buf (Elt F) ℓ) (d : Dev nD) : VB m d (Proc.devRef .tc main_arg5) = m ((d.tc : Thread nD τ).loc main_arg5) :=
  (VB_keep (r := main_arg5) (by decide) m d).trans (VV1_main_arg5 m d)
theorem VB_main_arg6 (m : (ℓ : Loc nD τ sig) → Buf (Elt F) ℓ) (d : Dev nD) : VB m d (Proc.devRef .tc main_arg6) = m ((d.tc : Thread nD τ).loc main_arg6) :=
  (VB_keep (r := main_arg6) (by decide) m d).trans (VV1_main_arg6 m d)
theorem VB_main_arg7 (m : (ℓ : Loc nD τ sig) → Buf (Elt F) ℓ) (d : Dev nD) : VB m d (Proc.devRef .tc main_arg7) = m ((d.tc : Thread nD τ).loc main_arg7) :=
  (VB_keep (r := main_arg7) (by decide) m d).trans (VV1_main_arg7 m d)
theorem VB_main_arg8 (m : (ℓ : Loc nD τ sig) → Buf (Elt F) ℓ) (d : Dev nD) : VB m d (Proc.devRef .tc main_arg8) = m ((d.tc : Thread nD τ).loc main_arg8) :=
  (VB_keep (r := main_arg8) (by decide) m d).trans (VV1_main_arg8 m d)
theorem VB_main_arg9 (m : (ℓ : Loc nD τ sig) → Buf (Elt F) ℓ) (d : Dev nD) : VB m d (Proc.devRef .tc main_arg9) = m ((d.tc : Thread nD τ).loc main_arg9) :=
  (VB_keep (r := main_arg9) (by decide) m d).trans (VV1_main_arg9 m d)
theorem VB_main_arg10 (m : (ℓ : Loc nD τ sig) → Buf (Elt F) ℓ) (d : Dev nD) : VB m d (Proc.devRef .tc main_arg10) = m ((d.tc : Thread nD τ).loc main_arg10) :=
  (VB_keep (r := main_arg10) (by decide) m d).trans (VV1_main_arg10 m d)
theorem VB_main_arg11 (m : (ℓ : Loc nD τ sig) → Buf (Elt F) ℓ) (d : Dev nD) : VB m d (Proc.devRef .tc main_arg11) = m ((d.tc : Thread nD τ).loc main_arg11) :=
  (VB_keep (r := main_arg11) (by decide) m d).trans (VV1_main_arg11 m d)
theorem VB_main_arg12 (m : (ℓ : Loc nD τ sig) → Buf (Elt F) ℓ) (d : Dev nD) : VB m d (Proc.devRef .tc main_arg12) = m ((d.tc : Thread nD τ).loc main_arg12) :=
  (VB_keep (r := main_arg12) (by decide) m d).trans (VV1_main_arg12 m d)
theorem VB_main_arg13 (m : (ℓ : Loc nD τ sig) → Buf (Elt F) ℓ) (d : Dev nD) : VB m d (Proc.devRef .tc main_arg13) = m ((d.tc : Thread nD τ).loc main_arg13) :=
  (VB_keep (r := main_arg13) (by decide) m d).trans (VV1_main_arg13 m d)
theorem VB_main_arg14 (m : (ℓ : Loc nD τ sig) → Buf (Elt F) ℓ) (d : Dev nD) : VB m d (Proc.devRef .tc main_arg14) = m ((d.tc : Thread nD τ).loc main_arg14) :=
  (VB_keep (r := main_arg14) (by decide) m d).trans (VV1_main_arg14 m d)
theorem VB_main_arg15 (m : (ℓ : Loc nD τ sig) → Buf (Elt F) ℓ) (d : Dev nD) : VB m d (Proc.devRef .tc main_arg15) = m ((d.tc : Thread nD τ).loc main_arg15) :=
  (VB_keep (r := main_arg15) (by decide) m d).trans (VV1_main_arg15 m d)
theorem VB_main_arg16 (m : (ℓ : Loc nD τ sig) → Buf (Elt F) ℓ) (d : Dev nD) : VB m d (Proc.devRef .tc main_arg16) = m ((d.tc : Thread nD τ).loc main_arg16) :=
  (VB_keep (r := main_arg16) (by decide) m d).trans (VV1_main_arg16 m d)
theorem VB_main_arg17 (m : (ℓ : Loc nD τ sig) → Buf (Elt F) ℓ) (d : Dev nD) : VB m d (Proc.devRef .tc main_arg17) = m ((d.tc : Thread nD τ).loc main_arg17) :=
  (VB_keep (r := main_arg17) (by decide) m d).trans (VV1_main_arg17 m d)
theorem VB_main_arg18 (m : (ℓ : Loc nD τ sig) → Buf (Elt F) ℓ) (d : Dev nD) : VB m d (Proc.devRef .tc main_arg18) = m ((d.tc : Thread nD τ).loc main_arg18) :=
  (VB_keep (r := main_arg18) (by decide) m d).trans (VV1_main_arg18 m d)
theorem VB_main_arg19 (m : (ℓ : Loc nD τ sig) → Buf (Elt F) ℓ) (d : Dev nD) : VB m d (Proc.devRef .tc main_arg19) = m ((d.tc : Thread nD τ).loc main_arg19) :=
  (VB_keep (r := main_arg19) (by decide) m d).trans (VV1_main_arg19 m d)
theorem VB_main_arg20 (m : (ℓ : Loc nD τ sig) → Buf (Elt F) ℓ) (d : Dev nD) : VB m d (Proc.devRef .tc main_arg20) = m ((d.tc : Thread nD τ).loc main_arg20) :=
  (VB_keep (r := main_arg20) (by decide) m d).trans (VV1_main_arg20 m d)

theorem VR1_main_arg0 (m : (ℓ : Loc nD τ sig) → Buf (Elt F) ℓ) (d : Dev nD) : VR1 m d (Proc.devRef .tc main_arg0) = m ((d.tc : Thread nD τ).loc main_arg0) :=
  (VR1_keep (r := main_arg0) (by decide) m d).trans (VB_main_arg0 m d)
theorem VR1_main_arg1 (m : (ℓ : Loc nD τ sig) → Buf (Elt F) ℓ) (d : Dev nD) : VR1 m d (Proc.devRef .tc main_arg1) = m ((d.tc : Thread nD τ).loc main_arg1) :=
  (VR1_keep (r := main_arg1) (by decide) m d).trans (VB_main_arg1 m d)
theorem VR1_main_arg2 (m : (ℓ : Loc nD τ sig) → Buf (Elt F) ℓ) (d : Dev nD) : VR1 m d (Proc.devRef .tc main_arg2) = m ((d.tc : Thread nD τ).loc main_arg2) :=
  (VR1_keep (r := main_arg2) (by decide) m d).trans (VB_main_arg2 m d)
theorem VR1_main_arg3 (m : (ℓ : Loc nD τ sig) → Buf (Elt F) ℓ) (d : Dev nD) : VR1 m d (Proc.devRef .tc main_arg3) = m ((d.tc : Thread nD τ).loc main_arg3) :=
  (VR1_keep (r := main_arg3) (by decide) m d).trans (VB_main_arg3 m d)
theorem VR1_main_arg4 (m : (ℓ : Loc nD τ sig) → Buf (Elt F) ℓ) (d : Dev nD) : VR1 m d (Proc.devRef .tc main_arg4) = m ((d.tc : Thread nD τ).loc main_arg4) :=
  (VR1_keep (r := main_arg4) (by decide) m d).trans (VB_main_arg4 m d)
theorem VR1_main_arg5 (m : (ℓ : Loc nD τ sig) → Buf (Elt F) ℓ) (d : Dev nD) : VR1 m d (Proc.devRef .tc main_arg5) = m ((d.tc : Thread nD τ).loc main_arg5) :=
  (VR1_keep (r := main_arg5) (by decide) m d).trans (VB_main_arg5 m d)
theorem VR1_main_arg6 (m : (ℓ : Loc nD τ sig) → Buf (Elt F) ℓ) (d : Dev nD) : VR1 m d (Proc.devRef .tc main_arg6) = m ((d.tc : Thread nD τ).loc main_arg6) :=
  (VR1_keep (r := main_arg6) (by decide) m d).trans (VB_main_arg6 m d)
theorem VR1_main_arg7 (m : (ℓ : Loc nD τ sig) → Buf (Elt F) ℓ) (d : Dev nD) : VR1 m d (Proc.devRef .tc main_arg7) = m ((d.tc : Thread nD τ).loc main_arg7) :=
  (VR1_keep (r := main_arg7) (by decide) m d).trans (VB_main_arg7 m d)
theorem VR1_main_arg8 (m : (ℓ : Loc nD τ sig) → Buf (Elt F) ℓ) (d : Dev nD) : VR1 m d (Proc.devRef .tc main_arg8) = m ((d.tc : Thread nD τ).loc main_arg8) :=
  (VR1_keep (r := main_arg8) (by decide) m d).trans (VB_main_arg8 m d)
theorem VR1_main_arg9 (m : (ℓ : Loc nD τ sig) → Buf (Elt F) ℓ) (d : Dev nD) : VR1 m d (Proc.devRef .tc main_arg9) = m ((d.tc : Thread nD τ).loc main_arg9) :=
  (VR1_keep (r := main_arg9) (by decide) m d).trans (VB_main_arg9 m d)
theorem VR1_main_arg10 (m : (ℓ : Loc nD τ sig) → Buf (Elt F) ℓ) (d : Dev nD) : VR1 m d (Proc.devRef .tc main_arg10) = m ((d.tc : Thread nD τ).loc main_arg10) :=
  (VR1_keep (r := main_arg10) (by decide) m d).trans (VB_main_arg10 m d)
theorem VR1_main_arg11 (m : (ℓ : Loc nD τ sig) → Buf (Elt F) ℓ) (d : Dev nD) : VR1 m d (Proc.devRef .tc main_arg11) = m ((d.tc : Thread nD τ).loc main_arg11) :=
  (VR1_keep (r := main_arg11) (by decide) m d).trans (VB_main_arg11 m d)
theorem VR1_main_arg12 (m : (ℓ : Loc nD τ sig) → Buf (Elt F) ℓ) (d : Dev nD) : VR1 m d (Proc.devRef .tc main_arg12) = m ((d.tc : Thread nD τ).loc main_arg12) :=
  (VR1_keep (r := main_arg12) (by decide) m d).trans (VB_main_arg12 m d)
theorem VR1_main_arg13 (m : (ℓ : Loc nD τ sig) → Buf (Elt F) ℓ) (d : Dev nD) : VR1 m d (Proc.devRef .tc main_arg13) = m ((d.tc : Thread nD τ).loc main_arg13) :=
  (VR1_keep (r := main_arg13) (by decide) m d).trans (VB_main_arg13 m d)
theorem VR1_main_arg14 (m : (ℓ : Loc nD τ sig) → Buf (Elt F) ℓ) (d : Dev nD) : VR1 m d (Proc.devRef .tc main_arg14) = m ((d.tc : Thread nD τ).loc main_arg14) :=
  (VR1_keep (r := main_arg14) (by decide) m d).trans (VB_main_arg14 m d)
theorem VR1_main_arg15 (m : (ℓ : Loc nD τ sig) → Buf (Elt F) ℓ) (d : Dev nD) : VR1 m d (Proc.devRef .tc main_arg15) = m ((d.tc : Thread nD τ).loc main_arg15) :=
  (VR1_keep (r := main_arg15) (by decide) m d).trans (VB_main_arg15 m d)
theorem VR1_main_arg16 (m : (ℓ : Loc nD τ sig) → Buf (Elt F) ℓ) (d : Dev nD) : VR1 m d (Proc.devRef .tc main_arg16) = m ((d.tc : Thread nD τ).loc main_arg16) :=
  (VR1_keep (r := main_arg16) (by decide) m d).trans (VB_main_arg16 m d)
theorem VR1_main_arg17 (m : (ℓ : Loc nD τ sig) → Buf (Elt F) ℓ) (d : Dev nD) : VR1 m d (Proc.devRef .tc main_arg17) = m ((d.tc : Thread nD τ).loc main_arg17) :=
  (VR1_keep (r := main_arg17) (by decide) m d).trans (VB_main_arg17 m d)
theorem VR1_main_arg18 (m : (ℓ : Loc nD τ sig) → Buf (Elt F) ℓ) (d : Dev nD) : VR1 m d (Proc.devRef .tc main_arg18) = m ((d.tc : Thread nD τ).loc main_arg18) :=
  (VR1_keep (r := main_arg18) (by decide) m d).trans (VB_main_arg18 m d)
theorem VR1_main_arg19 (m : (ℓ : Loc nD τ sig) → Buf (Elt F) ℓ) (d : Dev nD) : VR1 m d (Proc.devRef .tc main_arg19) = m ((d.tc : Thread nD τ).loc main_arg19) :=
  (VR1_keep (r := main_arg19) (by decide) m d).trans (VB_main_arg19 m d)
theorem VR1_main_arg20 (m : (ℓ : Loc nD τ sig) → Buf (Elt F) ℓ) (d : Dev nD) : VR1 m d (Proc.devRef .tc main_arg20) = m ((d.tc : Thread nD τ).loc main_arg20) :=
  (VR1_keep (r := main_arg20) (by decide) m d).trans (VB_main_arg20 m d)

theorem VC_main_arg0 (m : (ℓ : Loc nD τ sig) → Buf (Elt F) ℓ) (d : Dev nD) : VC m d (Proc.devRef .tc main_arg0) = m ((d.tc : Thread nD τ).loc main_arg0) :=
  (VC_keep (r := main_arg0) (by decide) m d).trans (VR1_main_arg0 m d)
theorem VC_main_arg1 (m : (ℓ : Loc nD τ sig) → Buf (Elt F) ℓ) (d : Dev nD) : VC m d (Proc.devRef .tc main_arg1) = m ((d.tc : Thread nD τ).loc main_arg1) :=
  (VC_keep (r := main_arg1) (by decide) m d).trans (VR1_main_arg1 m d)
theorem VC_main_arg2 (m : (ℓ : Loc nD τ sig) → Buf (Elt F) ℓ) (d : Dev nD) : VC m d (Proc.devRef .tc main_arg2) = m ((d.tc : Thread nD τ).loc main_arg2) :=
  (VC_keep (r := main_arg2) (by decide) m d).trans (VR1_main_arg2 m d)
theorem VC_main_arg3 (m : (ℓ : Loc nD τ sig) → Buf (Elt F) ℓ) (d : Dev nD) : VC m d (Proc.devRef .tc main_arg3) = m ((d.tc : Thread nD τ).loc main_arg3) :=
  (VC_keep (r := main_arg3) (by decide) m d).trans (VR1_main_arg3 m d)
theorem VC_main_arg4 (m : (ℓ : Loc nD τ sig) → Buf (Elt F) ℓ) (d : Dev nD) : VC m d (Proc.devRef .tc main_arg4) = m ((d.tc : Thread nD τ).loc main_arg4) :=
  (VC_keep (r := main_arg4) (by decide) m d).trans (VR1_main_arg4 m d)
theorem VC_main_arg5 (m : (ℓ : Loc nD τ sig) → Buf (Elt F) ℓ) (d : Dev nD) : VC m d (Proc.devRef .tc main_arg5) = m ((d.tc : Thread nD τ).loc main_arg5) :=
  (VC_keep (r := main_arg5) (by decide) m d).trans (VR1_main_arg5 m d)
theorem VC_main_arg6 (m : (ℓ : Loc nD τ sig) → Buf (Elt F) ℓ) (d : Dev nD) : VC m d (Proc.devRef .tc main_arg6) = m ((d.tc : Thread nD τ).loc main_arg6) :=
  (VC_keep (r := main_arg6) (by decide) m d).trans (VR1_main_arg6 m d)
theorem VC_main_arg7 (m : (ℓ : Loc nD τ sig) → Buf (Elt F) ℓ) (d : Dev nD) : VC m d (Proc.devRef .tc main_arg7) = m ((d.tc : Thread nD τ).loc main_arg7) :=
  (VC_keep (r := main_arg7) (by decide) m d).trans (VR1_main_arg7 m d)
theorem VC_main_arg8 (m : (ℓ : Loc nD τ sig) → Buf (Elt F) ℓ) (d : Dev nD) : VC m d (Proc.devRef .tc main_arg8) = m ((d.tc : Thread nD τ).loc main_arg8) :=
  (VC_keep (r := main_arg8) (by decide) m d).trans (VR1_main_arg8 m d)
theorem VC_main_arg9 (m : (ℓ : Loc nD τ sig) → Buf (Elt F) ℓ) (d : Dev nD) : VC m d (Proc.devRef .tc main_arg9) = m ((d.tc : Thread nD τ).loc main_arg9) :=
  (VC_keep (r := main_arg9) (by decide) m d).trans (VR1_main_arg9 m d)
theorem VC_main_arg10 (m : (ℓ : Loc nD τ sig) → Buf (Elt F) ℓ) (d : Dev nD) : VC m d (Proc.devRef .tc main_arg10) = m ((d.tc : Thread nD τ).loc main_arg10) :=
  (VC_keep (r := main_arg10) (by decide) m d).trans (VR1_main_arg10 m d)
theorem VC_main_arg11 (m : (ℓ : Loc nD τ sig) → Buf (Elt F) ℓ) (d : Dev nD) : VC m d (Proc.devRef .tc main_arg11) = m ((d.tc : Thread nD τ).loc main_arg11) :=
  (VC_keep (r := main_arg11) (by decide) m d).trans (VR1_main_arg11 m d)
theorem VC_main_arg12 (m : (ℓ : Loc nD τ sig) → Buf (Elt F) ℓ) (d : Dev nD) : VC m d (Proc.devRef .tc main_arg12) = m ((d.tc : Thread nD τ).loc main_arg12) :=
  (VC_keep (r := main_arg12) (by decide) m d).trans (VR1_main_arg12 m d)
theorem VC_main_arg13 (m : (ℓ : Loc nD τ sig) → Buf (Elt F) ℓ) (d : Dev nD) : VC m d (Proc.devRef .tc main_arg13) = m ((d.tc : Thread nD τ).loc main_arg13) :=
  (VC_keep (r := main_arg13) (by decide) m d).trans (VR1_main_arg13 m d)
theorem VC_main_arg14 (m : (ℓ : Loc nD τ sig) → Buf (Elt F) ℓ) (d : Dev nD) : VC m d (Proc.devRef .tc main_arg14) = m ((d.tc : Thread nD τ).loc main_arg14) :=
  (VC_keep (r := main_arg14) (by decide) m d).trans (VR1_main_arg14 m d)
theorem VC_main_arg15 (m : (ℓ : Loc nD τ sig) → Buf (Elt F) ℓ) (d : Dev nD) : VC m d (Proc.devRef .tc main_arg15) = m ((d.tc : Thread nD τ).loc main_arg15) :=
  (VC_keep (r := main_arg15) (by decide) m d).trans (VR1_main_arg15 m d)
theorem VC_main_arg16 (m : (ℓ : Loc nD τ sig) → Buf (Elt F) ℓ) (d : Dev nD) : VC m d (Proc.devRef .tc main_arg16) = m ((d.tc : Thread nD τ).loc main_arg16) :=
  (VC_keep (r := main_arg16) (by decide) m d).trans (VR1_main_arg16 m d)
theorem VC_main_arg17 (m : (ℓ : Loc nD τ sig) → Buf (Elt F) ℓ) (d : Dev nD) : VC m d (Proc.devRef .tc main_arg17) = m ((d.tc : Thread nD τ).loc main_arg17) :=
  (VC_keep (r := main_arg17) (by decide) m d).trans (VR1_main_arg17 m d)
theorem VC_main_arg18 (m : (ℓ : Loc nD τ sig) → Buf (Elt F) ℓ) (d : Dev nD) : VC m d (Proc.devRef .tc main_arg18) = m ((d.tc : Thread nD τ).loc main_arg18) :=
  (VC_keep (r := main_arg18) (by decide) m d).trans (VR1_main_arg18 m d)
theorem VC_main_arg19 (m : (ℓ : Loc nD τ sig) → Buf (Elt F) ℓ) (d : Dev nD) : VC m d (Proc.devRef .tc main_arg19) = m ((d.tc : Thread nD τ).loc main_arg19) :=
  (VC_keep (r := main_arg19) (by decide) m d).trans (VR1_main_arg19 m d)
theorem VC_main_arg20 (m : (ℓ : Loc nD τ sig) → Buf (Elt F) ℓ) (d : Dev nD) : VC m d (Proc.devRef .tc main_arg20) = m ((d.tc : Thread nD τ).loc main_arg20) :=
  (VC_keep (r := main_arg20) (by decide) m d).trans (VR1_main_arg20 m d)

theorem VD_main_arg0 (m : (ℓ : Loc nD τ sig) → Buf (Elt F) ℓ) (d : Dev nD) : VD m d (Proc.devRef .tc main_arg0) = m ((d.tc : Thread nD τ).loc main_arg0) :=
  (VD_keep (r := main_arg0) (by decide) m d).trans (VC_main_arg0 m d)
theorem VD_main_arg1 (m : (ℓ : Loc nD τ sig) → Buf (Elt F) ℓ) (d : Dev nD) : VD m d (Proc.devRef .tc main_arg1) = m ((d.tc : Thread nD τ).loc main_arg1) :=
  (VD_keep (r := main_arg1) (by decide) m d).trans (VC_main_arg1 m d)
theorem VD_main_arg2 (m : (ℓ : Loc nD τ sig) → Buf (Elt F) ℓ) (d : Dev nD) : VD m d (Proc.devRef .tc main_arg2) = m ((d.tc : Thread nD τ).loc main_arg2) :=
  (VD_keep (r := main_arg2) (by decide) m d).trans (VC_main_arg2 m d)
theorem VD_main_arg3 (m : (ℓ : Loc nD τ sig) → Buf (Elt F) ℓ) (d : Dev nD) : VD m d (Proc.devRef .tc main_arg3) = m ((d.tc : Thread nD τ).loc main_arg3) :=
  (VD_keep (r := main_arg3) (by decide) m d).trans (VC_main_arg3 m d)
theorem VD_main_arg4 (m : (ℓ : Loc nD τ sig) → Buf (Elt F) ℓ) (d : Dev nD) : VD m d (Proc.devRef .tc main_arg4) = m ((d.tc : Thread nD τ).loc main_arg4) :=
  (VD_keep (r := main_arg4) (by decide) m d).trans (VC_main_arg4 m d)
theorem VD_main_arg5 (m : (ℓ : Loc nD τ sig) → Buf (Elt F) ℓ) (d : Dev nD) : VD m d (Proc.devRef .tc main_arg5) = m ((d.tc : Thread nD τ).loc main_arg5) :=
  (VD_keep (r := main_arg5) (by decide) m d).trans (VC_main_arg5 m d)
theorem VD_main_arg6 (m : (ℓ : Loc nD τ sig) → Buf (Elt F) ℓ) (d : Dev nD) : VD m d (Proc.devRef .tc main_arg6) = m ((d.tc : Thread nD τ).loc main_arg6) :=
  (VD_keep (r := main_arg6) (by decide) m d).trans (VC_main_arg6 m d)
theorem VD_main_arg7 (m : (ℓ : Loc nD τ sig) → Buf (Elt F) ℓ) (d : Dev nD) : VD m d (Proc.devRef .tc main_arg7) = m ((d.tc : Thread nD τ).loc main_arg7) :=
  (VD_keep (r := main_arg7) (by decide) m d).trans (VC_main_arg7 m d)
theorem VD_main_arg8 (m : (ℓ : Loc nD τ sig) → Buf (Elt F) ℓ) (d : Dev nD) : VD m d (Proc.devRef .tc main_arg8) = m ((d.tc : Thread nD τ).loc main_arg8) :=
  (VD_keep (r := main_arg8) (by decide) m d).trans (VC_main_arg8 m d)
theorem VD_main_arg9 (m : (ℓ : Loc nD τ sig) → Buf (Elt F) ℓ) (d : Dev nD) : VD m d (Proc.devRef .tc main_arg9) = m ((d.tc : Thread nD τ).loc main_arg9) :=
  (VD_keep (r := main_arg9) (by decide) m d).trans (VC_main_arg9 m d)
theorem VD_main_arg10 (m : (ℓ : Loc nD τ sig) → Buf (Elt F) ℓ) (d : Dev nD) : VD m d (Proc.devRef .tc main_arg10) = m ((d.tc : Thread nD τ).loc main_arg10) :=
  (VD_keep (r := main_arg10) (by decide) m d).trans (VC_main_arg10 m d)
theorem VD_main_arg11 (m : (ℓ : Loc nD τ sig) → Buf (Elt F) ℓ) (d : Dev nD) : VD m d (Proc.devRef .tc main_arg11) = m ((d.tc : Thread nD τ).loc main_arg11) :=
  (VD_keep (r := main_arg11) (by decide) m d).trans (VC_main_arg11 m d)
theorem VD_main_arg12 (m : (ℓ : Loc nD τ sig) → Buf (Elt F) ℓ) (d : Dev nD) : VD m d (Proc.devRef .tc main_arg12) = m ((d.tc : Thread nD τ).loc main_arg12) :=
  (VD_keep (r := main_arg12) (by decide) m d).trans (VC_main_arg12 m d)
theorem VD_main_arg13 (m : (ℓ : Loc nD τ sig) → Buf (Elt F) ℓ) (d : Dev nD) : VD m d (Proc.devRef .tc main_arg13) = m ((d.tc : Thread nD τ).loc main_arg13) :=
  (VD_keep (r := main_arg13) (by decide) m d).trans (VC_main_arg13 m d)
theorem VD_main_arg14 (m : (ℓ : Loc nD τ sig) → Buf (Elt F) ℓ) (d : Dev nD) : VD m d (Proc.devRef .tc main_arg14) = m ((d.tc : Thread nD τ).loc main_arg14) :=
  (VD_keep (r := main_arg14) (by decide) m d).trans (VC_main_arg14 m d)
theorem VD_main_arg15 (m : (ℓ : Loc nD τ sig) → Buf (Elt F) ℓ) (d : Dev nD) : VD m d (Proc.devRef .tc main_arg15) = m ((d.tc : Thread nD τ).loc main_arg15) :=
  (VD_keep (r := main_arg15) (by decide) m d).trans (VC_main_arg15 m d)
theorem VD_main_arg16 (m : (ℓ : Loc nD τ sig) → Buf (Elt F) ℓ) (d : Dev nD) : VD m d (Proc.devRef .tc main_arg16) = m ((d.tc : Thread nD τ).loc main_arg16) :=
  (VD_keep (r := main_arg16) (by decide) m d).trans (VC_main_arg16 m d)
theorem VD_main_arg17 (m : (ℓ : Loc nD τ sig) → Buf (Elt F) ℓ) (d : Dev nD) : VD m d (Proc.devRef .tc main_arg17) = m ((d.tc : Thread nD τ).loc main_arg17) :=
  (VD_keep (r := main_arg17) (by decide) m d).trans (VC_main_arg17 m d)
theorem VD_main_arg18 (m : (ℓ : Loc nD τ sig) → Buf (Elt F) ℓ) (d : Dev nD) : VD m d (Proc.devRef .tc main_arg18) = m ((d.tc : Thread nD τ).loc main_arg18) :=
  (VD_keep (r := main_arg18) (by decide) m d).trans (VC_main_arg18 m d)
theorem VD_main_arg19 (m : (ℓ : Loc nD τ sig) → Buf (Elt F) ℓ) (d : Dev nD) : VD m d (Proc.devRef .tc main_arg19) = m ((d.tc : Thread nD τ).loc main_arg19) :=
  (VD_keep (r := main_arg19) (by decide) m d).trans (VC_main_arg19 m d)
theorem VD_main_arg20 (m : (ℓ : Loc nD τ sig) → Buf (Elt F) ℓ) (d : Dev nD) : VD m d (Proc.devRef .tc main_arg20) = m ((d.tc : Thread nD τ).loc main_arg20) :=
  (VD_keep (r := main_arg20) (by decide) m d).trans (VC_main_arg20 m d)

theorem VV2_main_arg0 (m : (ℓ : Loc nD τ sig) → Buf (Elt F) ℓ) (d : Dev nD) : VV2 m d (Proc.devRef .tc main_arg0) = m ((d.tc : Thread nD τ).loc main_arg0) :=
  (VV2_keep (r := main_arg0) (by decide) m d).trans (VD_main_arg0 m d)
theorem VV2_main_arg1 (m : (ℓ : Loc nD τ sig) → Buf (Elt F) ℓ) (d : Dev nD) : VV2 m d (Proc.devRef .tc main_arg1) = m ((d.tc : Thread nD τ).loc main_arg1) :=
  (VV2_keep (r := main_arg1) (by decide) m d).trans (VD_main_arg1 m d)
theorem VV2_main_arg2 (m : (ℓ : Loc nD τ sig) → Buf (Elt F) ℓ) (d : Dev nD) : VV2 m d (Proc.devRef .tc main_arg2) = m ((d.tc : Thread nD τ).loc main_arg2) :=
  (VV2_keep (r := main_arg2) (by decide) m d).trans (VD_main_arg2 m d)
theorem VV2_main_arg3 (m : (ℓ : Loc nD τ sig) → Buf (Elt F) ℓ) (d : Dev nD) : VV2 m d (Proc.devRef .tc main_arg3) = m ((d.tc : Thread nD τ).loc main_arg3) :=
  (VV2_keep (r := main_arg3) (by decide) m d).trans (VD_main_arg3 m d)
theorem VV2_main_arg4 (m : (ℓ : Loc nD τ sig) → Buf (Elt F) ℓ) (d : Dev nD) : VV2 m d (Proc.devRef .tc main_arg4) = m ((d.tc : Thread nD τ).loc main_arg4) :=
  (VV2_keep (r := main_arg4) (by decide) m d).trans (VD_main_arg4 m d)
theorem VV2_main_arg5 (m : (ℓ : Loc nD τ sig) → Buf (Elt F) ℓ) (d : Dev nD) : VV2 m d (Proc.devRef .tc main_arg5) = m ((d.tc : Thread nD τ).loc main_arg5) :=
  (VV2_keep (r := main_arg5) (by decide) m d).trans (VD_main_arg5 m d)
theorem VV2_main_arg6 (m : (ℓ : Loc nD τ sig) → Buf (Elt F) ℓ) (d : Dev nD) : VV2 m d (Proc.devRef .tc main_arg6) = m ((d.tc : Thread nD τ).loc main_arg6) :=
  (VV2_keep (r := main_arg6) (by decide) m d).trans (VD_main_arg6 m d)
theorem VV2_main_arg7 (m : (ℓ : Loc nD τ sig) → Buf (Elt F) ℓ) (d : Dev nD) : VV2 m d (Proc.devRef .tc main_arg7) = m ((d.tc : Thread nD τ).loc main_arg7) :=
  (VV2_keep (r := main_arg7) (by decide) m d).trans (VD_main_arg7 m d)
theorem VV2_main_arg8 (m : (ℓ : Loc nD τ sig) → Buf (Elt F) ℓ) (d : Dev nD) : VV2 m d (Proc.devRef .tc main_arg8) = m ((d.tc : Thread nD τ).loc main_arg8) :=
  (VV2_keep (r := main_arg8) (by decide) m d).trans (VD_main_arg8 m d)
theorem VV2_main_arg9 (m : (ℓ : Loc nD τ sig) → Buf (Elt F) ℓ) (d : Dev nD) : VV2 m d (Proc.devRef .tc main_arg9) = m ((d.tc : Thread nD τ).loc main_arg9) :=
  (VV2_keep (r := main_arg9) (by decide) m d).trans (VD_main_arg9 m d)
theorem VV2_main_arg10 (m : (ℓ : Loc nD τ sig) → Buf (Elt F) ℓ) (d : Dev nD) : VV2 m d (Proc.devRef .tc main_arg10) = m ((d.tc : Thread nD τ).loc main_arg10) :=
  (VV2_keep (r := main_arg10) (by decide) m d).trans (VD_main_arg10 m d)
theorem VV2_main_arg11 (m : (ℓ : Loc nD τ sig) → Buf (Elt F) ℓ) (d : Dev nD) : VV2 m d (Proc.devRef .tc main_arg11) = m ((d.tc : Thread nD τ).loc main_arg11) :=
  (VV2_keep (r := main_arg11) (by decide) m d).trans (VD_main_arg11 m d)
theorem VV2_main_arg12 (m : (ℓ : Loc nD τ sig) → Buf (Elt F) ℓ) (d : Dev nD) : VV2 m d (Proc.devRef .tc main_arg12) = m ((d.tc : Thread nD τ).loc main_arg12) :=
  (VV2_keep (r := main_arg12) (by decide) m d).trans (VD_main_arg12 m d)
theorem VV2_main_arg13 (m : (ℓ : Loc nD τ sig) → Buf (Elt F) ℓ) (d : Dev nD) : VV2 m d (Proc.devRef .tc main_arg13) = m ((d.tc : Thread nD τ).loc main_arg13) :=
  (VV2_keep (r := main_arg13) (by decide) m d).trans (VD_main_arg13 m d)
theorem VV2_main_arg14 (m : (ℓ : Loc nD τ sig) → Buf (Elt F) ℓ) (d : Dev nD) : VV2 m d (Proc.devRef .tc main_arg14) = m ((d.tc : Thread nD τ).loc main_arg14) :=
  (VV2_keep (r := main_arg14) (by decide) m d).trans (VD_main_arg14 m d)
theorem VV2_main_arg15 (m : (ℓ : Loc nD τ sig) → Buf (Elt F) ℓ) (d : Dev nD) : VV2 m d (Proc.devRef .tc main_arg15) = m ((d.tc : Thread nD τ).loc main_arg15) :=
  (VV2_keep (r := main_arg15) (by decide) m d).trans (VD_main_arg15 m d)
theorem VV2_main_arg16 (m : (ℓ : Loc nD τ sig) → Buf (Elt F) ℓ) (d : Dev nD) : VV2 m d (Proc.devRef .tc main_arg16) = m ((d.tc : Thread nD τ).loc main_arg16) :=
  (VV2_keep (r := main_arg16) (by decide) m d).trans (VD_main_arg16 m d)
theorem VV2_main_arg17 (m : (ℓ : Loc nD τ sig) → Buf (Elt F) ℓ) (d : Dev nD) : VV2 m d (Proc.devRef .tc main_arg17) = m ((d.tc : Thread nD τ).loc main_arg17) :=
  (VV2_keep (r := main_arg17) (by decide) m d).trans (VD_main_arg17 m d)
theorem VV2_main_arg18 (m : (ℓ : Loc nD τ sig) → Buf (Elt F) ℓ) (d : Dev nD) : VV2 m d (Proc.devRef .tc main_arg18) = m ((d.tc : Thread nD τ).loc main_arg18) :=
  (VV2_keep (r := main_arg18) (by decide) m d).trans (VD_main_arg18 m d)
theorem VV2_main_arg19 (m : (ℓ : Loc nD τ sig) → Buf (Elt F) ℓ) (d : Dev nD) : VV2 m d (Proc.devRef .tc main_arg19) = m ((d.tc : Thread nD τ).loc main_arg19) :=
  (VV2_keep (r := main_arg19) (by decide) m d).trans (VD_main_arg19 m d)
theorem VV2_main_arg20 (m : (ℓ : Loc nD τ sig) → Buf (Elt F) ℓ) (d : Dev nD) : VV2 m d (Proc.devRef .tc main_arg20) = m ((d.tc : Thread nD τ).loc main_arg20) :=
  (VV2_keep (r := main_arg20) (by decide) m d).trans (VD_main_arg20 m d)

theorem VE_main_arg0 (m : (ℓ : Loc nD τ sig) → Buf (Elt F) ℓ) (d : Dev nD) : VE m d (Proc.devRef .tc main_arg0) = m ((d.tc : Thread nD τ).loc main_arg0) :=
  (VE_keep (r := main_arg0) (by decide) m d).trans (VV2_main_arg0 m d)
theorem VE_main_arg1 (m : (ℓ : Loc nD τ sig) → Buf (Elt F) ℓ) (d : Dev nD) : VE m d (Proc.devRef .tc main_arg1) = m ((d.tc : Thread nD τ).loc main_arg1) :=
  (VE_keep (r := main_arg1) (by decide) m d).trans (VV2_main_arg1 m d)
theorem VE_main_arg2 (m : (ℓ : Loc nD τ sig) → Buf (Elt F) ℓ) (d : Dev nD) : VE m d (Proc.devRef .tc main_arg2) = m ((d.tc : Thread nD τ).loc main_arg2) :=
  (VE_keep (r := main_arg2) (by decide) m d).trans (VV2_main_arg2 m d)
theorem VE_main_arg3 (m : (ℓ : Loc nD τ sig) → Buf (Elt F) ℓ) (d : Dev nD) : VE m d (Proc.devRef .tc main_arg3) = m ((d.tc : Thread nD τ).loc main_arg3) :=
  (VE_keep (r := main_arg3) (by decide) m d).trans (VV2_main_arg3 m d)
theorem VE_main_arg4 (m : (ℓ : Loc nD τ sig) → Buf (Elt F) ℓ) (d : Dev nD) : VE m d (Proc.devRef .tc main_arg4) = m ((d.tc : Thread nD τ).loc main_arg4) :=
  (VE_keep (r := main_arg4) (by decide) m d).trans (VV2_main_arg4 m d)
theorem VE_main_arg5 (m : (ℓ : Loc nD τ sig) → Buf (Elt F) ℓ) (d : Dev nD) : VE m d (Proc.devRef .tc main_arg5) = m ((d.tc : Thread nD τ).loc main_arg5) :=
  (VE_keep (r := main_arg5) (by decide) m d).trans (VV2_main_arg5 m d)
theorem VE_main_arg6 (m : (ℓ : Loc nD τ sig) → Buf (Elt F) ℓ) (d : Dev nD) : VE m d (Proc.devRef .tc main_arg6) = m ((d.tc : Thread nD τ).loc main_arg6) :=
  (VE_keep (r := main_arg6) (by decide) m d).trans (VV2_main_arg6 m d)
theorem VE_main_arg7 (m : (ℓ : Loc nD τ sig) → Buf (Elt F) ℓ) (d : Dev nD) : VE m d (Proc.devRef .tc main_arg7) = m ((d.tc : Thread nD τ).loc main_arg7) :=
  (VE_keep (r := main_arg7) (by decide) m d).trans (VV2_main_arg7 m d)
theorem VE_main_arg8 (m : (ℓ : Loc nD τ sig) → Buf (Elt F) ℓ) (d : Dev nD) : VE m d (Proc.devRef .tc main_arg8) = m ((d.tc : Thread nD τ).loc main_arg8) :=
  (VE_keep (r := main_arg8) (by decide) m d).trans (VV2_main_arg8 m d)
theorem VE_main_arg9 (m : (ℓ : Loc nD τ sig) → Buf (Elt F) ℓ) (d : Dev nD) : VE m d (Proc.devRef .tc main_arg9) = m ((d.tc : Thread nD τ).loc main_arg9) :=
  (VE_keep (r := main_arg9) (by decide) m d).trans (VV2_main_arg9 m d)
theorem VE_main_arg10 (m : (ℓ : Loc nD τ sig) → Buf (Elt F) ℓ) (d : Dev nD) : VE m d (Proc.devRef .tc main_arg10) = m ((d.tc : Thread nD τ).loc main_arg10) :=
  (VE_keep (r := main_arg10) (by decide) m d).trans (VV2_main_arg10 m d)
theorem VE_main_arg11 (m : (ℓ : Loc nD τ sig) → Buf (Elt F) ℓ) (d : Dev nD) : VE m d (Proc.devRef .tc main_arg11) = m ((d.tc : Thread nD τ).loc main_arg11) :=
  (VE_keep (r := main_arg11) (by decide) m d).trans (VV2_main_arg11 m d)
theorem VE_main_arg12 (m : (ℓ : Loc nD τ sig) → Buf (Elt F) ℓ) (d : Dev nD) : VE m d (Proc.devRef .tc main_arg12) = m ((d.tc : Thread nD τ).loc main_arg12) :=
  (VE_keep (r := main_arg12) (by decide) m d).trans (VV2_main_arg12 m d)
theorem VE_main_arg13 (m : (ℓ : Loc nD τ sig) → Buf (Elt F) ℓ) (d : Dev nD) : VE m d (Proc.devRef .tc main_arg13) = m ((d.tc : Thread nD τ).loc main_arg13) :=
  (VE_keep (r := main_arg13) (by decide) m d).trans (VV2_main_arg13 m d)
theorem VE_main_arg14 (m : (ℓ : Loc nD τ sig) → Buf (Elt F) ℓ) (d : Dev nD) : VE m d (Proc.devRef .tc main_arg14) = m ((d.tc : Thread nD τ).loc main_arg14) :=
  (VE_keep (r := main_arg14) (by decide) m d).trans (VV2_main_arg14 m d)
theorem VE_main_arg15 (m : (ℓ : Loc nD τ sig) → Buf (Elt F) ℓ) (d : Dev nD) : VE m d (Proc.devRef .tc main_arg15) = m ((d.tc : Thread nD τ).loc main_arg15) :=
  (VE_keep (r := main_arg15) (by decide) m d).trans (VV2_main_arg15 m d)
theorem VE_main_arg16 (m : (ℓ : Loc nD τ sig) → Buf (Elt F) ℓ) (d : Dev nD) : VE m d (Proc.devRef .tc main_arg16) = m ((d.tc : Thread nD τ).loc main_arg16) :=
  (VE_keep (r := main_arg16) (by decide) m d).trans (VV2_main_arg16 m d)
theorem VE_main_arg17 (m : (ℓ : Loc nD τ sig) → Buf (Elt F) ℓ) (d : Dev nD) : VE m d (Proc.devRef .tc main_arg17) = m ((d.tc : Thread nD τ).loc main_arg17) :=
  (VE_keep (r := main_arg17) (by decide) m d).trans (VV2_main_arg17 m d)
theorem VE_main_arg18 (m : (ℓ : Loc nD τ sig) → Buf (Elt F) ℓ) (d : Dev nD) : VE m d (Proc.devRef .tc main_arg18) = m ((d.tc : Thread nD τ).loc main_arg18) :=
  (VE_keep (r := main_arg18) (by decide) m d).trans (VV2_main_arg18 m d)
theorem VE_main_arg19 (m : (ℓ : Loc nD τ sig) → Buf (Elt F) ℓ) (d : Dev nD) : VE m d (Proc.devRef .tc main_arg19) = m ((d.tc : Thread nD τ).loc main_arg19) :=
  (VE_keep (r := main_arg19) (by decide) m d).trans (VV2_main_arg19 m d)
theorem VE_main_arg20 (m : (ℓ : Loc nD τ sig) → Buf (Elt F) ℓ) (d : Dev nD) : VE m d (Proc.devRef .tc main_arg20) = m ((d.tc : Thread nD τ).loc main_arg20) :=
  (VE_keep (r := main_arg20) (by decide) m d).trans (VV2_main_arg20 m d)

theorem VR2_main_arg0 (m : (ℓ : Loc nD τ sig) → Buf (Elt F) ℓ) (d : Dev nD) : VR2 m d (Proc.devRef .tc main_arg0) = m ((d.tc : Thread nD τ).loc main_arg0) :=
  (VR2_keep (r := main_arg0) (by decide) m d).trans (VE_main_arg0 m d)
theorem VR2_main_arg1 (m : (ℓ : Loc nD τ sig) → Buf (Elt F) ℓ) (d : Dev nD) : VR2 m d (Proc.devRef .tc main_arg1) = m ((d.tc : Thread nD τ).loc main_arg1) :=
  (VR2_keep (r := main_arg1) (by decide) m d).trans (VE_main_arg1 m d)
theorem VR2_main_arg2 (m : (ℓ : Loc nD τ sig) → Buf (Elt F) ℓ) (d : Dev nD) : VR2 m d (Proc.devRef .tc main_arg2) = m ((d.tc : Thread nD τ).loc main_arg2) :=
  (VR2_keep (r := main_arg2) (by decide) m d).trans (VE_main_arg2 m d)
theorem VR2_main_arg3 (m : (ℓ : Loc nD τ sig) → Buf (Elt F) ℓ) (d : Dev nD) : VR2 m d (Proc.devRef .tc main_arg3) = m ((d.tc : Thread nD τ).loc main_arg3) :=
  (VR2_keep (r := main_arg3) (by decide) m d).trans (VE_main_arg3 m d)
theorem VR2_main_arg4 (m : (ℓ : Loc nD τ sig) → Buf (Elt F) ℓ) (d : Dev nD) : VR2 m d (Proc.devRef .tc main_arg4) = m ((d.tc : Thread nD τ).loc main_arg4) :=
  (VR2_keep (r := main_arg4) (by decide) m d).trans (VE_main_arg4 m d)
theorem VR2_main_arg5 (m : (ℓ : Loc nD τ sig) → Buf (Elt F) ℓ) (d : Dev nD) : VR2 m d (Proc.devRef .tc main_arg5) = m ((d.tc : Thread nD τ).loc main_arg5) :=
  (VR2_keep (r := main_arg5) (by decide) m d).trans (VE_main_arg5 m d)
theorem VR2_main_arg6 (m : (ℓ : Loc nD τ sig) → Buf (Elt F) ℓ) (d : Dev nD) : VR2 m d (Proc.devRef .tc main_arg6) = m ((d.tc : Thread nD τ).loc main_arg6) :=
  (VR2_keep (r := main_arg6) (by decide) m d).trans (VE_main_arg6 m d)
theorem VR2_main_arg7 (m : (ℓ : Loc nD τ sig) → Buf (Elt F) ℓ) (d : Dev nD) : VR2 m d (Proc.devRef .tc main_arg7) = m ((d.tc : Thread nD τ).loc main_arg7) :=
  (VR2_keep (r := main_arg7) (by decide) m d).trans (VE_main_arg7 m d)
theorem VR2_main_arg8 (m : (ℓ : Loc nD τ sig) → Buf (Elt F) ℓ) (d : Dev nD) : VR2 m d (Proc.devRef .tc main_arg8) = m ((d.tc : Thread nD τ).loc main_arg8) :=
  (VR2_keep (r := main_arg8) (by decide) m d).trans (VE_main_arg8 m d)
theorem VR2_main_arg9 (m : (ℓ : Loc nD τ sig) → Buf (Elt F) ℓ) (d : Dev nD) : VR2 m d (Proc.devRef .tc main_arg9) = m ((d.tc : Thread nD τ).loc main_arg9) :=
  (VR2_keep (r := main_arg9) (by decide) m d).trans (VE_main_arg9 m d)
theorem VR2_main_arg10 (m : (ℓ : Loc nD τ sig) → Buf (Elt F) ℓ) (d : Dev nD) : VR2 m d (Proc.devRef .tc main_arg10) = m ((d.tc : Thread nD τ).loc main_arg10) :=
  (VR2_keep (r := main_arg10) (by decide) m d).trans (VE_main_arg10 m d)
theorem VR2_main_arg11 (m : (ℓ : Loc nD τ sig) → Buf (Elt F) ℓ) (d : Dev nD) : VR2 m d (Proc.devRef .tc main_arg11) = m ((d.tc : Thread nD τ).loc main_arg11) :=
  (VR2_keep (r := main_arg11) (by decide) m d).trans (VE_main_arg11 m d)
theorem VR2_main_arg12 (m : (ℓ : Loc nD τ sig) → Buf (Elt F) ℓ) (d : Dev nD) : VR2 m d (Proc.devRef .tc main_arg12) = m ((d.tc : Thread nD τ).loc main_arg12) :=
  (VR2_keep (r := main_arg12) (by decide) m d).trans (VE_main_arg12 m d)
theorem VR2_main_arg13 (m : (ℓ : Loc nD τ sig) → Buf (Elt F) ℓ) (d : Dev nD) : VR2 m d (Proc.devRef .tc main_arg13) = m ((d.tc : Thread nD τ).loc main_arg13) :=
  (VR2_keep (r := main_arg13) (by decide) m d).trans (VE_main_arg13 m d)
theorem VR2_main_arg14 (m : (ℓ : Loc nD τ sig) → Buf (Elt F) ℓ) (d : Dev nD) : VR2 m d (Proc.devRef .tc main_arg14) = m ((d.tc : Thread nD τ).loc main_arg14) :=
  (VR2_keep (r := main_arg14) (by decide) m d).trans (VE_main_arg14 m d)
theorem VR2_main_arg15 (m : (ℓ : Loc nD τ sig) → Buf (Elt F) ℓ) (d : Dev nD) : VR2 m d (Proc.devRef .tc main_arg15) = m ((d.tc : Thread nD τ).loc main_arg15) :=
  (VR2_keep (r := main_arg15) (by decide) m d).trans (VE_main_arg15 m d)
theorem VR2_main_arg16 (m : (ℓ : Loc nD τ sig) → Buf (Elt F) ℓ) (d : Dev nD) : VR2 m d (Proc.devRef .tc main_arg16) = m ((d.tc : Thread nD τ).loc main_arg16) :=
  (VR2_keep (r := main_arg16) (by decide) m d).trans (VE_main_arg16 m d)
theorem VR2_main_arg17 (m : (ℓ : Loc nD τ sig) → Buf (Elt F) ℓ) (d : Dev nD) : VR2 m d (Proc.devRef .tc main_arg17) = m ((d.tc : Thread nD τ).loc main_arg17) :=
  (VR2_keep (r := main_arg17) (by decide) m d).trans (VE_main_arg17 m d)
theorem VR2_main_arg18 (m : (ℓ : Loc nD τ sig) → Buf (Elt F) ℓ) (d : Dev nD) : VR2 m d (Proc.devRef .tc main_arg18) = m ((d.tc : Thread nD τ).loc main_arg18) :=
  (VR2_keep (r := main_arg18) (by decide) m d).trans (VE_main_arg18 m d)
theorem VR2_main_arg19 (m : (ℓ : Loc nD τ sig) → Buf (Elt F) ℓ) (d : Dev nD) : VR2 m d (Proc.devRef .tc main_arg19) = m ((d.tc : Thread nD τ).loc main_arg19) :=
  (VR2_keep (r := main_arg19) (by decide) m d).trans (VE_main_arg19 m d)
theorem VR2_main_arg20 (m : (ℓ : Loc nD τ sig) → Buf (Elt F) ℓ) (d : Dev nD) : VR2 m d (Proc.devRef .tc main_arg20) = m ((d.tc : Thread nD τ).loc main_arg20) :=
  (VR2_keep (r := main_arg20) (by decide) m d).trans (VE_main_arg20 m d)

theorem VT_main_arg0 (m : (ℓ : Loc nD τ sig) → Buf (Elt F) ℓ) (d : Dev nD) : VT m d (Proc.devRef .tc main_arg0) = m ((d.tc : Thread nD τ).loc main_arg0) :=
  (VT_keep (r := main_arg0) (by decide) m d).trans (VR2_main_arg0 m d)
theorem VT_main_arg1 (m : (ℓ : Loc nD τ sig) → Buf (Elt F) ℓ) (d : Dev nD) : VT m d (Proc.devRef .tc main_arg1) = m ((d.tc : Thread nD τ).loc main_arg1) :=
  (VT_keep (r := main_arg1) (by decide) m d).trans (VR2_main_arg1 m d)
theorem VT_main_arg2 (m : (ℓ : Loc nD τ sig) → Buf (Elt F) ℓ) (d : Dev nD) : VT m d (Proc.devRef .tc main_arg2) = m ((d.tc : Thread nD τ).loc main_arg2) :=
  (VT_keep (r := main_arg2) (by decide) m d).trans (VR2_main_arg2 m d)
theorem VT_main_arg3 (m : (ℓ : Loc nD τ sig) → Buf (Elt F) ℓ) (d : Dev nD) : VT m d (Proc.devRef .tc main_arg3) = m ((d.tc : Thread nD τ).loc main_arg3) :=
  (VT_keep (r := main_arg3) (by decide) m d).trans (VR2_main_arg3 m d)
theorem VT_main_arg4 (m : (ℓ : Loc nD τ sig) → Buf (Elt F) ℓ) (d : Dev nD) : VT m d (Proc.devRef .tc main_arg4) = m ((d.tc : Thread nD τ).loc main_arg4) :=
  (VT_keep (r := main_arg4) (by decide) m d).trans (VR2_main_arg4 m d)
theorem VT_main_arg5 (m : (ℓ : Loc nD τ sig) → Buf (Elt F) ℓ) (d : Dev nD) : VT m d (Proc.devRef .tc main_arg5) = m ((d.tc : Thread nD τ).loc main_arg5) :=
  (VT_keep (r := main_arg5) (by decide) m d).trans (VR2_main_arg5 m d)
theorem VT_main_arg6 (m : (ℓ : Loc nD τ sig) → Buf (Elt F) ℓ) (d : Dev nD) : VT m d (Proc.devRef .tc main_arg6) = m ((d.tc : Thread nD τ).loc main_arg6) :=
  (VT_keep (r := main_arg6) (by decide) m d).trans (VR2_main_arg6 m d)
theorem VT_main_arg7 (m : (ℓ : Loc nD τ sig) → Buf (Elt F) ℓ) (d : Dev nD) : VT m d (Proc.devRef .tc main_arg7) = m ((d.tc : Thread nD τ).loc main_arg7) :=
  (VT_keep (r := main_arg7) (by decide) m d).trans (VR2_main_arg7 m d)
theorem VT_main_arg8 (m : (ℓ : Loc nD τ sig) → Buf (Elt F) ℓ) (d : Dev nD) : VT m d (Proc.devRef .tc main_arg8) = m ((d.tc : Thread nD τ).loc main_arg8) :=
  (VT_keep (r := main_arg8) (by decide) m d).trans (VR2_main_arg8 m d)
theorem VT_main_arg9 (m : (ℓ : Loc nD τ sig) → Buf (Elt F) ℓ) (d : Dev nD) : VT m d (Proc.devRef .tc main_arg9) = m ((d.tc : Thread nD τ).loc main_arg9) :=
  (VT_keep (r := main_arg9) (by decide) m d).trans (VR2_main_arg9 m d)
theorem VT_main_arg10 (m : (ℓ : Loc nD τ sig) → Buf (Elt F) ℓ) (d : Dev nD) : VT m d (Proc.devRef .tc main_arg10) = m ((d.tc : Thread nD τ).loc main_arg10) :=
  (VT_keep (r := main_arg10) (by decide) m d).trans (VR2_main_arg10 m d)
theorem VT_main_arg11 (m : (ℓ : Loc nD τ sig) → Buf (Elt F) ℓ) (d : Dev nD) : VT m d (Proc.devRef .tc main_arg11) = m ((d.tc : Thread nD τ).loc main_arg11) :=
  (VT_keep (r := main_arg11) (by decide) m d).trans (VR2_main_arg11 m d)
theorem VT_main_arg12 (m : (ℓ : Loc nD τ sig) → Buf (Elt F) ℓ) (d : Dev nD) : VT m d (Proc.devRef .tc main_arg12) = m ((d.tc : Thread nD τ).loc main_arg12) :=
  (VT_keep (r := main_arg12) (by decide) m d).trans (VR2_main_arg12 m d)
theorem VT_main_arg13 (m : (ℓ : Loc nD τ sig) → Buf (Elt F) ℓ) (d : Dev nD) : VT m d (Proc.devRef .tc main_arg13) = m ((d.tc : Thread nD τ).loc main_arg13) :=
  (VT_keep (r := main_arg13) (by decide) m d).trans (VR2_main_arg13 m d)
theorem VT_main_arg14 (m : (ℓ : Loc nD τ sig) → Buf (Elt F) ℓ) (d : Dev nD) : VT m d (Proc.devRef .tc main_arg14) = m ((d.tc : Thread nD τ).loc main_arg14) :=
  (VT_keep (r := main_arg14) (by decide) m d).trans (VR2_main_arg14 m d)
theorem VT_main_arg15 (m : (ℓ : Loc nD τ sig) → Buf (Elt F) ℓ) (d : Dev nD) : VT m d (Proc.devRef .tc main_arg15) = m ((d.tc : Thread nD τ).loc main_arg15) :=
  (VT_keep (r := main_arg15) (by decide) m d).trans (VR2_main_arg15 m d)
theorem VT_main_arg16 (m : (ℓ : Loc nD τ sig) → Buf (Elt F) ℓ) (d : Dev nD) : VT m d (Proc.devRef .tc main_arg16) = m ((d.tc : Thread nD τ).loc main_arg16) :=
  (VT_keep (r := main_arg16) (by decide) m d).trans (VR2_main_arg16 m d)
theorem VT_main_arg17 (m : (ℓ : Loc nD τ sig) → Buf (Elt F) ℓ) (d : Dev nD) : VT m d (Proc.devRef .tc main_arg17) = m ((d.tc : Thread nD τ).loc main_arg17) :=
  (VT_keep (r := main_arg17) (by decide) m d).trans (VR2_main_arg17 m d)
theorem VT_main_arg18 (m : (ℓ : Loc nD τ sig) → Buf (Elt F) ℓ) (d : Dev nD) : VT m d (Proc.devRef .tc main_arg18) = m ((d.tc : Thread nD τ).loc main_arg18) :=
  (VT_keep (r := main_arg18) (by decide) m d).trans (VR2_main_arg18 m d)
theorem VT_main_arg19 (m : (ℓ : Loc nD τ sig) → Buf (Elt F) ℓ) (d : Dev nD) : VT m d (Proc.devRef .tc main_arg19) = m ((d.tc : Thread nD τ).loc main_arg19) :=
  (VT_keep (r := main_arg19) (by decide) m d).trans (VR2_main_arg19 m d)
theorem VT_main_arg20 (m : (ℓ : Loc nD τ sig) → Buf (Elt F) ℓ) (d : Dev nD) : VT m d (Proc.devRef .tc main_arg20) = m ((d.tc : Thread nD τ).loc main_arg20) :=
  (VT_keep (r := main_arg20) (by decide) m d).trans (VR2_main_arg20 m d)

end Cert.ReferenceIdeal.RefRun

end
-- ==== Proof.RefValue.lean ====
/- The reference program's stage values on the extended reals, index by index: each of its nine matrix products is
   rows times a matrix summed over the 64 feature columns; stage one's normalised and clamped table and stage two's
   (with its residual) are the column-wise normalisation of the stage output by its mean and variance; the two results
   are the two row ranges of the last table. -/
import proofs.«178339_j40699110097748_1_alg».proof.Proof.RefWalk
import proofs.«178339_j40699110097748_1_alg».proof.Proof.Spec
import Idealize.ShloMosaic.PureOps.Ideal.Laws
import Idealize.ShloMosaic.Lib.ValueIdx
import Idealize.ShloMosaic.Lib.Pipeline.Value

noncomputable section

namespace Cert.ReferenceIdeal.RefRun

open Cert.ReferenceIdeal Cert.ReferenceIdeal.Gen Idealize.ShloMosaic Idealize.ShloMosaic.TcCoe Idealize.SL.Sem Idealize.ShloMosaic.StableHlo
open Idealize.ShloMosaic.ValueIdx
open scoped BigOperators

/-! ## A matrix product of the program is rows times a matrix -/

/-- The one contraction the program uses: [100000, 64] × [64, 64], the left operand's columns against the right's rows. -/
abbrev D64 : DotDims S100000x64 S64x64 S100000x64 := dot_S100000x64_S64x64_S100000x64_1_0_0_1_n_n

theorem D64_lhs0 (j : S100000x64.Idx) (k : D64.contr.Idx) : (D64.lhsIdx j k 0 : ℕ) = j 0 := by
  simp [DotDims.lhsIdx, D64, dot_S100000x64_S64x64_S100000x64_1_0_0_1_n_n]; rfl
theorem D64_lhs1 (j : S100000x64.Idx) (k : D64.contr.Idx) : (D64.lhsIdx j k 1 : ℕ) = k ⟨0, by decide⟩ := by
  simp [DotDims.lhsIdx, D64, dot_S100000x64_S64x64_S100000x64_1_0_0_1_n_n]; rfl
theorem D64_rhs0 (j : S100000x64.Idx) (k : D64.contr.Idx) : (D64.rhsIdx j k 0 : ℕ) = k ⟨0, by decide⟩ := by
  simp [DotDims.rhsIdx, D64, dot_S100000x64_S64x64_S100000x64_1_0_0_1_n_n]; rfl
theorem D64_rhs1 (j : S100000x64.Idx) (k : D64.contr.Idx) : (D64.rhsIdx j k 1 : ℕ) = j 1 := by
  simp [DotDims.rhsIdx, D64, dot_S100000x64_S64x64_S100000x64_1_0_0_1_n_n]; rfl

/-- On the extended reals the host's matrix product read at (r, c) is Σ_k X[r, k]·W[k, c]: the sum over the
    contraction index re-indexed by its one coordinate. -/
theorem dot_is_mm (X : FVec Ideal S100000x64 .f32) (W : FVec Ideal S64x64 .f32) :
    Host.dotGeneral dot_S100000x64_S64x64_S100000x64_1_0_0_1_n_n none X W = Cert.Spec.mm X W := by
  funext j
  simp only [Host.dotGeneral]
  rw [Ideal.dotGeneral_apply]
  unfold Cert.Spec.mm
  rw [← Equiv.sum_comp (contrEquiv1 D64 64 rfl rfl).symm]
  refine Finset.sum_congr rfl fun k _ => ?_
  have hl : D64.lhsIdx j ((contrEquiv1 D64 64 rfl rfl).symm k) = ix2 (Cert.Spec.rowOf j) k := by
    funext a
    match a with
    | ⟨0, _⟩ => exact Fin.ext (D64_lhs0 j _)
    | ⟨1, _⟩ => exact Fin.ext ((D64_lhs1 j _).trans (contrEquiv1_symm_val D64 64 rfl rfl k))
  have hr : D64.rhsIdx j ((contrEquiv1 D64 64 rfl rfl).symm k) = ix2 k (Cert.Spec.colOf j) := by
    funext a
    match a with
    | ⟨0, _⟩ => exact Fin.ext ((D64_rhs0 j _).trans (contrEquiv1_symm_val D64 64 rfl rfl k))
    | ⟨1, _⟩ => exact Fin.ext (D64_rhs1 j _)
  rw [hl, hr]

/-! ## The nine matrix products -/

/-- `main_v27` is `main_v0` times `main_arg4`. -/
theorem VA_main_v27_mm (m : (ℓ : Loc nD τ sig) → Buf (Elt Ideal) ℓ) (d : Dev nD) :
    VA m d (Proc.devRef .tc main_v27) = Cert.Spec.mm (VA m d (Proc.devRef .tc main_v0)) (m ((d.tc : Thread nD τ).loc main_arg4)) := by
  have key : ∀ W : Valuation τ sig (Elt Ideal), after opsA W (Proc.devRef .tc main_v27)
      = Cert.Spec.mm (after opsA W (Proc.devRef .tc main_v0)) (W (Proc.devRef .tc main_arg4)) := by
    intro W; after_results_simp; exact dot_is_mm _ _
  refine (key (StableHlo.launchContents m d)).trans ?_
  rfl

/-- `main_v39` is `main_v0` times `main_arg5`. -/
theorem VA_main_v39_mm (m : (ℓ : Loc nD τ sig) → Buf (Elt Ideal) ℓ) (d : Dev nD) :
    VA m d (Proc.devRef .tc main_v39) = Cert.Spec.mm (VA m d (Proc.devRef .tc main_v0)) (m ((d.tc : Thread nD τ).loc main_arg5)) := by
  have key : ∀ W : Valuation τ sig (Elt Ideal), after opsA W (Proc.devRef .tc main_v39)
      = Cert.Spec.mm (after opsA W (Proc.devRef .tc main_v0)) (W (Proc.devRef .tc main_arg5)) := by
    intro W; after_results_simp; exact dot_is_mm _ _
  refine (key (StableHlo.launchContents m d)).trans ?_
  rfl

/-- `main_v1` is `main_v0` times `main_arg6`. -/
theorem VA_main_v1_mm (m : (ℓ : Loc nD τ sig) → Buf (Elt Ideal) ℓ) (d : Dev nD) :
    VA m d (Proc.devRef .tc main_v1) = Cert.Spec.mm (VA m d (Proc.devRef .tc main_v0)) (m ((d.tc : Thread nD τ).loc main_arg6)) := by
  have key : ∀ W : Valuation τ sig (Elt Ideal), after opsA W (Proc.devRef .tc main_v1)
      = Cert.Spec.mm (after opsA W (Proc.devRef .tc main_v0)) (W (Proc.devRef .tc main_arg6)) := by
    intro W; after_results_simp; exact dot_is_mm _ _
  refine (key (StableHlo.launchContents m d)).trans ?_
  rfl

/-- `main_v9` is `main_v0` times `main_arg7`. -/
theorem VA_main_v9_mm (m : (ℓ : Loc nD τ sig) → Buf (Elt Ideal) ℓ) (d : Dev nD) :
    VA m d (Proc.devRef .tc main_v9) = Cert.Spec.mm (VA m d (Proc.devRef .tc main_v0)) (m ((d.tc : Thread nD τ).loc main_arg7)) := by
  have key : ∀ W : Valuation τ sig (Elt Ideal), after opsA W (Proc.devRef .tc main_v9)
      = Cert.Spec.mm (after opsA W (Proc.devRef .tc main_v0)) (W (Proc.devRef .tc main_arg7)) := by
    intro W; after_results_simp; exact dot_is_mm _ _
  refine (key (StableHlo.launchContents m d)).trans ?_
  rfl

/-- `main_v90` is `main_v63` times `main_arg10`. -/
theorem VC_main_v90_mm (m : (ℓ : Loc nD τ sig) → Buf (Elt Ideal) ℓ) (d : Dev nD) :
    VC m d (Proc.devRef .tc main_v90) = Cert.Spec.mm (VR1 m d (Proc.devRef .tc main_v63)) (m ((d.tc : Thread nD τ).loc main_arg10)) := by
  have key : ∀ W : Valuation τ sig (Elt Ideal), after opsC W (Proc.devRef .tc main_v90)
      = Cert.Spec.mm (W (Proc.devRef .tc main_v63)) (W (Proc.devRef .tc main_arg10)) := by
    intro W; after_results_simp; exact dot_is_mm _ _
  refine (key (VR1 m d)).trans ?_
  rw [VR1_main_arg10 m d]

/-- `main_v102` is `main_v63` times `main_arg11`. -/
theorem VD_main_v102_mm (m : (ℓ : Loc nD τ sig) → Buf (Elt Ideal) ℓ) (d : Dev nD) :
    VD m d (Proc.devRef .tc main_v102) = Cert.Spec.mm (VR1 m d (Proc.devRef .tc main_v63)) (m ((d.tc : Thread nD τ).loc main_arg11)) := by
  have key : ∀ W : Valuation τ sig (Elt Ideal), after opsD W (Proc.devRef .tc main_v102)
      = Cert.Spec.mm (W (Proc.devRef .tc main_v63)) (W (Proc.devRef .tc main_arg11)) := by
    intro W; after_results_simp; exact dot_is_mm _ _
  refine (key (VC m d)).trans ?_
  rw [VC_main_v63 m d, VC_main_arg11 m d]

/-- `main_v64` is `main_v63` times `main_arg12`. -/
theorem VC_main_v64_mm (m : (ℓ : Loc nD τ sig) → Buf (Elt Ideal) ℓ) (d : Dev nD) :
    VC m d (Proc.devRef .tc main_v64) = Cert.Spec.mm (VR1 m d (Proc.devRef .tc main_v63)) (m ((d.tc : Thread nD τ).loc main_arg12)) := by
  have key : ∀ W : Valuation τ sig (Elt Ideal), after opsC W (Proc.devRef .tc main_v64)
      = Cert.Spec.mm (W (Proc.devRef .tc main_v63)) (W (Proc.devRef .tc main_arg12)) := by
    intro W; after_results_simp; exact dot_is_mm _ _
  refine (key (VR1 m d)).trans ?_
  rw [VR1_main_arg12 m d]

/-- `main_v72` is `main_v63` times `main_arg13`. -/
theorem VC_main_v72_mm (m : (ℓ : Loc nD τ sig) → Buf (Elt Ideal) ℓ) (d : Dev nD) :
    VC m d (Proc.devRef .tc main_v72) = Cert.Spec.mm (VR1 m d (Proc.devRef .tc main_v63)) (m ((d.tc : Thread nD τ).loc main_arg13)) := by
  have key : ∀ W : Valuation τ sig (Elt Ideal), after opsC W (Proc.devRef .tc main_v72)
      = Cert.Spec.mm (W (Proc.devRef .tc main_v63)) (W (Proc.devRef .tc main_arg13)) := by
    intro W; after_results_simp; exact dot_is_mm _ _
  refine (key (VR1 m d)).trans ?_
  rw [VR1_main_arg13 m d]

/-- `main_v126` is `main_v0` times `main_arg16`. -/
theorem VE_main_v126_mm (m : (ℓ : Loc nD τ sig) → Buf (Elt Ideal) ℓ) (d : Dev nD) :
    VE m d (Proc.devRef .tc main_v126) = Cert.Spec.mm (VA m d (Proc.devRef .tc main_v0)) (m ((d.tc : Thread nD τ).loc main_arg16)) := by
  have key : ∀ W : Valuation τ sig (Elt Ideal), after opsE W (Proc.devRef .tc main_v126)
      = Cert.Spec.mm (W (Proc.devRef .tc main_v0)) (W (Proc.devRef .tc main_arg16)) := by
    intro W; after_results_simp; exact dot_is_mm _ _
  refine (key (VV2 m d)).trans ?_
  rw [VV2_main_v0 m d, VV2_main_arg16 m d]

/-! ## The normalisations -/

/-- A [64] vector laid along the rows reads, at (r, c), its entry c. -/
theorem bcast_col {α : Type} (v : S64.Idx → α) (i : S100000x64.Idx) :
    (broadcastInDim S100000x64 ![0, 1] bcast_S1x64_S100000x64_0_1 (broadcastInDim S1x64 ![1] bcast_S64_S1x64_1 v)) i = v (ix1 (Cert.Spec.colOf i)) := by
  refine (broadcastInDim_apply _ _ _ i (ix2 (0 : Fin 1) (i 1)) ?_).trans ?_
  · intro a; match a with | ⟨0, _⟩ => rfl | ⟨1, _⟩ => rfl
  · refine broadcastInDim_apply _ _ _ _ (ix1 (Cert.Spec.colOf i)) ?_
    intro a; match a with | ⟨0, _⟩ => rfl

/-- The printed normalisation and clamp, index by index: γ·(y − μ)·rsqrt (σ + ε) + β, then the maximum with zero. -/
theorem bn_fun (y : FVec Ideal S100000x64 .f32) (μ σ γ β : FVec Ideal S64 .f32) :
    maximumf (addf (mulf (mulf (broadcastInDim S100000x64 ![0, 1] bcast_S1x64_S100000x64_0_1 (broadcastInDim S1x64 ![1] bcast_S64_S1x64_1 γ)) (subf y (broadcastInDim S100000x64 ![0, 1] bcast_S1x64_S100000x64_0_1 (broadcastInDim S1x64 ![1] bcast_S64_S1x64_1 μ)))) (broadcastInDim S100000x64 ![0, 1] bcast_S1x64_S100000x64_0_1 (broadcastInDim S1x64 ![1] bcast_S64_S1x64_1 (Host.rsqrt (addf σ (broadcastInDim S64 ![] bcast_S_S64 (constant S_ .f32 0x3A83126F#32))))))) (broadcastInDim S100000x64 ![0, 1] bcast_S1x64_S100000x64_0_1 (broadcastInDim S1x64 ![1] bcast_S64_S1x64_1 β))) (broadcastInDim S100000x64 ![] bcast_S_S100000x64 (constant S_ .f32 0x00000000#32))
      = Cert.Spec.bn y μ σ γ β := by
  funext i
  simp only [maximumf_apply, addf_apply, mulf_apply, subf_apply]
  rw [bcast_col, bcast_col, bcast_col, bcast_col]
  rfl

/-- The same with a residual added before the clamp. -/
theorem bnRes_fun (y : FVec Ideal S100000x64 .f32) (μ σ γ β : FVec Ideal S64 .f32) (r : FVec Ideal S100000x64 .f32) :
    maximumf (addf (addf (mulf (mulf (broadcastInDim S100000x64 ![0, 1] bcast_S1x64_S100000x64_0_1 (broadcastInDim S1x64 ![1] bcast_S64_S1x64_1 γ)) (subf y (broadcastInDim S100000x64 ![0, 1] bcast_S1x64_S100000x64_0_1 (broadcastInDim S1x64 ![1] bcast_S64_S1x64_1 μ)))) (broadcastInDim S100000x64 ![0, 1] bcast_S1x64_S100000x64_0_1 (broadcastInDim S1x64 ![1] bcast_S64_S1x64_1 (Host.rsqrt (addf σ (broadcastInDim S64 ![] bcast_S_S64 (constant S_ .f32 0x3A83126F#32))))))) (broadcastInDim S100000x64 ![0, 1] bcast_S1x64_S100000x64_0_1 (broadcastInDim S1x64 ![1] bcast_S64_S1x64_1 β))) r) (broadcastInDim S100000x64 ![] bcast_S_S100000x64 (constant S_ .f32 0x00000000#32))
      = Cert.Spec.bnRes y μ σ γ β r := by
  funext i
  simp only [maximumf_apply, addf_apply, mulf_apply, subf_apply]
  rw [bcast_col, bcast_col, bcast_col, bcast_col]
  rfl

/-- Stage two's node table is stage one's output normalised by its mean and variance, scaled by `main_arg17`, shifted by
    `main_arg18`, and clamped at zero. -/
theorem VR1_main_v63_bn (m : (ℓ : Loc nD τ sig) → Buf (Elt Ideal) ℓ) (d : Dev nD) :
    VR1 m d (Proc.devRef .tc main_v63) = Cert.Spec.bn (VA m d (Proc.devRef .tc main_v43)) (VA m d (Proc.devRef .tc main_v46)) (VV1 m d (Proc.devRef .tc main_v47))
      (m ((d.tc : Thread nD τ).loc main_arg17)) (m ((d.tc : Thread nD τ).loc main_arg18)) := by
  have k1 : ∀ W : Valuation τ sig (Elt Ideal), after opsR1 W (Proc.devRef .tc main_v63) = maximumf (F := Ideal) (W (Proc.devRef .tc main_v62) : FVec Ideal S100000x64 .f32) (broadcastInDim S100000x64 ![] bcast_S_S100000x64 (constant S_ .f32 0x00000000#32)) := by
    intro W; after_results_simp; rfl
  have k2 : ∀ W : Valuation τ sig (Elt Ideal), after opsB W (Proc.devRef .tc main_v62)
      = addf (F := Ideal) (mulf (mulf (broadcastInDim S100000x64 ![0, 1] bcast_S1x64_S100000x64_0_1 (broadcastInDim S1x64 ![1] bcast_S64_S1x64_1 (W (Proc.devRef .tc main_arg17) : FVec Ideal S64 .f32))) (subf (W (Proc.devRef .tc main_v43) : FVec Ideal S100000x64 .f32) (broadcastInDim S100000x64 ![0, 1] bcast_S1x64_S100000x64_0_1 (broadcastInDim S1x64 ![1] bcast_S64_S1x64_1 (W (Proc.devRef .tc main_v46) : FVec Ideal S64 .f32)))))
          (broadcastInDim S100000x64 ![0, 1] bcast_S1x64_S100000x64_0_1 (broadcastInDim S1x64 ![1] bcast_S64_S1x64_1 (Host.rsqrt (addf (W (Proc.devRef .tc main_v47) : FVec Ideal S64 .f32) (broadcastInDim S64 ![] bcast_S_S64 (constant S_ .f32 0x3A83126F#32))))))) (broadcastInDim S100000x64 ![0, 1] bcast_S1x64_S100000x64_0_1 (broadcastInDim S1x64 ![1] bcast_S64_S1x64_1 (W (Proc.devRef .tc main_arg18) : FVec Ideal S64 .f32))) := by
    intro W; after_results_simp
  refine (k1 (VB m d)).trans ?_
  rw [show VB m d (Proc.devRef .tc main_v62) = _ from k2 (VV1 m d), VV1_main_v43, VV1_main_v46, VV1_main_arg17, VV1_main_arg18]
  exact bn_fun _ _ _ _ _

/-- The last table is stage two's output normalised by its mean and variance, scaled by `main_arg19`, shifted by
    `main_arg20`, the stacked input times `main_arg16` added, and clamped at zero. -/
theorem VR2_main_v128_bnRes (m : (ℓ : Loc nD τ sig) → Buf (Elt Ideal) ℓ) (d : Dev nD) :
    VR2 m d (Proc.devRef .tc main_v128) = Cert.Spec.bnRes (VD m d (Proc.devRef .tc main_v106)) (VD m d (Proc.devRef .tc main_v109)) (VV2 m d (Proc.devRef .tc main_v110))
      (m ((d.tc : Thread nD τ).loc main_arg19)) (m ((d.tc : Thread nD τ).loc main_arg20)) (Cert.Spec.mm (VA m d (Proc.devRef .tc main_v0)) (m ((d.tc : Thread nD τ).loc main_arg16))) := by
  have k1 : ∀ W : Valuation τ sig (Elt Ideal), after opsR2 W (Proc.devRef .tc main_v128) = maximumf (F := Ideal) (W (Proc.devRef .tc main_v127) : FVec Ideal S100000x64 .f32) (broadcastInDim S100000x64 ![] bcast_S_S100000x64 (constant S_ .f32 0x00000000#32)) := by
    intro W; after_results_simp; rfl
  have k2 : ∀ W : Valuation τ sig (Elt Ideal), after opsE W (Proc.devRef .tc main_v127)
      = addf (F := Ideal) (addf (mulf (mulf (broadcastInDim S100000x64 ![0, 1] bcast_S1x64_S100000x64_0_1 (broadcastInDim S1x64 ![1] bcast_S64_S1x64_1 (W (Proc.devRef .tc main_arg19) : FVec Ideal S64 .f32))) (subf (W (Proc.devRef .tc main_v106) : FVec Ideal S100000x64 .f32) (broadcastInDim S100000x64 ![0, 1] bcast_S1x64_S100000x64_0_1 (broadcastInDim S1x64 ![1] bcast_S64_S1x64_1 (W (Proc.devRef .tc main_v109) : FVec Ideal S64 .f32)))))
          (broadcastInDim S100000x64 ![0, 1] bcast_S1x64_S100000x64_0_1 (broadcastInDim S1x64 ![1] bcast_S64_S1x64_1 (Host.rsqrt (addf (W (Proc.devRef .tc main_v110) : FVec Ideal S64 .f32) (broadcastInDim S64 ![] bcast_S_S64 (constant S_ .f32 0x3A83126F#32))))))) (broadcastInDim S100000x64 ![0, 1] bcast_S1x64_S100000x64_0_1 (broadcastInDim S1x64 ![1] bcast_S64_S1x64_1 (W (Proc.devRef .tc main_arg20) : FVec Ideal S64 .f32))))
          (Host.dotGeneral (φ₁ := .f32) (φ₂ := .f32) dot_S100000x64_S64x64_S100000x64_1_0_0_1_n_n none (W (Proc.devRef .tc main_v0) : FVec Ideal S100000x64 .f32) (W (Proc.devRef .tc main_arg16) : FVec Ideal S64x64 .f32)) := by
    intro W; after_results_simp
  refine (k1 (VE m d)).trans ?_
  rw [show VE m d (Proc.devRef .tc main_v127) = _ from k2 (VV2 m d), VV2_main_v106, VV2_main_v109, VV2_main_v0, VV2_main_arg19, VV2_main_arg20,
    VV2_main_arg16, dot_is_mm]
  exact bnRes_fun _ _ _ _ _ _

/-! ## The two results -/

/-- The first result is the last table's first 60000 rows. -/
theorem VT_main_v129_slice (m : (ℓ : Loc nD τ sig) → Buf (Elt Ideal) ℓ) (d : Dev nD) :
    VT m d (Proc.devRef .tc main_v129) = extractStridedSlice S60000x64 ![0, 0] (VR2 m d (Proc.devRef .tc main_v128)) slices_S100000x64_S60000x64_0_0 := by
  have k : ∀ W : Valuation τ sig (Elt Ideal), after opsT W (Proc.devRef .tc main_v129) = extractStridedSlice S60000x64 ![0, 0] (W (Proc.devRef .tc main_v128) : FVec Ideal S100000x64 .f32) slices_S100000x64_S60000x64_0_0 := by
    intro W; after_results_simp
  exact k (VR2 m d)

/-- The second result is its last 40000 rows. -/
theorem VT_main_v130_slice (m : (ℓ : Loc nD τ sig) → Buf (Elt Ideal) ℓ) (d : Dev nD) :
    VT m d (Proc.devRef .tc main_v130) = extractStridedSlice S40000x64 ![60000, 0] (VR2 m d (Proc.devRef .tc main_v128)) slices_S100000x64_S40000x64_60000_0 := by
  have k : ∀ W : Valuation τ sig (Elt Ideal), after opsT W (Proc.devRef .tc main_v130) = extractStridedSlice S40000x64 ![60000, 0] (W (Proc.devRef .tc main_v128) : FVec Ideal S100000x64 .f32) slices_S100000x64_S40000x64_60000_0 := by
    intro W; after_results_simp
  exact k (VR2 m d)

end Cert.ReferenceIdeal.RefRun

end
-- ==== Proof.BridgeBase.lean ====
/-
  The two exact programs compute the same arrays, stage by stage. Both run the same host operations on the edges
  (gathers by edge endpoint, the gate, the messages summed per destination node, the column means and variances); they
  differ only in how the dense pieces are produced: the kernel program multiplies the node features by the four weight
  matrices side by side in one region and cuts the product into four 64-column pieces, and normalises inside regions over
  1×64 rows, where the reference program uses four matrix products and host broadcasts. With the regions' output arrays
  known as functions of their entry arrays, each stage's buffer in one program equals the corresponding buffer in the other.
-/
import proofs.«178339_j40699110097748_1_alg».proof.Proof.KIStages
import proofs.«178339_j40699110097748_1_alg».proof.Proof.RefValue
import Idealize.ShloMosaic.Lib.StableHlo.Run

set_option maxRecDepth 16384

noncomputable section

namespace Cert.Bridge

open Idealize.ShloMosaic Idealize.ShloMosaic.TcCoe Idealize.ShloMosaic.StableHlo
open Idealize.SL Idealize.SL.Sem
open Cert.KernelIdeal.Frm Cert.KernelIdeal.Val Cert.ReferenceIdeal.RefRun

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The two launch memories agree on every argument, on core `c`. -/
structure Agree : Prop where
  a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  a10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  a11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
  a12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
  a13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
  a14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
  a15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
  a16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
  a17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
  a18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
  a19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
  a20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)

end Cert.Bridge

end
-- ==== Proof.RelStage1.lean ====
/- The two programs' host chains of one stage compared operation by operation: from equal projections (the kernel's
   four column blocks of its wide product against the reference's four products) and equal index and bias arguments, the
   gate, the gathered and summed messages, the stage output, its column means and its variance are equal. -/
import proofs.«178339_j40699110097748_1_alg».proof.Proof.Gen.KernelIdeal.Launch
import proofs.«178339_j40699110097748_1_alg».proof.Proof.RefStages
import Idealize.ShloMosaic.PureOps.Ideal

noncomputable section

namespace Cert.Bridge.Rel

open Idealize.ShloMosaic Idealize.ShloMosaic.TcCoe Idealize.SL.Sem Idealize.ShloMosaic.StableHlo
open Cert.ReferenceIdeal.RefRun

/-! ## Stage one

The kernel's wide product `main_v2` holds four column blocks; its host chain cuts them out and then runs the same
operations the reference runs on its four products. -/

set_option maxHeartbeats 4000000 in
/-- Stage one's output: from equal projections and equal edge-index and bias arguments, the kernel's `main_v45` is the reference's `main_v43`. -/
theorem rel_y1 (W : Valuation Cert.KernelIdeal.τ Cert.KernelIdeal.sig (Elt Ideal)) (W' : Valuation Cert.ReferenceIdeal.τ Cert.ReferenceIdeal.sig (Elt Ideal))
    (h0 : extractStridedSlice Cert.KernelIdeal.S100000x64 ![0, 0] (W (Proc.devRef .tc Cert.KernelIdeal.main_v2)) Cert.KernelIdeal.Gen.slices_S100000x256_S100000x64_0_0 = after opsA W' (Proc.devRef .tc Cert.ReferenceIdeal.main_v27))
    (h64 : extractStridedSlice Cert.KernelIdeal.S100000x64 ![0, 64] (W (Proc.devRef .tc Cert.KernelIdeal.main_v2)) Cert.KernelIdeal.Gen.slices_S100000x256_S100000x64_0_64 = after opsA W' (Proc.devRef .tc Cert.ReferenceIdeal.main_v39))
    (h128 : extractStridedSlice Cert.KernelIdeal.S100000x64 ![0, 128] (W (Proc.devRef .tc Cert.KernelIdeal.main_v2)) Cert.KernelIdeal.Gen.slices_S100000x256_S100000x64_0_128 = after opsA W' (Proc.devRef .tc Cert.ReferenceIdeal.main_v1))
    (h192 : extractStridedSlice Cert.KernelIdeal.S100000x64 ![0, 192] (W (Proc.devRef .tc Cert.KernelIdeal.main_v2)) Cert.KernelIdeal.Gen.slices_S100000x256_S100000x64_0_192 = after opsA W' (Proc.devRef .tc Cert.ReferenceIdeal.main_v9))
    (a2 : W (Proc.devRef .tc Cert.KernelIdeal.main_arg2) = W' (Proc.devRef .tc Cert.ReferenceIdeal.main_arg2)) (a3 : W (Proc.devRef .tc Cert.KernelIdeal.main_arg3) = W' (Proc.devRef .tc Cert.ReferenceIdeal.main_arg3))
    (a8 : W (Proc.devRef .tc Cert.KernelIdeal.main_arg8) = W' (Proc.devRef .tc Cert.ReferenceIdeal.main_arg8)) (a9 : W (Proc.devRef .tc Cert.KernelIdeal.main_arg9) = W' (Proc.devRef .tc Cert.ReferenceIdeal.main_arg9)) :
    after Cert.KernelIdeal.Gen.hostOps1 W (Proc.devRef .tc Cert.KernelIdeal.main_v45) = after opsA W' (Proc.devRef .tc Cert.ReferenceIdeal.main_v43) := by
  simp (disch := decide) only [after_cons, after_nil,
      nullary_result', unary_result', binary_result', ternary_result',
      nullary_result_ne', unary_result_ne', binary_result_ne', ternary_result_ne'] at h0 h64 h128 h192 ⊢
  rw [h0, h64, h128, h192, a2, a3, a8, a9]
  rfl

set_option maxHeartbeats 4000000 in
/-- The same for its column means: the kernel's `main_v48` is the reference's `main_v46`. -/
theorem rel_mean1 (W : Valuation Cert.KernelIdeal.τ Cert.KernelIdeal.sig (Elt Ideal)) (W' : Valuation Cert.ReferenceIdeal.τ Cert.ReferenceIdeal.sig (Elt Ideal))
    (h0 : extractStridedSlice Cert.KernelIdeal.S100000x64 ![0, 0] (W (Proc.devRef .tc Cert.KernelIdeal.main_v2)) Cert.KernelIdeal.Gen.slices_S100000x256_S100000x64_0_0 = after opsA W' (Proc.devRef .tc Cert.ReferenceIdeal.main_v27))
    (h64 : extractStridedSlice Cert.KernelIdeal.S100000x64 ![0, 64] (W (Proc.devRef .tc Cert.KernelIdeal.main_v2)) Cert.KernelIdeal.Gen.slices_S100000x256_S100000x64_0_64 = after opsA W' (Proc.devRef .tc Cert.ReferenceIdeal.main_v39))
    (h128 : extractStridedSlice Cert.KernelIdeal.S100000x64 ![0, 128] (W (Proc.devRef .tc Cert.KernelIdeal.main_v2)) Cert.KernelIdeal.Gen.slices_S100000x256_S100000x64_0_128 = after opsA W' (Proc.devRef .tc Cert.ReferenceIdeal.main_v1))
    (h192 : extractStridedSlice Cert.KernelIdeal.S100000x64 ![0, 192] (W (Proc.devRef .tc Cert.KernelIdeal.main_v2)) Cert.KernelIdeal.Gen.slices_S100000x256_S100000x64_0_192 = after opsA W' (Proc.devRef .tc Cert.ReferenceIdeal.main_v9))
    (a2 : W (Proc.devRef .tc Cert.KernelIdeal.main_arg2) = W' (Proc.devRef .tc Cert.ReferenceIdeal.main_arg2)) (a3 : W (Proc.devRef .tc Cert.KernelIdeal.main_arg3) = W' (Proc.devRef .tc Cert.ReferenceIdeal.main_arg3))
    (a8 : W (Proc.devRef .tc Cert.KernelIdeal.main_arg8) = W' (Proc.devRef .tc Cert.ReferenceIdeal.main_arg8)) (a9 : W (Proc.devRef .tc Cert.KernelIdeal.main_arg9) = W' (Proc.devRef .tc Cert.ReferenceIdeal.main_arg9)) :
    after Cert.KernelIdeal.Gen.hostOps1 W (Proc.devRef .tc Cert.KernelIdeal.main_v48) = after opsA W' (Proc.devRef .tc Cert.ReferenceIdeal.main_v46) := by
  simp (disch := decide) only [after_cons, after_nil,
      nullary_result', unary_result', binary_result', ternary_result',
      nullary_result_ne', unary_result_ne', binary_result_ne', ternary_result_ne'] at h0 h64 h128 h192 ⊢
  rw [h0, h64, h128, h192, a2, a3, a8, a9]
  rfl

set_option maxHeartbeats 4000000 in
/-- The variance's zero correction is the same constant in both. -/
theorem rel_c9 (W : Valuation Cert.KernelIdeal.τ Cert.KernelIdeal.sig (Elt Ideal)) (W' : Valuation Cert.ReferenceIdeal.τ Cert.ReferenceIdeal.sig (Elt Ideal)) :
    after Cert.KernelIdeal.Gen.hostOps1 W (Proc.devRef .tc Cert.KernelIdeal.main_c_9) = after opsA W' (Proc.devRef .tc Cert.ReferenceIdeal.main_c_9) := by
  simp (disch := decide) only [after_cons, after_nil,
      nullary_result', unary_result', binary_result', ternary_result',
      nullary_result_ne', unary_result_ne', binary_result_ne', ternary_result_ne']

set_option maxHeartbeats 4000000 in
/-- Stage one's variance: from equal stage outputs and corrections, the kernel's `main_v49` is the reference's `main_v47`. -/
theorem rel_var1 (W : Valuation Cert.KernelIdeal.τ Cert.KernelIdeal.sig (Elt Ideal)) (W' : Valuation Cert.ReferenceIdeal.τ Cert.ReferenceIdeal.sig (Elt Ideal))
    (hy : W (Proc.devRef .tc Cert.KernelIdeal.main_v45) = W' (Proc.devRef .tc Cert.ReferenceIdeal.main_v43)) (hc : W (Proc.devRef .tc Cert.KernelIdeal.main_c_9) = W' (Proc.devRef .tc Cert.ReferenceIdeal.main_c_9)) :
    after Cert.KernelIdeal.Gen.hostOps1_1 W (Proc.devRef .tc Cert.KernelIdeal.main_v49) = after opsV1 W' (Proc.devRef .tc Cert.ReferenceIdeal.main_v47) := by
  simp (disch := decide) only [after_cons, after_nil,
      nullary_result', unary_result', binary_result', ternary_result',
      nullary_result_ne', unary_result_ne', binary_result_ne', ternary_result_ne']
  rw [hy, hc]

end Cert.Bridge.Rel

end
-- ==== Proof.RelStage2.lean ====
/- Stage two. The two programs' host chains of one stage compared operation by operation: from equal projections (the kernel's
   four column blocks of its wide product against the reference's four products) and equal index and bias arguments, the
   gate, the gathered and summed messages, the stage output, its column means and its variance are equal. -/
import proofs.«178339_j40699110097748_1_alg».proof.Proof.Gen.KernelIdeal.Launch
import proofs.«178339_j40699110097748_1_alg».proof.Proof.RefStages
import Idealize.ShloMosaic.PureOps.Ideal

noncomputable section

namespace Cert.Bridge.Rel

open Idealize.ShloMosaic Idealize.ShloMosaic.TcCoe Idealize.SL.Sem Idealize.ShloMosaic.StableHlo
open Cert.ReferenceIdeal.RefRun

/-! ## Stage two

The kernel's second wide product `main_v56` holds the four column blocks of the node table's projections; the reference's
chain runs over two stretches (the messages, then the sums and the output). -/

set_option maxHeartbeats 4000000 in
/-- Stage two's output: from equal projections and equal edge-index and bias arguments, the kernel's `main_v99` is the reference's `main_v106`. -/
theorem rel_y2 (W : Valuation Cert.KernelIdeal.τ Cert.KernelIdeal.sig (Elt Ideal)) (W' : Valuation Cert.ReferenceIdeal.τ Cert.ReferenceIdeal.sig (Elt Ideal))
    (h0 : extractStridedSlice Cert.KernelIdeal.S100000x64 ![0, 0] (W (Proc.devRef .tc Cert.KernelIdeal.main_v56)) Cert.KernelIdeal.Gen.slices_S100000x256_S100000x64_0_0 = after opsD (after opsC W') (Proc.devRef .tc Cert.ReferenceIdeal.main_v90))
    (h64 : extractStridedSlice Cert.KernelIdeal.S100000x64 ![0, 64] (W (Proc.devRef .tc Cert.KernelIdeal.main_v56)) Cert.KernelIdeal.Gen.slices_S100000x256_S100000x64_0_64 = after opsD (after opsC W') (Proc.devRef .tc Cert.ReferenceIdeal.main_v102))
    (h128 : extractStridedSlice Cert.KernelIdeal.S100000x64 ![0, 128] (W (Proc.devRef .tc Cert.KernelIdeal.main_v56)) Cert.KernelIdeal.Gen.slices_S100000x256_S100000x64_0_128 = after opsD (after opsC W') (Proc.devRef .tc Cert.ReferenceIdeal.main_v64))
    (h192 : extractStridedSlice Cert.KernelIdeal.S100000x64 ![0, 192] (W (Proc.devRef .tc Cert.KernelIdeal.main_v56)) Cert.KernelIdeal.Gen.slices_S100000x256_S100000x64_0_192 = after opsD (after opsC W') (Proc.devRef .tc Cert.ReferenceIdeal.main_v72))
    (a2 : W (Proc.devRef .tc Cert.KernelIdeal.main_arg2) = W' (Proc.devRef .tc Cert.ReferenceIdeal.main_arg2)) (a3 : W (Proc.devRef .tc Cert.KernelIdeal.main_arg3) = W' (Proc.devRef .tc Cert.ReferenceIdeal.main_arg3))
    (a14 : W (Proc.devRef .tc Cert.KernelIdeal.main_arg14) = W' (Proc.devRef .tc Cert.ReferenceIdeal.main_arg14)) (a15 : W (Proc.devRef .tc Cert.KernelIdeal.main_arg15) = W' (Proc.devRef .tc Cert.ReferenceIdeal.main_arg15)) :
    after Cert.KernelIdeal.Gen.hostOps3 W (Proc.devRef .tc Cert.KernelIdeal.main_v99) = after opsD (after opsC W') (Proc.devRef .tc Cert.ReferenceIdeal.main_v106) := by
  simp (disch := decide) only [after_cons, after_nil,
      nullary_result', unary_result', binary_result', ternary_result',
      nullary_result_ne', unary_result_ne', binary_result_ne', ternary_result_ne'] at h0 h64 h128 h192 ⊢
  rw [h0, h64, h128, h192, a2, a3, a14, a15]
  rfl

set_option maxHeartbeats 4000000 in
/-- The same for its column means: the kernel's `main_v102` is the reference's `main_v109`. -/
theorem rel_mean2 (W : Valuation Cert.KernelIdeal.τ Cert.KernelIdeal.sig (Elt Ideal)) (W' : Valuation Cert.ReferenceIdeal.τ Cert.ReferenceIdeal.sig (Elt Ideal))
    (h0 : extractStridedSlice Cert.KernelIdeal.S100000x64 ![0, 0] (W (Proc.devRef .tc Cert.KernelIdeal.main_v56)) Cert.KernelIdeal.Gen.slices_S100000x256_S100000x64_0_0 = after opsD (after opsC W') (Proc.devRef .tc Cert.ReferenceIdeal.main_v90))
    (h64 : extractStridedSlice Cert.KernelIdeal.S100000x64 ![0, 64] (W (Proc.devRef .tc Cert.KernelIdeal.main_v56)) Cert.KernelIdeal.Gen.slices_S100000x256_S100000x64_0_64 = after opsD (after opsC W') (Proc.devRef .tc Cert.ReferenceIdeal.main_v102))
    (h128 : extractStridedSlice Cert.KernelIdeal.S100000x64 ![0, 128] (W (Proc.devRef .tc Cert.KernelIdeal.main_v56)) Cert.KernelIdeal.Gen.slices_S100000x256_S100000x64_0_128 = after opsD (after opsC W') (Proc.devRef .tc Cert.ReferenceIdeal.main_v64))
    (h192 : extractStridedSlice Cert.KernelIdeal.S100000x64 ![0, 192] (W (Proc.devRef .tc Cert.KernelIdeal.main_v56)) Cert.KernelIdeal.Gen.slices_S100000x256_S100000x64_0_192 = after opsD (after opsC W') (Proc.devRef .tc Cert.ReferenceIdeal.main_v72))
    (a2 : W (Proc.devRef .tc Cert.KernelIdeal.main_arg2) = W' (Proc.devRef .tc Cert.ReferenceIdeal.main_arg2)) (a3 : W (Proc.devRef .tc Cert.KernelIdeal.main_arg3) = W' (Proc.devRef .tc Cert.ReferenceIdeal.main_arg3))
    (a14 : W (Proc.devRef .tc Cert.KernelIdeal.main_arg14) = W' (Proc.devRef .tc Cert.ReferenceIdeal.main_arg14)) (a15 : W (Proc.devRef .tc Cert.KernelIdeal.main_arg15) = W' (Proc.devRef .tc Cert.ReferenceIdeal.main_arg15)) :
    after Cert.KernelIdeal.Gen.hostOps3 W (Proc.devRef .tc Cert.KernelIdeal.main_v102) = after opsD (after opsC W') (Proc.devRef .tc Cert.ReferenceIdeal.main_v109) := by
  simp (disch := decide) only [after_cons, after_nil,
      nullary_result', unary_result', binary_result', ternary_result',
      nullary_result_ne', unary_result_ne', binary_result_ne', ternary_result_ne'] at h0 h64 h128 h192 ⊢
  rw [h0, h64, h128, h192, a2, a3, a14, a15]
  rfl

set_option maxHeartbeats 4000000 in
/-- The variance's zero correction is the same constant in both. -/
theorem rel_c22 (W : Valuation Cert.KernelIdeal.τ Cert.KernelIdeal.sig (Elt Ideal)) (W' : Valuation Cert.ReferenceIdeal.τ Cert.ReferenceIdeal.sig (Elt Ideal)) :
    after Cert.KernelIdeal.Gen.hostOps3 W (Proc.devRef .tc Cert.KernelIdeal.main_c_21) = after opsD (after opsC W') (Proc.devRef .tc Cert.ReferenceIdeal.main_c_22) := by
  simp (disch := decide) only [after_cons, after_nil,
      nullary_result', unary_result', binary_result', ternary_result',
      nullary_result_ne', unary_result_ne', binary_result_ne', ternary_result_ne']

set_option maxHeartbeats 4000000 in
/-- Stage two's variance: from equal stage outputs and corrections, the kernel's `main_v103` is the reference's `main_v110`. -/
theorem rel_var2 (W : Valuation Cert.KernelIdeal.τ Cert.KernelIdeal.sig (Elt Ideal)) (W' : Valuation Cert.ReferenceIdeal.τ Cert.ReferenceIdeal.sig (Elt Ideal))
    (hy : W (Proc.devRef .tc Cert.KernelIdeal.main_v99) = W' (Proc.devRef .tc Cert.ReferenceIdeal.main_v106)) (hc : W (Proc.devRef .tc Cert.KernelIdeal.main_c_21) = W' (Proc.devRef .tc Cert.ReferenceIdeal.main_c_22)) :
    after Cert.KernelIdeal.Gen.hostOps3_1 W (Proc.devRef .tc Cert.KernelIdeal.main_v103) = after opsV2 W' (Proc.devRef .tc Cert.ReferenceIdeal.main_v110) := by
  simp (disch := decide) only [after_cons, after_nil,
      nullary_result', unary_result', binary_result', ternary_result',
      nullary_result_ne', unary_result_ne', binary_result_ne', ternary_result_ne']
  rw [hy, hc]

end Cert.Bridge.Rel

end
-- ==== Proof.Bridge.lean ====
/-
  The two exact programs compute the same arrays, stage by stage. Both run the same host operations on the edges
  (gathers by edge endpoint, the gate, the messages summed per destination node, the column means and variances); they
  differ only in how the dense pieces are produced: the kernel program multiplies the node features by the four weight
  matrices side by side in one region and cuts the product into four 64-column pieces, and normalises inside regions over
  1×64 rows, where the reference program uses four matrix products and host broadcasts. With the regions' output arrays
  known as functions of their entry arrays, each stage's buffer in one program equals the corresponding buffer in the other.
-/
import proofs.«178339_j40699110097748_1_alg».proof.Proof.BridgeBase
import proofs.«178339_j40699110097748_1_alg».proof.Proof.RelStage1
import proofs.«178339_j40699110097748_1_alg».proof.Proof.RelStage2
import Idealize.ShloMosaic.Lib.StableHlo.Run

set_option maxRecDepth 16384

noncomputable section

namespace Cert.Bridge

open Idealize.ShloMosaic Idealize.ShloMosaic.TcCoe Idealize.ShloMosaic.StableHlo
open Idealize.SL Idealize.SL.Sem
open Cert.KernelIdeal.Frm Cert.KernelIdeal.Val Cert.ReferenceIdeal.RefRun

variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ}
  {c : Dev Cert.KernelIdeal.nD}

/-! ## The node features -/

/-- The reference's concatenated node features, over any start contents. -/
theorem R_xin (W' : Valuation Cert.ReferenceIdeal.τ Cert.ReferenceIdeal.sig (Elt Ideal)) : StableHlo.after opsA W' (Proc.devRef .tc Cert.ReferenceIdeal.main_v0)
    = concatenate Cert.ReferenceIdeal.S100000x64 0 [⟨Cert.ReferenceIdeal.S60000x64, W' (Proc.devRef .tc Cert.ReferenceIdeal.main_arg0)⟩, ⟨Cert.ReferenceIdeal.S40000x64, W' (Proc.devRef .tc Cert.ReferenceIdeal.main_arg1)⟩] Cert.ReferenceIdeal.Facts₀.concatenates_S60000x64_S40000x64_S100000x64_d0 := by
  after_results_simp

theorem xin_eq (ag : Agree m m' c) : B1 m c Cert.KernelIdeal.main_v0 = VA m' c Cert.ReferenceIdeal.main_v0 := by
  rw [K_xin]
  refine Eq.trans ?_ (R_xin (StableHlo.launchContents m' c)).symm
  show _ = concatenate Cert.ReferenceIdeal.S100000x64 0 [⟨Cert.ReferenceIdeal.S60000x64, m' ((c.tc : Thread Cert.ReferenceIdeal.nD Cert.ReferenceIdeal.τ).loc Cert.ReferenceIdeal.main_arg0)⟩, ⟨Cert.ReferenceIdeal.S40000x64, m' ((c.tc : Thread Cert.ReferenceIdeal.nD Cert.ReferenceIdeal.τ).loc Cert.ReferenceIdeal.main_arg1)⟩] Cert.ReferenceIdeal.Facts₀.concatenates_S60000x64_S40000x64_S100000x64_d0
  rw [ag.a0, ag.a1]

/-! ## The normalisations and the results, given the stages' host chains -/

theorem x1_eq (ag : Agree m m' c) (e1 : B3 m c Cert.KernelIdeal.main_v45 = VA m' c Cert.ReferenceIdeal.main_v43) (e2 : B3 m c Cert.KernelIdeal.main_v48 = VA m' c Cert.ReferenceIdeal.main_v46)
    (e3 : B4 m c Cert.KernelIdeal.main_v49 = VV1 m' c Cert.ReferenceIdeal.main_v47) : B6 m c Cert.KernelIdeal.main_v54 = VR1 m' c Cert.ReferenceIdeal.main_v63 := by
  rw [K_x1, VR1_main_v63_bn, e1, e2, e3, ag.a17, ag.a18]

theorem x2_eq (ag : Agree m m' c) (e5 : B9 m c Cert.KernelIdeal.main_v99 = VD m' c Cert.ReferenceIdeal.main_v106) (e6 : B9 m c Cert.KernelIdeal.main_v102 = VD m' c Cert.ReferenceIdeal.main_v109)
    (e7 : B10 m c Cert.KernelIdeal.main_v103 = VV2 m' c Cert.ReferenceIdeal.main_v110) : B13 m c Cert.KernelIdeal.main_v109 = VR2 m' c Cert.ReferenceIdeal.main_v128 := by
  rw [K_x2, K_xR, VR2_main_v128_bnRes, e5, e6, e7, xin_eq ag, ag.a19, ag.a20, ag.a16]

theorem res0_eq (e9 : B13 m c Cert.KernelIdeal.main_v109 = VR2 m' c Cert.ReferenceIdeal.main_v128) : B14 m c Cert.KernelIdeal.main_v110 = VT m' c Cert.ReferenceIdeal.main_v129 := by
  rw [K_res0, VT_main_v129_slice, e9]

theorem res1_eq (e9 : B13 m c Cert.KernelIdeal.main_v109 = VR2 m' c Cert.ReferenceIdeal.main_v128) : B14 m c Cert.KernelIdeal.main_v111 = VT m' c Cert.ReferenceIdeal.main_v130 := by
  rw [K_res1, VT_main_v130_slice, e9]

/-! ## The projections: a column piece of the kernel's wide product is the reference's matrix product -/

theorem cut1_0 (ag : Agree m m' c) : extractStridedSlice Cert.KernelIdeal.S100000x64 ![0, 0] (B2 m c Cert.KernelIdeal.main_v2) Cert.KernelIdeal.Gen.slices_S100000x256_S100000x64_0_0 = VA m' c Cert.ReferenceIdeal.main_v27 := by
  rw [VA_main_v27_mm, ← xin_eq ag, ag.a4]
  exact K_O1_cut0 m c
theorem cut1_1 (ag : Agree m m' c) : extractStridedSlice Cert.KernelIdeal.S100000x64 ![0, 64] (B2 m c Cert.KernelIdeal.main_v2) Cert.KernelIdeal.Gen.slices_S100000x256_S100000x64_0_64 = VA m' c Cert.ReferenceIdeal.main_v39 := by
  rw [VA_main_v39_mm, ← xin_eq ag, ag.a5]
  exact K_O1_cut1 m c
theorem cut1_2 (ag : Agree m m' c) : extractStridedSlice Cert.KernelIdeal.S100000x64 ![0, 128] (B2 m c Cert.KernelIdeal.main_v2) Cert.KernelIdeal.Gen.slices_S100000x256_S100000x64_0_128 = VA m' c Cert.ReferenceIdeal.main_v1 := by
  rw [VA_main_v1_mm, ← xin_eq ag, ag.a6]
  exact K_O1_cut2 m c
theorem cut1_3 (ag : Agree m m' c) : extractStridedSlice Cert.KernelIdeal.S100000x64 ![0, 192] (B2 m c Cert.KernelIdeal.main_v2) Cert.KernelIdeal.Gen.slices_S100000x256_S100000x64_0_192 = VA m' c Cert.ReferenceIdeal.main_v9 := by
  rw [VA_main_v9_mm, ← xin_eq ag, ag.a7]
  exact K_O1_cut3 m c

theorem cut2_0 (ag : Agree m m' c) (e4 : B6 m c Cert.KernelIdeal.main_v54 = VR1 m' c Cert.ReferenceIdeal.main_v63) : extractStridedSlice Cert.KernelIdeal.S100000x64 ![0, 0] (B8 m c Cert.KernelIdeal.main_v56) Cert.KernelIdeal.Gen.slices_S100000x256_S100000x64_0_0 = VD m' c Cert.ReferenceIdeal.main_v90 := by
  rw [VD_keep (r := Cert.ReferenceIdeal.main_v90) (by decide) m' c, VC_main_v90_mm, ← e4, ag.a10]
  exact K_O2_cut0 m c
theorem cut2_1 (ag : Agree m m' c) (e4 : B6 m c Cert.KernelIdeal.main_v54 = VR1 m' c Cert.ReferenceIdeal.main_v63) : extractStridedSlice Cert.KernelIdeal.S100000x64 ![0, 64] (B8 m c Cert.KernelIdeal.main_v56) Cert.KernelIdeal.Gen.slices_S100000x256_S100000x64_0_64 = VD m' c Cert.ReferenceIdeal.main_v102 := by
  rw [VD_main_v102_mm, ← e4, ag.a11]
  exact K_O2_cut1 m c
theorem cut2_2 (ag : Agree m m' c) (e4 : B6 m c Cert.KernelIdeal.main_v54 = VR1 m' c Cert.ReferenceIdeal.main_v63) : extractStridedSlice Cert.KernelIdeal.S100000x64 ![0, 128] (B8 m c Cert.KernelIdeal.main_v56) Cert.KernelIdeal.Gen.slices_S100000x256_S100000x64_0_128 = VD m' c Cert.ReferenceIdeal.main_v64 := by
  rw [VD_keep (r := Cert.ReferenceIdeal.main_v64) (by decide) m' c, VC_main_v64_mm, ← e4, ag.a12]
  exact K_O2_cut2 m c
theorem cut2_3 (ag : Agree m m' c) (e4 : B6 m c Cert.KernelIdeal.main_v54 = VR1 m' c Cert.ReferenceIdeal.main_v63) : extractStridedSlice Cert.KernelIdeal.S100000x64 ![0, 192] (B8 m c Cert.KernelIdeal.main_v56) Cert.KernelIdeal.Gen.slices_S100000x256_S100000x64_0_192 = VD m' c Cert.ReferenceIdeal.main_v72 := by
  rw [VD_keep (r := Cert.ReferenceIdeal.main_v72) (by decide) m' c, VC_main_v72_mm, ← e4, ag.a13]
  exact K_O2_cut3 m c

/-! ## Stage 1: the first stage's output, its column means and variances, and the first normalisation -/

theorem y1_eq (ag : Agree m m' c) : B3 m c Cert.KernelIdeal.main_v45 = VA m' c Cert.ReferenceIdeal.main_v43 :=
  Cert.Bridge.Rel.rel_y1 (B2 m c) (StableHlo.launchContents m' c) (cut1_0 ag) (cut1_1 ag) (cut1_2 ag) (cut1_3 ag)
    ((B2_arg2 m c).trans ag.a2.symm) ((B2_arg3 m c).trans ag.a3.symm) ((B2_arg8 m c).trans ag.a8.symm) ((B2_arg9 m c).trans ag.a9.symm)

theorem mean1_eq (ag : Agree m m' c) : B3 m c Cert.KernelIdeal.main_v48 = VA m' c Cert.ReferenceIdeal.main_v46 :=
  Cert.Bridge.Rel.rel_mean1 (B2 m c) (StableHlo.launchContents m' c) (cut1_0 ag) (cut1_1 ag) (cut1_2 ag) (cut1_3 ag)
    ((B2_arg2 m c).trans ag.a2.symm) ((B2_arg3 m c).trans ag.a3.symm) ((B2_arg8 m c).trans ag.a8.symm) ((B2_arg9 m c).trans ag.a9.symm)

theorem var1_eq (ag : Agree m m' c) : B4 m c Cert.KernelIdeal.main_v49 = VV1 m' c Cert.ReferenceIdeal.main_v47 :=
  Cert.Bridge.Rel.rel_var1 (B3 m c) (VA m' c) (y1_eq ag) (Cert.Bridge.Rel.rel_c9 (B2 m c) (StableHlo.launchContents m' c))

theorem x1_eq' (ag : Agree m m' c) : B6 m c Cert.KernelIdeal.main_v54 = VR1 m' c Cert.ReferenceIdeal.main_v63 :=
  x1_eq ag (y1_eq ag) (mean1_eq ag) (var1_eq ag)

/-! ## Stage 2: the second stage's output, its column means and variances, the second normalisation, the results -/

theorem y2_eq (ag : Agree m m' c) : B9 m c Cert.KernelIdeal.main_v99 = VD m' c Cert.ReferenceIdeal.main_v106 :=
  Cert.Bridge.Rel.rel_y2 (B8 m c) (VR1 m' c) (cut2_0 ag (x1_eq' ag)) (cut2_1 ag (x1_eq' ag)) (cut2_2 ag (x1_eq' ag)) (cut2_3 ag (x1_eq' ag))
    ((B8_arg2 m c).trans (ag.a2.symm.trans (VR1_main_arg2 m' c).symm)) ((B8_arg3 m c).trans (ag.a3.symm.trans (VR1_main_arg3 m' c).symm)) ((B8_arg14 m c).trans (ag.a14.symm.trans (VR1_main_arg14 m' c).symm)) ((B8_arg15 m c).trans (ag.a15.symm.trans (VR1_main_arg15 m' c).symm))

theorem mean2_eq (ag : Agree m m' c) : B9 m c Cert.KernelIdeal.main_v102 = VD m' c Cert.ReferenceIdeal.main_v109 :=
  Cert.Bridge.Rel.rel_mean2 (B8 m c) (VR1 m' c) (cut2_0 ag (x1_eq' ag)) (cut2_1 ag (x1_eq' ag)) (cut2_2 ag (x1_eq' ag)) (cut2_3 ag (x1_eq' ag))
    ((B8_arg2 m c).trans (ag.a2.symm.trans (VR1_main_arg2 m' c).symm)) ((B8_arg3 m c).trans (ag.a3.symm.trans (VR1_main_arg3 m' c).symm)) ((B8_arg14 m c).trans (ag.a14.symm.trans (VR1_main_arg14 m' c).symm)) ((B8_arg15 m c).trans (ag.a15.symm.trans (VR1_main_arg15 m' c).symm))

theorem var2_eq (ag : Agree m m' c) : B10 m c Cert.KernelIdeal.main_v103 = VV2 m' c Cert.ReferenceIdeal.main_v110 :=
  Cert.Bridge.Rel.rel_var2 (B9 m c) (VD m' c) (y2_eq ag) (Cert.Bridge.Rel.rel_c22 (B8 m c) (VR1 m' c))

/-- The two results of the two programs are equal. -/
theorem results_eq0 (ag : Agree m m' c) : B14 m c Cert.KernelIdeal.main_v110 = VT m' c Cert.ReferenceIdeal.main_v129 :=
  res0_eq (x2_eq ag (y2_eq ag) (mean2_eq ag) (var2_eq ag))
theorem results_eq1 (ag : Agree m m' c) : B14 m c Cert.KernelIdeal.main_v111 = VT m' c Cert.ReferenceIdeal.main_v130 :=
  res1_eq (x2_eq ag (y2_eq ag) (mean2_eq ag) (var2_eq ag))

end Cert.Bridge

end
-- ==== Proof.Algebraic.lean ====
/-
  The value claim: from memories agreeing on the arguments, the exact kernel program and the exact reference program both
  run to the end, their two results equal element by element, their arguments unchanged. The kernel program's run ends
  with every buffer at its last boundary's contents, the reference's with every buffer at the fold of its operations;
  the two results are equal by the stage-by-stage comparison, and no operation or region writes an argument.
-/
import proofs.«178339_j40699110097748_1_alg».proof.Defs
import proofs.«178339_j40699110097748_1_alg».proof.Proof.Gen.Pre_finite_inputs
import proofs.«178339_j40699110097748_1_alg».proof.Proof.KIFrame
import proofs.«178339_j40699110097748_1_alg».proof.Proof.Bridge

set_option maxRecDepth 16384

noncomputable section

namespace Cert.Bridge

open Idealize.ShloMosaic Idealize.ShloMosaic.TcCoe
open Idealize.SL Idealize.SL.Sem
open Cert.KernelIdeal.Frm Cert.ReferenceIdeal.RefRun

theorem algebraic : Cert.algebraic_KernelIdeal_ReferenceIdeal := by
  intro m ρ m' ρ' _ hagree
  have ag : ∀ c, Agree m m' c := fun c => by
    obtain ⟨h0, h1, h2, h3, h4, h5, h6, h7, h8, h9, h10, h11, h12, h13, h14, h15, h16, h17, h18, h19, h20⟩ := hagree c
    exact ⟨h0, h1, h2, h3, h4, h5, h6, h7, h8, h9, h10, h11, h12, h13, h14, h15, h16, h17, h18, h19, h20⟩
  refine ⟨fun c => B14 m c Cert.KernelIdeal.main_v110, fun c => B14 m c Cert.KernelIdeal.main_v111, ?_, ?_⟩
  · exact (θ_run (Cert.KernelIdeal.defs (F := Ideal)) _ _).mono (fun r h c => ⟨h c _ (mem_uc Cert.KernelIdeal.main_v110 (by decide)), h c _ (mem_uc Cert.KernelIdeal.main_v111 (by decide)),
      (h c _ (mem_uc Cert.KernelIdeal.main_arg0 (by decide))).trans (kept_arg0 m c),
      (h c _ (mem_uc Cert.KernelIdeal.main_arg1 (by decide))).trans (kept_arg1 m c),
      (h c _ (mem_uc Cert.KernelIdeal.main_arg2 (by decide))).trans (kept_arg2 m c),
      (h c _ (mem_uc Cert.KernelIdeal.main_arg3 (by decide))).trans (kept_arg3 m c),
      (h c _ (mem_uc Cert.KernelIdeal.main_arg4 (by decide))).trans (kept_arg4 m c),
      (h c _ (mem_uc Cert.KernelIdeal.main_arg5 (by decide))).trans (kept_arg5 m c),
      (h c _ (mem_uc Cert.KernelIdeal.main_arg6 (by decide))).trans (kept_arg6 m c),
      (h c _ (mem_uc Cert.KernelIdeal.main_arg7 (by decide))).trans (kept_arg7 m c),
      (h c _ (mem_uc Cert.KernelIdeal.main_arg8 (by decide))).trans (kept_arg8 m c),
      (h c _ (mem_uc Cert.KernelIdeal.main_arg9 (by decide))).trans (kept_arg9 m c),
      (h c _ (mem_uc Cert.KernelIdeal.main_arg10 (by decide))).trans (kept_arg10 m c),
      (h c _ (mem_uc Cert.KernelIdeal.main_arg11 (by decide))).trans (kept_arg11 m c),
      (h c _ (mem_uc Cert.KernelIdeal.main_arg12 (by decide))).trans (kept_arg12 m c),
      (h c _ (mem_uc Cert.KernelIdeal.main_arg13 (by decide))).trans (kept_arg13 m c),
      (h c _ (mem_uc Cert.KernelIdeal.main_arg14 (by decide))).trans (kept_arg14 m c),
      (h c _ (mem_uc Cert.KernelIdeal.main_arg15 (by decide))).trans (kept_arg15 m c),
      (h c _ (mem_uc Cert.KernelIdeal.main_arg16 (by decide))).trans (kept_arg16 m c),
      (h c _ (mem_uc Cert.KernelIdeal.main_arg17 (by decide))).trans (kept_arg17 m c),
      (h c _ (mem_uc Cert.KernelIdeal.main_arg18 (by decide))).trans (kept_arg18 m c),
      (h c _ (mem_uc Cert.KernelIdeal.main_arg19 (by decide))).trans (kept_arg19 m c),
      (h c _ (mem_uc Cert.KernelIdeal.main_arg20 (by decide))).trans (kept_arg20 m c)⟩)
      (run_all m ρ)
  · exact (θ_run (Cert.ReferenceIdeal.defs (F := Ideal)) _ _).mono (fun r h c => ⟨(h c Cert.ReferenceIdeal.main_v129).trans (results_eq0 (ag c)).symm, (h c Cert.ReferenceIdeal.main_v130).trans (results_eq1 (ag c)).symm,
      (h c Cert.ReferenceIdeal.main_arg0).trans (VT_main_arg0 m' c),
      (h c Cert.ReferenceIdeal.main_arg1).trans (VT_main_arg1 m' c),
      (h c Cert.ReferenceIdeal.main_arg2).trans (VT_main_arg2 m' c),
      (h c Cert.ReferenceIdeal.main_arg3).trans (VT_main_arg3 m' c),
      (h c Cert.ReferenceIdeal.main_arg4).trans (VT_main_arg4 m' c),
      (h c Cert.ReferenceIdeal.main_arg5).trans (VT_main_arg5 m' c),
      (h c Cert.ReferenceIdeal.main_arg6).trans (VT_main_arg6 m' c),
      (h c Cert.ReferenceIdeal.main_arg7).trans (VT_main_arg7 m' c),
      (h c Cert.ReferenceIdeal.main_arg8).trans (VT_main_arg8 m' c),
      (h c Cert.ReferenceIdeal.main_arg9).trans (VT_main_arg9 m' c),
      (h c Cert.ReferenceIdeal.main_arg10).trans (VT_main_arg10 m' c),
      (h c Cert.ReferenceIdeal.main_arg11).trans (VT_main_arg11 m' c),
      (h c Cert.ReferenceIdeal.main_arg12).trans (VT_main_arg12 m' c),
      (h c Cert.ReferenceIdeal.main_arg13).trans (VT_main_arg13 m' c),
      (h c Cert.ReferenceIdeal.main_arg14).trans (VT_main_arg14 m' c),
      (h c Cert.ReferenceIdeal.main_arg15).trans (VT_main_arg15 m' c),
      (h c Cert.ReferenceIdeal.main_arg16).trans (VT_main_arg16 m' c),
      (h c Cert.ReferenceIdeal.main_arg17).trans (VT_main_arg17 m' c),
      (h c Cert.ReferenceIdeal.main_arg18).trans (VT_main_arg18 m' c),
      (h c Cert.ReferenceIdeal.main_arg19).trans (VT_main_arg19 m' c),
      (h c Cert.ReferenceIdeal.main_arg20).trans (VT_main_arg20 m' c)⟩)
      (run_stages m' ρ')

end Cert.Bridge

end
-- ==== Proof.lean ====
/-
  The certificate's proof. The two kernel programs' frames come from their runs (nine host stretches around five kernel
  regions, every buffer followed from boundary to boundary); the reference's from its operations' fold; the kernel's
  idealization rewrote nothing, so there is nothing to preserve; the value claim is the stage-by-stage comparison of the
  two exact programs.
-/
import proofs.«178339_j40699110097748_1_alg».proof.Defs
import proofs.«178339_j40699110097748_1_alg».proof.Proof.Gen.Kernel
import proofs.«178339_j40699110097748_1_alg».proof.Proof.Gen.KernelIdeal
import proofs.«178339_j40699110097748_1_alg».proof.Proof.Gen.ReferenceIdeal
import proofs.«178339_j40699110097748_1_alg».proof.Proof.Gen.Pre_finite_inputs
import proofs.«178339_j40699110097748_1_alg».proof.Proof.KBFrame
import proofs.«178339_j40699110097748_1_alg».proof.Proof.KIFrame
import proofs.«178339_j40699110097748_1_alg».proof.Proof.RefRun
import proofs.«178339_j40699110097748_1_alg».proof.Proof.Algebraic

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Frm.frame (F := Bits) m ρ,
  fun m ρ _ => Cert.KernelIdeal.Frm.frame (F := Ideal) m ρ,
  fun m ρ _ => Cert.ReferenceIdeal.RefRun.frame (F := Ideal) m ρ,
  trivial,
  Cert.Bridge.algebraic⟩

end Cert.Proof

end
